-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part2 {F : FTy → Type} [FloatOps F] (main_arg1 : IVec S1024x200 32) (main_v30 : IVec S_ 1) (main_v32 : IVec S1024x200 1) (main_c_12 : IVec S_ 32) : IVec S_ 1 :=
  let main_v33 : IVec S1024x200 32 := broadcastInDim S1024x200 ![] bcast_S_S1024x200 main_c_12
  let main_v34 : IVec S1024x200 1 := cmpi .sle main_arg1 main_v33
  let main_v35 : IVec S1024x200 1 := andi main_v32 main_v34
  let main_c_13 : IVec S_ 1 := constantI S_ 1 1#1
  let main_v36 : IVec S_ 1 := (fun x v => Host.reduce IntOp.andi x v reducesTo_S1024x200_S_d0_1 h_S_) main_v35 main_c_13
  let main_v37 : IVec S_ 1 := andi main_v30 main_v36
  main_v37

def fn_part1 {F : FTy → Type} [FloatOps F] (main_arg0 : IVec S1024x200 32) (main_arg1 : IVec S1024x200 32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1024x200 32 := broadcastInDim S1024x200 ![] bcast_S_S1024x200 main_c_8
  let main_v25 : IVec S1024x200 1 := cmpi .sge main_arg0 main_v24
  let main_c_9 : IVec S_ 32 := constantI S_ 32 99999#32
  let main_v26 : IVec S1024x200 32 := broadcastInDim S1024x200 ![] bcast_S_S1024x200 main_c_9
  let main_v27 : IVec S1024x200 1 := cmpi .sle main_arg0 main_v26
  let main_v28 : IVec S1024x200 1 := andi main_v25 main_v27
  let main_c_10 : IVec S_ 1 := constantI S_ 1 1#1
  let main_v29 : IVec S_ 1 := (fun x v => Host.reduce IntOp.andi x v reducesTo_S1024x200_S_d0_1 h_S_) main_v28 main_c_10
  let main_v30 : IVec S_ 1 := andi main_v23 main_v29
  let main_c_11 : IVec S_ 32 := constantI S_ 32 0#32
  let main_v31 : IVec S1024x200 32 := broadcastInDim S1024x200 ![] bcast_S_S1024x200 main_c_11
  let main_v32 : IVec S1024x200 1 := cmpi .sge main_arg1 main_v31
  let main_c_12 : IVec S_ 32 := constantI S_ 32 1#32
  fn_part2 (F := F) main_arg1 main_v30 main_v32 main_c_12

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_v13 main_v16
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200x128 : Shape := ⟨2, ![200, 128]⟩
abbrev S1x128 : Shape := ⟨2, ![1, 128]⟩
abbrev S204800 : Shape := ⟨1, ![204800]⟩
abbrev S204800x128 : Shape := ⟨2, ![204800, 128]⟩
abbrev S6400 : Shape := ⟨1, ![6400]⟩
abbrev S_ : Shape := ⟨0, ![]⟩
abbrev S200 : Shape := ⟨1, ![200]⟩
abbrev S1024x200x128 : Shape := ⟨3, ![1024, 200, 128]⟩
abbrev S128x200x128 : Shape := ⟨3, ![128, 200, 128]⟩
abbrev S128x200 : Shape := ⟨2, ![128, 200]⟩
abbrev S128x200x1 : Shape := ⟨3, ![128, 200, 1]⟩
abbrev S1x1x128 : Shape := ⟨3, ![1, 1, 128]⟩
abbrev S1x200x128 : Shape := ⟨3, ![1, 200, 128]⟩
abbrev S25600x128 : Shape := ⟨2, ![25600, 128]⟩
abbrev S128x128 : Shape := ⟨2, ![128, 128]⟩

abbrev nBuf : Table → Nat
  | .hbm => 14
  | .local .tc .vmem => 10
  | .local .scVector .vmem => 5
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S200x128, .f32⟩
  | .hbm, ⟨8, _⟩ => ⟨S1x128, .f32⟩
  | .hbm, ⟨9, _⟩ => ⟨S1x128, .f32⟩
  | .hbm, ⟨10, _⟩ => ⟨S204800, .i32⟩
  | .hbm, ⟨11, _⟩ => ⟨S204800x128, .f32⟩
  | .hbm, ⟨12, _⟩ => ⟨S1024x200x128, .f32⟩
  | .hbm, ⟨13, _⟩ => ⟨S1024x200x128, .f32⟩
  | .local .tc .vmem, ⟨0, _⟩ => ⟨S128x200x128, .f32⟩
  | .local .tc .vmem, ⟨1, _⟩ => ⟨S128x200x128, .f32⟩
  | .local .tc .vmem, ⟨2, _⟩ => ⟨S128x200, .i32⟩
  | .local .tc .vmem, ⟨3, _⟩ => ⟨S128x200, .i32⟩
  | .local .tc .vmem, ⟨4, _⟩ => ⟨S200x128, .f32⟩
  | .local .tc .vmem, ⟨5, _⟩ => ⟨S2x128, .f32⟩
  | .local .tc .vmem, ⟨6, _⟩ => ⟨S1x128, .f32⟩
  | .local .tc .vmem, ⟨7, _⟩ => ⟨S1x128, .f32⟩
  | .local .tc .vmem, ⟨8, _⟩ => ⟨S128x200x128, .f32⟩
  | .local .tc .vmem, ⟨9, _⟩ => ⟨S128x200x128, .f32⟩
  | .local .scVector .vmem, ⟨0, _⟩ => ⟨S6400, .i32⟩
  | .local .scVector .vmem, ⟨1, _⟩ => ⟨S200x128, .f32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v3_scv : Ref sig .scVector := ⟨.hbm, 10, rfl⟩
abbrev main_arg2_scv : Ref sig .scVector := ⟨.hbm, 2, rfl⟩
abbrev main_v4_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k0_off2 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v11 : BitVec 32 := Scalar.addi v2 c0_i32_9
  let c0_i32_10 : BitVec 32 := 0#32
  ![v11.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S200x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x200x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S512x128_S200x128_0_0 : S512x128.Slices ![0, 0] S200x128
  shapeCasts_S128_S1x128 : S128.ShapeCasts S1x128
  shapeCasts_S1024x200_S204800 : S1024x200.ShapeCasts S204800
  inb_S6400_S200_0 : ∀ a, (![0] : Fin 1 → Nat) a + S200.size a ≤ S6400.size a
  inb_S100000x128_S100000x128_0_0 : ∀ a, (![0, 0] : Fin 2 → Nat) a + S100000x128.size a ≤ S100000x128.size a
  gathers_S100000x128_S200x128 : S100000x128.Gathers 0 S200x128
  inb_S6400_S200_200 : ∀ a, (![200] : Fin 1 → Nat) a + S200.size a ≤ S6400.size a
  inb_S6400_S200_400 : ∀ a, (![400] : Fin 1 → Nat) a + S200.size a ≤ S6400.size a
  inb_S6400_S200_600 : ∀ a, (![600] : Fin 1 → Nat) a + S200.size a ≤ S6400.size a
  inb_S6400_S200_800 : ∀ a, (![800] : Fin 1 → Nat) a + S200.size a ≤ S6400.size a
  inb_S6400_S200_1000 : ∀ a, (![1000] : Fin 1 → Nat) a + S200.size a ≤ S6400.size a
  inb_S6400_S200_1200 : ∀ a, (![1200] : Fin 1 → Nat) a + S200.size a ≤ S6400.size a
  inb_S6400_S200_1400 : ∀ a, (![1400] : Fin 1 → Nat) a + S200.size a ≤ S6400.size a
  inb_S6400_S200_1600 : ∀ a, (![1600] : Fin 1 → Nat) a + S200.size a ≤ S6400.size a
  inb_S6400_S200_1800 : ∀ a, (![1800] : Fin 1 → Nat) a + S200.size a ≤ S6400.size a
  inb_S6400_S200_2000 : ∀ a, (![2000] : Fin 1 → Nat) a + S200.size a ≤ S6400.size a
  inb_S6400_S200_2200 : ∀ a, (![2200] : Fin 1 → Nat) a + S200.size a ≤ S6400.size a
  inb_S6400_S200_2400 : ∀ a, (![2400] : Fin 1 → Nat) a + S200.size a ≤ S6400.size a
  inb_S6400_S200_2600 : ∀ a, (![2600] : Fin 1 → Nat) a + S200.size a ≤ S6400.size a
  inb_S6400_S200_2800 : ∀ a, (![2800] : Fin 1 → Nat) a + S200.size a ≤ S6400.size a
  inb_S6400_S200_3000 : ∀ a, (![3000] : Fin 1 → Nat) a + S200.size a ≤ S6400.size a
  inb_S6400_S200_3200 : ∀ a, (![3200] : Fin 1 → Nat) a + S200.size a ≤ S6400.size a
  inb_S6400_S200_3400 : ∀ a, (![3400] : Fin 1 → Nat) a + S200.size a ≤ S6400.size a
  inb_S6400_S200_3600 : ∀ a, (![3600] : Fin 1 → Nat) a + S200.size a ≤ S6400.size a
  inb_S6400_S200_3800 : ∀ a, (![3800] : Fin 1 → Nat) a + S200.size a ≤ S6400.size a
  inb_S6400_S200_4000 : ∀ a, (![4000] : Fin 1 → Nat) a + S200.size a ≤ S6400.size a
  inb_S6400_S200_4200 : ∀ a, (![4200] : Fin 1 → Nat) a + S200.size a ≤ S6400.size a
  inb_S6400_S200_4400 : ∀ a, (![4400] : Fin 1 → Nat) a + S200.size a ≤ S6400.size a
  inb_S6400_S200_4600 : ∀ a, (![4600] : Fin 1 → Nat) a + S200.size a ≤ S6400.size a
  inb_S6400_S200_4800 : ∀ a, (![4800] : Fin 1 → Nat) a + S200.size a ≤ S6400.size a
  inb_S6400_S200_5000 : ∀ a, (![5000] : Fin 1 → Nat) a + S200.size a ≤ S6400.size a
  inb_S6400_S200_5200 : ∀ a, (![5200] : Fin 1 → Nat) a + S200.size a ≤ S6400.size a
  inb_S6400_S200_5400 : ∀ a, (![5400] : Fin 1 → Nat) a + S200.size a ≤ S6400.size a
  inb_S6400_S200_5600 : ∀ a, (![5600] : Fin 1 → Nat) a + S200.size a ≤ S6400.size a
  inb_S6400_S200_5800 : ∀ a, (![5800] : Fin 1 → Nat) a + S200.size a ≤ S6400.size a
  inb_S6400_S200_6000 : ∀ a, (![6000] : Fin 1 → Nat) a + S200.size a ≤ S6400.size a
  inb_S6400_S200_6200 : ∀ a, (![6200] : Fin 1 → Nat) a + S200.size a ≤ S6400.size a
  shapeCasts_S204800x128_S1024x200x128 : S204800x128.ShapeCasts S1024x200x128
  inb_S128x200x128_S128x200x128_0_0_0 : ∀ a, (![0, 0, 0] : Fin 3 → Nat) a + S128x200x128.size a ≤ S128x200x128.size a
  h_S128x200x128 : 0 < S128x200x128.numel
  shapeCasts_S128x200x128_S128x200x128 : S128x200x128.ShapeCasts S128x200x128
  inb_S128x200_S128x200_0_0 : ∀ a, (![0, 0] : Fin 2 → Nat) a + S128x200.size a ≤ S128x200.size a
  h_S128x200 : 0 < S128x200.numel
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S2x128_S2x128_0_0 : ∀ a, (![0, 0] : Fin 2 → Nat) a + S2x128.size a ≤ S2x128.size a
  h_S2x128 : 0 < S2x128.numel
  shapeCasts_S128x200_S128x200x1 : S128x200.ShapeCasts S128x200x1
  slices_S2x128_o0_0_S1x128 : S2x128.Slices ![0, 0] S1x128
  shapeCasts_S1x128_S128 : S1x128.ShapeCasts S128
  shapeCasts_S128_S1x1x128 : S128.ShapeCasts S1x1x128
  slices_S2x128_o1_0_S1x128 : S2x128.Slices ![1, 0] S1x128
  shapeCasts_S128x200x1_S128x200x1 : S128x200x1.ShapeCasts S128x200x1
  broadcasts_S128x200x1_S128x200x128 : S128x200x1.Broadcasts S128x200x128
  shapeCasts_S1x1x128_S1x1x128 : S1x1x128.ShapeCasts S1x1x128
  broadcasts_S1x1x128_S128x200x128 : S1x1x128.Broadcasts S128x200x128
  shapeCasts_S200x128_S1x200x128 : S200x128.ShapeCasts S1x200x128
  broadcasts_S1x200x128_S128x200x128 : S1x200x128.Broadcasts S128x200x128
  shapeCasts_S128x200x128_S25600x128 : S128x200x128.ShapeCasts S25600x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S25600x128 : S1x128.Broadcasts S25600x128
  shapeCasts_S25600x128_S128x200x128 : S25600x128.ShapeCasts S128x200x128
  dot_S25600x128_S128x128_S25600x128_1_0_0_1_n_n_wf : DotDims.WF S25600x128 S128x128 S25600x128 [1] [0] [0] [1] [] []
  hcc0_scratch5 : 0 + S_.numel ≤ 19
  hcc0_scratch6 : 1 + S_.numel ≤ 19
  hcc0_scratch7 : 2 + S_.numel ≤ 19
  hcc0_scratch8 : 3 + S_.numel ≤ 19
  hcc0_scratch9 : 4 + S_.numel ≤ 19
  hcc0_scratch10 : 5 + S_.numel ≤ 19
  hcc0_scratch11 : 6 + S_.numel ≤ 19
  hcc0_scratch12 : 7 + S_.numel ≤ 19
  hcc0_scoped0 : 8 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_off2_inb : ∀ i : grid0.Coords, ∀ (r : Fin 32), ∀ a, (k0_off2 i (BitVec.ofNat 32 (200 * r.val))) a + S200x128.size a ≤ S204800x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x200x128.size a ≤ S1024x200x128.size a
  hwx1_0 : ∀ i : grid1.Coords, EltTy.bits .f32 = 32 ∨ (Rect.block (s := S1024x200x128) S128x200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x200.size a ≤ S1024x200.size a
  hwx1_1 : ∀ i : grid1.Coords, EltTy.bits .i32 = 32 ∨ (Rect.block (s := S1024x200) S128x200.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200x128.size a ≤ S200x128.size a
  hwx1_2 : ∀ i : grid1.Coords, EltTy.bits .f32 = 32 ∨ (Rect.block (s := S200x128) S200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x200x128.size a ≤ S1024x200x128.size a
  hwx1_6 : ∀ i : grid1.Coords, EltTy.bits .f32 = 32 ∨ (Rect.block (s := S1024x200x128) S128x200x128.size (cc1_transform_6 i) (hinb1_6 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0
def dot_S25600x128_S128x128_S25600x128_1_0_0_1_n_n : DotDims S25600x128 S128x128 S25600x128 where
  lhsContracting := [1]
  rhsContracting := [0]
  lhsNonContracting := [0]
  rhsNonContracting := [1]
  lhsBatch := []
  rhsBatch := []
  wf := dot_S25600x128_S128x128_S25600x128_1_0_0_1_n_n_wf

abbrev win1_0 : Pipeline.Window sig grid1 :=
  Pipeline.Window.ofSpec (Memref.whole main_v5) S128x200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S200x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S128x200x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200 : Shape := ⟨1, ![200]⟩
abbrev S200x1 : Shape := ⟨2, ![200, 1]⟩
abbrev S1x1 : Shape := ⟨2, ![1, 1]⟩
abbrev S200x128 : Shape := ⟨2, ![200, 128]⟩
abbrev S1x200x128 : Shape := ⟨3, ![1, 200, 128]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S1024x200, .i32⟩
  | .hbm, ⟨9, _⟩ => ⟨S1024x200, .i1⟩
  | .hbm, ⟨10, _⟩ => ⟨S_, .i32⟩
  | .hbm, ⟨11, _⟩ => ⟨S1024x200, .i32⟩
  | .hbm, ⟨12, _⟩ => ⟨S1024x200, .i32⟩
  | .hbm, ⟨13, _⟩ => ⟨S1024x200, .i32⟩
  | .hbm, ⟨14, _⟩ => ⟨S1024x200x1, .i32⟩
  | .hbm, ⟨15, _⟩ => ⟨S1, .i32⟩
  | .hbm, ⟨16, _⟩ => ⟨S_, .i32⟩
  | .hbm, ⟨17, _⟩ => ⟨S1024x200x1, .i32⟩
  | .hbm, ⟨18, _⟩ => ⟨S1024x200x1, .i1⟩
  | .hbm, ⟨19, _⟩ => ⟨S1x1x1, .i32⟩
  | .hbm, ⟨20, _⟩ => ⟨S1024x200x1, .i32⟩
  | .hbm, ⟨21, _⟩ => ⟨S1024x200x1, .i1⟩
  | .hbm, ⟨22, _⟩ => ⟨S1024x200x1, .i1⟩
  | .hbm, ⟨23, _⟩ => ⟨S_, .i1⟩
  | .hbm, ⟨24, _⟩ => ⟨S1024x200, .i1⟩
  | .hbm, ⟨25, _⟩ => ⟨S1024x200x128, .f32⟩
  | .hbm, ⟨26, _⟩ => ⟨S1024x200x128, .i1⟩
  | .hbm, ⟨27, _⟩ => ⟨S_, .f32⟩
  | .hbm, ⟨28, _⟩ => ⟨S1024x200x128, .f32⟩
  | .hbm, ⟨29, _⟩ => ⟨S1024x200x128, .f32⟩
  | .hbm, ⟨30, _⟩ => ⟨S200, .i32⟩
  | .hbm, ⟨31, _⟩ => ⟨S_, .i32⟩
  | .hbm, ⟨32, _⟩ => ⟨S200, .i32⟩
  | .hbm, ⟨33, _⟩ => ⟨S200, .i1⟩
  | .hbm, ⟨34, _⟩ => ⟨S_, .i32⟩
  | .hbm, ⟨35, _⟩ => ⟨S200, .i32⟩
  | .hbm, ⟨36, _⟩ => ⟨S200, .i32⟩
  | .hbm, ⟨37, _⟩ => ⟨S200, .i32⟩
  | .hbm, ⟨38, _⟩ => ⟨S200x1, .i32⟩
  | .hbm, ⟨39, _⟩ => ⟨S1, .i32⟩
  | .hbm, ⟨40, _⟩ => ⟨S_, .i32⟩
  | .hbm, ⟨41, _⟩ => ⟨S200x1, .i32⟩
  | .hbm, ⟨42, _⟩ => ⟨S200x1, .i1⟩
  | .hbm, ⟨43, _⟩ => ⟨S1x1, .i32⟩
  | .hbm, ⟨44, _⟩ => ⟨S200x1, .i32⟩
  | .hbm, ⟨45, _⟩ => ⟨S200x1, .i1⟩
  | .hbm, ⟨46, _⟩ => ⟨S200x1, .i1⟩
  | .hbm, ⟨47, _⟩ => ⟨S_, .i1⟩
  | .hbm, ⟨48, _⟩ => ⟨S200, .i1⟩
  | .hbm, ⟨49, _⟩ => ⟨S200x128, .f32⟩
  | .hbm, ⟨50, _⟩ => ⟨S200x128, .i1⟩
  | .hbm, ⟨51, _⟩ => ⟨S_, .f32⟩
  | .hbm, ⟨52, _⟩ => ⟨S200x128, .f32⟩
  | .hbm, ⟨53, _⟩ => ⟨S200x128, .f32⟩
  | .hbm, ⟨54, _⟩ => ⟨S1x200x128, .f32⟩
  | .hbm, ⟨55, _⟩ => ⟨S_, .i32⟩
  | .hbm, ⟨56, _⟩ => ⟨S1024x200, .i32⟩
  | .hbm, ⟨57, _⟩ => ⟨S1024x200, .i1⟩
  | .hbm, ⟨58, _⟩ => ⟨S_, .i32⟩
  | .hbm, ⟨59, _⟩ => ⟨S1024x200, .i32⟩
  | .hbm, ⟨60, _⟩ => ⟨S1024x200, .i32⟩
  | .hbm, ⟨61, _⟩ => ⟨S1024x200, .i32⟩
  | .hbm, ⟨62, _⟩ => ⟨S1024x200x1, .i32⟩
  | .hbm, ⟨63, _⟩ => ⟨S1, .i32⟩
  | .hbm, ⟨64, _⟩ => ⟨S_, .i32⟩
  | .hbm, ⟨65, _⟩ => ⟨S1024x200x1, .i32⟩
  | .hbm, ⟨66, _⟩ => ⟨S1024x200x1, .i1⟩
  | .hbm, ⟨67, _⟩ => ⟨S1x1x1, .i32⟩
  | .hbm, ⟨68, _⟩ => ⟨S1024x200x1, .i32⟩
  | .hbm, ⟨69, _⟩ => ⟨S1024x200x1, .i1⟩
  | .hbm, ⟨70, _⟩ => ⟨S1024x200x1, .i1⟩
  | .hbm, ⟨71, _⟩ => ⟨S_, .i1⟩
  | .hbm, ⟨72, _⟩ => ⟨S1024x200, .i1⟩
  | .hbm, ⟨73, _⟩ => ⟨S1024x200x128, .f32⟩
  | .hbm, ⟨74, _⟩ => ⟨S1024x200x128, .i1⟩
  | .hbm, ⟨75, _⟩ => ⟨S_, .f32⟩
  | .hbm, ⟨76, _⟩ => ⟨S1024x200x128, .f32⟩
  | .hbm, ⟨77, _⟩ => ⟨S1024x200x128, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S1024x200x128, .f32⟩
  | .hbm, ⟨88, _⟩ => ⟨S1024x200x128, .f32⟩
  | .hbm, ⟨89, _⟩ => ⟨S1024x200x128, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x128, .f32⟩
  | .hbm, ⟨97, _⟩ => ⟨S1024x200x128, .f32⟩
  | .hbm, ⟨98, _⟩ => ⟨S_, .f32⟩
  | .hbm, ⟨99, _⟩ => ⟨S1024x200x1, .f32⟩
  | .hbm, ⟨100, _⟩ => ⟨S1024x200x1, .f32⟩
  | .hbm, ⟨101, _⟩ => ⟨S1024x200x1, .f32⟩
  | .hbm, ⟨102, _⟩ => ⟨S1024x200x128, .f32⟩
  | .hbm, ⟨103, _⟩ => ⟨S1024x200x128, .f32⟩
  | .hbm, ⟨104, _⟩ => ⟨S1x1x128, .f32⟩
  | .hbm, ⟨105, _⟩ => ⟨S1024x200x128, .f32⟩
  | .hbm, ⟨106, _⟩ => ⟨S1024x200x128, .f32⟩
  | .hbm, ⟨107, _⟩ => ⟨S1x1x128, .f32⟩
  | .hbm, ⟨108, _⟩ => ⟨S1024x200x128, .f32⟩
  | .hbm, ⟨109, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_1 : Ref sig .tc := ⟨.hbm, 90, rfl⟩
abbrev main_v15 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  bcast_S200_S200x128_0 : S200.BroadcastsInDim S200x128 (![0] : Fin 1 → Fin S200x128.rank)
  bcast_S_S200x128 : S_.BroadcastsInDim S200x128 (![] : Fin 0 → Fin S200x128.rank)
  bcast_S200x128_S1x200x128_1_2 : S200x128.BroadcastsInDim S1x200x128 (![1, 2] : Fin 2 → Fin S1x200x128.rank)
  bcast_S1x200x128_S1024x200x128_0_1_2 : S1x200x128.BroadcastsInDim S1024x200x128 (![0, 1, 2] : Fin 3 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]
  gather_S512x128_S200x1_S200x128_1_0_n_n_0_1_1128_wf : GatherDims.WF S512x128 S200x1 S200x128 [1] [0] [] [0] [] 1 ![1, 128]
  gather_S2x128_S1024x200x1_S1024x200x128_2_0_n_n_0_2_1128_wf : GatherDims.WF S2x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def gather_S512x128_S200x1_S200x128_1_0_n_n_0_1_1128 : GatherDims S512x128 S200x1 S200x128 where
  offsetDims := [1]
  collapsedSliceDims := [0]
  operandBatchingDims := []
  startIndicesBatchingDims := []
  startIndexMap := [0]
  indexVectorDim := 1
  sliceSizes := ![1, 128]
  wf := gather_S512x128_S200x1_S200x128_1_0_n_n_0_1_1128_wf
def gather_S2x128_S1024x200x1_S1024x200x128_2_0_n_n_0_2_1128 : GatherDims S2x128 S1024x200x1 S1024x200x128 where
  offsetDims := [2]
  collapsedSliceDims := [0]
  operandBatchingDims := []
  startIndicesBatchingDims := []
  startIndexMap := [0]
  indexVectorDim := 2
  sliceSizes := ![1, 128]
  wf := gather_S2x128_S1024x200x1_S1024x200x128_2_0_n_n_0_2_1128_wf

class Facts : Prop extends Facts₀ where

variable [Facts]
-- ==== Proof.ScTile.lean ====
/-
  One vector subcore's task of the gather kernel, run once at a symbolic tile (c, s).
  The tile fetches its 6400 words of the flat index list into its index scratch, and then, for each of its 32 blocks of
  200 words, gathers the 200 table rows those words name into one of four row buffers and writes that buffer out to rows
  [12800 s + 6400 c + 200 r, + 200) of the gathered array. Up to three gathers read the table at once, each on its own
  completion cell, so the tile holds the table under one read share per gather cell. A row buffer is gathered into only
  after the write-out that last read it has been waited for, and written out only after its gather has been waited for.
  Every word of the index list is below 100000 (the table's row count), so every gather is served.
-/
import proofs.«200098_g2130303779034_cont_8to1_582_42_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«200098_g2130303779034_cont_8to1_582_42_alg».proof.Proof.Gen.KernelIdeal
import proofs.«200098_g2130303779034_cont_8to1_582_42_alg».proof.Proof.Gen.KernelIdeal.Skeleton
import proofs.«200098_g2130303779034_cont_8to1_582_42_alg».proof.Proof.Gen.KernelIdeal.Launch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

local notation "iV" => (Memref.whole Cert.KernelIdeal.main_v3_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v4_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

abbrev iLoc (d : Dev nD) : Loc nD τ sig := (SparseCore.T d).loc main_v3
abbrev tLoc (d : Dev nD) : Loc nD τ sig := (SparseCore.T d).loc main_arg2
abbrev oLoc (d : Dev nD) : Loc nD τ sig := (SparseCore.T d).loc main_v4

abbrev cV (L : grid0.Coords) : Fin τ.nSC := (L 0).castLE hcore0
abbrev jV (L : grid0.Coords) : Fin τ.nSub := (L 1).castLE hsub0

abbrev S6400x128 : Shape := ⟨2, ![6400, 128]⟩

/-- The tile's 6400 words of the flat index list, as the program slices them. -/
abbrev iChunkK (L : grid0.Coords) : Memref sig .scVector .hbm S6400 .i32 :=
  (iV).slice (Rect.unit (s := S204800) (k0_off1 L) S6400.size (k0_off1_inb L)) (fun _ => rfl)

/-- The tile's 6400 rows lie inside the gathered array: tile (c, s) starts at row 12800 s + 6400 c, and s ≤ 15, c ≤ 1. -/
theorem oTile_inb (L : grid0.Coords) : ∀ a, (k0_off2 L 0#32) a + S6400x128.size a ≤ S204800x128.size a := by
  intro a
  have e : k0_off2 L 0#32 = ![12800 * (L 1).val + 6400 * (L 0).val + 200 * ((0 : Fin 32) : Fin 32).val, 0] := k0_off2_eq L 0
  rw [e]
  have h0 := (L 0).isLt; have h1 := (L 1).isLt
  have e0 : grid0.bound 0 = 2 := rfl
  have e1 : grid0.bound 1 = 16 := rfl
  match a with
  | 0 => simp [Shape.size]; omega
  | 1 => simp [Shape.size]

/-- The tile's 6400 rows of the gathered array, as a rectangle of it: the 32 blocks of 200 rows the tile writes tile it. -/
abbrev oTileRect (L : grid0.Coords) : Rect S204800x128 := Rect.unit (s := S204800x128) (k0_off2 L 0#32) S6400x128.size (oTile_inb L)

abbrev cell (d : Dev nD) (L : grid0.Coords) (s : DmaSem sig) : GSem nD τ sig := (V d (cV L) (jV L), .dma s)

variable [FloatOps F]

omit [FloatOps F] in
/-- Whatever window of the index scratch a gather reads, its words are words of the flat index list: below 100000. -/
theorem inb_of_fi (d : Dev nD) (L : grid0.Coords) (fi : Buf (Elt F) (iLoc d)) (hfi : ∀ j, (fi j).toNat < 100000)
    (fs : Buf (Elt F) ((V d (cV L) (jV L)).loc cc0_scratch0)) (pay : Buf (Elt F) ((V d (cV L) (jV L)).loc cc0_scratch0))
    (hpay : pay = (iChunkK L).view.read (Elt F) fi) (R : Rect S6400) (hR : ∀ a, R.stride a = 1) :
    ∀ x, (View.read (Elt F) ((sV).slice R hR).view (View.write (Elt F) (sV).view fs pay Finset.univ) x).toNat < 100000 := by
  subst hpay; intro x
  rw [show View.write (Elt F) (sV).view fs ((iChunkK L).view.read (Elt F) fi) Finset.univ = (iChunkK L).view.read (Elt F) fi from
    View.write_whole_univ _ _ _]
  rw [show ∀ (g : Buf (Elt F) ((V d (cV L) (jV L)).loc cc0_scratch0)) j, View.read (Elt F) ((sV).slice R hR).view g j = g (((sV).slice R hR).view.emb j) from
    fun g j => (View.read_apply _ _).trans (cast_eq _ _)]
  rw [show ∀ j, (iChunkK L).view.read (Elt F) fi j = fi ((iChunkK L).view.emb j) from fun j => (View.read_apply _ _).trans (cast_eq _ _)]
  exact hfi _

/-- The recorded waits only grow by pairs at the empty index. -/
theorem waits_grow {α β : Type} [DecidableEq α] [DecidableEq β] (W : Finset (α × Option β)) :
    ∀ (l : List α) (p : α × Option β), p ∈ l.foldr (fun a acc => insert (a, none) acc) W → p ∈ W ∨ p.2 = none
  | [], _, h => .inl h
  | a :: l, p, h => by
    rcases Finset.mem_insert.mp h with h | h
    · exact .inr (h ▸ rfl)
    · exact waits_grow W l p h

set_option maxHeartbeats 4000000 in
/-- The task on vector subcore (L 0, L 1) of device d, from: its words of the index list (each below 100000), one read share
    of the table per gather cell, its 6400 rows of the gathered array, its five scratch buffers and nine cells at zero.
    It gives all of them back, the index list and the table as they were. -/
theorem tile_run (d : Dev nD) (L : grid0.Coords) (O : CellTallies nD τ sig (HIx 1)) (W : Waits sig (HIx 1)) (hO : ∀ g, O g none = 0)
    (fi : Buf (Elt F) (iLoc d)) (hfi : ∀ j, (fi j).toNat < 100000) (ft : Buf (Elt F) (tLoc d)) (q : PosShare TreeShare)
    (fo : Buf (Elt F) (oLoc d))
    (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)) :
    (iprop(levAts (K (F := F)).L (K (F := F)).lev
        ∗ ((iChunkK L).view.loc (V d (cV L) (jV L)) ↦[(iChunkK L).view.set]{fullShare} fi)
        ∗ ((tV).view.loc (V d (cV L) (jV L)) ↦{Transfers.shareTok q 19 cc0_scratch5.sem} ft)
        ∗ ((tV).view.loc (V d (cV L) (jV L)) ↦{Transfers.shareTok q 19 cc0_scratch6.sem} ft)
        ∗ ((tV).view.loc (V d (cV L) (jV L)) ↦{Transfers.shareTok q 19 cc0_scratch7.sem} ft)
        ∗ ((tV).view.loc (V d (cV L) (jV L)) ↦{Transfers.shareTok q 19 cc0_scratch8.sem} ft)
        ∗ ((oV).view.loc (V d (cV L) (jV L)) ↦[(oV).view.setOn (oTileRect L).set]{fullShare} fo)
        ∗ ((sV).view.loc (V d (cV L) (jV L)) ↦{fullShare} fs)
        ∗ ((b0V).view.loc (V d (cV L) (jV L)) ↦{fullShare} f0)
        ∗ ((b1V).view.loc (V d (cV L) (jV L)) ↦{fullShare} f1)
        ∗ ((b2V).view.loc (V d (cV L) (jV L)) ↦{fullShare} f2)
        ∗ ((b3V).view.loc (V d (cV L) (jV L)) ↦{fullShare} f3)
        ∗ semVal (cell d L cc0_scratch5.sem) 0 ∗ semVal (cell d L cc0_scratch6.sem) 0 ∗ semVal (cell d L cc0_scratch7.sem) 0
        ∗ semVal (cell d L cc0_scratch8.sem) 0 ∗ semVal (cell d L cc0_scratch9.sem) 0 ∗ semVal (cell d L cc0_scratch10.sem) 0
        ∗ semVal (cell d L cc0_scratch11.sem) 0 ∗ semVal (cell d L cc0_scratch12.sem) 0 ∗ semVal (cell d L cc0_scoped0.sem) 0
        ∗ owes (V d (cV L) (jV L)) O W) : sProp 𝕄)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(((iChunkK L).view.loc (V d (cV L) (jV L)) ↦[(iChunkK L).view.set]{fullShare} fi)
            ∗ ((tV).view.loc (V d (cV L) (jV L)) ↦{Transfers.shareTok q 19 cc0_scratch5.sem} ft)
            ∗ ((tV).view.loc (V d (cV L) (jV L)) ↦{Transfers.shareTok q 19 cc0_scratch6.sem} ft)
            ∗ ((tV).view.loc (V d (cV L) (jV L)) ↦{Transfers.shareTok q 19 cc0_scratch7.sem} ft)
            ∗ ((tV).view.loc (V d (cV L) (jV L)) ↦{Transfers.shareTok q 19 cc0_scratch8.sem} ft)
            ∗ (∃ f, (oV).view.loc (V d (cV L) (jV L)) ↦[(oV).view.setOn (oTileRect L).set]{fullShare} f)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W') := by
  iintro ⟨#Hlv, Hi, Ht0, Ht1, Ht2, Ht3, Ho, Hs, Hb0, Hb1, Hb2, Hb3, Hs5, Hs6, Hs7, Hs8, Hs9, Hs10, Hs11, Hs12, Hsc, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [cc0_gather_k]
  -- the index fetch and its wait; the run stops at the first gather, whose list is what the fetch landed
  sl_exec_parts
  have hin : ∀ (R : Rect S6400) (hR : ∀ a, R.stride a = 1) (x : R.shape.Idx),
      BitVec.toNat (View.read (Elt F) ((sV).slice R hR).view (View.write (Elt F) (sV).view fs (tile_run.sl.dma0 d L fi) Finset.univ) x) < 100000 :=
    fun R hR => inb_of_fi d L fi hfi fs _ rfl R hR
  -- the 32 gathers, the 32 write-outs and their waits
  sl_exec_parts
  sl_step
  isplitl [Hi]; · iexact Hi
  isplitl [Ht0]; · iexact Ht0
  isplitl [Ht1]; · iexact Ht1
  isplitl [Ht2]; · iexact Ht2
  isplitl [Ht3]; · iexact Ht3
  isplitl [Ho]; · iexists _; iexact Ho
  isplitl [Hs]; · iexists _; iexact Hs
  isplitl [Hb0]; · iexists _; iexact Hb0
  isplitl [Hb1]; · iexists _; iexact Hb1
  isplitl [Hb2]; · iexists _; iexact Hb2
  isplitl [Hb3]; · iexists _; iexact Hb3
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hsc]; · iexact Hsc
  iexists _; isplitr
  swap; · iexact HO
  ipureintro; intro p hp
  repeat (rcases Finset.mem_insert.mp hp with hp | hp; · exact .inr (hp ▸ rfl))
  exact .inl hp

end Cert.KernelIdeal.Sc

end
-- ==== Proof.ScRows.lean ====
/-
  How the gathered array and the flat index list split among the 32 vector subcores.

  Tile (c, s) — SparseCore c of 2, vector subcore s of 16 — owns 6400 consecutive words of the flat index list and the
  same 6400 rows of the gathered array, starting at 12800 s + 6400 c = 6400 (2 s + c). So the tiles' pieces are the 32
  equal parts of either array along its first axis, tile (c, s) taking part 2 s + c: they are pairwise disjoint and
  cover the array. A points-to of a whole array is therefore the tiles' points-tos of their pieces, and pieces held at
  any contents join to the whole array at some contents.
-/
import proofs.«200098_g2130303779034_cont_8to1_582_42_alg».proof.Proof.ScTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)

/-- The grid coordinates of tile (c, s). -/
def coordsV (c : Fin (grid0.bound 0)) (s : Fin (grid0.bound 1)) : grid0.Coords :=
  fun | 0 => c | 1 => s | ⟨_ + 2, h⟩ => absurd h (Nat.not_lt.2 (Nat.le_add_left _ _))

/-- A tile's words of the flat index list, -/
abbrev iSet (L : grid0.Coords) : Finset S204800.Idx := (iChunkK L).view.set
/-- and its rows of the gathered array. -/
abbrev oSet (L : grid0.Coords) : Finset S204800x128.Idx := (oV).view.setOn (oTileRect L).set

/-! ## The 32 parts along the first axis -/

theorem idiv : 32 ∣ S204800.size 0 := ⟨6400, rfl⟩
theorem odiv : 32 ∣ S204800x128.size 0 := ⟨6400, rfl⟩
abbrev ipart (w : Fin 32) : Rect S204800 := Rect.part (s := S204800) (a₀ := 0) idiv w
abbrev opart (w : Fin 32) : Rect S204800x128 := Rect.part (s := S204800x128) (a₀ := 0) odiv w

/-- Tile (c, s) takes part 2 s + c. -/
def wOf (p : Fin 2 × Fin 16) : Fin 32 := ⟨2 * p.2.val + p.1.val, by have := p.1.isLt; have := p.2.isLt; omega⟩

theorem wOf_injective : Function.Injective wOf := by
  rintro ⟨c, s⟩ ⟨c', s'⟩ h
  have e : 2 * s.val + c.val = 2 * s'.val + c'.val := congrArg Fin.val h
  have hc := c.isLt; have hc' := c'.isLt
  exact Prod.ext (Fin.ext (show c.val = c'.val by omega)) (Fin.ext (show s.val = s'.val by omega))

theorem wOf_surjective (j : Fin 32) : ∃ p, wOf p = j :=
  ⟨(⟨j.val % 2, Nat.mod_lt _ (by decide)⟩, ⟨j.val / 2, by have := j.isLt; omega⟩), Fin.ext (by simp only [wOf]; omega)⟩

/-- The program's slice of the index list for tile (c, s) is part 2 s + c of it. -/
theorem irect_eq (c : Fin 2) (s : Fin 16) :
    Rect.unit (s := S204800) (k0_off1 (coordsV c s)) S6400.size (k0_off1_inb (coordsV c s)) = ipart (wOf (c, s)) := by
  unfold ipart Rect.part Rect.block
  congr 1 <;> funext a
  · rw [k0_off1_eq]
    match a with
    | 0 =>
      show 12800 * s.val + 6400 * c.val = Shape.partIx S204800 0 (2 * s.val + c.val) 0 * Shape.partSize S204800 0 32 0
      simp [Shape.partIx, Shape.partSize]; omega
  · match a with
    | 0 => simp [Shape.partSize]

/-- The tile's rows of the gathered array are part 2 s + c of it. -/
theorem orect_eq (c : Fin 2) (s : Fin 16) : oTileRect (coordsV c s) = opart (wOf (c, s)) := by
  unfold oTileRect opart Rect.part Rect.block
  congr 1 <;> funext a
  · rw [show k0_off2 (coordsV c s) 0#32 = ![12800 * ((coordsV c s) 1).val + 6400 * ((coordsV c s) 0).val + 200 * ((0 : Fin 32) : Fin 32).val, 0] from
      k0_off2_eq (coordsV c s) 0]
    match a with
    | 0 =>
      show 12800 * s.val + 6400 * c.val + 200 * 0 = Shape.partIx S204800x128 0 (2 * s.val + c.val) 0 * Shape.partSize S204800x128 0 32 0
      simp [Shape.partIx, Shape.partSize]; omega
    | 1 => simp [Shape.partIx, Shape.partSize]
  · match a with
    | 0 => simp [Shape.partSize]
    | 1 => simp [Shape.partSize]

theorem iSet_eq (p : Fin 2 × Fin 16) : iSet (coordsV p.1 p.2) = (ipart (wOf p)).set := by
  show ((View.whole (main_v3_scv : Ref sig .scVector)).slice (Rect.unit (s := S204800) (k0_off1 (coordsV p.1 p.2)) S6400.size (k0_off1_inb (coordsV p.1 p.2)))).set = _
  rw [View.set_slice, irect_eq p.1 p.2]; exact Finset.map_refl

theorem oSet_eq (p : Fin 2 × Fin 16) : oSet (coordsV p.1 p.2) = (opart (wOf p)).set := by
  show (oTileRect (coordsV p.1 p.2)).set.map (View.whole (main_v4_scv : Ref sig .scVector)).emb = _
  rw [orect_eq p.1 p.2]; exact Finset.map_refl

theorem iSets_disjoint : ∀ p ∈ (Finset.univ : Finset (Fin 2 × Fin 16)), ∀ p' ∈ (Finset.univ : Finset (Fin 2 × Fin 16)), p ≠ p' →
    Disjoint (iSet (coordsV p.1 p.2)) (iSet (coordsV p'.1 p'.2)) :=
  fun p _ p' _ h => by rw [iSet_eq, iSet_eq]; exact Rect.part_disjoint idiv fun e => h (wOf_injective e)

theorem oSets_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) :=
  fun p _ p' _ h => by rw [oSet_eq, oSet_eq]; exact Rect.part_disjoint odiv fun e => h (wOf_injective e)

theorem iSets_cover : (Finset.univ : Finset (Fin 2 × Fin 16)).biUnion (fun p => iSet (coordsV p.1 p.2)) = Finset.univ := by
  ext i
  simp only [Finset.mem_biUnion, Finset.mem_univ, true_and, iff_true]
  obtain ⟨j, hj⟩ := Rect.exists_mem_part idiv i
  obtain ⟨p, rfl⟩ := wOf_surjective j
  exact ⟨p, by rw [iSet_eq]; exact hj⟩

theorem oSets_cover : (Finset.univ : Finset (Fin 2 × Fin 16)).biUnion (fun p => oSet (coordsV p.1 p.2)) = Finset.univ := by
  ext i
  simp only [Finset.mem_biUnion, Finset.mem_univ, true_and, iff_true]
  obtain ⟨j, hj⟩ := Rect.exists_mem_part odiv i
  obtain ⟨p, rfl⟩ := wOf_surjective j
  exact ⟨p, by rw [oSet_eq]; exact hj⟩

/-! ## The whole arrays as the tiles' pieces -/

/-- The flat index list held whole is its 32 tiles' pieces held. -/
theorem iPts_tiles (d : Dev nD) (f : Buf (Elt F) (iLoc d)) :
    (iLoc d ↦{fullShare} f : sProp 𝕄) = bigSep Finset.univ fun c : Fin 2 => bigSep Finset.univ fun s : Fin 16 => iLoc d ↦[iSet (coordsV c s)]{fullShare} f := by
  rw [← bigSep_univ_prod (fun p : Fin 2 × Fin 16 => (iLoc d ↦[iSet (coordsV p.1 p.2)]{fullShare} f : sProp 𝕄)),
    ← pointsTo_biUnion Finset.univ (ℓ := iLoc d) (fun p : Fin 2 × Fin 16 => iSet (coordsV p.1 p.2)) iSets_disjoint, iSets_cover]; try rfl

/-- The gathered array held whole is its 32 tiles' pieces held. -/
theorem oPts_tiles (d : Dev nD) (f : Buf (Elt F) (oLoc d)) :
    (oLoc d ↦{fullShare} f : sProp 𝕄) = bigSep Finset.univ fun c : Fin 2 => bigSep Finset.univ fun s : Fin 16 => oLoc d ↦[oSet (coordsV c s)]{fullShare} f := by
  rw [← bigSep_univ_prod (fun p : Fin 2 × Fin 16 => (oLoc d ↦[oSet (coordsV p.1 p.2)]{fullShare} f : sProp 𝕄)),
    ← pointsTo_biUnion Finset.univ (ℓ := oLoc d) (fun p : Fin 2 × Fin 16 => oSet (coordsV p.1 p.2)) oSets_disjoint, oSets_cover]; try rfl

variable [FloatOps F]

set_option maxRecDepth 4096 in
/-- The tiles' pieces of the gathered array, each at some contents, are the array at some contents. -/
theorem oTiles_join (d : Dev nD) :
    (bigSep Finset.univ fun c : Fin 2 => bigSep Finset.univ fun s : Fin 16 => iprop(∃ f, oLoc d ↦[oSet (coordsV c s)]{fullShare} f))
      ⊢ (iprop(∃ f, oLoc d ↦{fullShare} f) : sProp 𝕄) := by
  refine (Entails.of_eq (bigSep_univ_prod (fun p : Fin 2 × Fin 16 => (iprop(∃ f, oLoc d ↦[oSet (coordsV p.1 p.2)]{fullShare} f) : sProp 𝕄))).symm).trans ?_
  refine (bigSep_exists_pi Finset.univ (fun (p : Fin 2 × Fin 16) (f : Buf (Elt F) (oLoc d)) => (oLoc d ↦[oSet (coordsV p.1 p.2)]{fullShare} f : sProp 𝕄))).trans ?_
  iintro ⟨%fs, H⟩
  have : Nonempty (Buf (Elt F) (oLoc d)) := ⟨fs (0, 0)⟩
  ihave H' := (pointsTo_biUnion_join (ℓ := oLoc d) (q := fullShare) (Val := Elt F) Finset.univ (fun p : Fin 2 × Fin 16 => oSet (coordsV p.1 p.2)) fs (fs (0, 0)) oSets_disjoint) $$ H
  icases H' with ⟨%g, -, Hg⟩
  rw [oSets_cover]
  iexists g; iexact Hg

end Cert.KernelIdeal.Sc

end
-- ==== Proof.ScLaunch.lean ====
/-
  The gather kernel's launch: how the call's operands — the flat index list, the table, the gathered array — are dealt to the
  two SparseCores and their sixteen tiles each, one tile's task from what it is dealt (the tile's run, ScTile), and @main on
  the TensorCore around the call.
  Tile (c, s) owns words [6400 w, 6400 w + 6400) of the index list and the same rows of the gathered array, w = 2 s + c; every
  tile reads the whole table, so the table goes out as read shares: a token per core, of it a token per tile, of that a token
  per gather cell.
-/
import proofs.«200098_g2130303779034_cont_8to1_582_42_alg».proof.Proof.ScTile
import proofs.«200098_g2130303779034_cont_8to1_582_42_alg».proof.Proof.ScRows

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v4_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## A tile's nine cells and five scratch buffers, out of its own -/

section Own

variable (d : Dev nD) (L : grid0.Coords)

theorem cell_mem (s : DmaSem sig) (hs : (SemLoc.dma s : SemLoc sig).isScoped .scVector = true) : cell d L s ∈ ownCells (V d (cV L) (jV L)) :=
  mem_ownCells.mpr ⟨rfl, hs⟩
theorem cell_ne {s s' : DmaSem sig} (h : s ≠ s') : cell d L s ≠ cell d L s' := fun e => h (by simpa [cell] using e)

abbrev ch0 : Finset (GSem nD τ sig) := ownCells (V d (cV L) (jV L))
abbrev ch1 : Finset (GSem nD τ sig) := (ch0 d L).erase (cell d L cc0_scratch5.sem)
abbrev ch2 : Finset (GSem nD τ sig) := (ch1 d L).erase (cell d L cc0_scratch6.sem)
abbrev ch3 : Finset (GSem nD τ sig) := (ch2 d L).erase (cell d L cc0_scratch7.sem)
abbrev ch4 : Finset (GSem nD τ sig) := (ch3 d L).erase (cell d L cc0_scratch8.sem)
abbrev ch5 : Finset (GSem nD τ sig) := (ch4 d L).erase (cell d L cc0_scratch9.sem)
abbrev ch6 : Finset (GSem nD τ sig) := (ch5 d L).erase (cell d L cc0_scratch10.sem)
abbrev ch7 : Finset (GSem nD τ sig) := (ch6 d L).erase (cell d L cc0_scratch11.sem)
abbrev ch8 : Finset (GSem nD τ sig) := (ch7 d L).erase (cell d L cc0_scratch12.sem)
abbrev ch9 : Finset (GSem nD τ sig) := (ch8 d L).erase (cell d L cc0_scoped0.sem)

/-- The subcore's own cells but the eight scratch cells and the scoped one. -/
abbrev restCells : Finset (GSem nD τ sig) := ch9 d L

theorem ownSems0_V :
    (ownSems0 (V d (cV L) (jV L)) : sProp 𝕄)
      = iprop(semVal (cell d L cc0_scratch5.sem) 0 ∗ semVal (cell d L cc0_scratch6.sem) 0 ∗ semVal (cell d L cc0_scratch7.sem) 0
          ∗ semVal (cell d L cc0_scratch8.sem) 0 ∗ semVal (cell d L cc0_scratch9.sem) 0 ∗ semVal (cell d L cc0_scratch10.sem) 0
          ∗ semVal (cell d L cc0_scratch11.sem) 0 ∗ semVal (cell d L cc0_scratch12.sem) 0 ∗ semVal (cell d L cc0_scoped0.sem) 0
          ∗ bigSep (restCells d L) fun g => semVal g 0) := by
  have m0 : cell d L cc0_scratch5.sem ∈ ch0 d L := cell_mem d L _ (by decide)
  have m1 : cell d L cc0_scratch6.sem ∈ ch1 d L := Finset.mem_erase.mpr ⟨cell_ne d L (by decide), cell_mem d L _ (by decide)⟩
  have m2 : cell d L cc0_scratch7.sem ∈ ch2 d L := Finset.mem_erase.mpr ⟨cell_ne d L (by decide), Finset.mem_erase.mpr ⟨cell_ne d L (by decide), cell_mem d L _ (by decide)⟩⟩
  have m3 : cell d L cc0_scratch8.sem ∈ ch3 d L := Finset.mem_erase.mpr ⟨cell_ne d L (by decide), Finset.mem_erase.mpr ⟨cell_ne d L (by decide), Finset.mem_erase.mpr ⟨cell_ne d L (by decide), cell_mem d L _ (by decide)⟩⟩⟩
  have m4 : cell d L cc0_scratch9.sem ∈ ch4 d L := Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩
  have m5 : cell d L cc0_scratch10.sem ∈ ch5 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩
  have m6 : cell d L cc0_scratch11.sem ∈ ch6 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩
  have m7 : cell d L cc0_scratch12.sem ∈ ch7 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩⟩
  have m8 : cell d L cc0_scoped0.sem ∈ ch8 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩⟩⟩
  show bigSep (ch0 d L) (fun g => (semVal g 0 : sProp 𝕄)) = _
  rw [SparseCore.bigSep_erase' m0, SparseCore.bigSep_erase' m1, SparseCore.bigSep_erase' m2, SparseCore.bigSep_erase' m3, SparseCore.bigSep_erase' m4,
    SparseCore.bigSep_erase' m5, SparseCore.bigSep_erase' m6, SparseCore.bigSep_erase' m7, SparseCore.bigSep_erase' m8]

abbrev bref (b : Ref sig .scVector) : DevRef τ sig := (Proc.scVector (cV L) (jV L)).devRef b
theorem bref_ne {b b' : Ref sig .scVector} (h : b ≠ b') : bref L b ≠ bref L b' := fun e => h (Proc.devRef_injective _ e)

/-- The subcore's own buffers but the index scratch and the four row buffers. -/
abbrev restRefs : Finset (DevRef τ sig) :=
  (((((ownRefs (τ := τ) (.scVector (cV L) (jV L))).erase (bref L cc0_scratch0)).erase (bref L cc0_scratch1)).erase (bref L cc0_scratch2)).erase (bref L cc0_scratch3)).erase (bref L cc0_scratch4)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs
  have m0 : bref L cc0_scratch0 ∈ ownRefs (τ := τ) (.scVector (cV L) (jV L)) := SparseCore.Cfg.mem_ownRefs_of_owner (p := Proc.scVector (cV L) (jV L)) (b := bref L cc0_scratch0) rfl
  have m1 : bref L cc0_scratch1 ∈ ownRefs (τ := τ) (.scVector (cV L) (jV L)) := SparseCore.Cfg.mem_ownRefs_of_owner (p := Proc.scVector (cV L) (jV L)) (b := bref L cc0_scratch1) rfl
  have m2 : bref L cc0_scratch2 ∈ ownRefs (τ := τ) (.scVector (cV L) (jV L)) := SparseCore.Cfg.mem_ownRefs_of_owner (p := Proc.scVector (cV L) (jV L)) (b := bref L cc0_scratch2) rfl
  have m3 : bref L cc0_scratch3 ∈ ownRefs (τ := τ) (.scVector (cV L) (jV L)) := SparseCore.Cfg.mem_ownRefs_of_owner (p := Proc.scVector (cV L) (jV L)) (b := bref L cc0_scratch3) rfl
  have m4 : bref L cc0_scratch4 ∈ ownRefs (τ := τ) (.scVector (cV L) (jV L)) := SparseCore.Cfg.mem_ownRefs_of_owner (p := Proc.scVector (cV L) (jV L)) (b := bref L cc0_scratch4) rfl
  refine (SparseCore.bigSep_erase' m0).trans ?_
  rw [SparseCore.bigSep_erase' (i := bref L cc0_scratch1) (Finset.mem_erase.mpr ⟨bref_ne L (by decide), m1⟩),
    SparseCore.bigSep_erase' (i := bref L cc0_scratch2) (Finset.mem_erase.mpr ⟨bref_ne L (by decide), Finset.mem_erase.mpr ⟨bref_ne L (by decide), m2⟩⟩),
    SparseCore.bigSep_erase' (i := bref L cc0_scratch3) (Finset.mem_erase.mpr ⟨bref_ne L (by decide), Finset.mem_erase.mpr ⟨bref_ne L (by decide), Finset.mem_erase.mpr ⟨bref_ne L (by decide), m3⟩⟩⟩),
    SparseCore.bigSep_erase' (i := bref L cc0_scratch4) (Finset.mem_erase.mpr ⟨bref_ne L (by decide), Finset.mem_erase.mpr ⟨bref_ne L (by decide), Finset.mem_erase.mpr ⟨bref_ne L (by decide), Finset.mem_erase.mpr ⟨bref_ne L (by decide), m4⟩⟩⟩⟩)]

end Own

/-! ## What the handshakes carry -/

variable [FloatOps F]

section Pay

variable (fi : (d : Dev nD) → Buf (Elt F) (iLoc d)) (ft : (d : Dev nD) → Buf (Elt F) (tLoc d)) (fo : (d : Dev nD) → Buf (Elt F) (oLoc d))

/-- SparseCore c's read share of the table, and of it tile s's. -/
abbrev coreShare (c : Fin 2) : PosShare TreeShare := Transfers.shareTok fullShare 2 c
abbrev tileShare (c : Fin 2) (s : Fin 16) : PosShare TreeShare := Transfers.shareTok (coreShare c) 16 s

abbrev cL (L : grid0.Coords) : Fin 2 := L 0
abbrev sL (L : grid0.Coords) : Fin 16 := L 1

abbrev iTilePts (d : Dev nD) (L : grid0.Coords) : sProp 𝕄 := iLoc d ↦[iSet L]{fullShare} fi d
abbrev tTilePts (d : Dev nD) (L : grid0.Coords) : sProp 𝕄 := tLoc d ↦{tileShare (cL L) (sL L)} ft d
abbrev oTilePts (d : Dev nD) (L : grid0.Coords) (f : Buf (Elt F) (oLoc d)) : sProp 𝕄 := oLoc d ↦[oSet L]{fullShare} f

/-- The one call hands each SparseCore its sixteen tiles' words of the index list, its read share of the table and its tiles'
    rows of the gathered array; each task its own of each, and brings them back, the rows at what the task left. -/
def P : (K (F := F)).Pay (nD := nD) (Val := Elt F) (Name := ℕ) (U := UU) where
  st := fun q d c => match q with
    | 0 => iprop((bigSep Finset.univ fun s : Fin 16 => iTilePts fi d (coordsV c s))
        ∗ (tLoc d ↦{coreShare c} ft d)
        ∗ bigSep Finset.univ fun s : Fin 16 => oTilePts d (coordsV c s) (fo d))
  dn := fun q d c => match q with
    | 0 => iprop((bigSep Finset.univ fun s : Fin 16 => iTilePts fi d (coordsV c s))
        ∗ (tLoc d ↦{coreShare c} ft d)
        ∗ bigSep Finset.univ fun s : Fin 16 => iprop(∃ f, oTilePts d (coordsV c s) f))
  go := fun q d c i => match q with
    | 0 => iprop(iTilePts fi d (coordsV c i) ∗ tTilePts ft d (coordsV c i)
        ∗ oTilePts d (coordsV c i) (fo d))
  td := fun q d c i => match q with
    | 0 => iprop(iTilePts fi d (coordsV c i) ∗ tTilePts ft d (coordsV c i)
        ∗ ∃ f, oTilePts d (coordsV c i) f)
  x := fun _ _ => iprop(emp)

instance P_storable : (P (F := F) fi ft fo).IsStorable where
  st q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => oTilePts d (coordsV c s) (fo d)))
  dn q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => iprop(∃ f, oTilePts d (coordsV c s) f)))
  go q d c i := match q with
    | 0 => (inferInstance : BI.Storable (upEmb : UEmb _ 𝕄)
      iprop(iTilePts fi d (coordsV c i) ∗ tTilePts ft d (coordsV c i)
        ∗ oTilePts d (coordsV c i) (fo d)))
  td q d c i := match q with
    | 0 => (inferInstance : BI.Storable (upEmb : UEmb _ 𝕄)
      iprop(iTilePts fi d (coordsV c i) ∗ tTilePts ft d (coordsV c i)
        ∗ ∃ f, oTilePts d (coordsV c i) f))

/-! ## The task, from what the launch deals the tile -/

/-- The tokens of a share but the four gather cells'. -/
abbrev restToks : Finset (Fin 19) := (((Finset.univ : Finset (Fin 19)).erase cc0_scratch5.sem).erase cc0_scratch6.sem).erase cc0_scratch7.sem |>.erase cc0_scratch8.sem

/-- A read share of the table as a token per gather cell, and the rest. -/
theorem tTokens (d : Dev nD) (q : PosShare TreeShare) (f : Buf (Elt F) (tLoc d)) :
    (tLoc d ↦{q} f : sProp 𝕄) ⊣⊢ iprop((tLoc d ↦{Transfers.shareDrop q 19} f) ∗ (tLoc d ↦{Transfers.shareTok q 19 cc0_scratch5.sem} f) ∗ (tLoc d ↦{Transfers.shareTok q 19 cc0_scratch6.sem} f)
      ∗ (tLoc d ↦{Transfers.shareTok q 19 cc0_scratch7.sem} f) ∗ (tLoc d ↦{Transfers.shareTok q 19 cc0_scratch8.sem} f)
      ∗ bigSep restToks fun i => tLoc d ↦{Transfers.shareTok q 19 i} f) := by
  have h := Transfers.pointsTo_toks (ℓ := tLoc d) (S := Finset.univ) (f := f) (nD := nD) (τ := τ) (sig := sig) (Ix := HIx 1) (Val := Elt F) (Name := ℕ) (U := UU) (Lvl := ℕ) q 19
  rw [SparseCore.bigSep_erase' (Finset.mem_univ (cc0_scratch5.sem : Fin 19)),
    SparseCore.bigSep_erase' (i := (cc0_scratch6.sem : Fin 19)) (by decide),
    SparseCore.bigSep_erase' (i := (cc0_scratch7.sem : Fin 19)) (by decide),
    SparseCore.bigSep_erase' (i := (cc0_scratch8.sem : Fin 19)) (by decide)] at h
  exact h

section Tile

variable (d : Dev nD) (L : grid0.Coords)

/-- What the run does not use: the table share's other tokens, the subcore's other buffers and cells. -/
abbrev tileFrame : sProp 𝕄 :=
  iprop(((tLoc d ↦{Transfers.shareDrop (tileShare (cL L) (sL L)) 19} ft d) ∗ bigSep restToks fun i => tLoc d ↦{Transfers.shareTok (tileShare (cL L) (sL L)) 19 i} ft d)
    ∗ (bigSep (restRefs L) fun b => iprop(∃ f, ((d, b) : Loc nD τ sig) ↦{fullShare} f))
    ∗ bigSep (restCells d L) fun g => semVal g 0)

/-- The run's precondition at the buffers' contents. -/
abbrev runPre (O : CellTallies nD τ sig (HIx 1)) (W : Waits sig (HIx 1)) (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)) : sProp 𝕄 :=
  iprop(levAts (K (F := F)).L (K (F := F)).lev
        ∗ ((iChunkK L).view.loc (V d (cV L) (jV L)) ↦[(iChunkK L).view.set]{fullShare} fi d)
        ∗ ((tV).view.loc (V d (cV L) (jV L)) ↦{Transfers.shareTok (tileShare (cL L) (sL L)) 19 cc0_scratch5.sem} ft d)
        ∗ ((tV).view.loc (V d (cV L) (jV L)) ↦{Transfers.shareTok (tileShare (cL L) (sL L)) 19 cc0_scratch6.sem} ft d)
        ∗ ((tV).view.loc (V d (cV L) (jV L)) ↦{Transfers.shareTok (tileShare (cL L) (sL L)) 19 cc0_scratch7.sem} ft d)
        ∗ ((tV).view.loc (V d (cV L) (jV L)) ↦{Transfers.shareTok (tileShare (cL L) (sL L)) 19 cc0_scratch8.sem} ft d)
        ∗ ((oV).view.loc (V d (cV L) (jV L)) ↦[(oV).view.setOn (oTileRect L).set]{fullShare} fo d)
        ∗ ((sV).view.loc (V d (cV L) (jV L)) ↦{fullShare} fs)
        ∗ ((b0V).view.loc (V d (cV L) (jV L)) ↦{fullShare} f0)
        ∗ ((b1V).view.loc (V d (cV L) (jV L)) ↦{fullShare} f1)
        ∗ ((b2V).view.loc (V d (cV L) (jV L)) ↦{fullShare} f2)
        ∗ ((b3V).view.loc (V d (cV L) (jV L)) ↦{fullShare} f3)
        ∗ semVal (cell d L cc0_scratch5.sem) 0 ∗ semVal (cell d L cc0_scratch6.sem) 0 ∗ semVal (cell d L cc0_scratch7.sem) 0
        ∗ semVal (cell d L cc0_scratch8.sem) 0 ∗ semVal (cell d L cc0_scratch9.sem) 0 ∗ semVal (cell d L cc0_scratch10.sem) 0
        ∗ semVal (cell d L cc0_scratch11.sem) 0 ∗ semVal (cell d L cc0_scratch12.sem) 0 ∗ semVal (cell d L cc0_scoped0.sem) 0
        ∗ owes (V d (cV L) (jV L)) O W)

/-- The run's postcondition. -/
abbrev runPost (O : CellTallies nD τ sig (HIx 1)) (W : Waits sig (HIx 1)) : sProp 𝕄 :=
  iprop(((iChunkK L).view.loc (V d (cV L) (jV L)) ↦[(iChunkK L).view.set]{fullShare} fi d)
            ∗ ((tV).view.loc (V d (cV L) (jV L)) ↦{Transfers.shareTok (tileShare (cL L) (sL L)) 19 cc0_scratch5.sem} ft d)
            ∗ ((tV).view.loc (V d (cV L) (jV L)) ↦{Transfers.shareTok (tileShare (cL L) (sL L)) 19 cc0_scratch6.sem} ft d)
            ∗ ((tV).view.loc (V d (cV L) (jV L)) ↦{Transfers.shareTok (tileShare (cL L) (sL L)) 19 cc0_scratch7.sem} ft d)
            ∗ ((tV).view.loc (V d (cV L) (jV L)) ↦{Transfers.shareTok (tileShare (cL L) (sL L)) 19 cc0_scratch8.sem} ft d)
            ∗ (∃ f, (oV).view.loc (V d (cV L) (jV L)) ↦[(oV).view.setOn (oTileRect L).set]{fullShare} f)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W')

/-- What the launch deals the tile is the run's precondition at some scratch contents, and the frame. -/
theorem tile_in (hF : (K (F := F)).Facts) (O : CellTallies nD τ sig (HIx 1)) (W : Waits sig (HIx 1)) :
    iprop(levAts (K (F := F)).L (K (F := F)).lev ∗ emp
        ∗ (iTilePts fi d L ∗ tTilePts ft d L ∗ oTilePts d L (fo d))
        ∗ scopedBufs (V d (cV L) (jV L)) ∗ scopedSems0 (V d (cV L) (jV L)) ∗ owes (V d (cV L) (jV L)) O W)
      ⊢ iprop(∃ fs f0 f1 f2 f3, runPre fi ft fo d L O W fs f0 f1 f2 f3 ∗ tileFrame ft d L) := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%f0, Hb0⟩, ⟨%f1, Hb1⟩, ⟨%f2, Hb2⟩, ⟨%f3, Hb3⟩, Hbufs⟩, ⟨Hs5, Hs6, Hs7, Hs8, Hs9, Hs10, Hs11, Hs12, Hsc, Hsems⟩, HO⟩
  ihave Htk := (tTokens (F := F) d (tileShare (cL L) (sL L)) (ft d)).1 $$ Ht
  icases Htk with ⟨Htd, Ht0, Ht1, Ht2, Ht3, Htr⟩
  iexists fs, f0, f1, f2, f3
  isplitr [Htd Htr Hbufs Hsems]
  · isplitr; · iexact Hlv
    isplitl [Hi]; · iexact Hi
    isplitl [Ht0]; · iexact Ht0
    isplitl [Ht1]; · iexact Ht1
    isplitl [Ht2]; · iexact Ht2
    isplitl [Ht3]; · iexact Ht3
    isplitl [Ho]; · iexact Ho
    isplitl [Hs]; · iexact Hs
    isplitl [Hb0]; · iexact Hb0
    isplitl [Hb1]; · iexact Hb1
    isplitl [Hb2]; · iexact Hb2
    isplitl [Hb3]; · iexact Hb3
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact HO
  · isplitl [Htd Htr]; · isplitl [Htd]; · iexact Htd
                         iexact Htr
    isplitl [Hbufs]; · iexact Hbufs
    iexact Hsems

/-- The run's postcondition and the frame are what the tile hands back. -/
theorem tile_out (hF : (K (F := F)).Facts) (O : CellTallies nD τ sig (HIx 1)) (W : Waits sig (HIx 1)) :
    iprop(runPost fi ft d L O W ∗ tileFrame ft d L)
      ⊢ iprop((iTilePts fi d L ∗ tTilePts ft d L ∗ ∃ f, oTilePts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨⟨Hi, Ht0, Ht1, Ht2, Ht3, Ho, Hs, Hb0, Hb1, Hb2, Hb3, Hs5, Hs6, Hs7, Hs8, Hs9, Hs10, Hs11, Hs12, Hsc, HO⟩, ⟨Htd, Htr⟩, Hbufs, Hsems⟩
  ihave Ht := (tTokens (F := F) d (tileShare (cL L) (sL L)) (ft d)).2 $$ [Htd Ht0 Ht1 Ht2 Ht3 Htr]
  · isplitl [Htd]; · iexact Htd
    isplitl [Ht0]; · iexact Ht0
    isplitl [Ht1]; · iexact Ht1
    isplitl [Ht2]; · iexact Ht2
    isplitl [Ht3]; · iexact Ht3
    iexact Htr
  isplitl [Hi Ht Ho]
  · isplitl [Hi]; · iexact Hi
    isplitl [Ht]; · iexact Ht
    iexact Ho
  isplitl [Hs Hb0 Hb1 Hb2 Hb3 Hbufs]
  · isplitl [Hs]; · iexact Hs
    isplitl [Hb0]; · iexact Hb0
    isplitl [Hb1]; · iexact Hb1
    isplitl [Hb2]; · iexact Hb2
    isplitl [Hb3]; · iexact Hb3
    iexact Hbufs
  isplitl [Hs5 Hs6 Hs7 Hs8 Hs9 Hs10 Hs11 Hs12 Hsc Hsems]
  · isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact Hsems
  iexact HO

/-- The task on vector subcore (L 0, L 1) of device d, in the launch's resources. -/
theorem tile_body (hF : (K (F := F)).Facts) (hfi : ∀ d j, (fi d j).toNat < 100000) (O : CellTallies nD τ sig (HIx 1)) (W : Waits sig (HIx 1)) (hO : ∀ g, O g none = 0) :
    iprop(levAts (K (F := F)).L (K (F := F)).lev ∗ emp
        ∗ (iTilePts fi d L ∗ tTilePts ft d L ∗ oTilePts d L (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop((iTilePts fi d L ∗ tTilePts ft d L ∗ ∃ f, oTilePts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_in fi ft fo d L hF O W).trans ?_
  refine BIClass.exists_elim fun fs => BIClass.exists_elim fun f0 => BIClass.exists_elim fun f1 => BIClass.exists_elim fun f2 => BIClass.exists_elim fun f3 => ?_
  refine (sep_mono_left (tile_run (F := F) d L O W hO (fi d) (hfi d) (ft d) (tileShare (cL L) (sL L)) (fo d) fs f0 f1 f2 f3)).trans ?_
  refine (wp_frame_r frame _ _).trans ?_
  exact wp_mono frame _ _ fun _ => tile_out fi ft d L hF O W

/-! ## The obligation -/

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) tV (Memref.isWhole_whole _) oV (Memref.isWhole_whole _)
          sV (Memref.isWhole_whole _) b0V (Memref.isWhole_whole _) b1V (Memref.isWhole_whole _) b2V (Memref.isWhole_whole _) b3V (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d j, (fi d j).toNat < 100000) : (K (F := F)).TileObl (D (F := F)) 𝒱 (P fi ft fo) v₀ 0 := by
  intro d c i O W hO _ _
  simp only [show (P fi ft fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi ft fo d (coordsV ⟨_, hci.1⟩ ⟨_, hci.2⟩) hF hfi O W hO).trans (wp_mono frame _ _ fun _ => obl_post)

end Tile

/-! ## The split among a SparseCore's tiles -/

omit [FloatOps F] in
theorem bigSep_tasks (Φ : Fin 16 → sProp 𝕄) :
    (bigSep Finset.univ fun i : Fin 16 => Φ i) = bigSep Finset.univ Φ :=
  bigSep_congr fun _ _ => congrArg Φ (Fin.ext rfl)

/-- A SparseCore's read share of the table is a token per tile, and a rest that waits for them. -/
theorem vecSplit : (K (F := F)).VecSplit' (P fi ft fo) 0 := by
  intro d c
  show iprop((bigSep Finset.univ fun s : Fin 16 => iTilePts fi d (coordsV c s))
        ∗ (tLoc d ↦{coreShare c} ft d)
        ∗ bigSep Finset.univ fun s : Fin 16 => oTilePts d (coordsV c s) (fo d)) ⊢ |={Set.univ}=> iprop(
      (bigSep Finset.univ fun i : Fin 16 =>
        iprop(iTilePts fi d (coordsV c i) ∗ tTilePts ft d (coordsV c i)
          ∗ oTilePts d (coordsV c i) (fo d)))
      ∗ ((bigSep Finset.univ fun i : Fin 16 =>
          iprop(iTilePts fi d (coordsV c i) ∗ tTilePts ft d (coordsV c i)
            ∗ ∃ f, oTilePts d (coordsV c i) f))
          -∗ iprop((bigSep Finset.univ fun s : Fin 16 => iTilePts fi d (coordsV c s))
              ∗ (tLoc d ↦{coreShare c} ft d)
              ∗ bigSep Finset.univ fun s : Fin 16 => iprop(∃ f, oTilePts d (coordsV c s) f))))
  rw [bigSep_sep', bigSep_sep', bigSep_sep', bigSep_sep']
  have htok := Transfers.pointsTo_toks (ℓ := tLoc d) (S := Finset.univ) (f := ft d) (nD := nD) (τ := τ) (sig := sig) (Ix := HIx 1) (Val := Elt F) (Name := ℕ) (U := UU) (Lvl := ℕ)
    (coreShare c) 16
  iintro ⟨Hi, Ht, Ho⟩
  ihave Htk := htok.1 $$ Ht
  icases Htk with ⟨Htd, Hts⟩
  imodintro
  isplitl [Hi Hts Ho]
  · isplitl [Hi]; · iexact Hi
    isplitl [Hts]; · iexact Hts
    iexact Ho
  iintro ⟨Hi, Hts, Ho⟩
  isplitl [Hi]; · iexact Hi
  isplitl [Htd Hts]
  · iapply htok.2
    isplitl [Htd]; · iexact Htd
    iexact Hts
  iexact Ho

end Pay

end Cert.KernelIdeal.Sc

end
-- ==== Proof.TcBody.lean ====
/-
  The layer-norm body of the TensorCore call, run once on whole staging buffers.

  The body reads six whole blocks — the gathered token rows (128 x 200 x 128), the segment ids (128 x 200), the
  position rows (200 x 128), the two segment rows (2 x 128), the scale and the shift (1 x 128 each) — and writes one
  whole block (128 x 200 x 128): the sum of the three embeddings, normalised along the last axis, scaled and shifted.
  `lnBlock` names that block as a pure function of the six blocks read; `sound_kernel` says the body, started with the
  six input buffers at given contents and the output buffer at anything, ends with the inputs as they were and the
  output buffer at `lnBlock` of them. Stated for any float instance and any ghost algebra.
-/
import proofs.«200098_g2130303779034_cont_8to1_582_42_alg».proof.Proof.Gen.KernelIdeal.Launch
import proofs.«200098_g2130303779034_cont_8to1_582_42_alg».proof.Proof.Gen.KernelIdeal.Skeleton
import proofs.«200098_g2130303779034_cont_8to1_582_42_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each a whole block -/

abbrev rTok : Rect S128x200x128 := Rect.unit (s := S128x200x128) ![0, 0, 0] S128x200x128.size inb_S128x200x128_S128x200x128_0_0_0
abbrev rSeg : Rect S128x200 := Rect.unit (s := S128x200) ![0, 0] S128x200.size inb_S128x200_S128x200_0_0
abbrev rPos : Rect S200x128 := Rect.unit (s := S200x128) ![0, 0] S200x128.size inb_S200x128_S200x128_0_0
abbrev rTyp : Rect S2x128 := Rect.unit (s := S2x128) ![0, 0] S2x128.size inb_S2x128_S2x128_0_0
abbrev rRow : Rect S1x128 := Rect.unit (s := S1x128) ![0, 0] S1x128.size inb_S1x128_S1x128_0_0

/-! ## What the body leaves in the output buffer -/

/-- The output block from the six input blocks: the one store of the body, over the whole buffer, of the shifted
    (`k1_pay1`) normalised and scaled sum (`k1_pay2`) of what the loads read. -/
def lnBlock (tok : Vec F S128x200x128 .f32) (seg : Vec F S128x200 .i32) (pos : Vec F S200x128 .f32) (typ : Vec F S2x128 .f32)
    (gam : Vec F S1x128 .f32) (bet : Vec F S1x128 .f32) : Vec F S128x200x128 .f32 :=
  View.canon [⟨rTok, k1_pay1 (k1_pay2 (View.ld tok rTok) (View.ld seg rSeg) (View.ld pos rPos) (View.ld typ rTyp) (View.ld gam rRow)) (View.ld bet rRow)⟩]

/-- The one store covers the buffer. -/
theorem cover_ln (p0 : Vec F S128x200x128 .f32) (y : S128x200x128.Idx) :
    ∃ pc ∈ ([⟨rTok, p0⟩] : List (View.Piece (Elt F) S128x200x128 .f32)), y ∈ pc.1.set :=
  View.cover_of_tiled [⟨rTok, p0⟩] S128x200x128.size (by rfl) y

/-! ## The body's triple -/

set_option maxHeartbeats 2000000 in
/-- The body on whole buffers: the six inputs at contents `tok … bet`, the output at anything; it ends with the
    inputs untouched and the output at `lnBlock` of them. -/
theorem sound_kernel (𝒱₀ : Variants) (c : Dev nD) (E : Set Name) (i : grid1.Coords)
    (arg1 : Memref sig .tc .vmem S128x200x128 .f32) (harg1 : arg1.IsWhole) (arg2 : Memref sig .tc .vmem S128x200 .i32) (harg2 : arg2.IsWhole)
    (arg3 : Memref sig .tc .vmem S200x128 .f32) (harg3 : arg3.IsWhole) (arg4 : Memref sig .tc .vmem S2x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x200x128 .f32) (harg7 : arg7.IsWhole)
    (tok : Vec F S128x200x128 .f32) (seg : Vec F S128x200 .i32) (pos : Vec F S200x128 .f32) (typ : Vec F S2x128 .f32)
    (gam : Vec F S1x128 .f32) (bet : Vec F S1x128 .f32) (K : PUnit → sProp 𝕄) :
    iprop(owns (c : Thread nD τ) arg1 fullShare tok ∗ owns (c : Thread nD τ) arg2 fullShare seg ∗ owns (c : Thread nD τ) arg3 fullShare pos
        ∗ owns (c : Thread nD τ) arg4 fullShare typ ∗ owns (c : Thread nD τ) arg5 fullShare gam ∗ owns (c : Thread nD τ) arg6 fullShare bet
        ∗ (∃ d, owns (c : Thread nD τ) arg7 fullShare d)
        ∗ (iprop(owns (c : Thread nD τ) arg1 fullShare tok ∗ owns (c : Thread nD τ) arg2 fullShare seg ∗ owns (c : Thread nD τ) arg3 fullShare pos
            ∗ owns (c : Thread nD τ) arg4 fullShare typ ∗ owns (c : Thread nD τ) arg5 fullShare gam ∗ owns (c : Thread nD τ) arg6 fullShare bet
            ∗ owns (c : Thread nD τ) arg7 fullShare (lnBlock tok seg pos typ gam bet)) -∗ K ⟨⟩))
      ⊢ wp frame (wpE (defs₀ (F := F)) 𝒱₀ c none) E (cc1__ln_body i arg1 harg1 arg2 harg2 arg3 harg3 arg4 harg4 arg5 harg5 arg6 harg6 arg7 harg7) K := by
  simp only [cc1__ln_body_eq_skeleton]; unfold cc1__ln_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_ln _)

end Cert.KernelIdeal.Tc

end
-- ==== Proof.TcDat.lean ====
/-
  The proof data of the layer-norm call, and its body obligation.

  The call runs the body at eight grid points. Point `t` stages block `t` (128 of the 1024 rows) of the gathered token
  rows and of the segment ids, the whole position, segment-row, scale and shift arrays (staged once, kept), and writes
  back block `t` of the result. The proof data say: every input buffer holds its array's block at every point, and the
  output buffer after the body at point `t` holds `lnBlock` of the six input blocks at `t`. From that: the input arrays
  are never written, and block `t` of the result array after the call is `lnBlock` of the input blocks at `t`.
  Stated for contents `V` of the core's arrays as the call finds them, any float instance, any ghost algebra.
-/
import proofs.«200098_g2130303779034_cont_8to1_582_42_alg».proof.Proof.TcBody
import Idealize.ShloMosaic.Lib.Pipeline.Value

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- each core's array contents when the call is entered,
variable (V : (c : Dev nD) → (b : Ref sig .tc) → Buf (Elt F) ((c : Thread nD τ).loc b))
-- and a bound on the (cell, index) pairs the core's waits have recorded by then
variable (B : Set (SemLoc sig × Ix))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved and the body left the block in place. -/
theorem before_in0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, its block
    index has not moved and the body left the block in place. -/
theorem before_in1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, its block
    index has not moved and the body left the block in place. -/
theorem before_in2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, its block
    index has not moved and the body left the block in place. -/
theorem before_in3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: unfetched, its block
    index has not moved and the body left the block in place. -/
theorem before_in4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: unfetched, its block
    index has not moved and the body left the block in place. -/
theorem before_in5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the call finds them; after the body at point `t` each input's buffer at its block and
    the output's at `lnBlock` of the six input blocks; the invariant between points is the scoped buffers no window
    stages (there is none); nothing owed; full shares; the recorded pairs stay within `B`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => lnBlock (iblk V c 0 t) (iblk V c 1 t) (iblk V c 2 t) (iblk V c 3 t) (iblk V c 4 t) (iblk V c 5 t)
  Φ _ := Pipeline.scopedRest spec1 c
  q _ := fullShare
  owed _ := 0
  recorded _ := B

local notation "𝔡" => dat (Name := Name) (U := U) (Lvl := Lvl) V B

/-- The family over the program's one call, as the launch theorems take it. -/
def dats (_ : Fin 1) (c : Dev nD) : Dat τ (Elt F) Ix Name U Lvl cfg1 c := 𝔡 c

theorem A_eq (c : Dev nD) (w : Fin cfg1.W) : (𝔡 c).A w = V c (Pipeline.arrRef spec1 w) := by
  dsimp only [dat]

theorem after0 (c : Dev nD) (t : Fin cfg1.N) : (𝔡 c).after 0 t = iblk V c 0 t := by dsimp only [dat]
theorem after1 (c : Dev nD) (t : Fin cfg1.N) : (𝔡 c).after 1 t = iblk V c 1 t := by dsimp only [dat]
theorem after2 (c : Dev nD) (t : Fin cfg1.N) : (𝔡 c).after 2 t = iblk V c 2 t := by dsimp only [dat]
theorem after3 (c : Dev nD) (t : Fin cfg1.N) : (𝔡 c).after 3 t = iblk V c 3 t := by dsimp only [dat]
theorem after4 (c : Dev nD) (t : Fin cfg1.N) : (𝔡 c).after 4 t = iblk V c 4 t := by dsimp only [dat]
theorem after5 (c : Dev nD) (t : Fin cfg1.N) : (𝔡 c).after 5 t = iblk V c 5 t := by dsimp only [dat]
theorem after6 (c : Dev nD) (t : Fin cfg1.N) :
    (𝔡 c).after 6 t = lnBlock (iblk V c 0 t) (iblk V c 1 t) (iblk V c 2 t) (iblk V c 3 t) (iblk V c 4 t) (iblk V c 5 t) := by dsimp only [dat]

theorem before0 (c : Dev nD) (t : Fin cfg1.N) (d) : (𝔡 c).before 0 t d = iblk V c 0 t :=
  before_in0_of V (𝔡 c) (A_eq V B c 0) (after0 V B c) t d
theorem before1 (c : Dev nD) (t : Fin cfg1.N) (d) : (𝔡 c).before 1 t d = iblk V c 1 t :=
  before_in1_of V (𝔡 c) (A_eq V B c 1) (after1 V B c) t d
theorem before2 (c : Dev nD) (t : Fin cfg1.N) (d) : (𝔡 c).before 2 t d = iblk V c 2 t :=
  before_in2_of V (𝔡 c) (A_eq V B c 2) (after2 V B c) t d
theorem before3 (c : Dev nD) (t : Fin cfg1.N) (d) : (𝔡 c).before 3 t d = iblk V c 3 t :=
  before_in3_of V (𝔡 c) (A_eq V B c 3) (after3 V B c) t d
theorem before4 (c : Dev nD) (t : Fin cfg1.N) (d) : (𝔡 c).before 4 t d = iblk V c 4 t :=
  before_in4_of V (𝔡 c) (A_eq V B c 4) (after4 V B c) t d
theorem before5 (c : Dev nD) (t : Fin cfg1.N) (d) : (𝔡 c).before 5 t d = iblk V c 5 t :=
  before_in5_of V (𝔡 c) (A_eq V B c 5) (after5 V B c) t d

/-! ## The body obligation, at a generic point -/

variable (𝒱₀ : Variants) (ι : Ix)

/-- What the body is called with at point `t`, the windows one by one, -/
def bodyPre (c : Dev nD) (t : Fin cfg1.N) : sProp 𝕄 :=
  iprop((𝔡 c).Φ t.castSucc ∗ (𝔡 c).owesAt ι t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d))
    ∗ (∃ d, owns (c : Thread nD τ) (st1_6 t) fullShare ((𝔡 c).before 6 t d)))

/-- and what it returns. -/
def bodyPost (c : Dev nD) (t : Fin cfg1.N) : sProp 𝕄 :=
  iprop((𝔡 c).Φ t.succ ∗ (𝔡 c).owesAt ι t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t)
    ∗ owns (c : Thread nD τ) (st1_6 t) fullShare ((𝔡 c).after 6 t))

/-- The body at any point: the inputs' buffers hold their blocks, so the body's triple applies; the invariant and the
    core's debts pass through unread. -/
theorem sound_body (c : Dev nD) (t : Fin cfg1.N) :
    (bodyPre V B ι c t : sProp 𝕄) ⊢ wp frame (wpE (defs₀ (F := F)) 𝒱₀ c none) Set.univ (bodyAt1 t) (fun _ => bodyPost V B ι c t) := by
  unfold bodyPre bodyPost bodyAt1
  simp only [before0, before1, before2, before3, before4, before5]
  rw [show (𝔡 c).Φ t.succ = (𝔡 c).Φ t.castSucc from rfl,
    show (𝔡 c).owesAt ι t.succ = (𝔡 c).owesAt ι t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel 𝒱₀ c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (𝔡 c) (defs₀ (F := F)) 𝒱₀ ι Set.univ := fun t => by
  rw [bigSep_W1, bigSep_W1]
  exact sound_body V B 𝒱₀ ι c t

/-! ## The arrays after the call -/

/-- Input window 0's array is never written. -/
theorem arrAt_in0 (c : Dev nD) (n : Nat) : (𝔡 c).arrAt 0 n = V c (Pipeline.arrRef spec1 0) :=
  ((𝔡 c).arrAt_in 0 rfl n).trans (A_eq V B c 0)
/-- Input window 1's array is never written. -/
theorem arrAt_in1 (c : Dev nD) (n : Nat) : (𝔡 c).arrAt 1 n = V c (Pipeline.arrRef spec1 1) :=
  ((𝔡 c).arrAt_in 1 rfl n).trans (A_eq V B c 1)
/-- Input window 2's array is never written. -/
theorem arrAt_in2 (c : Dev nD) (n : Nat) : (𝔡 c).arrAt 2 n = V c (Pipeline.arrRef spec1 2) :=
  ((𝔡 c).arrAt_in 2 rfl n).trans (A_eq V B c 2)
/-- Input window 3's array is never written. -/
theorem arrAt_in3 (c : Dev nD) (n : Nat) : (𝔡 c).arrAt 3 n = V c (Pipeline.arrRef spec1 3) :=
  ((𝔡 c).arrAt_in 3 rfl n).trans (A_eq V B c 3)
/-- Input window 4's array is never written. -/
theorem arrAt_in4 (c : Dev nD) (n : Nat) : (𝔡 c).arrAt 4 n = V c (Pipeline.arrRef spec1 4) :=
  ((𝔡 c).arrAt_in 4 rfl n).trans (A_eq V B c 4)
/-- Input window 5's array is never written. -/
theorem arrAt_in5 (c : Dev nD) (n : Nat) : (𝔡 c).arrAt 5 n = V c (Pipeline.arrRef spec1 5) :=
  ((𝔡 c).arrAt_in 5 rfl n).trans (A_eq V B c 5)

/-- What point `t` writes back to the result array: `lnBlock` of the six input blocks at `t`. -/
theorem flushed6 (c : Dev nD) (t : Fin cfg1.N) :
    (𝔡 c).flushed 6 t = (cfg1.win 6).cut (grid1.coords t) (lnBlock (iblk V c 0 t) (iblk V c 1 t) (iblk V c 2 t) (iblk V c 3 t) (iblk V c 4 t) (iblk V c 5 t)) := by
  show (cfg1.win 6).cut (grid1.coords t) ((𝔡 c).after 6 t) = _
  rw [after6]

/-- Distinct grid points write distinct blocks of the result. -/
theorem idx_inj6 : ∀ t t' : Fin cfg1.N, win1_6.index t = win1_6.index t' → t = t' :=
  (by decide +kernel : ∀ t t' : Fin grid1.N, win1_6.index t = win1_6.index t' → t = t')

theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- Block `t` of the result array after the call, read back through the window, is what point `t` wrote. -/
theorem blocks6 (c : Dev nD) (t : Fin cfg1.N) :
    ((cfg1.win 6).blk t).view.read (Elt F) ((𝔡 c).arrAt 6 cfg1.N) = (𝔡 c).flushed 6 t :=
  (𝔡 c).read_blk_arrAt_eq_flushed 6 disjoint6 cfg1.N t t.isLt (flush1_6 t)

end Cert.KernelIdeal.Tc

end
-- ==== Proof.TcRegion.lean ====
/-
  The layer-norm call as one region of the host program.

  Entered holding the seven window arrays at the contents `V` (six inputs, one result array) and the core owing
  nothing, the call returns holding the six inputs as they were, the result array at the contents the proof data
  compute (block `t` of it is `lnBlock` of the input blocks at `t`), and the core still owing nothing. The kernel has no
  semaphore of its own; nothing else of the core's state enters the call.
-/
import proofs.«200098_g2130303779034_cont_8to1_582_42_alg».proof.Proof.TcDat
import Idealize.ShloMosaic.Lib.Pipeline.Regions

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (𝒱₀ : Variants) (ι : Ix)

local notation "𝔡" => dat (Name := Name) (U := U) (Lvl := Lvl) V B

/-- The call prefetches no table. -/
abbrev adm : (p : Fin 1) → (pcfgs (F := F) p).Adm := fun p => (cfgs p).toPCfg_adm

/-! ## The seven window arrays, held whole -/

/-- The windows' arrays on core `c`, each whole at the full share, at contents `G w`. -/
def winArrs (c : Dev nD) (G : (w : Fin 7) → Buf (Elt F) ((c : Thread nD τ).loc (Pipeline.arrRef spec1 w))) : sProp 𝕄 :=
  bigSep Finset.univ fun w : Fin 7 => (((c : Thread nD τ).loc (Pipeline.arrRef spec1 w)) ↦{fullShare} G w : sProp 𝕄)

/-- One by one, in window order. -/
theorem winArrs_eq (c : Dev nD) (G : (w : Fin 7) → Buf (Elt F) ((c : Thread nD τ).loc (Pipeline.arrRef spec1 w))) :
    (winArrs c G : sProp 𝕄) = iprop((((c : Thread nD τ).loc main_v5) ↦{fullShare} G 0) ∗ (((c : Thread nD τ).loc main_arg1) ↦{fullShare} G 1) ∗ (((c : Thread nD τ).loc main_v0) ↦{fullShare} G 2) ∗ (((c : Thread nD τ).loc main_arg4) ↦{fullShare} G 3) ∗ (((c : Thread nD τ).loc main_v1) ↦{fullShare} G 4) ∗ (((c : Thread nD τ).loc main_v2) ↦{fullShare} G 5) ∗ (((c : Thread nD τ).loc main_v6) ↦{fullShare} G 6)) :=
  bigSep_W1 _

/-- What the call is entered with: the window arrays at `V`, the core owing nothing, its recorded pairs within `B`. -/
def tcPre (c : Dev nD) : sProp 𝕄 :=
  iprop(winArrs c (fun w => V c (Pipeline.arrRef spec1 w)) ∗ Pipeline.owesWithin c (0 : CellTallies nD τ sig Ix) B)

/-- What it returns: the arrays after every write-back, the core owing nothing, its recorded pairs within `B` and the
    staging cells' pairs at `ι`. -/
def tcPost (c : Dev nD) : sProp 𝕄 :=
  iprop(winArrs c (fun w => (𝔡 c).arrAt w cfg1.N) ∗ Pipeline.owesWithin c (0 : CellTallies nD τ sig Ix) (B ∪ cfg1.waitPairs ι))

theorem tcPre_eq (c : Dev nD) :
    (tcPre V B c : sProp 𝕄) = iprop(((((c : Thread nD τ).loc main_v5) ↦{fullShare} V c main_v5) ∗ (((c : Thread nD τ).loc main_arg1) ↦{fullShare} V c main_arg1) ∗ (((c : Thread nD τ).loc main_v0) ↦{fullShare} V c main_v0) ∗ (((c : Thread nD τ).loc main_arg4) ↦{fullShare} V c main_arg4) ∗ (((c : Thread nD τ).loc main_v1) ↦{fullShare} V c main_v1) ∗ (((c : Thread nD τ).loc main_v2) ↦{fullShare} V c main_v2) ∗ (((c : Thread nD τ).loc main_v6) ↦{fullShare} V c main_v6)) ∗ Pipeline.owesWithin c (0 : CellTallies nD τ sig Ix) B) := by
  unfold tcPre; rw [winArrs_eq]

/-- The six inputs come back as they were; the result array at the computed contents. -/
theorem tcPost_eq (c : Dev nD) :
    (tcPost V B ι c : sProp 𝕄) = iprop(((((c : Thread nD τ).loc main_v5) ↦{fullShare} V c main_v5) ∗ (((c : Thread nD τ).loc main_arg1) ↦{fullShare} V c main_arg1) ∗ (((c : Thread nD τ).loc main_v0) ↦{fullShare} V c main_v0) ∗ (((c : Thread nD τ).loc main_arg4) ↦{fullShare} V c main_arg4) ∗ (((c : Thread nD τ).loc main_v1) ↦{fullShare} V c main_v1) ∗ (((c : Thread nD τ).loc main_v2) ↦{fullShare} V c main_v2) ∗ (((c : Thread nD τ).loc main_v6) ↦{fullShare} (𝔡 c).arrAt 6 cfg1.N)) ∗ Pipeline.owesWithin c (0 : CellTallies nD τ sig Ix) (B ∪ cfg1.waitPairs ι)) := by
  unfold tcPost; rw [winArrs_eq, arrAt_in0, arrAt_in1, arrAt_in2, arrAt_in3, arrAt_in4, arrAt_in5]

/-! ## The core's unscoped buffers, split at the window arrays -/

/-- A core's unscoped buffers at `V` are the window arrays at `V` and the seven others at `V`. -/
theorem unscopedBufs_split (c : Dev nD) :
    (unscopedBufs c (V c) : sProp 𝕄) = iprop(winArrs c (fun w => V c (Pipeline.arrRef spec1 w)) ∗ Pipeline.unscopedRest spec1 c (V c)) :=
  Pipeline.unscopedBufs_split cfgs 0 launch1.win.arr_unscoped launch1.win.arr_inj c (V c)

/-- Back: the window arrays at `G` and the others at `V` are the unscoped buffers at any valuation that reads `G` at the
    window arrays and `V` elsewhere. -/
theorem unscopedBufs_join (c : Dev nD) (V' : (b : Ref sig .tc) → Buf (Elt F) ((c : Thread nD τ).loc b))
    (G : (w : Fin 7) → Buf (Elt F) ((c : Thread nD τ).loc (Pipeline.arrRef spec1 w)))
    (hG : ∀ w, V' (Pipeline.arrRef spec1 w) = G w) (hrest : ∀ b, (∀ w, b ≠ Pipeline.arrRef spec1 w) → V' b = V c b) :
    iprop(winArrs c G ∗ Pipeline.unscopedRest spec1 c (V c)) ⊢ (unscopedBufs c V' : sProp 𝕄) := by
  rw [Pipeline.unscopedBufs_split cfgs 0 launch1.win.arr_unscoped launch1.win.arr_inj c V']
  refine sep_mono (Entails.of_eq ?_) (Entails.of_eq ?_)
  · unfold winArrs; exact bigSep_congr fun w _ => by rw [hG]
  · unfold Pipeline.unscopedRest
    refine bigSep_congr fun b hb => ?_
    rw [hrest b fun w hw => (Finset.mem_sdiff.mp hb).2 (Finset.mem_image.mpr ⟨w, Finset.mem_univ w, hw.symm⟩)]

/-! ## The region -/

-- the launch lemmas are stated over the pinned configuration; unification must unfold plain definitions in a
-- metavariable's type to see it is this call's
set_option backward.isDefEq.respectTransparency.types false in
/-- The call as a region of the host program: the decided layout, no semaphore of its own, the body obligation; entered
    from `tcPre`, left at `tcPost`; nothing enters the invariant but the scoped buffers no window stages, nothing
    bypasses. -/
def region (L : GSem nD τ sig → Finset Ix) (lv : GSem nD τ sig → Ix → Lvl) :
    Pipeline.RegionSeg (pcfgs (F := F)) adm (dats (Name := Name) (U := U) (Lvl := Lvl) V B) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation V B 𝒱₀ ι c).loose
  hwaits := Pipeline.hwaits_of_owed_zero _ _ _ _ L lv 0 fun _ _ => rfl
  pre := tcPre V B
  post := tcPost V B ι
  X _ := iprop(emp)
  Y _ := iprop(emp)
  Z _ := iprop(emp)
  hentry c := by
    unfold tcPre winArrs
    rw [Pipeline.arrays_eq (Pipeline.pin (pcfgs (F := F)) adm) (dats V B) 0 c launch1.arr_whole ((𝔡 c).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (0 : CellTallies nD τ sig Ix) (Set.subset_union_left (s := B) (t := cfg1.waitPairs ι))); iexact HO
    isplitr <;> iempintro
  hin c := by
    rw [show (dats (Name := Name) (U := U) (Lvl := Lvl) V B 0 c).Φ 0 = Pipeline.scopedRest spec1 c from rfl]
    iintro ⟨-, -, Hr⟩
    iexact Hr
  hout c := by
    rw [Pipeline.ownSems0_none, show (dats (Name := Name) (U := U) (Lvl := Lvl) V B 0 c).Φ (Fin.last cfg1.N) = Pipeline.scopedRest spec1 c from rfl]
    try dsimp only
    iintro Hr
    isplitr; · iempintro
    isplitr; · iempintro
    iexact Hr
  hexit c := by
    unfold tcPost winArrs
    rw [Pipeline.arrays_eq (Pipeline.pin (pcfgs (F := F)) adm) (dats V B) 0 c launch1.arr_whole ((𝔡 c).share_full fun _ => rfl)]
    iintro ⟨Ha, HO, -, -⟩
    imodintro
    isplitl [Ha]; · iexact Ha
    iexact HO

theorem region_pre (L : GSem nD τ sig → Finset Ix) (lv : GSem nD τ sig → Ix → Lvl) (c : Dev nD) :
    (region (Name := Name) (U := U) V B 𝒱₀ ι L lv).pre c = tcPre V B c := rfl
theorem region_post (L : GSem nD τ sig → Finset Ix) (lv : GSem nD τ sig → Ix → Lvl) (c : Dev nD) :
    (region (Name := Name) (U := U) V B 𝒱₀ ι L lv).post c = tcPost V B ι c := rfl

/-! ## The staging cells' ghost state, out of the launch element -/

/-- From the rounds algebra's launch element at the call's staging cells and transfers: every core's cells' ghost
    state and duty tokens, what the region's entry takes. -/
theorem ghost_deal (EP : Emb (URounds (GSem nD τ sig) Unit) (MT nD τ sig Ix (Elt F) Name U Lvl)) :
    BI.own (EP (initOf (Pipeline.cells (Pipeline.pin (pcfgs (F := F)) adm) cellOf_inj) (Pipeline.launchToks (Pipeline.pin (pcfgs (F := F)) adm) cellOf_inj)))
      ⊢ iprop(|==> bigSep Finset.univ fun c : Dev nD =>
          iprop(Pipeline.cellsGhost (Pipeline.pin (pcfgs (F := F)) adm) EP 0 c ∗ (Pipeline.toksInit (Pipeline.pin (pcfgs (F := F)) adm) EP 0 c : sProp 𝕄))) := by
  refine (Pipeline.fund_ghost (Pipeline.pin (pcfgs (F := F)) adm) EP cellOf_inj).trans (BI.bupd_mono ?_)
  rw [← bigSep_sep']
  refine bigSep_mono fun c _ => ?_
  rw [show (Finset.univ : Finset (Fin 1)) = {0} from rfl, BI.bigSep_singleton, BI.bigSep_singleton]
  exact BI.Entails.refl _

end Cert.KernelIdeal.Tc

end
-- ==== Proof.TcCall.lean ====
/-
  The layer-norm call's step in the host program's proof: from the region boundary, the seven window arrays at `V`,
  the core owing nothing, the level facts and the staging cells' ghost state, the call runs to the boundary and the
  arrays after the call, for the continuation. It is the library's rule for a region at this call's record.
-/
import proofs.«200098_g2130303779034_cont_8to1_582_42_alg».proof.Proof.TcRegion

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (𝒱₀ : Variants) (ι : Ix)

set_option backward.isDefEq.respectTransparency.types false in
/-- The call under any host bound `bd` that leaves room for its trips. -/
theorem call_wp [Infinite Name] (L : GSem nD τ sig → Finset Ix) (lv : GSem nD τ sig → Ix → Lvl)
    (EP : Emb (URounds (GSem nD τ sig) Unit) (MT nD τ sig Ix (Elt F) Name U Lvl)) [EP.LandsIn (upEmb : UEmb _ 𝕄)]
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ tcPost V B ι c) -∗ wp frame (wpE (Pipeline.defs (pcfgs (F := F)) defs₀) (Variants.lift 𝒱₀) (c.tc : Thread nD τ) bd) Set.univ (k ⟨⟩) Q)
        ∗ boundary (c.tc : Thread nD τ) ∗ tcPre V B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ (.op (.customCall (Pipeline.entry 0) ()) k) Q :=
  Pipeline.RegionSeg.wp (pcfgs (F := F)) adm (dats V B) ι cellOf_inj EP defs₀ 𝒱₀ L lv (region V B 𝒱₀ ι L lv) c bd hv k Q

end Cert.KernelIdeal.Tc

end
-- ==== Proof.TcIo.lean ====
/-
  The layer-norm call against a core's whole set of unscoped buffers: going in, the buffers at `V` split into the seven
  window arrays (what the call takes) and the seven others; coming out, the arrays after the call and the others are
  the buffers at `V` with the result array's contents replaced.
-/
import proofs.«200098_g2130303779034_cont_8to1_582_42_alg».proof.Proof.TcRegion

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (ι : Ix)

local notation "𝔡" => dat (Name := Name) (U := U) (Lvl := Lvl) V B

/-- Going in: the unscoped buffers at `V` and the core owing nothing are what the call takes and the seven other buffers. -/
theorem region_in (c : Dev nD) :
    iprop(unscopedBufs c (V c) ∗ Pipeline.owesWithin c (0 : CellTallies nD τ sig Ix) B)
      ⊢ (iprop(tcPre V B c ∗ Pipeline.unscopedRest spec1 c (V c)) : sProp 𝕄) := by
  rw [unscopedBufs_split V c]
  unfold tcPre
  iintro ⟨⟨Ha, Hr⟩, HO⟩
  isplitr [Hr]
  · isplitl [Ha]; · iexact Ha
    iexact HO
  · iexact Hr

/-- Coming out: what the call returns and the seven other buffers are the unscoped buffers at `V` with the result array
    at its contents after the call. -/
theorem region_out (c : Dev nD) :
    iprop(tcPost V B ι c ∗ Pipeline.unscopedRest spec1 c (V c))
      ⊢ (iprop(unscopedBufs c (Function.update (V c) main_v6 ((𝔡 c).arrAt 6 cfg1.N))
          ∗ Pipeline.owesWithin c (0 : CellTallies nD τ sig Ix) (B ∪ cfg1.waitPairs ι)) : sProp 𝕄) := by
  have hG : ∀ w : Fin 7, Function.update (V c) main_v6 ((𝔡 c).arrAt 6 cfg1.N) (Pipeline.arrRef spec1 w) = (𝔡 c).arrAt w cfg1.N := fun w => by
    match w with
    | ⟨0, _⟩ => exact (Function.update_of_ne (show main_v5 ≠ main_v6 by decide) _ _).trans (arrAt_in0 V B c _).symm
    | ⟨1, _⟩ => exact (Function.update_of_ne (show main_arg1 ≠ main_v6 by decide) _ _).trans (arrAt_in1 V B c _).symm
    | ⟨2, _⟩ => exact (Function.update_of_ne (show main_v0 ≠ main_v6 by decide) _ _).trans (arrAt_in2 V B c _).symm
    | ⟨3, _⟩ => exact (Function.update_of_ne (show main_arg4 ≠ main_v6 by decide) _ _).trans (arrAt_in3 V B c _).symm
    | ⟨4, _⟩ => exact (Function.update_of_ne (show main_v1 ≠ main_v6 by decide) _ _).trans (arrAt_in4 V B c _).symm
    | ⟨5, _⟩ => exact (Function.update_of_ne (show main_v2 ≠ main_v6 by decide) _ _).trans (arrAt_in5 V B c _).symm
    | ⟨6, _⟩ => exact Function.update_self _ _ _
  have hrest : ∀ b : Ref sig .tc, (∀ w, b ≠ Pipeline.arrRef spec1 w) → Function.update (V c) main_v6 ((𝔡 c).arrAt 6 cfg1.N) b = V c b :=
    fun b hb => Function.update_of_ne (hb 6) _ _
  unfold tcPost
  iintro ⟨⟨Ha, HO⟩, Hr⟩
  isplitr [HO]
  · iapply (unscopedBufs_join V c (Function.update (V c) main_v6 ((𝔡 c).arrAt 6 cfg1.N)) (fun w => (𝔡 c).arrAt w cfg1.N) hG hrest)
    isplitl [Ha]; · iexact Ha
    iexact Hr
  · iexact HO

end Cert.KernelIdeal.Tc

end
-- ==== Proof.ScOps.lean ====
/-
  Four steps of the host program's proof around the gather call.

  Before the call the TensorCore holds the flat index list, the table and the gathered array whole; the call takes, per
  SparseCore, its sixteen tiles' words and rows and a read share of the table, so the table's full share is cut into one
  token per SparseCore and a remainder the TensorCore keeps until the tokens come back. After the call the pieces join
  again. Around the layer-norm call the TensorCore's debt record (nothing owed, its recorded waits at levels at most 8)
  is lent out and taken back with the staging cells' waits added, which sit at level 0. At the end, a buffer held
  whole is what the final memory holds.
-/
import proofs.«200098_g2130303779034_cont_8to1_582_42_alg».proof.Proof.ScLaunch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fi : (d : Dev nD) → Buf (Elt F) (iLoc d)) (ft : (d : Dev nD) → Buf (Elt F) (tLoc d)) (fo : (d : Dev nD) → Buf (Elt F) (oLoc d))

/-- Handing the call its operands: the two arrays as the tiles' pieces, the table as a token per SparseCore and the
    remainder kept. -/
theorem st0_split (d : Dev nD) :
    iprop((iLoc d ↦{fullShare} fi d) ∗ (tLoc d ↦{fullShare} ft d) ∗ (oLoc d ↦{fullShare} fo d))
      ⊢ (iprop((bigSep Finset.univ fun c : Fin ((K (F := F)).nCore 0) => (P fi ft fo).st 0 d c)
          ∗ (tLoc d ↦{Transfers.shareDrop fullShare 2} ft d)) : sProp 𝕄) := by
  show _ ⊢ iprop((bigSep Finset.univ fun c : Fin 2 => iprop((bigSep Finset.univ fun s : Fin 16 => iTilePts fi d (coordsV c s))
        ∗ (tLoc d ↦{coreShare c} ft d)
        ∗ bigSep Finset.univ fun s : Fin 16 => oTilePts d (coordsV c s) (fo d)))
      ∗ (tLoc d ↦{Transfers.shareDrop fullShare 2} ft d))
  rw [bigSep_sep', bigSep_sep', iPts_tiles (F := F) d (fi d), oPts_tiles (F := F) d (fo d)]
  have htok := Transfers.pointsTo_toks (ℓ := tLoc d) (S := Finset.univ) (f := ft d) (nD := nD) (τ := τ) (sig := sig) (Ix := HIx 1) (Val := Elt F) (Name := ℕ) (U := UU) (Lvl := ℕ)
    fullShare 2
  iintro ⟨Hi, Ht, Ho⟩
  ihave Htk := htok.1 $$ Ht
  icases Htk with ⟨Htd, Hts⟩
  isplitr [Htd]
  · isplitl [Hi]; · iexact Hi
    isplitl [Hts]; · iexact Hts
    iexact Ho
  · iexact Htd

/-- Taking them back: the pieces join, the tokens and the remainder make the table's full share again; the gathered
    array comes back at some contents. -/
theorem dn0_join (d : Dev nD) :
    iprop((bigSep Finset.univ fun c : Fin ((K (F := F)).nCore 0) => (P fi ft fo).dn 0 d c)
        ∗ (tLoc d ↦{Transfers.shareDrop fullShare 2} ft d))
      ⊢ (iprop((iLoc d ↦{fullShare} fi d) ∗ (tLoc d ↦{fullShare} ft d) ∗ ∃ f, oLoc d ↦{fullShare} f) : sProp 𝕄) := by
  show iprop((bigSep Finset.univ fun c : Fin 2 => iprop((bigSep Finset.univ fun s : Fin 16 => iTilePts fi d (coordsV c s))
        ∗ (tLoc d ↦{coreShare c} ft d)
        ∗ bigSep Finset.univ fun s : Fin 16 => iprop(∃ f, oTilePts d (coordsV c s) f)))
      ∗ (tLoc d ↦{Transfers.shareDrop fullShare 2} ft d)) ⊢ _
  rw [bigSep_sep', bigSep_sep', iPts_tiles (F := F) d (fi d)]
  have htok := Transfers.pointsTo_toks (ℓ := tLoc d) (S := Finset.univ) (f := ft d) (nD := nD) (τ := τ) (sig := sig) (Ix := HIx 1) (Val := Elt F) (Name := ℕ) (U := UU) (Lvl := ℕ)
    fullShare 2
  iintro ⟨⟨Hi, Hts, Ho⟩, Htd⟩
  isplitl [Hi]; · iexact Hi
  isplitl [Htd Hts]
  · iapply htok.2
    isplitl [Htd]; · iexact Htd
    iexact Hts
  iapply (oTiles_join (F := F) d)
  iexact Ho

/-- The pairs the TensorCore's waits may have recorded after the gather call: at levels at most 8. -/
abbrev B8 (d : Dev nD) : Set (SemLoc sig × HIx 1) := {p | (K (F := F)).lev (SparseCore.T d, p.1) p.2 ≤ 8}

/-- After the one SparseCore call the TensorCore owes nothing: its debt record can be lent to the layer-norm call and
    taken back with the staging cells' pairs (index none, level 0) added. -/
theorem tcSt_open (d : Dev nD) :
    (K (F := F)).tcSt EH d 1
      ⊢ (iprop(Pipeline.owesWithin d (0 : CellTallies nD τ sig (HIx 1)) (B8 (F := F) d)
          ∗ (Pipeline.owesWithin d (0 : CellTallies nD τ sig (HIx 1)) (B8 (F := F) d ∪ cfg1.waitPairs (none : HIx 1)) -∗ (K (F := F)).tcSt EH d 1)) : sProp 𝕄) := by
  unfold SparseCore.Cfg.tcSt
  rw [(K (F := F)).Otc_end d le_rfl]
  iintro ⟨⟨%W, %hW, HO⟩, Hrest⟩
  isplitl [HO]
  · iexists W; isplitr
    · ipureintro; intro p hp
      have := hW p (Finset.mem_coe.mp hp)
      show (K (F := F)).lev (SparseCore.T d, p.1) p.2 ≤ 8
      omega
    · iexact HO
  iintro ⟨%W', %hW', HO'⟩
  isplitl [HO']
  · iexists W'; isplitr
    · ipureintro; intro p hp
      rcases hW' (Finset.mem_coe.mpr hp) with h | ⟨w, s, rfl⟩
      · have h' : (K (F := F)).lev (SparseCore.T d, p.1) p.2 ≤ 8 := h
        omega
      · show (K (F := F)).lev (SparseCore.T d, _) none ≤ 8 * 1
        rw [(K (F := F)).lev_none]; omega
    · iexact HO'
  iexact Hrest

/-- A core's unscoped buffers held whole say what the memory holds at each of them. -/
theorem unscoped_agree (d : Dev nD) (Vf : (b : Ref sig .tc) → Buf (Elt F) ((d.tc : Thread nD τ).loc b)) (s' : Phys nD τ sig (Elt F))
    (b : Ref sig .tc) (hb : b.isScoped = false) :
    iprop(unscopedBufs d Vf ∗ SI s') ⊢ (iprop(⌜s'.mem.mem ((SparseCore.T d).loc b) = Vf b⌝ ∗ unscopedBufs d Vf ∗ SI s') : sProp 𝕄) := by
  have hmem : b ∈ (Finset.univ.filter fun b : Ref sig .tc => ¬ b.isScoped) :=
    Finset.mem_filter.mpr ⟨Finset.mem_univ _, by simp [hb]⟩
  have h1 : iprop(unscopedBufs d Vf ∗ SI s') ⊢ (⌜s'.mem.mem ((SparseCore.T d).loc b) = Vf b⌝ : sProp 𝕄) := by
    unfold unscopedBufs
    refine (pointsTo_read_all (Finset.univ.filter fun b : Ref sig .tc => ¬ b.isScoped) (fun b => (d.tc : Thread nD τ).loc b) Vf s').trans ?_
    iintro ⟨%h, -⟩
    ipureintro; exact h b hmem
  exact persistent_entails_right h1

end Cert.KernelIdeal.Sc

end
-- ==== Proof.ScMain.lean ====
/-
  @main on the TensorCore around the two kernels, and the program's run.
  Four host operations prepare the operands (the first 200 rows of the position table, the two layer-norm rows as [1, 128],
  the index list flattened); the gather runs on the SparseCores; its result, reshaped to [1024, 200, 128], enters the
  layer-norm pallas_call with the token types, the position rows, the segment table and the two rows. No argument array is
  written by any of them.
-/
import proofs.«200098_g2130303779034_cont_8to1_582_42_alg».proof.Proof.ScLaunch
import proofs.«200098_g2130303779034_cont_8to1_582_42_alg».proof.Proof.TcCall
import proofs.«200098_g2130303779034_cont_8to1_582_42_alg».proof.Proof.TcIo
import proofs.«200098_g2130303779034_cont_8to1_582_42_alg».proof.Proof.ScOps

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

/-- The pipeline's rounds inside the certificate's ghost state. -/
abbrev EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

variable [FloatOps F]

/-! ## The TensorCore's unscoped arrays, held whole -/

abbrev rr (b : Ref sig .tc) : DevRef τ sig := Proc.devRef .tc b

abbrev S14 : Finset (DevRef τ sig) := (Finset.univ.filter fun b : Ref sig .tc => ¬ b.isScoped).image rr

omit [FloatOps F] in
theorem mem_S14 (b : Ref sig .tc) (h : b.isScoped = false) : rr b ∈ S14 :=
  Finset.mem_image.mpr ⟨b, Finset.mem_filter.mpr ⟨Finset.mem_univ _, by simp [h]⟩, rfl⟩

omit [FloatOps F] in
theorem unscoped_held (d : Dev nD) (W : Valuation τ sig (Elt F)) :
    (unscopedBufs d (fun b => W (rr b)) : sProp 𝕄) = held (T d) S14 W := by
  unfold unscopedBufs held S14
  exact (SparseCore.bigSep_image_of_injOn (f := rr) (fun a _ b _ e => Proc.devRef_injective _ e)
    (fun b => (((SparseCore.T d).1, b) ↦{fullShare} W b : sProp 𝕄))).symm

/-! ## The host operations -/

abbrev op0 : HloOp τ sig (Elt F) := StableHlo.unary main_arg3 main_v0 ((extractStridedSlice S200x128 ![0, 0] · slices_S512x128_S200x128_0_0) : (⟨S512x128, .f32⟩ : BufTy).Contents (Elt F) → (⟨S200x128, .f32⟩ : BufTy).Contents (Elt F))
abbrev op1 : HloOp τ sig (Elt F) := StableHlo.reshape main_arg5 main_v1 rfl shapeCasts_S128_S1x128
abbrev op2 : HloOp τ sig (Elt F) := StableHlo.reshape main_arg6 main_v2 rfl shapeCasts_S128_S1x128
abbrev op3 : HloOp τ sig (Elt F) := StableHlo.reshape main_arg0 main_v3 rfl shapeCasts_S1024x200_S204800
abbrev op5 : HloOp τ sig (Elt F) := StableHlo.reshape main_v4 main_v5 rfl shapeCasts_S204800x128_S1024x200x128

theorem hop0 : (op0 (F := F)).bufs ⊆ S14 := by
  show ({rr main_arg3, rr main_v0} : Finset (DevRef τ sig)) ⊆ S14
  intro x hx; rcases Finset.mem_insert.mp hx with rfl | hx
  · exact mem_S14 _ rfl
  · rw [Finset.mem_singleton] at hx; subst hx; exact mem_S14 _ rfl
theorem hop1 : (op1 (F := F)).bufs ⊆ S14 := by
  show ({rr main_arg5, rr main_v1} : Finset (DevRef τ sig)) ⊆ S14
  intro x hx; rcases Finset.mem_insert.mp hx with rfl | hx
  · exact mem_S14 _ rfl
  · rw [Finset.mem_singleton] at hx; subst hx; exact mem_S14 _ rfl
theorem hop2 : (op2 (F := F)).bufs ⊆ S14 := by
  show ({rr main_arg6, rr main_v2} : Finset (DevRef τ sig)) ⊆ S14
  intro x hx; rcases Finset.mem_insert.mp hx with rfl | hx
  · exact mem_S14 _ rfl
  · rw [Finset.mem_singleton] at hx; subst hx; exact mem_S14 _ rfl
theorem hop3 : (op3 (F := F)).bufs ⊆ S14 := by
  show ({rr main_arg0, rr main_v3} : Finset (DevRef τ sig)) ⊆ S14
  intro x hx; rcases Finset.mem_insert.mp hx with rfl | hx
  · exact mem_S14 _ rfl
  · rw [Finset.mem_singleton] at hx; subst hx; exact mem_S14 _ rfl
theorem hop5 : (op5 (F := F)).bufs ⊆ S14 := by
  show ({rr main_v4, rr main_v5} : Finset (DevRef τ sig)) ⊆ S14
  intro x hx; rcases Finset.mem_insert.mp hx with rfl | hx
  · exact mem_S14 _ rfl
  · rw [Finset.mem_singleton] at hx; subst hx; exact mem_S14 _ rfl

section Main

variable (m : (ℓ : Loc nD τ sig) → Buf (Elt F) ℓ) (ρ : Dev nD → PrngReg)

/-- The launch valuation, the valuation before the gather, after it (the gathered array at f), and after the reshape. -/
abbrev V0 (d : Dev nD) : Valuation τ sig (Elt F) := fun b => m (d, b)
abbrev V4 (d : Dev nD) : Valuation τ sig (Elt F) := (op3 (F := F)).result ((op2 (F := F)).result ((op1 (F := F)).result ((op0 (F := F)).result (V0 m d))))
abbrev V5 (d : Dev nD) (f : Buf (Elt F) (oLoc d)) : Valuation τ sig (Elt F) := Function.update (V4 m d) (rr main_v4) f
abbrev V6 (d : Dev nD) (f : Buf (Elt F) (oLoc d)) : Valuation τ sig (Elt F) := (op5 (F := F)).result (V5 m d f)

/-- The flat index list the gather reads: the reshape of the token ids. -/
abbrev fiOf (d : Dev nD) : Buf (Elt F) (iLoc d) := V4 m d (rr main_v3)

theorem V4_arg2 (d : Dev nD) : V4 m d (rr main_arg2) = m (tLoc d) := by
  unfold V4
  rw [(op3 (F := F)).result_of_not_mem _ (show rr main_arg2 ∉ ({rr main_v3} : Finset (DevRef τ sig)) by decide),
    (op2 (F := F)).result_of_not_mem _ (show rr main_arg2 ∉ ({rr main_v2} : Finset (DevRef τ sig)) by decide),
    (op1 (F := F)).result_of_not_mem _ (show rr main_arg2 ∉ ({rr main_v1} : Finset (DevRef τ sig)) by decide),
    (op0 (F := F)).result_of_not_mem _ (show rr main_arg2 ∉ ({rr main_v0} : Finset (DevRef τ sig)) by decide)]
theorem V4_v4 (d : Dev nD) : V4 m d (rr main_v4) = m (oLoc d) := by
  unfold V4
  rw [(op3 (F := F)).result_of_not_mem _ (show rr main_v4 ∉ ({rr main_v3} : Finset (DevRef τ sig)) by decide),
    (op2 (F := F)).result_of_not_mem _ (show rr main_v4 ∉ ({rr main_v2} : Finset (DevRef τ sig)) by decide),
    (op1 (F := F)).result_of_not_mem _ (show rr main_v4 ∉ ({rr main_v1} : Finset (DevRef τ sig)) by decide),
    (op0 (F := F)).result_of_not_mem _ (show rr main_v4 ∉ ({rr main_v0} : Finset (DevRef τ sig)) by decide)]

/-- The call's three operands among the unscoped arrays. -/
abbrev T3 : Finset (DevRef τ sig) := {rr main_v3, rr main_arg2, rr main_v4}
omit [FloatOps F] in
theorem hT3 : T3 ⊆ S14 := by
  intro x hx
  rcases Finset.mem_insert.mp hx with rfl | hx; · exact mem_S14 _ rfl
  rcases Finset.mem_insert.mp hx with rfl | hx; · exact mem_S14 _ rfl
  rw [Finset.mem_singleton] at hx; subst hx; exact mem_S14 _ rfl

omit [FloatOps F] in
theorem held_T3 (d : Dev nD) (W : Valuation τ sig (Elt F)) :
    (held (T d) T3 W : sProp 𝕄) = iprop((iLoc d ↦{fullShare} W (rr main_v3)) ∗ (tLoc d ↦{fullShare} W (rr main_arg2)) ∗ (oLoc d ↦{fullShare} W (rr main_v4))) := by
  unfold held T3
  rw [SparseCore.bigSep_insert' (by decide), SparseCore.bigSep_insert' (by decide), bigSep_singleton]

omit [FloatOps F] in
theorem held_split3 (d : Dev nD) (W : Valuation τ sig (Elt F)) :
    (held (T d) S14 W : sProp 𝕄) ⊢ iprop((iLoc d ↦{fullShare} W (rr main_v3)) ∗ (tLoc d ↦{fullShare} W (rr main_arg2)) ∗ (oLoc d ↦{fullShare} W (rr main_v4)) ∗ held (T d) (S14 \ T3) W) := by
  rw [held_sub_split (T d) hT3 W, held_T3]
  iintro ⟨⟨Hi, Ht, Ho⟩, Hr⟩
  isplitl [Hi]; · iexact Hi
  isplitl [Ht]; · iexact Ht
  isplitl [Ho]; · iexact Ho
  iexact Hr
omit [FloatOps F] in
theorem held_join3 (d : Dev nD) (W : Valuation τ sig (Elt F)) :
    iprop((iLoc d ↦{fullShare} W (rr main_v3)) ∗ (tLoc d ↦{fullShare} W (rr main_arg2)) ∗ (oLoc d ↦{fullShare} W (rr main_v4)) ∗ held (T d) (S14 \ T3) W) ⊢ (held (T d) S14 W : sProp 𝕄) := by
  rw [held_sub_split (T d) hT3 W, held_T3]
  iintro ⟨Hi, Ht, Ho, Hr⟩
  isplitr [Hr]; · isplitl [Hi]; · iexact Hi
                  isplitl [Ht]; · iexact Ht
                  iexact Ho
  iexact Hr
omit [FloatOps F] in
theorem held_rest_update (d : Dev nD) (W : Valuation τ sig (Elt F)) (f : Buf (Elt F) (oLoc d)) :
    (held (T d) (S14 \ T3) (Function.update W (rr main_v4) f) : sProp 𝕄) = held (T d) (S14 \ T3) W := by
  unfold held
  refine bigSep_congr fun b hb => ?_
  have hne : b ≠ rr main_v4 := fun e => (Finset.mem_sdiff.mp hb).2 (by subst e; simp [T3])
  rw [Function.update_of_ne hne]

/-! ## The launch element of the certificate's ghost state -/

def uP : UP := initOf (Pipeline.cells (Pipeline.pin (pcfgs (F := F)) Tc.adm) cellOf_inj) (Pipeline.launchToks (Pipeline.pin (pcfgs (F := F)) Tc.adm) cellOf_inj)
def u₀ : UU := (initOf (K (F := F)).hsCells (K (F := F)).hsToks, (uP (F := F), (1 : Counters)))

/-- What the launch deals the TensorCore beyond the library's: the pallas_call's staging cells' ghost state and duty tokens. -/
abbrev G (d : Dev nD) : sProp 𝕄 :=
  iprop(Pipeline.cellsGhost (Pipeline.pin (pcfgs (F := F)) Tc.adm) EP 0 d ∗ Pipeline.toksInit (Pipeline.pin (pcfgs (F := F)) Tc.adm) EP 0 d)

omit [FloatOps F] in
theorem bigSep_emp' {I : Type} (s : Finset I) : (bigSep s fun _ => iprop(emp)) = (iprop(emp) : sProp 𝕄) := bigSep_emp_const s

theorem hu₀ (fi : (d : Dev nD) → Buf (Elt F) (iLoc d)) (ft : (d : Dev nD) → Buf (Elt F) (tLoc d)) (fo : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fi ft fo).x q thr) := by
  unfold u₀ uP
  iintro Hu
  ihave H := (ownU_pair (initOf (K (F := F)).hsCells (K (F := F)).hsToks) ((initOf (Pipeline.cells (Pipeline.pin (pcfgs (F := F)) Tc.adm) cellOf_inj) (Pipeline.launchToks (Pipeline.pin (pcfgs (F := F)) Tc.adm) cellOf_inj), (1 : Counters)))) $$ Hu
  icases H with ⟨HH, HR⟩
  ihave H2 := (own_pair_emb (embR : Emb (UP × Counters) 𝕄) (initOf (Pipeline.cells (Pipeline.pin (pcfgs (F := F)) Tc.adm) cellOf_inj) (Pipeline.launchToks (Pipeline.pin (pcfgs (F := F)) Tc.adm) cellOf_inj)) (1 : Counters)) $$ HR
  icases H2 with ⟨HP, -⟩
  imod (Tc.ghost_deal (F := F) (EP (F := F))) $$ HP with HG
  imodintro
  isplitl [HH]; · iexact HH
  isplitl [HG]; · iexact HG
  rw [show (bigSep Finset.univ fun thr : Thread nD τ => bigSep Finset.univ fun q : Fin 1 => (P (F := F) fi ft fo).x q thr) = bigSep Finset.univ fun _ => iprop(emp) from
    bigSep_congr fun _ _ => bigSep_univ_of_subsingleton (0 : Fin 1), bigSep_emp']
  iempintro

/-! ## @main on the TensorCore -/

/-- What the call carries, at this launch memory: the flat index list at the reshape of the token ids, the table and the
    gathered array at their launch contents. -/
abbrev PP : (K (F := F)).Pay (nD := nD) (Val := Elt F) (Name := ℕ) (U := UU) := P (F := F) (fiOf m) (fun d => m (tLoc d)) (fun d => m (oLoc d))

/-- The arrays the pallas_call is entered with, as the library's valuation by reference. -/
abbrev Vt (d : Dev nD) (f : Buf (Elt F) (oLoc d)) : (c : Dev nD) → (b : Ref sig .tc) → Buf (Elt F) ((c.tc : Thread nD τ).loc b) := fun _ b => V6 m d f (rr b)

/-- The seven argument arrays. -/
abbrev argRefs : Finset (Ref sig .tc) := {main_arg0, main_arg1, main_arg2, main_arg3, main_arg4, main_arg5, main_arg6}

/-- No host operation and no kernel writes an argument array: after the reshape each is at its launch contents. -/
theorem V6_arg (d : Dev nD) (f : Buf (Elt F) (oLoc d)) : ∀ b ∈ (argRefs : Finset (Ref sig .tc)), V6 m d f (rr b) = m ((SparseCore.T d).loc b) := by
  intro b hb
  have key : ∀ b : Ref sig .tc, b ∈ (argRefs : Finset (Ref sig .tc)) → b ≠ main_v0 ∧ b ≠ main_v1 ∧ b ≠ main_v2 ∧ b ≠ main_v3 ∧ b ≠ main_v4 ∧ b ≠ main_v5 := by decide
  obtain ⟨h0, h1, h2, h3, h4, h5⟩ := key b hb
  have inj : ∀ {x y : Ref sig .tc}, x ≠ y → rr x ∉ ({rr y} : Finset (DevRef τ sig)) := fun h hm => h (Proc.devRef_injective _ (Finset.mem_singleton.mp hm))
  unfold V6 V5 V4
  rw [(op5 (F := F)).result_of_not_mem _ (inj h5), Function.update_of_ne (fun e => h4 (Proc.devRef_injective _ e)),
    (op3 (F := F)).result_of_not_mem _ (inj h3), (op2 (F := F)).result_of_not_mem _ (inj h2), (op1 (F := F)).result_of_not_mem _ (inj h1),
    (op0 (F := F)).result_of_not_mem _ (inj h0)]

/-- What @main leaves the claim: the unscoped arrays at contents that are the launch memory's at the seven arguments. -/
abbrev FIN (d : Dev nD) : sProp 𝕄 :=
  iprop(∃ Vf : (b : Ref sig .tc) → Buf (Elt F) ((d.tc : Thread nD τ).loc b), ⌜∀ b ∈ (argRefs : Finset (Ref sig .tc)), Vf b = m ((SparseCore.T d).loc b)⌝ ∗ unscopedBufs d Vf)

set_option maxHeartbeats 2000000 in
/-- @main on device d's TensorCore. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b => V0 m d (rr b)) from rfl, unscoped_held]
  simp only [main, wp_bind, wp_pure]
  iintro ⟨#Hctx, Hst, ⟨Hb, Hheld, Hsems, Hprng⟩, ⟨Hcg, Hti⟩⟩
  -- the four host operations before the gather
  iapply (wp_hlo_within 𝒱 (SparseCore.T d) none Set.univ (op := op0) (S := S14) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S14) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S14) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S14) hop3 (V := (op2 (F := F)).result ((op1 (F := F)).result ((op0 (F := F)).result (V0 m d))))) $$ [Hb Hheld]
  · isplitl [Hb] <;> iassumption
  iintro ⟨Hb, Hheld⟩
  rw [wp_ret]; imodintro
  -- the gather on the SparseCores
  ihave Hh := (held_split3 (F := F) d (V4 m d)) $$ Hheld
  icases Hh with ⟨Hi, Ht, Ho, Hrest⟩
  rw [V4_arg2, V4_v4]
  ihave Hs := (st0_split (F := F) (fiOf m) (fun d => m (tLoc d)) (fun d => m (oLoc d)) d) $$ [Hi Ht Ho]
  · isplitl [Hi]; · iexact Hi
    isplitl [Ht]; · iexact Ht
    iexact Ho
  icases Hs with ⟨Hst0, Htd⟩
  iapply ((K (F := F)).wp_run (D (F := F)) 𝒱 (EH := EH) (P := PP m) κ d 0) $$ [Hst Hst0 Hb Hrest Htd Hsems Hprng Hcg Hti]
  isplitr; · iexact Hctx
  isplitl [Hst]; · iexact Hst
  isplitl [Hst0]; · iexact Hst0
  iintro ⟨Hst, Hdn⟩
  ihave Hd := (dn0_join (F := F) (fiOf m) (fun d => m (tLoc d)) (fun d => m (oLoc d)) d) $$ [Hdn Htd]
  · isplitl [Hdn] <;> iassumption
  icases Hd with ⟨Hi, Ht, %f, Ho⟩
  -- the reshape of the gathered array
  ihave Hheld := (held_join3 (F := F) d (V5 m d f)) $$ [Hi Ht Ho Hrest]
  · rw [held_rest_update, show V5 m d f (rr main_v3) = fiOf m d from Function.update_of_ne (by decide) _ _,
      show V5 m d f (rr main_arg2) = m (tLoc d) from (Function.update_of_ne (by decide) _ _).trans (V4_arg2 m d),
      show V5 m d f (rr main_v4) = f from Function.update_self _ _ _]
    isplitl [Hi]; · iexact Hi
    isplitl [Ht]; · iexact Ht
    isplitl [Ho]; · iexact Ho
    iexact Hrest
  iapply (wp_hlo_within 𝒱 (SparseCore.T d) none Set.univ (op := op5) (S := S14) hop5 (V := V5 m d f)) $$ [Hb Hheld]
  · isplitl [Hb] <;> iassumption
  iintro ⟨Hb, Hheld⟩
  rw [wp_ret]; imodintro
  -- the layer-norm pallas_call
  ihave Hu := (Entails.of_eq (unscoped_held (F := F) d (V6 m d f)).symm) $$ Hheld
  ihave Hst := (Entails.of_eq (show (K (F := F)).tcSt EH d ((0 : Fin 1).val + 1) = (K (F := F)).tcSt EH d 1 from rfl)) $$ Hst
  ihave Ho2 := (tcSt_open (F := F) d) $$ Hst
  icases Ho2 with ⟨Hown, Hclose⟩
  ihave Hin := (Tc.region_in (F := F) (Vt m d f) (B8 (F := F) d) d) $$ [Hu Hown]
  · isplitl [Hu] <;> iassumption
  icases Hin with ⟨Hpre, Hur⟩
  ihave Hlv := (SparseCore.Cfg.ctx_levAts κ) $$ Hctx
  iapply ((K (F := F)).wp_liftProg (D (F := F)) 𝒱 (SparseCore.T d) Set.univ none (.op (.customCall (Pipeline.entry 0) ()) .ret) _)
  iapply (Tc.call_wp (F := F) (Vt m d f) (B8 (F := F) d) 𝒱₀ (none : HIx 1) (K (F := F)).L (K (F := F)).lev (EP (F := F)) d none (fun _ h => nomatch h) .ret _) $$ [Hb Hpre Hlv Hcg Hti Hur Hclose Hsems Hprng]
  isplitr [Hb Hpre Hlv Hcg Hti]
  · iintro ⟨Hb, Hpost⟩
    ihave Hout := (Tc.region_out (F := F) (Vt m d f) (B8 (F := F) d) (none : HIx 1) d) $$ [Hpost Hur]
    · isplitl [Hpost] <;> iassumption
    icases Hout with ⟨Hu, Hown⟩
    ihave Hst := Hclose $$ Hown
    rw [wp_ret]; imodintro; imodintro
    isplitl [Hst]; · iexact Hst
    iexists _
    isplitr
    swap; · iexact Hu
    ipureintro
    intro b hb
    have hne : b ≠ main_v6 := by revert b; decide
    rw [Function.update_of_ne hne]
    exact V6_arg m d f b hb
  · isplitl [Hb]; · iexact Hb
    isplitl [Hpre]; · iexact Hpre
    isplitl [Hlv]; · iexact Hlv
    isplitl [Hcg]; · iexact Hcg
    iexact Hti

/-! ## The final memory reads the claim -/

def fq (d : Dev nD) (s' : Phys nD τ sig (Elt F)) : Prop :=
  ∀ b ∈ (argRefs : Finset (Ref sig .tc)), s'.mem.mem ((SparseCore.T d).loc b) = m ((SparseCore.T d).loc b)

set_option maxRecDepth 16384 in
theorem hfin (d : Dev nD) (s' : Phys nD τ sig (Elt F)) : iprop(FIN m d ∗ SI s') ⊢ (⌜fq m d s'⌝ : sProp 𝕄) := by
  iintro ⟨⟨%Vf, %hV, Hu⟩, HSI⟩
  ihave H := (unscoped_agree (F := F) d Vf s' main_arg0 rfl) $$ [Hu HSI]
  · isplitl [Hu] <;> iassumption
  icases H with ⟨%h0, Hu, HSI⟩
  ihave H := (unscoped_agree (F := F) d Vf s' main_arg1 rfl) $$ [Hu HSI]
  · isplitl [Hu] <;> iassumption
  icases H with ⟨%h1, Hu, HSI⟩
  ihave H := (unscoped_agree (F := F) d Vf s' main_arg2 rfl) $$ [Hu HSI]
  · isplitl [Hu] <;> iassumption
  icases H with ⟨%h2, Hu, HSI⟩
  ihave H := (unscoped_agree (F := F) d Vf s' main_arg3 rfl) $$ [Hu HSI]
  · isplitl [Hu] <;> iassumption
  icases H with ⟨%h3, Hu, HSI⟩
  ihave H := (unscoped_agree (F := F) d Vf s' main_arg4 rfl) $$ [Hu HSI]
  · isplitl [Hu] <;> iassumption
  icases H with ⟨%h4, Hu, HSI⟩
  ihave H := (unscoped_agree (F := F) d Vf s' main_arg5 rfl) $$ [Hu HSI]
  · isplitl [Hu] <;> iassumption
  icases H with ⟨%h5, Hu, HSI⟩
  ihave H := (unscoped_agree (F := F) d Vf s' main_arg6 rfl) $$ [Hu HSI]
  · isplitl [Hu] <;> iassumption
  icases H with ⟨%h6, Hu, HSI⟩
  ipureintro
  intro b hb
  simp only [argRefs, Finset.mem_insert, Finset.mem_singleton] at hb
  rcases hb with rfl | rfl | rfl | rfl | rfl | rfl | rfl
  · exact h0.trans (hV _ (by decide))
  · exact h1.trans (hV _ (by decide))
  · exact h2.trans (hV _ (by decide))
  · exact h3.trans (hV _ (by decide))
  · exact h4.trans (hV _ (by decide))
  · exact h5.trans (hV _ (by decide))
  · exact h6.trans (hV _ (by decide))

/-! ## The program's run -/

def QC : PUnit × MemSt nD τ sig (Elt F) → Prop := fun r =>
  ∀ c : Dev nD, ∀ b ∈ (argRefs : Finset (Ref sig .tc)), r.2.mem ((SparseCore.T c).loc b) = m ((SparseCore.T c).loc b)

/-- Every weakly fair execution of the kernel program from m terminates, faults nowhere and leaves the seven argument
    arrays as they were, provided every word of the flattened token ids names a row of the table. -/
theorem run_main [∀ e, Nonempty (Elt F e)] (hfi : ∀ d j, (fiOf m d j).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fiOf m) (fun d => m (tLoc d)) (fun d => m (oLoc d)) facts hfi)
    (fun q _ => match q with | 0 => SparseCore.Cfg.VecSplit.of_plain (vecSplit (fiOf m) (fun d => m (tLoc d)) (fun d => m (oLoc d))))
    m ρ main (fun d => G (F := F) d) (FIN m) (u₀ (F := F)) (sep_elim_left.trans (hu₀ (fiOf m) (fun d => m (tLoc d)) (fun d => m (oLoc d))))
    (hmain m ρ) (fq m) (hfin m) (QC m) (fun _ h => h)

end Main

end Cert.KernelIdeal.Sc

end
-- ==== Proof.RefPre.lean ====
/-
  The precondition decoded. The printed predicate is a conjunction of seven "all entries" tests, each an "and" over a
  whole array from the constant one: every entry of the five float arrays has absolute value below +infinity, every
  token id is between 0 and 99999 and every segment id between 0 and 1 (signed comparisons). That the predicate is one
  says each test is one at every entry. Read at the words: an id between 0 and 99999 as a signed integer is a word
  whose unsigned value is at most 99999. Read at the extended reals: a value whose absolute value is below +infinity
  is a real number.
-/
import proofs.«200098_g2130303779034_cont_8to1_582_42_alg».proof.Proof.Gen.Pre_input_domain
import Idealize.ShloMosaic.Lib.ReduceAll
import Idealize.ShloMosaic.Lib.IdealHost
import Idealize.ShloMosaic.PureOps.Ideal

noncomputable section

namespace Cert.RefSide

open Cert.Pre_input_domain Cert.Pre_input_domain.Gen Idealize.ShloMosaic Idealize.ShloMosaic.ValueIdx

/-- The rank-zero shape has one index. -/
instance subsingleton_scalar_idx : Subsingleton S_.Idx := ⟨fun a b => funext fun d => d.elim0⟩

/-- A word between 0 and `M` as a signed integer has unsigned value at most `M`. -/
theorem toNat_le_of_toInt {x : BitVec 32} {M : Nat} (h0 : (0 : Int) ≤ x.toInt) (h1 : x.toInt ≤ (M : Int)) :
    x.toNat ≤ M := by
  rw [BitVec.toInt_eq_toNat_cond] at h0 h1
  have hlt := x.isLt
  by_cases hx : 2 * x.toNat < 2 ^ 32
  · rw [if_pos hx] at h0 h1; omega
  · rw [if_neg hx] at h0 h1; omega

/-- The range test of one id, read back. -/
theorem range_of_test {S : Shape} (bc : S_.BroadcastsInDim S ![]) (v : IVec S 32) (hi : Nat) (hhi : hi < 2147483648)
    (i : S.Idx)
    (h : andi (cmpi .sge v (broadcastInDim S ![] bc (constantI S_ 32 0#32)))
          (cmpi .sle v (broadcastInDim S ![] bc (constantI S_ 32 (BitVec.ofNat 32 hi)))) i = 1#1) :
    (v i).toNat ≤ hi := by
  obtain ⟨hge, hle⟩ := IntOp.andi_eq_one.1 h
  have hge' : ((broadcastInDim S ![] bc (constantI S_ 32 0#32)) i).toInt ≤ (v i).toInt := IntOp.cmpi_sge.1 hge
  have hle' : (v i).toInt ≤ ((broadcastInDim S ![] bc (constantI S_ 32 (BitVec.ofNat 32 hi))) i).toInt :=
    IntOp.cmpi_sle.1 hle
  rw [broadcastInDim_scalar_apply] at hge' hle'
  have e0 : (constantI S_ 32 0#32 ix0).toInt = 0 := by decide
  have e1 : (constantI S_ 32 (BitVec.ofNat 32 hi) ix0).toInt = (hi : Int) := by
    show (BitVec.ofNat 32 hi).toInt = (hi : Int)
    rw [BitVec.toInt_eq_toNat_cond, BitVec.toNat_ofNat, Nat.mod_eq_of_lt (by omega), if_pos (by omega)]
  rw [e0] at hge'; rw [e1] at hle'
  exact toNat_le_of_toInt hge' hle'

section Decode

variable {F : FTy → Type} [FloatOps F]

/-- The predicate's seven tests, each at every entry: the five "finite" tests as the instance's comparison of the
    absolute value with the word of +infinity, the two ranges over the words. -/
theorem pre_conj (a0 a1 : IVec S1024x200 32) (a2 : FVec F S100000x128 .f32) (a3 : FVec F S512x128 .f32) (a4 : FVec F S2x128 .f32) (a5 a6 : FVec F S128 .f32)
    (h : Cert.Pre_input_domain.fn (F := F) a0 a1 a2 a3 a4 a5 a6 = (fun _ => 1#1)) :
    (∀ i, FloatOps.cmpf .olt (FloatOps.hostAbsf (a2 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ i, FloatOps.cmpf .olt (FloatOps.hostAbsf (a5 i)) (FloatOps.ofBits (F := F) .f32 0x7F800000#32) = 1#1)
    ∧ (∀ i, FloatOps.cmpf .olt (FloatOps.hostAbsf (a6 i)) (FloatOps.ofBits (F := F) .f32 0x7F800000#32) = 1#1)
    ∧ (∀ i, (a0 i).toNat ≤ 99999) ∧ (∀ i, (a1 i).toNat ≤ 1) := by
  have h0 := congrFun h ix0
  dsimp only [fn, fn_part1, fn_part2] at h0
  obtain ⟨h30, h36⟩ := IntOp.andi_eq_one.1 h0
  obtain ⟨h23, h29⟩ := IntOp.andi_eq_one.1 h30
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun i => ?_, fun i => ?_, fun i => ?_, fun i => ?_, fun i => ?_, fun i => ?_, fun i => ?_⟩
  · have e := Host.reduce_andi_all _ _ _ _ ix0 h3 i
    have e' : FloatOps.cmpf .olt (FloatOps.hostAbsf (a2 i))
        (broadcastInDim S100000x128 ![] bcast_S_S100000x128 (constant (F := F) S_ .f32 0x7F800000#32) i) = 1#1 := e
    rw [broadcastInDim_scalar_apply] at e'
    exact e'
  · have e := Host.reduce_andi_all _ _ _ _ ix0 h7 i
    have e' : FloatOps.cmpf .olt (FloatOps.hostAbsf (a3 i))
        (broadcastInDim S512x128 ![] bcast_S_S512x128 (constant (F := F) S_ .f32 0x7F800000#32) i) = 1#1 := e
    rw [broadcastInDim_scalar_apply] at e'
    exact e'
  · have e := Host.reduce_andi_all _ _ _ _ ix0 h12 i
    have e' : FloatOps.cmpf .olt (FloatOps.hostAbsf (a4 i))
        (broadcastInDim S2x128 ![] bcast_S_S2x128 (constant (F := F) S_ .f32 0x7F800000#32) i) = 1#1 := e
    rw [broadcastInDim_scalar_apply] at e'
    exact e'
  · have e := Host.reduce_andi_all _ _ _ _ ix0 h17 i
    have e' : FloatOps.cmpf .olt (FloatOps.hostAbsf (a5 i))
        (broadcastInDim S128 ![] bcast_S_S128 (constant (F := F) S_ .f32 0x7F800000#32) i) = 1#1 := e
    rw [broadcastInDim_scalar_apply] at e'
    exact e'
  · have e := Host.reduce_andi_all _ _ _ _ ix0 h22 i
    have e' : FloatOps.cmpf .olt (FloatOps.hostAbsf (a6 i))
        (broadcastInDim S128 ![] bcast_S_S128 (constant (F := F) S_ .f32 0x7F800000#32) i) = 1#1 := e
    rw [broadcastInDim_scalar_apply] at e'
    exact e'
  · exact range_of_test bcast_S_S1024x200 a0 99999 (by decide) i (Host.reduce_andi_all _ _ _ _ ix0 h29 i)
  · exact range_of_test bcast_S_S1024x200 a1 1 (by decide) i (Host.reduce_andi_all _ _ _ _ ix0 h36 i)

/-- Every token id is a word of value at most 99999. -/
theorem ids_range (a0 a1 : IVec S1024x200 32) (a2 : FVec F S100000x128 .f32) (a3 : FVec F S512x128 .f32) (a4 : FVec F S2x128 .f32) (a5 a6 : FVec F S128 .f32)
    (h : Cert.Pre_input_domain.fn (F := F) a0 a1 a2 a3 a4 a5 a6 = (fun _ => 1#1)) : ∀ i, (a0 i).toNat ≤ 99999 :=
  (pre_conj a0 a1 a2 a3 a4 a5 a6 h).2.2.2.2.2.1

/-- Every segment id is a word of value at most 1. -/
theorem tt_range (a0 a1 : IVec S1024x200 32) (a2 : FVec F S100000x128 .f32) (a3 : FVec F S512x128 .f32) (a4 : FVec F S2x128 .f32) (a5 a6 : FVec F S128 .f32)
    (h : Cert.Pre_input_domain.fn (F := F) a0 a1 a2 a3 a4 a5 a6 = (fun _ => 1#1)) : ∀ i, (a1 i).toNat ≤ 1 :=
  (pre_conj a0 a1 a2 a3 a4 a5 a6 h).2.2.2.2.2.2

end Decode

/-- An extended real whose absolute value is below the word of +infinity is a real number. -/
theorem real_of_abs_lt_inf {x : EReal}
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    rw [decide_eq_false hn] at h'
    exact absurd h' (by decide)
  rw [max_lt_iff] at hlt
  induction x using EReal.rec with
  | bot => exact absurd hlt.2 (by simp)
  | coe r => exact ⟨r, rfl⟩
  | top => exact absurd hlt.1 (by simp)

/-- At the extended reals: every entry of the three tables, of gamma and of beta is a real number. -/
theorem finite_args (a0 a1 : IVec S1024x200 32) (a2 : FVec Ideal S100000x128 .f32) (a3 : FVec Ideal S512x128 .f32) (a4 : FVec Ideal S2x128 .f32) (a5 a6 : FVec Ideal S128 .f32)
    (h : Cert.Pre_input_domain.fn (F := Ideal) a0 a1 a2 a3 a4 a5 a6 = (fun _ => 1#1)) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) := by
  obtain ⟨f2, f3, f4, f5, f6, -, -⟩ := pre_conj (F := Ideal) a0 a1 a2 a3 a4 a5 a6 h
  exact ⟨fun i => real_of_abs_lt_inf (f2 i), fun i => real_of_abs_lt_inf (f3 i), fun i => real_of_abs_lt_inf (f4 i),
    fun i => real_of_abs_lt_inf (f5 i), fun i => real_of_abs_lt_inf (f6 i)⟩

end Cert.RefSide

end
-- ==== Proof.RefFlat.lean ====
/-
  A reshape keeps the entries: whatever holds of every entry of an array holds of every entry of the same elements
  laid out under another shape. In particular the token ids, every one a word of value at most 99999, read as one
  flat list of 204800 words are each below 100000.
-/
import Idealize.ShloMosaic.PureOps

noncomputable section

namespace Cert.RefSide

open Idealize.ShloMosaic

/-- Every entry of a reshaped array is an entry of the array. -/
theorem shapeCast_forall {s t : Shape} {α : Type} (P : α → Prop) (x : s.Idx → α) (hsc : s.ShapeCasts t)
    (h : ∀ i, P (x i)) : ∀ j, P (shapeCast t x hsc j) := fun j => h (Shape.reshapeEquiv hsc j)

/-- The token ids as one flat list: every word below 100000. -/
theorem flat_range (a0 : IVec ⟨2, ![1024, 200]⟩ 32) (h : ∀ i, (a0 i).toNat ≤ 99999)
    (hsc : (⟨2, ![1024, 200]⟩ : Shape).ShapeCasts ⟨1, ![204800]⟩) :
    ∀ j, ((shapeCast ⟨1, ![204800]⟩ a0 hsc) j).toNat < 100000 :=
  fun j => Nat.lt_succ_of_le (h (Shape.reshapeEquiv hsc j))

end Cert.RefSide

end
-- ==== Proof.ScFrame.lean ====
/-
  The idealized kernel program's frame: under the precondition every weakly fair execution terminates, faults nowhere
  and leaves the seven argument arrays unchanged. The precondition bounds every token id by 99999, the flat index list
  is the token ids reshaped, so every word the gathers read names a row of the table.
-/
import proofs.«200098_g2130303779034_cont_8to1_582_42_alg».proof.Proof.ScMain
import proofs.«200098_g2130303779034_cont_8to1_582_42_alg».proof.Proof.RefPre
import proofs.«200098_g2130303779034_cont_8to1_582_42_alg».proof.Proof.RefFlat

noncomputable section

namespace Cert.KernelIdeal.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (m : (ℓ : Loc nD τ sig) → Buf (Elt F) ℓ)

/-- The flat index list is the token ids, reshaped. -/
theorem fiOf_apply (d : Dev nD) (j : S204800.Idx) :
    fiOf m d j = shapeCast S204800 (m ((SparseCore.T d).loc main_arg0)) shapeCasts_S1024x200_S204800 j := by
  show (op3 (F := F)).result _ (rr main_v3) j = _
  rw [StableHlo.reshape_result]
  rw [(op2 (F := F)).result_of_not_mem _ (show rr main_arg0 ∉ ({rr main_v2} : Finset (DevRef τ sig)) by decide),
    (op1 (F := F)).result_of_not_mem _ (show rr main_arg0 ∉ ({rr main_v1} : Finset (DevRef τ sig)) by decide),
    (op0 (F := F)).result_of_not_mem _ (show rr main_arg0 ∉ ({rr main_v0} : Finset (DevRef τ sig)) by decide)]
  rfl

theorem hfi_of_ids (hids : ∀ d i, (m ((SparseCore.T d).loc main_arg0) i).toNat ≤ 99999) : ∀ d j, (fiOf m d j).toNat < 100000 := by
  intro d j
  rw [fiOf_apply]
  exact Cert.RefSide.flat_range _ (hids d) _ j

end

/-- The idealized kernel program's frame, as the claim states it. -/
theorem frame : Cert.frame_KernelIdeal (hKernelIdeal := Cert.KernelIdeal.Gen.facts) (hPre_input_domain := Cert.Pre_input_domain.Gen.facts) := fun m g hpre =>
  (θ_run Cert.KernelIdeal.defs _ _).mono
    (fun _ h c => ⟨h c main_arg0 (by decide), h c main_arg1 (by decide), h c main_arg2 (by decide), h c main_arg3 (by decide),
      h c main_arg4 (by decide), h c main_arg5 (by decide), h c main_arg6 (by decide)⟩)
    (run_main (F := Ideal) m g (hfi_of_ids m fun d => Cert.RefSide.ids_range (F := Ideal) _ _ _ _ _ _ _ (hpre d)))

end Cert.KernelIdeal.Sc

end
-- ==== Proof.ScTileK.lean ====
/-
  One vector subcore's task of the gather kernel, run once at a symbolic tile (c, s).
  The tile fetches its 6400 words of the flat index list into its index scratch, and then, for each of its 32 blocks of
  200 words, gathers the 200 table rows those words name into one of four row buffers and writes that buffer out to rows
  [12800 s + 6400 c + 200 r, + 200) of the gathered array. Up to three gathers read the table at once, each on its own
  completion cell, so the tile holds the table under one read share per gather cell. A row buffer is gathered into only
  after the write-out that last read it has been waited for, and written out only after its gather has been waited for.
  Every word of the index list is below 100000 (the table's row count), so every gather is served.
-/
import proofs.«200098_g2130303779034_cont_8to1_582_42_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«200098_g2130303779034_cont_8to1_582_42_alg».proof.Proof.Gen.Kernel
import proofs.«200098_g2130303779034_cont_8to1_582_42_alg».proof.Proof.Gen.Kernel.Skeleton
import proofs.«200098_g2130303779034_cont_8to1_582_42_alg».proof.Proof.Gen.Kernel.Launch

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

local notation "iV" => (Memref.whole Cert.Kernel.main_v3_scv : Memref Cert.Kernel.sig Kind.scVector Space.hbm Cert.Kernel.S204800 EltTy.i32)
local notation "tV" => (Memref.whole Cert.Kernel.main_arg2_scv : Memref Cert.Kernel.sig Kind.scVector Space.hbm Cert.Kernel.S100000x128 EltTy.f32)
local notation "oV" => (Memref.whole Cert.Kernel.main_v4_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S200x128 EltTy.f32)
local notation "b1V" => (Memref.whole Cert.Kernel.cc0_scratch2 : Memref Cert.Kernel.sig Kind.scVector Space.vmem Cert.Kernel.S200x128 EltTy.f32)
local notation "b2V" => (Memref.whole Cert.Kernel.cc0_scratch3 : Memref Cert.Kernel.sig Kind.scVector Space.vmem Cert.Kernel.S200x128 EltTy.f32)
local notation "b3V" => (Memref.whole Cert.Kernel.cc0_scratch4 : Memref Cert.Kernel.sig Kind.scVector Space.vmem Cert.Kernel.S200x128 EltTy.f32)

abbrev iLoc (d : Dev nD) : Loc nD τ sig := (SparseCore.T d).loc main_v3
abbrev tLoc (d : Dev nD) : Loc nD τ sig := (SparseCore.T d).loc main_arg2
abbrev oLoc (d : Dev nD) : Loc nD τ sig := (SparseCore.T d).loc main_v4

abbrev cV (L : grid0.Coords) : Fin τ.nSC := (L 0).castLE hcore0
abbrev jV (L : grid0.Coords) : Fin τ.nSub := (L 1).castLE hsub0

abbrev S6400x128 : Shape := ⟨2, ![6400, 128]⟩

/-- The tile's 6400 words of the flat index list, as the program slices them. -/
abbrev iChunkK (L : grid0.Coords) : Memref sig .scVector .hbm S6400 .i32 :=
  (iV).slice (Rect.unit (s := S204800) (k0_off1 L) S6400.size (k0_off1_inb L)) (fun _ => rfl)

/-- The tile's 6400 rows lie inside the gathered array: tile (c, s) starts at row 12800 s + 6400 c, and s ≤ 15, c ≤ 1. -/
theorem oTile_inb (L : grid0.Coords) : ∀ a, (k0_off2 L 0#32) a + S6400x128.size a ≤ S204800x128.size a := by
  intro a
  have e : k0_off2 L 0#32 = ![12800 * (L 1).val + 6400 * (L 0).val + 200 * ((0 : Fin 32) : Fin 32).val, 0] := k0_off2_eq L 0
  rw [e]
  have h0 := (L 0).isLt; have h1 := (L 1).isLt
  have e0 : grid0.bound 0 = 2 := rfl
  have e1 : grid0.bound 1 = 16 := rfl
  match a with
  | 0 => simp [Shape.size]; omega
  | 1 => simp [Shape.size]

/-- The tile's 6400 rows of the gathered array, as a rectangle of it: the 32 blocks of 200 rows the tile writes tile it. -/
abbrev oTileRect (L : grid0.Coords) : Rect S204800x128 := Rect.unit (s := S204800x128) (k0_off2 L 0#32) S6400x128.size (oTile_inb L)

abbrev cell (d : Dev nD) (L : grid0.Coords) (s : DmaSem sig) : GSem nD τ sig := (V d (cV L) (jV L), .dma s)

variable [FloatOps F]

omit [FloatOps F] in
/-- Whatever window of the index scratch a gather reads, its words are words of the flat index list: below 100000. -/
theorem inb_of_fi (d : Dev nD) (L : grid0.Coords) (fi : Buf (Elt F) (iLoc d)) (hfi : ∀ j, (fi j).toNat < 100000)
    (fs : Buf (Elt F) ((V d (cV L) (jV L)).loc cc0_scratch0)) (pay : Buf (Elt F) ((V d (cV L) (jV L)).loc cc0_scratch0))
    (hpay : pay = (iChunkK L).view.read (Elt F) fi) (R : Rect S6400) (hR : ∀ a, R.stride a = 1) :
    ∀ x, (View.read (Elt F) ((sV).slice R hR).view (View.write (Elt F) (sV).view fs pay Finset.univ) x).toNat < 100000 := by
  subst hpay; intro x
  rw [show View.write (Elt F) (sV).view fs ((iChunkK L).view.read (Elt F) fi) Finset.univ = (iChunkK L).view.read (Elt F) fi from
    View.write_whole_univ _ _ _]
  rw [show ∀ (g : Buf (Elt F) ((V d (cV L) (jV L)).loc cc0_scratch0)) j, View.read (Elt F) ((sV).slice R hR).view g j = g (((sV).slice R hR).view.emb j) from
    fun g j => (View.read_apply _ _).trans (cast_eq _ _)]
  rw [show ∀ j, (iChunkK L).view.read (Elt F) fi j = fi ((iChunkK L).view.emb j) from fun j => (View.read_apply _ _).trans (cast_eq _ _)]
  exact hfi _

/-- The recorded waits only grow by pairs at the empty index. -/
theorem waits_grow {α β : Type} [DecidableEq α] [DecidableEq β] (W : Finset (α × Option β)) :
    ∀ (l : List α) (p : α × Option β), p ∈ l.foldr (fun a acc => insert (a, none) acc) W → p ∈ W ∨ p.2 = none
  | [], _, h => .inl h
  | a :: l, p, h => by
    rcases Finset.mem_insert.mp h with h | h
    · exact .inr (h ▸ rfl)
    · exact waits_grow W l p h

set_option maxHeartbeats 4000000 in
/-- The task on vector subcore (L 0, L 1) of device d, from: its words of the index list (each below 100000), one read share
    of the table per gather cell, its 6400 rows of the gathered array, its five scratch buffers and nine cells at zero.
    It gives all of them back, the index list and the table as they were. -/
theorem tile_run (d : Dev nD) (L : grid0.Coords) (O : CellTallies nD τ sig (HIx 1)) (W : Waits sig (HIx 1)) (hO : ∀ g, O g none = 0)
    (fi : Buf (Elt F) (iLoc d)) (hfi : ∀ j, (fi j).toNat < 100000) (ft : Buf (Elt F) (tLoc d)) (q : PosShare TreeShare)
    (fo : Buf (Elt F) (oLoc d))
    (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)) :
    (iprop(levAts (K (F := F)).L (K (F := F)).lev
        ∗ ((iChunkK L).view.loc (V d (cV L) (jV L)) ↦[(iChunkK L).view.set]{fullShare} fi)
        ∗ ((tV).view.loc (V d (cV L) (jV L)) ↦{Transfers.shareTok q 19 cc0_scratch5.sem} ft)
        ∗ ((tV).view.loc (V d (cV L) (jV L)) ↦{Transfers.shareTok q 19 cc0_scratch6.sem} ft)
        ∗ ((tV).view.loc (V d (cV L) (jV L)) ↦{Transfers.shareTok q 19 cc0_scratch7.sem} ft)
        ∗ ((tV).view.loc (V d (cV L) (jV L)) ↦{Transfers.shareTok q 19 cc0_scratch8.sem} ft)
        ∗ ((oV).view.loc (V d (cV L) (jV L)) ↦[(oV).view.setOn (oTileRect L).set]{fullShare} fo)
        ∗ ((sV).view.loc (V d (cV L) (jV L)) ↦{fullShare} fs)
        ∗ ((b0V).view.loc (V d (cV L) (jV L)) ↦{fullShare} f0)
        ∗ ((b1V).view.loc (V d (cV L) (jV L)) ↦{fullShare} f1)
        ∗ ((b2V).view.loc (V d (cV L) (jV L)) ↦{fullShare} f2)
        ∗ ((b3V).view.loc (V d (cV L) (jV L)) ↦{fullShare} f3)
        ∗ semVal (cell d L cc0_scratch5.sem) 0 ∗ semVal (cell d L cc0_scratch6.sem) 0 ∗ semVal (cell d L cc0_scratch7.sem) 0
        ∗ semVal (cell d L cc0_scratch8.sem) 0 ∗ semVal (cell d L cc0_scratch9.sem) 0 ∗ semVal (cell d L cc0_scratch10.sem) 0
        ∗ semVal (cell d L cc0_scratch11.sem) 0 ∗ semVal (cell d L cc0_scratch12.sem) 0 ∗ semVal (cell d L cc0_scoped0.sem) 0
        ∗ owes (V d (cV L) (jV L)) O W) : sProp 𝕄)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(((iChunkK L).view.loc (V d (cV L) (jV L)) ↦[(iChunkK L).view.set]{fullShare} fi)
            ∗ ((tV).view.loc (V d (cV L) (jV L)) ↦{Transfers.shareTok q 19 cc0_scratch5.sem} ft)
            ∗ ((tV).view.loc (V d (cV L) (jV L)) ↦{Transfers.shareTok q 19 cc0_scratch6.sem} ft)
            ∗ ((tV).view.loc (V d (cV L) (jV L)) ↦{Transfers.shareTok q 19 cc0_scratch7.sem} ft)
            ∗ ((tV).view.loc (V d (cV L) (jV L)) ↦{Transfers.shareTok q 19 cc0_scratch8.sem} ft)
            ∗ (∃ f, (oV).view.loc (V d (cV L) (jV L)) ↦[(oV).view.setOn (oTileRect L).set]{fullShare} f)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W') := by
  iintro ⟨#Hlv, Hi, Ht0, Ht1, Ht2, Ht3, Ho, Hs, Hb0, Hb1, Hb2, Hb3, Hs5, Hs6, Hs7, Hs8, Hs9, Hs10, Hs11, Hs12, Hsc, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [cc0_gather_k]
  -- the index fetch and its wait; the run stops at the first gather, whose list is what the fetch landed
  sl_exec_parts
  have hin : ∀ (R : Rect S6400) (hR : ∀ a, R.stride a = 1) (x : R.shape.Idx),
      BitVec.toNat (View.read (Elt F) ((sV).slice R hR).view (View.write (Elt F) (sV).view fs (tile_run.sl.dma0 d L fi) Finset.univ) x) < 100000 :=
    fun R hR => inb_of_fi d L fi hfi fs _ rfl R hR
  -- the 32 gathers, the 32 write-outs and their waits
  sl_exec_parts
  sl_step
  isplitl [Hi]; · iexact Hi
  isplitl [Ht0]; · iexact Ht0
  isplitl [Ht1]; · iexact Ht1
  isplitl [Ht2]; · iexact Ht2
  isplitl [Ht3]; · iexact Ht3
  isplitl [Ho]; · iexists _; iexact Ho
  isplitl [Hs]; · iexists _; iexact Hs
  isplitl [Hb0]; · iexists _; iexact Hb0
  isplitl [Hb1]; · iexists _; iexact Hb1
  isplitl [Hb2]; · iexists _; iexact Hb2
  isplitl [Hb3]; · iexists _; iexact Hb3
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hsc]; · iexact Hsc
  iexists _; isplitr
  swap; · iexact HO
  ipureintro; intro p hp
  repeat (rcases Finset.mem_insert.mp hp with hp | hp; · exact .inr (hp ▸ rfl))
  exact .inl hp

end Cert.Kernel.Sc

end
-- ==== Proof.ScRowsK.lean ====
/-
  How the gathered array and the flat index list split among the 32 vector subcores.

  Tile (c, s) — SparseCore c of 2, vector subcore s of 16 — owns 6400 consecutive words of the flat index list and the
  same 6400 rows of the gathered array, starting at 12800 s + 6400 c = 6400 (2 s + c). So the tiles' pieces are the 32
  equal parts of either array along its first axis, tile (c, s) taking part 2 s + c: they are pairwise disjoint and
  cover the array. A points-to of a whole array is therefore the tiles' points-tos of their pieces, and pieces held at
  any contents join to the whole array at some contents.
-/
import proofs.«200098_g2130303779034_cont_8to1_582_42_alg».proof.Proof.ScTileK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S204800 EltTy.i32)
local notation "oV" => (Memref.whole Cert.Kernel.main_v4_scv : Memref Cert.Kernel.sig Kind.scVector Space.hbm Cert.Kernel.S204800x128 EltTy.f32)

/-- The grid coordinates of tile (c, s). -/
def coordsV (c : Fin (grid0.bound 0)) (s : Fin (grid0.bound 1)) : grid0.Coords :=
  fun | 0 => c | 1 => s | ⟨_ + 2, h⟩ => absurd h (Nat.not_lt.2 (Nat.le_add_left _ _))

/-- A tile's words of the flat index list, -/
abbrev iSet (L : grid0.Coords) : Finset S204800.Idx := (iChunkK L).view.set
/-- and its rows of the gathered array. -/
abbrev oSet (L : grid0.Coords) : Finset S204800x128.Idx := (oV).view.setOn (oTileRect L).set

/-! ## The 32 parts along the first axis -/

theorem idiv : 32 ∣ S204800.size 0 := ⟨6400, rfl⟩
theorem odiv : 32 ∣ S204800x128.size 0 := ⟨6400, rfl⟩
abbrev ipart (w : Fin 32) : Rect S204800 := Rect.part (s := S204800) (a₀ := 0) idiv w
abbrev opart (w : Fin 32) : Rect S204800x128 := Rect.part (s := S204800x128) (a₀ := 0) odiv w

/-- Tile (c, s) takes part 2 s + c. -/
def wOf (p : Fin 2 × Fin 16) : Fin 32 := ⟨2 * p.2.val + p.1.val, by have := p.1.isLt; have := p.2.isLt; omega⟩

theorem wOf_injective : Function.Injective wOf := by
  rintro ⟨c, s⟩ ⟨c', s'⟩ h
  have e : 2 * s.val + c.val = 2 * s'.val + c'.val := congrArg Fin.val h
  have hc := c.isLt; have hc' := c'.isLt
  exact Prod.ext (Fin.ext (show c.val = c'.val by omega)) (Fin.ext (show s.val = s'.val by omega))

theorem wOf_surjective (j : Fin 32) : ∃ p, wOf p = j :=
  ⟨(⟨j.val % 2, Nat.mod_lt _ (by decide)⟩, ⟨j.val / 2, by have := j.isLt; omega⟩), Fin.ext (by simp only [wOf]; omega)⟩

/-- The program's slice of the index list for tile (c, s) is part 2 s + c of it. -/
theorem irect_eq (c : Fin 2) (s : Fin 16) :
    Rect.unit (s := S204800) (k0_off1 (coordsV c s)) S6400.size (k0_off1_inb (coordsV c s)) = ipart (wOf (c, s)) := by
  unfold ipart Rect.part Rect.block
  congr 1 <;> funext a
  · rw [k0_off1_eq]
    match a with
    | 0 =>
      show 12800 * s.val + 6400 * c.val = Shape.partIx S204800 0 (2 * s.val + c.val) 0 * Shape.partSize S204800 0 32 0
      simp [Shape.partIx, Shape.partSize]; omega
  · match a with
    | 0 => simp [Shape.partSize]

/-- The tile's rows of the gathered array are part 2 s + c of it. -/
theorem orect_eq (c : Fin 2) (s : Fin 16) : oTileRect (coordsV c s) = opart (wOf (c, s)) := by
  unfold oTileRect opart Rect.part Rect.block
  congr 1 <;> funext a
  · rw [show k0_off2 (coordsV c s) 0#32 = ![12800 * ((coordsV c s) 1).val + 6400 * ((coordsV c s) 0).val + 200 * ((0 : Fin 32) : Fin 32).val, 0] from
      k0_off2_eq (coordsV c s) 0]
    match a with
    | 0 =>
      show 12800 * s.val + 6400 * c.val + 200 * 0 = Shape.partIx S204800x128 0 (2 * s.val + c.val) 0 * Shape.partSize S204800x128 0 32 0
      simp [Shape.partIx, Shape.partSize]; omega
    | 1 => simp [Shape.partIx, Shape.partSize]
  · match a with
    | 0 => simp [Shape.partSize]
    | 1 => simp [Shape.partSize]

theorem iSet_eq (p : Fin 2 × Fin 16) : iSet (coordsV p.1 p.2) = (ipart (wOf p)).set := by
  show ((View.whole (main_v3_scv : Ref sig .scVector)).slice (Rect.unit (s := S204800) (k0_off1 (coordsV p.1 p.2)) S6400.size (k0_off1_inb (coordsV p.1 p.2)))).set = _
  rw [View.set_slice, irect_eq p.1 p.2]; exact Finset.map_refl

theorem oSet_eq (p : Fin 2 × Fin 16) : oSet (coordsV p.1 p.2) = (opart (wOf p)).set := by
  show (oTileRect (coordsV p.1 p.2)).set.map (View.whole (main_v4_scv : Ref sig .scVector)).emb = _
  rw [orect_eq p.1 p.2]; exact Finset.map_refl

theorem iSets_disjoint : ∀ p ∈ (Finset.univ : Finset (Fin 2 × Fin 16)), ∀ p' ∈ (Finset.univ : Finset (Fin 2 × Fin 16)), p ≠ p' →
    Disjoint (iSet (coordsV p.1 p.2)) (iSet (coordsV p'.1 p'.2)) :=
  fun p _ p' _ h => by rw [iSet_eq, iSet_eq]; exact Rect.part_disjoint idiv fun e => h (wOf_injective e)

theorem oSets_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) :=
  fun p _ p' _ h => by rw [oSet_eq, oSet_eq]; exact Rect.part_disjoint odiv fun e => h (wOf_injective e)

theorem iSets_cover : (Finset.univ : Finset (Fin 2 × Fin 16)).biUnion (fun p => iSet (coordsV p.1 p.2)) = Finset.univ := by
  ext i
  simp only [Finset.mem_biUnion, Finset.mem_univ, true_and, iff_true]
  obtain ⟨j, hj⟩ := Rect.exists_mem_part idiv i
  obtain ⟨p, rfl⟩ := wOf_surjective j
  exact ⟨p, by rw [iSet_eq]; exact hj⟩

theorem oSets_cover : (Finset.univ : Finset (Fin 2 × Fin 16)).biUnion (fun p => oSet (coordsV p.1 p.2)) = Finset.univ := by
  ext i
  simp only [Finset.mem_biUnion, Finset.mem_univ, true_and, iff_true]
  obtain ⟨j, hj⟩ := Rect.exists_mem_part odiv i
  obtain ⟨p, rfl⟩ := wOf_surjective j
  exact ⟨p, by rw [oSet_eq]; exact hj⟩

/-! ## The whole arrays as the tiles' pieces -/

/-- The flat index list held whole is its 32 tiles' pieces held. -/
theorem iPts_tiles (d : Dev nD) (f : Buf (Elt F) (iLoc d)) :
    (iLoc d ↦{fullShare} f : sProp 𝕄) = bigSep Finset.univ fun c : Fin 2 => bigSep Finset.univ fun s : Fin 16 => iLoc d ↦[iSet (coordsV c s)]{fullShare} f := by
  rw [← bigSep_univ_prod (fun p : Fin 2 × Fin 16 => (iLoc d ↦[iSet (coordsV p.1 p.2)]{fullShare} f : sProp 𝕄)),
    ← pointsTo_biUnion Finset.univ (ℓ := iLoc d) (fun p : Fin 2 × Fin 16 => iSet (coordsV p.1 p.2)) iSets_disjoint, iSets_cover]; try rfl

/-- The gathered array held whole is its 32 tiles' pieces held. -/
theorem oPts_tiles (d : Dev nD) (f : Buf (Elt F) (oLoc d)) :
    (oLoc d ↦{fullShare} f : sProp 𝕄) = bigSep Finset.univ fun c : Fin 2 => bigSep Finset.univ fun s : Fin 16 => oLoc d ↦[oSet (coordsV c s)]{fullShare} f := by
  rw [← bigSep_univ_prod (fun p : Fin 2 × Fin 16 => (oLoc d ↦[oSet (coordsV p.1 p.2)]{fullShare} f : sProp 𝕄)),
    ← pointsTo_biUnion Finset.univ (ℓ := oLoc d) (fun p : Fin 2 × Fin 16 => oSet (coordsV p.1 p.2)) oSets_disjoint, oSets_cover]; try rfl

variable [FloatOps F]

set_option maxRecDepth 4096 in
/-- The tiles' pieces of the gathered array, each at some contents, are the array at some contents. -/
theorem oTiles_join (d : Dev nD) :
    (bigSep Finset.univ fun c : Fin 2 => bigSep Finset.univ fun s : Fin 16 => iprop(∃ f, oLoc d ↦[oSet (coordsV c s)]{fullShare} f))
      ⊢ (iprop(∃ f, oLoc d ↦{fullShare} f) : sProp 𝕄) := by
  refine (Entails.of_eq (bigSep_univ_prod (fun p : Fin 2 × Fin 16 => (iprop(∃ f, oLoc d ↦[oSet (coordsV p.1 p.2)]{fullShare} f) : sProp 𝕄))).symm).trans ?_
  refine (bigSep_exists_pi Finset.univ (fun (p : Fin 2 × Fin 16) (f : Buf (Elt F) (oLoc d)) => (oLoc d ↦[oSet (coordsV p.1 p.2)]{fullShare} f : sProp 𝕄))).trans ?_
  iintro ⟨%fs, H⟩
  have : Nonempty (Buf (Elt F) (oLoc d)) := ⟨fs (0, 0)⟩
  ihave H' := (pointsTo_biUnion_join (ℓ := oLoc d) (q := fullShare) (Val := Elt F) Finset.univ (fun p : Fin 2 × Fin 16 => oSet (coordsV p.1 p.2)) fs (fs (0, 0)) oSets_disjoint) $$ H
  icases H' with ⟨%g, -, Hg⟩
  rw [oSets_cover]
  iexists g; iexact Hg

end Cert.Kernel.Sc

end
-- ==== Proof.ScLaunchK.lean ====
/-
  The gather kernel's launch: how the call's operands — the flat index list, the table, the gathered array — are dealt to the
  two SparseCores and their sixteen tiles each, one tile's task from what it is dealt (the tile's run, ScTile), and @main on
  the TensorCore around the call.
  Tile (c, s) owns words [6400 w, 6400 w + 6400) of the index list and the same rows of the gathered array, w = 2 s + c; every
  tile reads the whole table, so the table goes out as read shares: a token per core, of it a token per tile, of that a token
  per gather cell.
-/
import proofs.«200098_g2130303779034_cont_8to1_582_42_alg».proof.Proof.ScTileK
import proofs.«200098_g2130303779034_cont_8to1_582_42_alg».proof.Proof.ScRowsK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S204800 EltTy.i32)
local notation "tV" => (Memref.whole Cert.Kernel.main_arg2_scv : Memref Cert.Kernel.sig Kind.scVector Space.hbm Cert.Kernel.S100000x128 EltTy.f32)
local notation "oV" => (Memref.whole Cert.Kernel.main_v4_scv : Memref Cert.Kernel.sig Kind.scVector Space.hbm Cert.Kernel.S204800x128 EltTy.f32)
local notation "sV" => (Memref.whole Cert.Kernel.cc0_scratch0 : Memref Cert.Kernel.sig Kind.scVector Space.vmem Cert.Kernel.S6400 EltTy.i32)
local notation "b0V" => (Memref.whole Cert.Kernel.cc0_scratch1 : Memref Cert.Kernel.sig Kind.scVector Space.vmem Cert.Kernel.S200x128 EltTy.f32)
local notation "b1V" => (Memref.whole Cert.Kernel.cc0_scratch2 : Memref Cert.Kernel.sig Kind.scVector Space.vmem Cert.Kernel.S200x128 EltTy.f32)
local notation "b2V" => (Memref.whole Cert.Kernel.cc0_scratch3 : Memref Cert.Kernel.sig Kind.scVector Space.vmem Cert.Kernel.S200x128 EltTy.f32)
local notation "b3V" => (Memref.whole Cert.Kernel.cc0_scratch4 : Memref Cert.Kernel.sig Kind.scVector Space.vmem Cert.Kernel.S200x128 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub_zero : (K (F := F)).nSub 0 = 16 := rfl
theorem nCore_zero : (K (F := F)).nCore 0 = 2 := rfl

/-! ## A tile's nine cells and five scratch buffers, out of its own -/

section Own

variable (d : Dev nD) (L : grid0.Coords)

theorem cell_mem (s : DmaSem sig) (hs : (SemLoc.dma s : SemLoc sig).isScoped .scVector = true) : cell d L s ∈ ownCells (V d (cV L) (jV L)) :=
  mem_ownCells.mpr ⟨rfl, hs⟩
theorem cell_ne {s s' : DmaSem sig} (h : s ≠ s') : cell d L s ≠ cell d L s' := fun e => h (by simpa [cell] using e)

abbrev ch0 : Finset (GSem nD τ sig) := ownCells (V d (cV L) (jV L))
abbrev ch1 : Finset (GSem nD τ sig) := (ch0 d L).erase (cell d L cc0_scratch5.sem)
abbrev ch2 : Finset (GSem nD τ sig) := (ch1 d L).erase (cell d L cc0_scratch6.sem)
abbrev ch3 : Finset (GSem nD τ sig) := (ch2 d L).erase (cell d L cc0_scratch7.sem)
abbrev ch4 : Finset (GSem nD τ sig) := (ch3 d L).erase (cell d L cc0_scratch8.sem)
abbrev ch5 : Finset (GSem nD τ sig) := (ch4 d L).erase (cell d L cc0_scratch9.sem)
abbrev ch6 : Finset (GSem nD τ sig) := (ch5 d L).erase (cell d L cc0_scratch10.sem)
abbrev ch7 : Finset (GSem nD τ sig) := (ch6 d L).erase (cell d L cc0_scratch11.sem)
abbrev ch8 : Finset (GSem nD τ sig) := (ch7 d L).erase (cell d L cc0_scratch12.sem)
abbrev ch9 : Finset (GSem nD τ sig) := (ch8 d L).erase (cell d L cc0_scoped0.sem)

/-- The subcore's own cells but the eight scratch cells and the scoped one. -/
abbrev restCells : Finset (GSem nD τ sig) := ch9 d L

theorem ownSems0_V :
    (ownSems0 (V d (cV L) (jV L)) : sProp 𝕄)
      = iprop(semVal (cell d L cc0_scratch5.sem) 0 ∗ semVal (cell d L cc0_scratch6.sem) 0 ∗ semVal (cell d L cc0_scratch7.sem) 0
          ∗ semVal (cell d L cc0_scratch8.sem) 0 ∗ semVal (cell d L cc0_scratch9.sem) 0 ∗ semVal (cell d L cc0_scratch10.sem) 0
          ∗ semVal (cell d L cc0_scratch11.sem) 0 ∗ semVal (cell d L cc0_scratch12.sem) 0 ∗ semVal (cell d L cc0_scoped0.sem) 0
          ∗ bigSep (restCells d L) fun g => semVal g 0) := by
  have m0 : cell d L cc0_scratch5.sem ∈ ch0 d L := cell_mem d L _ (by decide)
  have m1 : cell d L cc0_scratch6.sem ∈ ch1 d L := Finset.mem_erase.mpr ⟨cell_ne d L (by decide), cell_mem d L _ (by decide)⟩
  have m2 : cell d L cc0_scratch7.sem ∈ ch2 d L := Finset.mem_erase.mpr ⟨cell_ne d L (by decide), Finset.mem_erase.mpr ⟨cell_ne d L (by decide), cell_mem d L _ (by decide)⟩⟩
  have m3 : cell d L cc0_scratch8.sem ∈ ch3 d L := Finset.mem_erase.mpr ⟨cell_ne d L (by decide), Finset.mem_erase.mpr ⟨cell_ne d L (by decide), Finset.mem_erase.mpr ⟨cell_ne d L (by decide), cell_mem d L _ (by decide)⟩⟩⟩
  have m4 : cell d L cc0_scratch9.sem ∈ ch4 d L := Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩
  have m5 : cell d L cc0_scratch10.sem ∈ ch5 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩
  have m6 : cell d L cc0_scratch11.sem ∈ ch6 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩
  have m7 : cell d L cc0_scratch12.sem ∈ ch7 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩⟩
  have m8 : cell d L cc0_scoped0.sem ∈ ch8 d L := Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), cell_mem d L _ (by decide)⟩⟩⟩⟩⟩⟩⟩⟩
  show bigSep (ch0 d L) (fun g => (semVal g 0 : sProp 𝕄)) = _
  rw [SparseCore.bigSep_erase' m0, SparseCore.bigSep_erase' m1, SparseCore.bigSep_erase' m2, SparseCore.bigSep_erase' m3, SparseCore.bigSep_erase' m4,
    SparseCore.bigSep_erase' m5, SparseCore.bigSep_erase' m6, SparseCore.bigSep_erase' m7, SparseCore.bigSep_erase' m8]

abbrev bref (b : Ref sig .scVector) : DevRef τ sig := (Proc.scVector (cV L) (jV L)).devRef b
theorem bref_ne {b b' : Ref sig .scVector} (h : b ≠ b') : bref L b ≠ bref L b' := fun e => h (Proc.devRef_injective _ e)

/-- The subcore's own buffers but the index scratch and the four row buffers. -/
abbrev restRefs : Finset (DevRef τ sig) :=
  (((((ownRefs (τ := τ) (.scVector (cV L) (jV L))).erase (bref L cc0_scratch0)).erase (bref L cc0_scratch1)).erase (bref L cc0_scratch2)).erase (bref L cc0_scratch3)).erase (bref L cc0_scratch4)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep (restRefs L) fun b => iprop(∃ f, ((d, b) : Loc nD τ sig) ↦{fullShare} f)) := by
  unfold SparseCore.Cfg.ownBufs
  have m0 : bref L cc0_scratch0 ∈ ownRefs (τ := τ) (.scVector (cV L) (jV L)) := SparseCore.Cfg.mem_ownRefs_of_owner (p := Proc.scVector (cV L) (jV L)) (b := bref L cc0_scratch0) rfl
  have m1 : bref L cc0_scratch1 ∈ ownRefs (τ := τ) (.scVector (cV L) (jV L)) := SparseCore.Cfg.mem_ownRefs_of_owner (p := Proc.scVector (cV L) (jV L)) (b := bref L cc0_scratch1) rfl
  have m2 : bref L cc0_scratch2 ∈ ownRefs (τ := τ) (.scVector (cV L) (jV L)) := SparseCore.Cfg.mem_ownRefs_of_owner (p := Proc.scVector (cV L) (jV L)) (b := bref L cc0_scratch2) rfl
  have m3 : bref L cc0_scratch3 ∈ ownRefs (τ := τ) (.scVector (cV L) (jV L)) := SparseCore.Cfg.mem_ownRefs_of_owner (p := Proc.scVector (cV L) (jV L)) (b := bref L cc0_scratch3) rfl
  have m4 : bref L cc0_scratch4 ∈ ownRefs (τ := τ) (.scVector (cV L) (jV L)) := SparseCore.Cfg.mem_ownRefs_of_owner (p := Proc.scVector (cV L) (jV L)) (b := bref L cc0_scratch4) rfl
  refine (SparseCore.bigSep_erase' m0).trans ?_
  rw [SparseCore.bigSep_erase' (i := bref L cc0_scratch1) (Finset.mem_erase.mpr ⟨bref_ne L (by decide), m1⟩),
    SparseCore.bigSep_erase' (i := bref L cc0_scratch2) (Finset.mem_erase.mpr ⟨bref_ne L (by decide), Finset.mem_erase.mpr ⟨bref_ne L (by decide), m2⟩⟩),
    SparseCore.bigSep_erase' (i := bref L cc0_scratch3) (Finset.mem_erase.mpr ⟨bref_ne L (by decide), Finset.mem_erase.mpr ⟨bref_ne L (by decide), Finset.mem_erase.mpr ⟨bref_ne L (by decide), m3⟩⟩⟩),
    SparseCore.bigSep_erase' (i := bref L cc0_scratch4) (Finset.mem_erase.mpr ⟨bref_ne L (by decide), Finset.mem_erase.mpr ⟨bref_ne L (by decide), Finset.mem_erase.mpr ⟨bref_ne L (by decide), Finset.mem_erase.mpr ⟨bref_ne L (by decide), m4⟩⟩⟩⟩)]

end Own

/-! ## What the handshakes carry -/

variable [FloatOps F]

section Pay

variable (fi : (d : Dev nD) → Buf (Elt F) (iLoc d)) (ft : (d : Dev nD) → Buf (Elt F) (tLoc d)) (fo : (d : Dev nD) → Buf (Elt F) (oLoc d))

/-- SparseCore c's read share of the table, and of it tile s's. -/
abbrev coreShare (c : Fin 2) : PosShare TreeShare := Transfers.shareTok fullShare 2 c
abbrev tileShare (c : Fin 2) (s : Fin 16) : PosShare TreeShare := Transfers.shareTok (coreShare c) 16 s

abbrev cL (L : grid0.Coords) : Fin 2 := L 0
abbrev sL (L : grid0.Coords) : Fin 16 := L 1

abbrev iTilePts (d : Dev nD) (L : grid0.Coords) : sProp 𝕄 := iLoc d ↦[iSet L]{fullShare} fi d
abbrev tTilePts (d : Dev nD) (L : grid0.Coords) : sProp 𝕄 := tLoc d ↦{tileShare (cL L) (sL L)} ft d
abbrev oTilePts (d : Dev nD) (L : grid0.Coords) (f : Buf (Elt F) (oLoc d)) : sProp 𝕄 := oLoc d ↦[oSet L]{fullShare} f

/-- The one call hands each SparseCore its sixteen tiles' words of the index list, its read share of the table and its tiles'
    rows of the gathered array; each task its own of each, and brings them back, the rows at what the task left. -/
def P : (K (F := F)).Pay (nD := nD) (Val := Elt F) (Name := ℕ) (U := UU) where
  st := fun q d c => match q with
    | 0 => iprop((bigSep Finset.univ fun s : Fin 16 => iTilePts fi d (coordsV c s))
        ∗ (tLoc d ↦{coreShare c} ft d)
        ∗ bigSep Finset.univ fun s : Fin 16 => oTilePts d (coordsV c s) (fo d))
  dn := fun q d c => match q with
    | 0 => iprop((bigSep Finset.univ fun s : Fin 16 => iTilePts fi d (coordsV c s))
        ∗ (tLoc d ↦{coreShare c} ft d)
        ∗ bigSep Finset.univ fun s : Fin 16 => iprop(∃ f, oTilePts d (coordsV c s) f))
  go := fun q d c i => match q with
    | 0 => iprop(iTilePts fi d (coordsV c i) ∗ tTilePts ft d (coordsV c i)
        ∗ oTilePts d (coordsV c i) (fo d))
  td := fun q d c i => match q with
    | 0 => iprop(iTilePts fi d (coordsV c i) ∗ tTilePts ft d (coordsV c i)
        ∗ ∃ f, oTilePts d (coordsV c i) f)
  x := fun _ _ => iprop(emp)

instance P_storable : (P (F := F) fi ft fo).IsStorable where
  st q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => oTilePts d (coordsV c s) (fo d)))
  dn q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => iprop(∃ f, oTilePts d (coordsV c s) f)))
  go q d c i := match q with
    | 0 => (inferInstance : BI.Storable (upEmb : UEmb _ 𝕄)
      iprop(iTilePts fi d (coordsV c i) ∗ tTilePts ft d (coordsV c i)
        ∗ oTilePts d (coordsV c i) (fo d)))
  td q d c i := match q with
    | 0 => (inferInstance : BI.Storable (upEmb : UEmb _ 𝕄)
      iprop(iTilePts fi d (coordsV c i) ∗ tTilePts ft d (coordsV c i)
        ∗ ∃ f, oTilePts d (coordsV c i) f))

/-! ## The task, from what the launch deals the tile -/

/-- The tokens of a share but the four gather cells'. -/
abbrev restToks : Finset (Fin 19) := (((Finset.univ : Finset (Fin 19)).erase cc0_scratch5.sem).erase cc0_scratch6.sem).erase cc0_scratch7.sem |>.erase cc0_scratch8.sem

/-- A read share of the table as a token per gather cell, and the rest. -/
theorem tTokens (d : Dev nD) (q : PosShare TreeShare) (f : Buf (Elt F) (tLoc d)) :
    (tLoc d ↦{q} f : sProp 𝕄) ⊣⊢ iprop((tLoc d ↦{Transfers.shareDrop q 19} f) ∗ (tLoc d ↦{Transfers.shareTok q 19 cc0_scratch5.sem} f) ∗ (tLoc d ↦{Transfers.shareTok q 19 cc0_scratch6.sem} f)
      ∗ (tLoc d ↦{Transfers.shareTok q 19 cc0_scratch7.sem} f) ∗ (tLoc d ↦{Transfers.shareTok q 19 cc0_scratch8.sem} f)
      ∗ bigSep restToks fun i => tLoc d ↦{Transfers.shareTok q 19 i} f) := by
  have h := Transfers.pointsTo_toks (ℓ := tLoc d) (S := Finset.univ) (f := f) (nD := nD) (τ := τ) (sig := sig) (Ix := HIx 1) (Val := Elt F) (Name := ℕ) (U := UU) (Lvl := ℕ) q 19
  rw [SparseCore.bigSep_erase' (Finset.mem_univ (cc0_scratch5.sem : Fin 19)),
    SparseCore.bigSep_erase' (i := (cc0_scratch6.sem : Fin 19)) (by decide),
    SparseCore.bigSep_erase' (i := (cc0_scratch7.sem : Fin 19)) (by decide),
    SparseCore.bigSep_erase' (i := (cc0_scratch8.sem : Fin 19)) (by decide)] at h
  exact h

section Tile

variable (d : Dev nD) (L : grid0.Coords)

/-- What the run does not use: the table share's other tokens, the subcore's other buffers and cells. -/
abbrev tileFrame : sProp 𝕄 :=
  iprop(((tLoc d ↦{Transfers.shareDrop (tileShare (cL L) (sL L)) 19} ft d) ∗ bigSep restToks fun i => tLoc d ↦{Transfers.shareTok (tileShare (cL L) (sL L)) 19 i} ft d)
    ∗ (bigSep (restRefs L) fun b => iprop(∃ f, ((d, b) : Loc nD τ sig) ↦{fullShare} f))
    ∗ bigSep (restCells d L) fun g => semVal g 0)

/-- The run's precondition at the buffers' contents. -/
abbrev runPre (O : CellTallies nD τ sig (HIx 1)) (W : Waits sig (HIx 1)) (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)) : sProp 𝕄 :=
  iprop(levAts (K (F := F)).L (K (F := F)).lev
        ∗ ((iChunkK L).view.loc (V d (cV L) (jV L)) ↦[(iChunkK L).view.set]{fullShare} fi d)
        ∗ ((tV).view.loc (V d (cV L) (jV L)) ↦{Transfers.shareTok (tileShare (cL L) (sL L)) 19 cc0_scratch5.sem} ft d)
        ∗ ((tV).view.loc (V d (cV L) (jV L)) ↦{Transfers.shareTok (tileShare (cL L) (sL L)) 19 cc0_scratch6.sem} ft d)
        ∗ ((tV).view.loc (V d (cV L) (jV L)) ↦{Transfers.shareTok (tileShare (cL L) (sL L)) 19 cc0_scratch7.sem} ft d)
        ∗ ((tV).view.loc (V d (cV L) (jV L)) ↦{Transfers.shareTok (tileShare (cL L) (sL L)) 19 cc0_scratch8.sem} ft d)
        ∗ ((oV).view.loc (V d (cV L) (jV L)) ↦[(oV).view.setOn (oTileRect L).set]{fullShare} fo d)
        ∗ ((sV).view.loc (V d (cV L) (jV L)) ↦{fullShare} fs)
        ∗ ((b0V).view.loc (V d (cV L) (jV L)) ↦{fullShare} f0)
        ∗ ((b1V).view.loc (V d (cV L) (jV L)) ↦{fullShare} f1)
        ∗ ((b2V).view.loc (V d (cV L) (jV L)) ↦{fullShare} f2)
        ∗ ((b3V).view.loc (V d (cV L) (jV L)) ↦{fullShare} f3)
        ∗ semVal (cell d L cc0_scratch5.sem) 0 ∗ semVal (cell d L cc0_scratch6.sem) 0 ∗ semVal (cell d L cc0_scratch7.sem) 0
        ∗ semVal (cell d L cc0_scratch8.sem) 0 ∗ semVal (cell d L cc0_scratch9.sem) 0 ∗ semVal (cell d L cc0_scratch10.sem) 0
        ∗ semVal (cell d L cc0_scratch11.sem) 0 ∗ semVal (cell d L cc0_scratch12.sem) 0 ∗ semVal (cell d L cc0_scoped0.sem) 0
        ∗ owes (V d (cV L) (jV L)) O W)

/-- The run's postcondition. -/
abbrev runPost (O : CellTallies nD τ sig (HIx 1)) (W : Waits sig (HIx 1)) : sProp 𝕄 :=
  iprop(((iChunkK L).view.loc (V d (cV L) (jV L)) ↦[(iChunkK L).view.set]{fullShare} fi d)
            ∗ ((tV).view.loc (V d (cV L) (jV L)) ↦{Transfers.shareTok (tileShare (cL L) (sL L)) 19 cc0_scratch5.sem} ft d)
            ∗ ((tV).view.loc (V d (cV L) (jV L)) ↦{Transfers.shareTok (tileShare (cL L) (sL L)) 19 cc0_scratch6.sem} ft d)
            ∗ ((tV).view.loc (V d (cV L) (jV L)) ↦{Transfers.shareTok (tileShare (cL L) (sL L)) 19 cc0_scratch7.sem} ft d)
            ∗ ((tV).view.loc (V d (cV L) (jV L)) ↦{Transfers.shareTok (tileShare (cL L) (sL L)) 19 cc0_scratch8.sem} ft d)
            ∗ (∃ f, (oV).view.loc (V d (cV L) (jV L)) ↦[(oV).view.setOn (oTileRect L).set]{fullShare} f)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W')

/-- What the launch deals the tile is the run's precondition at some scratch contents, and the frame. -/
theorem tile_in (hF : (K (F := F)).Facts) (O : CellTallies nD τ sig (HIx 1)) (W : Waits sig (HIx 1)) :
    iprop(levAts (K (F := F)).L (K (F := F)).lev ∗ emp
        ∗ (iTilePts fi d L ∗ tTilePts ft d L ∗ oTilePts d L (fo d))
        ∗ scopedBufs (V d (cV L) (jV L)) ∗ scopedSems0 (V d (cV L) (jV L)) ∗ owes (V d (cV L) (jV L)) O W)
      ⊢ iprop(∃ fs f0 f1 f2 f3, runPre fi ft fo d L O W fs f0 f1 f2 f3 ∗ tileFrame ft d L) := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%f0, Hb0⟩, ⟨%f1, Hb1⟩, ⟨%f2, Hb2⟩, ⟨%f3, Hb3⟩, Hbufs⟩, ⟨Hs5, Hs6, Hs7, Hs8, Hs9, Hs10, Hs11, Hs12, Hsc, Hsems⟩, HO⟩
  ihave Htk := (tTokens (F := F) d (tileShare (cL L) (sL L)) (ft d)).1 $$ Ht
  icases Htk with ⟨Htd, Ht0, Ht1, Ht2, Ht3, Htr⟩
  iexists fs, f0, f1, f2, f3
  isplitr [Htd Htr Hbufs Hsems]
  · isplitr; · iexact Hlv
    isplitl [Hi]; · iexact Hi
    isplitl [Ht0]; · iexact Ht0
    isplitl [Ht1]; · iexact Ht1
    isplitl [Ht2]; · iexact Ht2
    isplitl [Ht3]; · iexact Ht3
    isplitl [Ho]; · iexact Ho
    isplitl [Hs]; · iexact Hs
    isplitl [Hb0]; · iexact Hb0
    isplitl [Hb1]; · iexact Hb1
    isplitl [Hb2]; · iexact Hb2
    isplitl [Hb3]; · iexact Hb3
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact HO
  · isplitl [Htd Htr]; · isplitl [Htd]; · iexact Htd
                         iexact Htr
    isplitl [Hbufs]; · iexact Hbufs
    iexact Hsems

/-- The run's postcondition and the frame are what the tile hands back. -/
theorem tile_out (hF : (K (F := F)).Facts) (O : CellTallies nD τ sig (HIx 1)) (W : Waits sig (HIx 1)) :
    iprop(runPost fi ft d L O W ∗ tileFrame ft d L)
      ⊢ iprop((iTilePts fi d L ∗ tTilePts ft d L ∗ ∃ f, oTilePts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨⟨Hi, Ht0, Ht1, Ht2, Ht3, Ho, Hs, Hb0, Hb1, Hb2, Hb3, Hs5, Hs6, Hs7, Hs8, Hs9, Hs10, Hs11, Hs12, Hsc, HO⟩, ⟨Htd, Htr⟩, Hbufs, Hsems⟩
  ihave Ht := (tTokens (F := F) d (tileShare (cL L) (sL L)) (ft d)).2 $$ [Htd Ht0 Ht1 Ht2 Ht3 Htr]
  · isplitl [Htd]; · iexact Htd
    isplitl [Ht0]; · iexact Ht0
    isplitl [Ht1]; · iexact Ht1
    isplitl [Ht2]; · iexact Ht2
    isplitl [Ht3]; · iexact Ht3
    iexact Htr
  isplitl [Hi Ht Ho]
  · isplitl [Hi]; · iexact Hi
    isplitl [Ht]; · iexact Ht
    iexact Ho
  isplitl [Hs Hb0 Hb1 Hb2 Hb3 Hbufs]
  · isplitl [Hs]; · iexact Hs
    isplitl [Hb0]; · iexact Hb0
    isplitl [Hb1]; · iexact Hb1
    isplitl [Hb2]; · iexact Hb2
    isplitl [Hb3]; · iexact Hb3
    iexact Hbufs
  isplitl [Hs5 Hs6 Hs7 Hs8 Hs9 Hs10 Hs11 Hs12 Hsc Hsems]
  · isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact Hsems
  iexact HO

/-- The task on vector subcore (L 0, L 1) of device d, in the launch's resources. -/
theorem tile_body (hF : (K (F := F)).Facts) (hfi : ∀ d j, (fi d j).toNat < 100000) (O : CellTallies nD τ sig (HIx 1)) (W : Waits sig (HIx 1)) (hO : ∀ g, O g none = 0) :
    iprop(levAts (K (F := F)).L (K (F := F)).lev ∗ emp
        ∗ (iTilePts fi d L ∗ tTilePts ft d L ∗ oTilePts d L (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop((iTilePts fi d L ∗ tTilePts ft d L ∗ ∃ f, oTilePts d L f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  refine (tile_in fi ft fo d L hF O W).trans ?_
  refine BIClass.exists_elim fun fs => BIClass.exists_elim fun f0 => BIClass.exists_elim fun f1 => BIClass.exists_elim fun f2 => BIClass.exists_elim fun f3 => ?_
  refine (sep_mono_left (tile_run (F := F) d L O W hO (fi d) (hfi d) (ft d) (tileShare (cL L) (sL L)) (fo d) fs f0 f1 f2 f3)).trans ?_
  refine (wp_frame_r frame _ _).trans ?_
  exact wp_mono frame _ _ fun _ => tile_out fi ft d L hF O W

/-! ## The obligation -/

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) tV (Memref.isWhole_whole _) oV (Memref.isWhole_whole _)
          sV (Memref.isWhole_whole _) b0V (Memref.isWhole_whole _) b1V (Memref.isWhole_whole _) b2V (Memref.isWhole_whole _) b3V (Memref.isWhole_whole _)
          cc0_scratch5 cc0_scratch6 cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hfi : ∀ d j, (fi d j).toNat < 100000) : (K (F := F)).TileObl (D (F := F)) 𝒱 (P fi ft fo) v₀ 0 := by
  intro d c i O W hO _ _
  simp only [show (P fi ft fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fi ft fo d (coordsV ⟨_, hci.1⟩ ⟨_, hci.2⟩) hF hfi O W hO).trans (wp_mono frame _ _ fun _ => obl_post)

end Tile

/-! ## The split among a SparseCore's tiles -/

omit [FloatOps F] in
theorem bigSep_tasks (Φ : Fin 16 → sProp 𝕄) :
    (bigSep Finset.univ fun i : Fin 16 => Φ i) = bigSep Finset.univ Φ :=
  bigSep_congr fun _ _ => congrArg Φ (Fin.ext rfl)

/-- A SparseCore's read share of the table is a token per tile, and a rest that waits for them. -/
theorem vecSplit : (K (F := F)).VecSplit' (P fi ft fo) 0 := by
  intro d c
  show iprop((bigSep Finset.univ fun s : Fin 16 => iTilePts fi d (coordsV c s))
        ∗ (tLoc d ↦{coreShare c} ft d)
        ∗ bigSep Finset.univ fun s : Fin 16 => oTilePts d (coordsV c s) (fo d)) ⊢ |={Set.univ}=> iprop(
      (bigSep Finset.univ fun i : Fin 16 =>
        iprop(iTilePts fi d (coordsV c i) ∗ tTilePts ft d (coordsV c i)
          ∗ oTilePts d (coordsV c i) (fo d)))
      ∗ ((bigSep Finset.univ fun i : Fin 16 =>
          iprop(iTilePts fi d (coordsV c i) ∗ tTilePts ft d (coordsV c i)
            ∗ ∃ f, oTilePts d (coordsV c i) f))
          -∗ iprop((bigSep Finset.univ fun s : Fin 16 => iTilePts fi d (coordsV c s))
              ∗ (tLoc d ↦{coreShare c} ft d)
              ∗ bigSep Finset.univ fun s : Fin 16 => iprop(∃ f, oTilePts d (coordsV c s) f))))
  rw [bigSep_sep', bigSep_sep', bigSep_sep', bigSep_sep']
  have htok := Transfers.pointsTo_toks (ℓ := tLoc d) (S := Finset.univ) (f := ft d) (nD := nD) (τ := τ) (sig := sig) (Ix := HIx 1) (Val := Elt F) (Name := ℕ) (U := UU) (Lvl := ℕ)
    (coreShare c) 16
  iintro ⟨Hi, Ht, Ho⟩
  ihave Htk := htok.1 $$ Ht
  icases Htk with ⟨Htd, Hts⟩
  imodintro
  isplitl [Hi Hts Ho]
  · isplitl [Hi]; · iexact Hi
    isplitl [Hts]; · iexact Hts
    iexact Ho
  iintro ⟨Hi, Hts, Ho⟩
  isplitl [Hi]; · iexact Hi
  isplitl [Htd Hts]
  · iapply htok.2
    isplitl [Htd]; · iexact Htd
    iexact Hts
  iexact Ho

end Pay

end Cert.Kernel.Sc

end
-- ==== Proof.TcBodyK.lean ====
/-
  The layer-norm body of the TensorCore call, run once on whole staging buffers.

  The body reads six whole blocks — the gathered token rows (128 x 200 x 128), the segment ids (128 x 200), the
  position rows (200 x 128), the two segment rows (2 x 128), the scale and the shift (1 x 128 each) — and writes one
  whole block (128 x 200 x 128): the sum of the three embeddings, normalised along the last axis, scaled and shifted.
  `lnBlock` names that block as a pure function of the six blocks read; `sound_kernel` says the body, started with the
  six input buffers at given contents and the output buffer at anything, ends with the inputs as they were and the
  output buffer at `lnBlock` of them. Stated for any float instance and any ghost algebra.
-/
import proofs.«200098_g2130303779034_cont_8to1_582_42_alg».proof.Proof.Gen.Kernel.Launch
import proofs.«200098_g2130303779034_cont_8to1_582_42_alg».proof.Proof.Gen.Kernel.Skeleton
import proofs.«200098_g2130303779034_cont_8to1_582_42_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The rectangles the body reads and writes: each a whole block -/

abbrev rTok : Rect S128x200x128 := Rect.unit (s := S128x200x128) ![0, 0, 0] S128x200x128.size inb_S128x200x128_S128x200x128_0_0_0
abbrev rSeg : Rect S128x200 := Rect.unit (s := S128x200) ![0, 0] S128x200.size inb_S128x200_S128x200_0_0
abbrev rPos : Rect S200x128 := Rect.unit (s := S200x128) ![0, 0] S200x128.size inb_S200x128_S200x128_0_0
abbrev rTyp : Rect S2x128 := Rect.unit (s := S2x128) ![0, 0] S2x128.size inb_S2x128_S2x128_0_0
abbrev rRow : Rect S1x128 := Rect.unit (s := S1x128) ![0, 0] S1x128.size inb_S1x128_S1x128_0_0

/-! ## What the body leaves in the output buffer -/

/-- The output block from the six input blocks: the one store of the body, over the whole buffer, of the shifted
    (`k1_pay1`) normalised and scaled sum (`k1_pay2`) of what the loads read. -/
def lnBlock (tok : Vec F S128x200x128 .f32) (seg : Vec F S128x200 .i32) (pos : Vec F S200x128 .f32) (typ : Vec F S2x128 .f32)
    (gam : Vec F S1x128 .f32) (bet : Vec F S1x128 .f32) : Vec F S128x200x128 .f32 :=
  View.canon [⟨rTok, k1_pay1 (k1_pay2 (View.ld tok rTok) (View.ld seg rSeg) (View.ld pos rPos) (View.ld typ rTyp) (View.ld gam rRow)) (View.ld bet rRow)⟩]

/-- The one store covers the buffer. -/
theorem cover_ln (p0 : Vec F S128x200x128 .f32) (y : S128x200x128.Idx) :
    ∃ pc ∈ ([⟨rTok, p0⟩] : List (View.Piece (Elt F) S128x200x128 .f32)), y ∈ pc.1.set :=
  View.cover_of_tiled [⟨rTok, p0⟩] S128x200x128.size (by rfl) y

/-! ## The body's triple -/

set_option maxHeartbeats 2000000 in
/-- The body on whole buffers: the six inputs at contents `tok … bet`, the output at anything; it ends with the
    inputs untouched and the output at `lnBlock` of them. -/
theorem sound_kernel (𝒱₀ : Variants) (c : Dev nD) (E : Set Name) (i : grid1.Coords)
    (arg1 : Memref sig .tc .vmem S128x200x128 .f32) (harg1 : arg1.IsWhole) (arg2 : Memref sig .tc .vmem S128x200 .i32) (harg2 : arg2.IsWhole)
    (arg3 : Memref sig .tc .vmem S200x128 .f32) (harg3 : arg3.IsWhole) (arg4 : Memref sig .tc .vmem S2x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x200x128 .f32) (harg7 : arg7.IsWhole)
    (tok : Vec F S128x200x128 .f32) (seg : Vec F S128x200 .i32) (pos : Vec F S200x128 .f32) (typ : Vec F S2x128 .f32)
    (gam : Vec F S1x128 .f32) (bet : Vec F S1x128 .f32) (K : PUnit → sProp 𝕄) :
    iprop(owns (c : Thread nD τ) arg1 fullShare tok ∗ owns (c : Thread nD τ) arg2 fullShare seg ∗ owns (c : Thread nD τ) arg3 fullShare pos
        ∗ owns (c : Thread nD τ) arg4 fullShare typ ∗ owns (c : Thread nD τ) arg5 fullShare gam ∗ owns (c : Thread nD τ) arg6 fullShare bet
        ∗ (∃ d, owns (c : Thread nD τ) arg7 fullShare d)
        ∗ (iprop(owns (c : Thread nD τ) arg1 fullShare tok ∗ owns (c : Thread nD τ) arg2 fullShare seg ∗ owns (c : Thread nD τ) arg3 fullShare pos
            ∗ owns (c : Thread nD τ) arg4 fullShare typ ∗ owns (c : Thread nD τ) arg5 fullShare gam ∗ owns (c : Thread nD τ) arg6 fullShare bet
            ∗ owns (c : Thread nD τ) arg7 fullShare (lnBlock tok seg pos typ gam bet)) -∗ K ⟨⟩))
      ⊢ wp frame (wpE (defs₀ (F := F)) 𝒱₀ c none) E (cc1__ln_body i arg1 harg1 arg2 harg2 arg3 harg3 arg4 harg4 arg5 harg5 arg6 harg6 arg7 harg7) K := by
  simp only [cc1__ln_body_eq_skeleton]; unfold cc1__ln_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_ln _)

end Cert.Kernel.Tc

end
-- ==== Proof.TcDatK.lean ====
/-
  The proof data of the layer-norm call, and its body obligation.

  The call runs the body at eight grid points. Point `t` stages block `t` (128 of the 1024 rows) of the gathered token
  rows and of the segment ids, the whole position, segment-row, scale and shift arrays (staged once, kept), and writes
  back block `t` of the result. The proof data say: every input buffer holds its array's block at every point, and the
  output buffer after the body at point `t` holds `lnBlock` of the six input blocks at `t`. From that: the input arrays
  are never written, and block `t` of the result array after the call is `lnBlock` of the input blocks at `t`.
  Stated for contents `V` of the core's arrays as the call finds them, any float instance, any ghost algebra.
-/
import proofs.«200098_g2130303779034_cont_8to1_582_42_alg».proof.Proof.TcBodyK
import Idealize.ShloMosaic.Lib.Pipeline.Value

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- each core's array contents when the call is entered,
variable (V : (c : Dev nD) → (b : Ref sig .tc) → Buf (Elt F) ((c : Thread nD τ).loc b))
-- and a bound on the (cell, index) pairs the core's waits have recorded by then
variable (B : Set (SemLoc sig × Ix))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved and the body left the block in place. -/
theorem before_in0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, its block
    index has not moved and the body left the block in place. -/
theorem before_in1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, its block
    index has not moved and the body left the block in place. -/
theorem before_in2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, its block
    index has not moved and the body left the block in place. -/
theorem before_in3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: unfetched, its block
    index has not moved and the body left the block in place. -/
theorem before_in4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: unfetched, its block
    index has not moved and the body left the block in place. -/
theorem before_in5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the call finds them; after the body at point `t` each input's buffer at its block and
    the output's at `lnBlock` of the six input blocks; the invariant between points is the scoped buffers no window
    stages (there is none); nothing owed; full shares; the recorded pairs stay within `B`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => lnBlock (iblk V c 0 t) (iblk V c 1 t) (iblk V c 2 t) (iblk V c 3 t) (iblk V c 4 t) (iblk V c 5 t)
  Φ _ := Pipeline.scopedRest spec1 c
  q _ := fullShare
  owed _ := 0
  recorded _ := B

local notation "𝔡" => dat (Name := Name) (U := U) (Lvl := Lvl) V B

/-- The family over the program's one call, as the launch theorems take it. -/
def dats (_ : Fin 1) (c : Dev nD) : Dat τ (Elt F) Ix Name U Lvl cfg1 c := 𝔡 c

theorem A_eq (c : Dev nD) (w : Fin cfg1.W) : (𝔡 c).A w = V c (Pipeline.arrRef spec1 w) := by
  dsimp only [dat]

theorem after0 (c : Dev nD) (t : Fin cfg1.N) : (𝔡 c).after 0 t = iblk V c 0 t := by dsimp only [dat]
theorem after1 (c : Dev nD) (t : Fin cfg1.N) : (𝔡 c).after 1 t = iblk V c 1 t := by dsimp only [dat]
theorem after2 (c : Dev nD) (t : Fin cfg1.N) : (𝔡 c).after 2 t = iblk V c 2 t := by dsimp only [dat]
theorem after3 (c : Dev nD) (t : Fin cfg1.N) : (𝔡 c).after 3 t = iblk V c 3 t := by dsimp only [dat]
theorem after4 (c : Dev nD) (t : Fin cfg1.N) : (𝔡 c).after 4 t = iblk V c 4 t := by dsimp only [dat]
theorem after5 (c : Dev nD) (t : Fin cfg1.N) : (𝔡 c).after 5 t = iblk V c 5 t := by dsimp only [dat]
theorem after6 (c : Dev nD) (t : Fin cfg1.N) :
    (𝔡 c).after 6 t = lnBlock (iblk V c 0 t) (iblk V c 1 t) (iblk V c 2 t) (iblk V c 3 t) (iblk V c 4 t) (iblk V c 5 t) := by dsimp only [dat]

theorem before0 (c : Dev nD) (t : Fin cfg1.N) (d) : (𝔡 c).before 0 t d = iblk V c 0 t :=
  before_in0_of V (𝔡 c) (A_eq V B c 0) (after0 V B c) t d
theorem before1 (c : Dev nD) (t : Fin cfg1.N) (d) : (𝔡 c).before 1 t d = iblk V c 1 t :=
  before_in1_of V (𝔡 c) (A_eq V B c 1) (after1 V B c) t d
theorem before2 (c : Dev nD) (t : Fin cfg1.N) (d) : (𝔡 c).before 2 t d = iblk V c 2 t :=
  before_in2_of V (𝔡 c) (A_eq V B c 2) (after2 V B c) t d
theorem before3 (c : Dev nD) (t : Fin cfg1.N) (d) : (𝔡 c).before 3 t d = iblk V c 3 t :=
  before_in3_of V (𝔡 c) (A_eq V B c 3) (after3 V B c) t d
theorem before4 (c : Dev nD) (t : Fin cfg1.N) (d) : (𝔡 c).before 4 t d = iblk V c 4 t :=
  before_in4_of V (𝔡 c) (A_eq V B c 4) (after4 V B c) t d
theorem before5 (c : Dev nD) (t : Fin cfg1.N) (d) : (𝔡 c).before 5 t d = iblk V c 5 t :=
  before_in5_of V (𝔡 c) (A_eq V B c 5) (after5 V B c) t d

/-! ## The body obligation, at a generic point -/

variable (𝒱₀ : Variants) (ι : Ix)

/-- What the body is called with at point `t`, the windows one by one, -/
def bodyPre (c : Dev nD) (t : Fin cfg1.N) : sProp 𝕄 :=
  iprop((𝔡 c).Φ t.castSucc ∗ (𝔡 c).owesAt ι t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d))
    ∗ (∃ d, owns (c : Thread nD τ) (st1_6 t) fullShare ((𝔡 c).before 6 t d)))

/-- and what it returns. -/
def bodyPost (c : Dev nD) (t : Fin cfg1.N) : sProp 𝕄 :=
  iprop((𝔡 c).Φ t.succ ∗ (𝔡 c).owesAt ι t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t)
    ∗ owns (c : Thread nD τ) (st1_6 t) fullShare ((𝔡 c).after 6 t))

/-- The body at any point: the inputs' buffers hold their blocks, so the body's triple applies; the invariant and the
    core's debts pass through unread. -/
theorem sound_body (c : Dev nD) (t : Fin cfg1.N) :
    (bodyPre V B ι c t : sProp 𝕄) ⊢ wp frame (wpE (defs₀ (F := F)) 𝒱₀ c none) Set.univ (bodyAt1 t) (fun _ => bodyPost V B ι c t) := by
  unfold bodyPre bodyPost bodyAt1
  simp only [before0, before1, before2, before3, before4, before5]
  rw [show (𝔡 c).Φ t.succ = (𝔡 c).Φ t.castSucc from rfl,
    show (𝔡 c).owesAt ι t.succ = (𝔡 c).owesAt ι t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel 𝒱₀ c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (𝔡 c) (defs₀ (F := F)) 𝒱₀ ι Set.univ := fun t => by
  rw [bigSep_W1, bigSep_W1]
  exact sound_body V B 𝒱₀ ι c t

/-! ## The arrays after the call -/

/-- Input window 0's array is never written. -/
theorem arrAt_in0 (c : Dev nD) (n : Nat) : (𝔡 c).arrAt 0 n = V c (Pipeline.arrRef spec1 0) :=
  ((𝔡 c).arrAt_in 0 rfl n).trans (A_eq V B c 0)
/-- Input window 1's array is never written. -/
theorem arrAt_in1 (c : Dev nD) (n : Nat) : (𝔡 c).arrAt 1 n = V c (Pipeline.arrRef spec1 1) :=
  ((𝔡 c).arrAt_in 1 rfl n).trans (A_eq V B c 1)
/-- Input window 2's array is never written. -/
theorem arrAt_in2 (c : Dev nD) (n : Nat) : (𝔡 c).arrAt 2 n = V c (Pipeline.arrRef spec1 2) :=
  ((𝔡 c).arrAt_in 2 rfl n).trans (A_eq V B c 2)
/-- Input window 3's array is never written. -/
theorem arrAt_in3 (c : Dev nD) (n : Nat) : (𝔡 c).arrAt 3 n = V c (Pipeline.arrRef spec1 3) :=
  ((𝔡 c).arrAt_in 3 rfl n).trans (A_eq V B c 3)
/-- Input window 4's array is never written. -/
theorem arrAt_in4 (c : Dev nD) (n : Nat) : (𝔡 c).arrAt 4 n = V c (Pipeline.arrRef spec1 4) :=
  ((𝔡 c).arrAt_in 4 rfl n).trans (A_eq V B c 4)
/-- Input window 5's array is never written. -/
theorem arrAt_in5 (c : Dev nD) (n : Nat) : (𝔡 c).arrAt 5 n = V c (Pipeline.arrRef spec1 5) :=
  ((𝔡 c).arrAt_in 5 rfl n).trans (A_eq V B c 5)

/-- What point `t` writes back to the result array: `lnBlock` of the six input blocks at `t`. -/
theorem flushed6 (c : Dev nD) (t : Fin cfg1.N) :
    (𝔡 c).flushed 6 t = (cfg1.win 6).cut (grid1.coords t) (lnBlock (iblk V c 0 t) (iblk V c 1 t) (iblk V c 2 t) (iblk V c 3 t) (iblk V c 4 t) (iblk V c 5 t)) := by
  show (cfg1.win 6).cut (grid1.coords t) ((𝔡 c).after 6 t) = _
  rw [after6]

/-- Distinct grid points write distinct blocks of the result. -/
theorem idx_inj6 : ∀ t t' : Fin cfg1.N, win1_6.index t = win1_6.index t' → t = t' :=
  (by decide +kernel : ∀ t t' : Fin grid1.N, win1_6.index t = win1_6.index t' → t = t')

theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- Block `t` of the result array after the call, read back through the window, is what point `t` wrote. -/
theorem blocks6 (c : Dev nD) (t : Fin cfg1.N) :
    ((cfg1.win 6).blk t).view.read (Elt F) ((𝔡 c).arrAt 6 cfg1.N) = (𝔡 c).flushed 6 t :=
  (𝔡 c).read_blk_arrAt_eq_flushed 6 disjoint6 cfg1.N t t.isLt (flush1_6 t)

end Cert.Kernel.Tc

end
-- ==== Proof.TcRegionK.lean ====
/-
  The layer-norm call as one region of the host program.

  Entered holding the seven window arrays at the contents `V` (six inputs, one result array) and the core owing
  nothing, the call returns holding the six inputs as they were, the result array at the contents the proof data
  compute (block `t` of it is `lnBlock` of the input blocks at `t`), and the core still owing nothing. The kernel has no
  semaphore of its own; nothing else of the core's state enters the call.
-/
import proofs.«200098_g2130303779034_cont_8to1_582_42_alg».proof.Proof.TcDatK
import Idealize.ShloMosaic.Lib.Pipeline.Regions

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (𝒱₀ : Variants) (ι : Ix)

local notation "𝔡" => dat (Name := Name) (U := U) (Lvl := Lvl) V B

/-- The call prefetches no table. -/
abbrev adm : (p : Fin 1) → (pcfgs (F := F) p).Adm := fun p => (cfgs p).toPCfg_adm

/-! ## The seven window arrays, held whole -/

/-- The windows' arrays on core `c`, each whole at the full share, at contents `G w`. -/
def winArrs (c : Dev nD) (G : (w : Fin 7) → Buf (Elt F) ((c : Thread nD τ).loc (Pipeline.arrRef spec1 w))) : sProp 𝕄 :=
  bigSep Finset.univ fun w : Fin 7 => (((c : Thread nD τ).loc (Pipeline.arrRef spec1 w)) ↦{fullShare} G w : sProp 𝕄)

/-- One by one, in window order. -/
theorem winArrs_eq (c : Dev nD) (G : (w : Fin 7) → Buf (Elt F) ((c : Thread nD τ).loc (Pipeline.arrRef spec1 w))) :
    (winArrs c G : sProp 𝕄) = iprop((((c : Thread nD τ).loc main_v5) ↦{fullShare} G 0) ∗ (((c : Thread nD τ).loc main_arg1) ↦{fullShare} G 1) ∗ (((c : Thread nD τ).loc main_v0) ↦{fullShare} G 2) ∗ (((c : Thread nD τ).loc main_arg4) ↦{fullShare} G 3) ∗ (((c : Thread nD τ).loc main_v1) ↦{fullShare} G 4) ∗ (((c : Thread nD τ).loc main_v2) ↦{fullShare} G 5) ∗ (((c : Thread nD τ).loc main_v6) ↦{fullShare} G 6)) :=
  bigSep_W1 _

/-- What the call is entered with: the window arrays at `V`, the core owing nothing, its recorded pairs within `B`. -/
def tcPre (c : Dev nD) : sProp 𝕄 :=
  iprop(winArrs c (fun w => V c (Pipeline.arrRef spec1 w)) ∗ Pipeline.owesWithin c (0 : CellTallies nD τ sig Ix) B)

/-- What it returns: the arrays after every write-back, the core owing nothing, its recorded pairs within `B` and the
    staging cells' pairs at `ι`. -/
def tcPost (c : Dev nD) : sProp 𝕄 :=
  iprop(winArrs c (fun w => (𝔡 c).arrAt w cfg1.N) ∗ Pipeline.owesWithin c (0 : CellTallies nD τ sig Ix) (B ∪ cfg1.waitPairs ι))

theorem tcPre_eq (c : Dev nD) :
    (tcPre V B c : sProp 𝕄) = iprop(((((c : Thread nD τ).loc main_v5) ↦{fullShare} V c main_v5) ∗ (((c : Thread nD τ).loc main_arg1) ↦{fullShare} V c main_arg1) ∗ (((c : Thread nD τ).loc main_v0) ↦{fullShare} V c main_v0) ∗ (((c : Thread nD τ).loc main_arg4) ↦{fullShare} V c main_arg4) ∗ (((c : Thread nD τ).loc main_v1) ↦{fullShare} V c main_v1) ∗ (((c : Thread nD τ).loc main_v2) ↦{fullShare} V c main_v2) ∗ (((c : Thread nD τ).loc main_v6) ↦{fullShare} V c main_v6)) ∗ Pipeline.owesWithin c (0 : CellTallies nD τ sig Ix) B) := by
  unfold tcPre; rw [winArrs_eq]

/-- The six inputs come back as they were; the result array at the computed contents. -/
theorem tcPost_eq (c : Dev nD) :
    (tcPost V B ι c : sProp 𝕄) = iprop(((((c : Thread nD τ).loc main_v5) ↦{fullShare} V c main_v5) ∗ (((c : Thread nD τ).loc main_arg1) ↦{fullShare} V c main_arg1) ∗ (((c : Thread nD τ).loc main_v0) ↦{fullShare} V c main_v0) ∗ (((c : Thread nD τ).loc main_arg4) ↦{fullShare} V c main_arg4) ∗ (((c : Thread nD τ).loc main_v1) ↦{fullShare} V c main_v1) ∗ (((c : Thread nD τ).loc main_v2) ↦{fullShare} V c main_v2) ∗ (((c : Thread nD τ).loc main_v6) ↦{fullShare} (𝔡 c).arrAt 6 cfg1.N)) ∗ Pipeline.owesWithin c (0 : CellTallies nD τ sig Ix) (B ∪ cfg1.waitPairs ι)) := by
  unfold tcPost; rw [winArrs_eq, arrAt_in0, arrAt_in1, arrAt_in2, arrAt_in3, arrAt_in4, arrAt_in5]

/-! ## The core's unscoped buffers, split at the window arrays -/

/-- A core's unscoped buffers at `V` are the window arrays at `V` and the seven others at `V`. -/
theorem unscopedBufs_split (c : Dev nD) :
    (unscopedBufs c (V c) : sProp 𝕄) = iprop(winArrs c (fun w => V c (Pipeline.arrRef spec1 w)) ∗ Pipeline.unscopedRest spec1 c (V c)) :=
  Pipeline.unscopedBufs_split cfgs 0 launch1.win.arr_unscoped launch1.win.arr_inj c (V c)

/-- Back: the window arrays at `G` and the others at `V` are the unscoped buffers at any valuation that reads `G` at the
    window arrays and `V` elsewhere. -/
theorem unscopedBufs_join (c : Dev nD) (V' : (b : Ref sig .tc) → Buf (Elt F) ((c : Thread nD τ).loc b))
    (G : (w : Fin 7) → Buf (Elt F) ((c : Thread nD τ).loc (Pipeline.arrRef spec1 w)))
    (hG : ∀ w, V' (Pipeline.arrRef spec1 w) = G w) (hrest : ∀ b, (∀ w, b ≠ Pipeline.arrRef spec1 w) → V' b = V c b) :
    iprop(winArrs c G ∗ Pipeline.unscopedRest spec1 c (V c)) ⊢ (unscopedBufs c V' : sProp 𝕄) := by
  rw [Pipeline.unscopedBufs_split cfgs 0 launch1.win.arr_unscoped launch1.win.arr_inj c V']
  refine sep_mono (Entails.of_eq ?_) (Entails.of_eq ?_)
  · unfold winArrs; exact bigSep_congr fun w _ => by rw [hG]
  · unfold Pipeline.unscopedRest
    refine bigSep_congr fun b hb => ?_
    rw [hrest b fun w hw => (Finset.mem_sdiff.mp hb).2 (Finset.mem_image.mpr ⟨w, Finset.mem_univ w, hw.symm⟩)]

/-! ## The region -/

-- the launch lemmas are stated over the pinned configuration; unification must unfold plain definitions in a
-- metavariable's type to see it is this call's
set_option backward.isDefEq.respectTransparency.types false in
/-- The call as a region of the host program: the decided layout, no semaphore of its own, the body obligation; entered
    from `tcPre`, left at `tcPost`; nothing enters the invariant but the scoped buffers no window stages, nothing
    bypasses. -/
def region (L : GSem nD τ sig → Finset Ix) (lv : GSem nD τ sig → Ix → Lvl) :
    Pipeline.RegionSeg (pcfgs (F := F)) adm (dats (Name := Name) (U := U) (Lvl := Lvl) V B) ι defs₀ 𝒱₀ L lv 0 where
  win := launch1.win.to₀
  block_pos := launch1.block_pos
  stage_whole := launch1.stage_whole
  K := PEmpty
  osem := fun k => k.elim
  ho := Pipeline.OwnSemFacts.none _
  hbody c := (body_obligation V B 𝒱₀ ι c).loose
  hwaits := Pipeline.hwaits_of_owed_zero _ _ _ _ L lv 0 fun _ _ => rfl
  pre := tcPre V B
  post := tcPost V B ι
  X _ := iprop(emp)
  Y _ := iprop(emp)
  Z _ := iprop(emp)
  hentry c := by
    unfold tcPre winArrs
    rw [Pipeline.arrays_eq (Pipeline.pin (pcfgs (F := F)) adm) (dats V B) 0 c launch1.arr_whole ((𝔡 c).share_full fun _ => rfl)]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (0 : CellTallies nD τ sig Ix) (Set.subset_union_left (s := B) (t := cfg1.waitPairs ι))); iexact HO
    isplitr <;> iempintro
  hin c := by
    rw [show (dats (Name := Name) (U := U) (Lvl := Lvl) V B 0 c).Φ 0 = Pipeline.scopedRest spec1 c from rfl]
    iintro ⟨-, -, Hr⟩
    iexact Hr
  hout c := by
    rw [Pipeline.ownSems0_none, show (dats (Name := Name) (U := U) (Lvl := Lvl) V B 0 c).Φ (Fin.last cfg1.N) = Pipeline.scopedRest spec1 c from rfl]
    try dsimp only
    iintro Hr
    isplitr; · iempintro
    isplitr; · iempintro
    iexact Hr
  hexit c := by
    unfold tcPost winArrs
    rw [Pipeline.arrays_eq (Pipeline.pin (pcfgs (F := F)) adm) (dats V B) 0 c launch1.arr_whole ((𝔡 c).share_full fun _ => rfl)]
    iintro ⟨Ha, HO, -, -⟩
    imodintro
    isplitl [Ha]; · iexact Ha
    iexact HO

theorem region_pre (L : GSem nD τ sig → Finset Ix) (lv : GSem nD τ sig → Ix → Lvl) (c : Dev nD) :
    (region (Name := Name) (U := U) V B 𝒱₀ ι L lv).pre c = tcPre V B c := rfl
theorem region_post (L : GSem nD τ sig → Finset Ix) (lv : GSem nD τ sig → Ix → Lvl) (c : Dev nD) :
    (region (Name := Name) (U := U) V B 𝒱₀ ι L lv).post c = tcPost V B ι c := rfl

/-! ## The staging cells' ghost state, out of the launch element -/

/-- From the rounds algebra's launch element at the call's staging cells and transfers: every core's cells' ghost
    state and duty tokens, what the region's entry takes. -/
theorem ghost_deal (EP : Emb (URounds (GSem nD τ sig) Unit) (MT nD τ sig Ix (Elt F) Name U Lvl)) :
    BI.own (EP (initOf (Pipeline.cells (Pipeline.pin (pcfgs (F := F)) adm) cellOf_inj) (Pipeline.launchToks (Pipeline.pin (pcfgs (F := F)) adm) cellOf_inj)))
      ⊢ iprop(|==> bigSep Finset.univ fun c : Dev nD =>
          iprop(Pipeline.cellsGhost (Pipeline.pin (pcfgs (F := F)) adm) EP 0 c ∗ (Pipeline.toksInit (Pipeline.pin (pcfgs (F := F)) adm) EP 0 c : sProp 𝕄))) := by
  refine (Pipeline.fund_ghost (Pipeline.pin (pcfgs (F := F)) adm) EP cellOf_inj).trans (BI.bupd_mono ?_)
  rw [← bigSep_sep']
  refine bigSep_mono fun c _ => ?_
  rw [show (Finset.univ : Finset (Fin 1)) = {0} from rfl, BI.bigSep_singleton, BI.bigSep_singleton]
  exact BI.Entails.refl _

end Cert.Kernel.Tc

end
-- ==== Proof.TcCallK.lean ====
/-
  The layer-norm call's step in the host program's proof: from the region boundary, the seven window arrays at `V`,
  the core owing nothing, the level facts and the staging cells' ghost state, the call runs to the boundary and the
  arrays after the call, for the continuation. It is the library's rule for a region at this call's record.
-/
import proofs.«200098_g2130303779034_cont_8to1_582_42_alg».proof.Proof.TcRegionK

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (𝒱₀ : Variants) (ι : Ix)

set_option backward.isDefEq.respectTransparency.types false in
/-- The call under any host bound `bd` that leaves room for its trips. -/
theorem call_wp [Infinite Name] (L : GSem nD τ sig → Finset Ix) (lv : GSem nD τ sig → Ix → Lvl)
    (EP : Emb (URounds (GSem nD τ sig) Unit) (MT nD τ sig Ix (Elt F) Name U Lvl)) [EP.LandsIn (upEmb : UEmb _ 𝕄)]
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ tcPost V B ι c) -∗ wp frame (wpE (Pipeline.defs (pcfgs (F := F)) defs₀) (Variants.lift 𝒱₀) (c.tc : Thread nD τ) bd) Set.univ (k ⟨⟩) Q)
        ∗ boundary (c.tc : Thread nD τ) ∗ tcPre V B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ (.op (.customCall (Pipeline.entry 0) ()) k) Q :=
  Pipeline.RegionSeg.wp (pcfgs (F := F)) adm (dats V B) ι cellOf_inj EP defs₀ 𝒱₀ L lv (region V B 𝒱₀ ι L lv) c bd hv k Q

end Cert.Kernel.Tc

end
-- ==== Proof.TcIoK.lean ====
/-
  The layer-norm call against a core's whole set of unscoped buffers: going in, the buffers at `V` split into the seven
  window arrays (what the call takes) and the seven others; coming out, the arrays after the call and the others are
  the buffers at `V` with the result array's contents replaced.
-/
import proofs.«200098_g2130303779034_cont_8to1_582_42_alg».proof.Proof.TcRegionK

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Set (SemLoc sig × Ix))
variable (ι : Ix)

local notation "𝔡" => dat (Name := Name) (U := U) (Lvl := Lvl) V B

/-- Going in: the unscoped buffers at `V` and the core owing nothing are what the call takes and the seven other buffers. -/
theorem region_in (c : Dev nD) :
    iprop(unscopedBufs c (V c) ∗ Pipeline.owesWithin c (0 : CellTallies nD τ sig Ix) B)
      ⊢ (iprop(tcPre V B c ∗ Pipeline.unscopedRest spec1 c (V c)) : sProp 𝕄) := by
  rw [unscopedBufs_split V c]
  unfold tcPre
  iintro ⟨⟨Ha, Hr⟩, HO⟩
  isplitr [Hr]
  · isplitl [Ha]; · iexact Ha
    iexact HO
  · iexact Hr

/-- Coming out: what the call returns and the seven other buffers are the unscoped buffers at `V` with the result array
    at its contents after the call. -/
theorem region_out (c : Dev nD) :
    iprop(tcPost V B ι c ∗ Pipeline.unscopedRest spec1 c (V c))
      ⊢ (iprop(unscopedBufs c (Function.update (V c) main_v6 ((𝔡 c).arrAt 6 cfg1.N))
          ∗ Pipeline.owesWithin c (0 : CellTallies nD τ sig Ix) (B ∪ cfg1.waitPairs ι)) : sProp 𝕄) := by
  have hG : ∀ w : Fin 7, Function.update (V c) main_v6 ((𝔡 c).arrAt 6 cfg1.N) (Pipeline.arrRef spec1 w) = (𝔡 c).arrAt w cfg1.N := fun w => by
    match w with
    | ⟨0, _⟩ => exact (Function.update_of_ne (show main_v5 ≠ main_v6 by decide) _ _).trans (arrAt_in0 V B c _).symm
    | ⟨1, _⟩ => exact (Function.update_of_ne (show main_arg1 ≠ main_v6 by decide) _ _).trans (arrAt_in1 V B c _).symm
    | ⟨2, _⟩ => exact (Function.update_of_ne (show main_v0 ≠ main_v6 by decide) _ _).trans (arrAt_in2 V B c _).symm
    | ⟨3, _⟩ => exact (Function.update_of_ne (show main_arg4 ≠ main_v6 by decide) _ _).trans (arrAt_in3 V B c _).symm
    | ⟨4, _⟩ => exact (Function.update_of_ne (show main_v1 ≠ main_v6 by decide) _ _).trans (arrAt_in4 V B c _).symm
    | ⟨5, _⟩ => exact (Function.update_of_ne (show main_v2 ≠ main_v6 by decide) _ _).trans (arrAt_in5 V B c _).symm
    | ⟨6, _⟩ => exact Function.update_self _ _ _
  have hrest : ∀ b : Ref sig .tc, (∀ w, b ≠ Pipeline.arrRef spec1 w) → Function.update (V c) main_v6 ((𝔡 c).arrAt 6 cfg1.N) b = V c b :=
    fun b hb => Function.update_of_ne (hb 6) _ _
  unfold tcPost
  iintro ⟨⟨Ha, HO⟩, Hr⟩
  isplitr [HO]
  · iapply (unscopedBufs_join V c (Function.update (V c) main_v6 ((𝔡 c).arrAt 6 cfg1.N)) (fun w => (𝔡 c).arrAt w cfg1.N) hG hrest)
    isplitl [Ha]; · iexact Ha
    iexact Hr
  · iexact HO

end Cert.Kernel.Tc

end
-- ==== Proof.ScOpsK.lean ====
/-
  Four steps of the host program's proof around the gather call.

  Before the call the TensorCore holds the flat index list, the table and the gathered array whole; the call takes, per
  SparseCore, its sixteen tiles' words and rows and a read share of the table, so the table's full share is cut into one
  token per SparseCore and a remainder the TensorCore keeps until the tokens come back. After the call the pieces join
  again. Around the layer-norm call the TensorCore's debt record (nothing owed, its recorded waits at levels at most 8)
  is lent out and taken back with the staging cells' waits added, which sit at level 0. At the end, a buffer held
  whole is what the final memory holds.
-/
import proofs.«200098_g2130303779034_cont_8to1_582_42_alg».proof.Proof.ScLaunchK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fi : (d : Dev nD) → Buf (Elt F) (iLoc d)) (ft : (d : Dev nD) → Buf (Elt F) (tLoc d)) (fo : (d : Dev nD) → Buf (Elt F) (oLoc d))

/-- Handing the call its operands: the two arrays as the tiles' pieces, the table as a token per SparseCore and the
    remainder kept. -/
theorem st0_split (d : Dev nD) :
    iprop((iLoc d ↦{fullShare} fi d) ∗ (tLoc d ↦{fullShare} ft d) ∗ (oLoc d ↦{fullShare} fo d))
      ⊢ (iprop((bigSep Finset.univ fun c : Fin ((K (F := F)).nCore 0) => (P fi ft fo).st 0 d c)
          ∗ (tLoc d ↦{Transfers.shareDrop fullShare 2} ft d)) : sProp 𝕄) := by
  show _ ⊢ iprop((bigSep Finset.univ fun c : Fin 2 => iprop((bigSep Finset.univ fun s : Fin 16 => iTilePts fi d (coordsV c s))
        ∗ (tLoc d ↦{coreShare c} ft d)
        ∗ bigSep Finset.univ fun s : Fin 16 => oTilePts d (coordsV c s) (fo d)))
      ∗ (tLoc d ↦{Transfers.shareDrop fullShare 2} ft d))
  rw [bigSep_sep', bigSep_sep', iPts_tiles (F := F) d (fi d), oPts_tiles (F := F) d (fo d)]
  have htok := Transfers.pointsTo_toks (ℓ := tLoc d) (S := Finset.univ) (f := ft d) (nD := nD) (τ := τ) (sig := sig) (Ix := HIx 1) (Val := Elt F) (Name := ℕ) (U := UU) (Lvl := ℕ)
    fullShare 2
  iintro ⟨Hi, Ht, Ho⟩
  ihave Htk := htok.1 $$ Ht
  icases Htk with ⟨Htd, Hts⟩
  isplitr [Htd]
  · isplitl [Hi]; · iexact Hi
    isplitl [Hts]; · iexact Hts
    iexact Ho
  · iexact Htd

/-- Taking them back: the pieces join, the tokens and the remainder make the table's full share again; the gathered
    array comes back at some contents. -/
theorem dn0_join (d : Dev nD) :
    iprop((bigSep Finset.univ fun c : Fin ((K (F := F)).nCore 0) => (P fi ft fo).dn 0 d c)
        ∗ (tLoc d ↦{Transfers.shareDrop fullShare 2} ft d))
      ⊢ (iprop((iLoc d ↦{fullShare} fi d) ∗ (tLoc d ↦{fullShare} ft d) ∗ ∃ f, oLoc d ↦{fullShare} f) : sProp 𝕄) := by
  show iprop((bigSep Finset.univ fun c : Fin 2 => iprop((bigSep Finset.univ fun s : Fin 16 => iTilePts fi d (coordsV c s))
        ∗ (tLoc d ↦{coreShare c} ft d)
        ∗ bigSep Finset.univ fun s : Fin 16 => iprop(∃ f, oTilePts d (coordsV c s) f)))
      ∗ (tLoc d ↦{Transfers.shareDrop fullShare 2} ft d)) ⊢ _
  rw [bigSep_sep', bigSep_sep', iPts_tiles (F := F) d (fi d)]
  have htok := Transfers.pointsTo_toks (ℓ := tLoc d) (S := Finset.univ) (f := ft d) (nD := nD) (τ := τ) (sig := sig) (Ix := HIx 1) (Val := Elt F) (Name := ℕ) (U := UU) (Lvl := ℕ)
    fullShare 2
  iintro ⟨⟨Hi, Hts, Ho⟩, Htd⟩
  isplitl [Hi]; · iexact Hi
  isplitl [Htd Hts]
  · iapply htok.2
    isplitl [Htd]; · iexact Htd
    iexact Hts
  iapply (oTiles_join (F := F) d)
  iexact Ho

/-- The pairs the TensorCore's waits may have recorded after the gather call: at levels at most 8. -/
abbrev B8 (d : Dev nD) : Set (SemLoc sig × HIx 1) := {p | (K (F := F)).lev (SparseCore.T d, p.1) p.2 ≤ 8}

/-- After the one SparseCore call the TensorCore owes nothing: its debt record can be lent to the layer-norm call and
    taken back with the staging cells' pairs (index none, level 0) added. -/
theorem tcSt_open (d : Dev nD) :
    (K (F := F)).tcSt EH d 1
      ⊢ (iprop(Pipeline.owesWithin d (0 : CellTallies nD τ sig (HIx 1)) (B8 (F := F) d)
          ∗ (Pipeline.owesWithin d (0 : CellTallies nD τ sig (HIx 1)) (B8 (F := F) d ∪ cfg1.waitPairs (none : HIx 1)) -∗ (K (F := F)).tcSt EH d 1)) : sProp 𝕄) := by
  unfold SparseCore.Cfg.tcSt
  rw [(K (F := F)).Otc_end d le_rfl]
  iintro ⟨⟨%W, %hW, HO⟩, Hrest⟩
  isplitl [HO]
  · iexists W; isplitr
    · ipureintro; intro p hp
      have := hW p (Finset.mem_coe.mp hp)
      show (K (F := F)).lev (SparseCore.T d, p.1) p.2 ≤ 8
      omega
    · iexact HO
  iintro ⟨%W', %hW', HO'⟩
  isplitl [HO']
  · iexists W'; isplitr
    · ipureintro; intro p hp
      rcases hW' (Finset.mem_coe.mpr hp) with h | ⟨w, s, rfl⟩
      · have h' : (K (F := F)).lev (SparseCore.T d, p.1) p.2 ≤ 8 := h
        omega
      · show (K (F := F)).lev (SparseCore.T d, _) none ≤ 8 * 1
        rw [(K (F := F)).lev_none]; omega
    · iexact HO'
  iexact Hrest

/-- A core's unscoped buffers held whole say what the memory holds at each of them. -/
theorem unscoped_agree (d : Dev nD) (Vf : (b : Ref sig .tc) → Buf (Elt F) ((d.tc : Thread nD τ).loc b)) (s' : Phys nD τ sig (Elt F))
    (b : Ref sig .tc) (hb : b.isScoped = false) :
    iprop(unscopedBufs d Vf ∗ SI s') ⊢ (iprop(⌜s'.mem.mem ((SparseCore.T d).loc b) = Vf b⌝ ∗ unscopedBufs d Vf ∗ SI s') : sProp 𝕄) := by
  have hmem : b ∈ (Finset.univ.filter fun b : Ref sig .tc => ¬ b.isScoped) :=
    Finset.mem_filter.mpr ⟨Finset.mem_univ _, by simp [hb]⟩
  have h1 : iprop(unscopedBufs d Vf ∗ SI s') ⊢ (⌜s'.mem.mem ((SparseCore.T d).loc b) = Vf b⌝ : sProp 𝕄) := by
    unfold unscopedBufs
    refine (pointsTo_read_all (Finset.univ.filter fun b : Ref sig .tc => ¬ b.isScoped) (fun b => (d.tc : Thread nD τ).loc b) Vf s').trans ?_
    iintro ⟨%h, -⟩
    ipureintro; exact h b hmem
  exact persistent_entails_right h1

end Cert.Kernel.Sc

end
-- ==== Proof.ScMainK.lean ====
/-
  @main on the TensorCore around the two kernels, and the program's run.
  Four host operations prepare the operands (the first 200 rows of the position table, the two layer-norm rows as [1, 128],
  the index list flattened); the gather runs on the SparseCores; its result, reshaped to [1024, 200, 128], enters the
  layer-norm pallas_call with the token types, the position rows, the segment table and the two rows. No argument array is
  written by any of them.
-/
import proofs.«200098_g2130303779034_cont_8to1_582_42_alg».proof.Proof.ScLaunchK
import proofs.«200098_g2130303779034_cont_8to1_582_42_alg».proof.Proof.TcCallK
import proofs.«200098_g2130303779034_cont_8to1_582_42_alg».proof.Proof.TcIoK
import proofs.«200098_g2130303779034_cont_8to1_582_42_alg».proof.Proof.ScOpsK

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type}

local notation "𝕄" => MT nD τ sig (HIx 1) (Elt F) ℕ UU ℕ

/-- The pipeline's rounds inside the certificate's ghost state. -/
abbrev EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

variable [FloatOps F]

/-! ## The TensorCore's unscoped arrays, held whole -/

abbrev rr (b : Ref sig .tc) : DevRef τ sig := Proc.devRef .tc b

abbrev S14 : Finset (DevRef τ sig) := (Finset.univ.filter fun b : Ref sig .tc => ¬ b.isScoped).image rr

omit [FloatOps F] in
theorem mem_S14 (b : Ref sig .tc) (h : b.isScoped = false) : rr b ∈ S14 :=
  Finset.mem_image.mpr ⟨b, Finset.mem_filter.mpr ⟨Finset.mem_univ _, by simp [h]⟩, rfl⟩

omit [FloatOps F] in
theorem unscoped_held (d : Dev nD) (W : Valuation τ sig (Elt F)) :
    (unscopedBufs d (fun b => W (rr b)) : sProp 𝕄) = held (T d) S14 W := by
  unfold unscopedBufs held S14
  exact (SparseCore.bigSep_image_of_injOn (f := rr) (fun a _ b _ e => Proc.devRef_injective _ e)
    (fun b => (((SparseCore.T d).1, b) ↦{fullShare} W b : sProp 𝕄))).symm

/-! ## The host operations -/

abbrev op0 : HloOp τ sig (Elt F) := StableHlo.unary main_arg3 main_v0 ((extractStridedSlice S200x128 ![0, 0] · slices_S512x128_S200x128_0_0) : (⟨S512x128, .f32⟩ : BufTy).Contents (Elt F) → (⟨S200x128, .f32⟩ : BufTy).Contents (Elt F))
abbrev op1 : HloOp τ sig (Elt F) := StableHlo.reshape main_arg5 main_v1 rfl shapeCasts_S128_S1x128
abbrev op2 : HloOp τ sig (Elt F) := StableHlo.reshape main_arg6 main_v2 rfl shapeCasts_S128_S1x128
abbrev op3 : HloOp τ sig (Elt F) := StableHlo.reshape main_arg0 main_v3 rfl shapeCasts_S1024x200_S204800
abbrev op5 : HloOp τ sig (Elt F) := StableHlo.reshape main_v4 main_v5 rfl shapeCasts_S204800x128_S1024x200x128

theorem hop0 : (op0 (F := F)).bufs ⊆ S14 := by
  show ({rr main_arg3, rr main_v0} : Finset (DevRef τ sig)) ⊆ S14
  intro x hx; rcases Finset.mem_insert.mp hx with rfl | hx
  · exact mem_S14 _ rfl
  · rw [Finset.mem_singleton] at hx; subst hx; exact mem_S14 _ rfl
theorem hop1 : (op1 (F := F)).bufs ⊆ S14 := by
  show ({rr main_arg5, rr main_v1} : Finset (DevRef τ sig)) ⊆ S14
  intro x hx; rcases Finset.mem_insert.mp hx with rfl | hx
  · exact mem_S14 _ rfl
  · rw [Finset.mem_singleton] at hx; subst hx; exact mem_S14 _ rfl
theorem hop2 : (op2 (F := F)).bufs ⊆ S14 := by
  show ({rr main_arg6, rr main_v2} : Finset (DevRef τ sig)) ⊆ S14
  intro x hx; rcases Finset.mem_insert.mp hx with rfl | hx
  · exact mem_S14 _ rfl
  · rw [Finset.mem_singleton] at hx; subst hx; exact mem_S14 _ rfl
theorem hop3 : (op3 (F := F)).bufs ⊆ S14 := by
  show ({rr main_arg0, rr main_v3} : Finset (DevRef τ sig)) ⊆ S14
  intro x hx; rcases Finset.mem_insert.mp hx with rfl | hx
  · exact mem_S14 _ rfl
  · rw [Finset.mem_singleton] at hx; subst hx; exact mem_S14 _ rfl
theorem hop5 : (op5 (F := F)).bufs ⊆ S14 := by
  show ({rr main_v4, rr main_v5} : Finset (DevRef τ sig)) ⊆ S14
  intro x hx; rcases Finset.mem_insert.mp hx with rfl | hx
  · exact mem_S14 _ rfl
  · rw [Finset.mem_singleton] at hx; subst hx; exact mem_S14 _ rfl

section Main

variable (m : (ℓ : Loc nD τ sig) → Buf (Elt F) ℓ) (ρ : Dev nD → PrngReg)

/-- The launch valuation, the valuation before the gather, after it (the gathered array at f), and after the reshape. -/
abbrev V0 (d : Dev nD) : Valuation τ sig (Elt F) := fun b => m (d, b)
abbrev V4 (d : Dev nD) : Valuation τ sig (Elt F) := (op3 (F := F)).result ((op2 (F := F)).result ((op1 (F := F)).result ((op0 (F := F)).result (V0 m d))))
abbrev V5 (d : Dev nD) (f : Buf (Elt F) (oLoc d)) : Valuation τ sig (Elt F) := Function.update (V4 m d) (rr main_v4) f
abbrev V6 (d : Dev nD) (f : Buf (Elt F) (oLoc d)) : Valuation τ sig (Elt F) := (op5 (F := F)).result (V5 m d f)

/-- The flat index list the gather reads: the reshape of the token ids. -/
abbrev fiOf (d : Dev nD) : Buf (Elt F) (iLoc d) := V4 m d (rr main_v3)

theorem V4_arg2 (d : Dev nD) : V4 m d (rr main_arg2) = m (tLoc d) := by
  unfold V4
  rw [(op3 (F := F)).result_of_not_mem _ (show rr main_arg2 ∉ ({rr main_v3} : Finset (DevRef τ sig)) by decide),
    (op2 (F := F)).result_of_not_mem _ (show rr main_arg2 ∉ ({rr main_v2} : Finset (DevRef τ sig)) by decide),
    (op1 (F := F)).result_of_not_mem _ (show rr main_arg2 ∉ ({rr main_v1} : Finset (DevRef τ sig)) by decide),
    (op0 (F := F)).result_of_not_mem _ (show rr main_arg2 ∉ ({rr main_v0} : Finset (DevRef τ sig)) by decide)]
theorem V4_v4 (d : Dev nD) : V4 m d (rr main_v4) = m (oLoc d) := by
  unfold V4
  rw [(op3 (F := F)).result_of_not_mem _ (show rr main_v4 ∉ ({rr main_v3} : Finset (DevRef τ sig)) by decide),
    (op2 (F := F)).result_of_not_mem _ (show rr main_v4 ∉ ({rr main_v2} : Finset (DevRef τ sig)) by decide),
    (op1 (F := F)).result_of_not_mem _ (show rr main_v4 ∉ ({rr main_v1} : Finset (DevRef τ sig)) by decide),
    (op0 (F := F)).result_of_not_mem _ (show rr main_v4 ∉ ({rr main_v0} : Finset (DevRef τ sig)) by decide)]

/-- The call's three operands among the unscoped arrays. -/
abbrev T3 : Finset (DevRef τ sig) := {rr main_v3, rr main_arg2, rr main_v4}
omit [FloatOps F] in
theorem hT3 : T3 ⊆ S14 := by
  intro x hx
  rcases Finset.mem_insert.mp hx with rfl | hx; · exact mem_S14 _ rfl
  rcases Finset.mem_insert.mp hx with rfl | hx; · exact mem_S14 _ rfl
  rw [Finset.mem_singleton] at hx; subst hx; exact mem_S14 _ rfl

omit [FloatOps F] in
theorem held_T3 (d : Dev nD) (W : Valuation τ sig (Elt F)) :
    (held (T d) T3 W : sProp 𝕄) = iprop((iLoc d ↦{fullShare} W (rr main_v3)) ∗ (tLoc d ↦{fullShare} W (rr main_arg2)) ∗ (oLoc d ↦{fullShare} W (rr main_v4))) := by
  unfold held T3
  rw [SparseCore.bigSep_insert' (by decide), SparseCore.bigSep_insert' (by decide), bigSep_singleton]

omit [FloatOps F] in
theorem held_split3 (d : Dev nD) (W : Valuation τ sig (Elt F)) :
    (held (T d) S14 W : sProp 𝕄) ⊢ iprop((iLoc d ↦{fullShare} W (rr main_v3)) ∗ (tLoc d ↦{fullShare} W (rr main_arg2)) ∗ (oLoc d ↦{fullShare} W (rr main_v4)) ∗ held (T d) (S14 \ T3) W) := by
  rw [held_sub_split (T d) hT3 W, held_T3]
  iintro ⟨⟨Hi, Ht, Ho⟩, Hr⟩
  isplitl [Hi]; · iexact Hi
  isplitl [Ht]; · iexact Ht
  isplitl [Ho]; · iexact Ho
  iexact Hr
omit [FloatOps F] in
theorem held_join3 (d : Dev nD) (W : Valuation τ sig (Elt F)) :
    iprop((iLoc d ↦{fullShare} W (rr main_v3)) ∗ (tLoc d ↦{fullShare} W (rr main_arg2)) ∗ (oLoc d ↦{fullShare} W (rr main_v4)) ∗ held (T d) (S14 \ T3) W) ⊢ (held (T d) S14 W : sProp 𝕄) := by
  rw [held_sub_split (T d) hT3 W, held_T3]
  iintro ⟨Hi, Ht, Ho, Hr⟩
  isplitr [Hr]; · isplitl [Hi]; · iexact Hi
                  isplitl [Ht]; · iexact Ht
                  iexact Ho
  iexact Hr
omit [FloatOps F] in
theorem held_rest_update (d : Dev nD) (W : Valuation τ sig (Elt F)) (f : Buf (Elt F) (oLoc d)) :
    (held (T d) (S14 \ T3) (Function.update W (rr main_v4) f) : sProp 𝕄) = held (T d) (S14 \ T3) W := by
  unfold held
  refine bigSep_congr fun b hb => ?_
  have hne : b ≠ rr main_v4 := fun e => (Finset.mem_sdiff.mp hb).2 (by subst e; simp [T3])
  rw [Function.update_of_ne hne]

/-! ## The launch element of the certificate's ghost state -/

def uP : UP := initOf (Pipeline.cells (Pipeline.pin (pcfgs (F := F)) Tc.adm) cellOf_inj) (Pipeline.launchToks (Pipeline.pin (pcfgs (F := F)) Tc.adm) cellOf_inj)
def u₀ : UU := (initOf (K (F := F)).hsCells (K (F := F)).hsToks, (uP (F := F), (1 : Counters)))

/-- What the launch deals the TensorCore beyond the library's: the pallas_call's staging cells' ghost state and duty tokens. -/
abbrev G (d : Dev nD) : sProp 𝕄 :=
  iprop(Pipeline.cellsGhost (Pipeline.pin (pcfgs (F := F)) Tc.adm) EP 0 d ∗ Pipeline.toksInit (Pipeline.pin (pcfgs (F := F)) Tc.adm) EP 0 d)

omit [FloatOps F] in
theorem bigSep_emp' {I : Type} (s : Finset I) : (bigSep s fun _ => iprop(emp)) = (iprop(emp) : sProp 𝕄) := bigSep_emp_const s

theorem hu₀ (fi : (d : Dev nD) → Buf (Elt F) (iLoc d)) (ft : (d : Dev nD) → Buf (Elt F) (tLoc d)) (fo : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fi ft fo).x q thr) := by
  unfold u₀ uP
  iintro Hu
  ihave H := (ownU_pair (initOf (K (F := F)).hsCells (K (F := F)).hsToks) ((initOf (Pipeline.cells (Pipeline.pin (pcfgs (F := F)) Tc.adm) cellOf_inj) (Pipeline.launchToks (Pipeline.pin (pcfgs (F := F)) Tc.adm) cellOf_inj), (1 : Counters)))) $$ Hu
  icases H with ⟨HH, HR⟩
  ihave H2 := (own_pair_emb (embR : Emb (UP × Counters) 𝕄) (initOf (Pipeline.cells (Pipeline.pin (pcfgs (F := F)) Tc.adm) cellOf_inj) (Pipeline.launchToks (Pipeline.pin (pcfgs (F := F)) Tc.adm) cellOf_inj)) (1 : Counters)) $$ HR
  icases H2 with ⟨HP, -⟩
  imod (Tc.ghost_deal (F := F) (EP (F := F))) $$ HP with HG
  imodintro
  isplitl [HH]; · iexact HH
  isplitl [HG]; · iexact HG
  rw [show (bigSep Finset.univ fun thr : Thread nD τ => bigSep Finset.univ fun q : Fin 1 => (P (F := F) fi ft fo).x q thr) = bigSep Finset.univ fun _ => iprop(emp) from
    bigSep_congr fun _ _ => bigSep_univ_of_subsingleton (0 : Fin 1), bigSep_emp']
  iempintro

/-! ## @main on the TensorCore -/

/-- What the call carries, at this launch memory: the flat index list at the reshape of the token ids, the table and the
    gathered array at their launch contents. -/
abbrev PP : (K (F := F)).Pay (nD := nD) (Val := Elt F) (Name := ℕ) (U := UU) := P (F := F) (fiOf m) (fun d => m (tLoc d)) (fun d => m (oLoc d))

/-- The arrays the pallas_call is entered with, as the library's valuation by reference. -/
abbrev Vt (d : Dev nD) (f : Buf (Elt F) (oLoc d)) : (c : Dev nD) → (b : Ref sig .tc) → Buf (Elt F) ((c.tc : Thread nD τ).loc b) := fun _ b => V6 m d f (rr b)

/-- The seven argument arrays. -/
abbrev argRefs : Finset (Ref sig .tc) := {main_arg0, main_arg1, main_arg2, main_arg3, main_arg4, main_arg5, main_arg6}

/-- No host operation and no kernel writes an argument array: after the reshape each is at its launch contents. -/
theorem V6_arg (d : Dev nD) (f : Buf (Elt F) (oLoc d)) : ∀ b ∈ (argRefs : Finset (Ref sig .tc)), V6 m d f (rr b) = m ((SparseCore.T d).loc b) := by
  intro b hb
  have key : ∀ b : Ref sig .tc, b ∈ (argRefs : Finset (Ref sig .tc)) → b ≠ main_v0 ∧ b ≠ main_v1 ∧ b ≠ main_v2 ∧ b ≠ main_v3 ∧ b ≠ main_v4 ∧ b ≠ main_v5 := by decide
  obtain ⟨h0, h1, h2, h3, h4, h5⟩ := key b hb
  have inj : ∀ {x y : Ref sig .tc}, x ≠ y → rr x ∉ ({rr y} : Finset (DevRef τ sig)) := fun h hm => h (Proc.devRef_injective _ (Finset.mem_singleton.mp hm))
  unfold V6 V5 V4
  rw [(op5 (F := F)).result_of_not_mem _ (inj h5), Function.update_of_ne (fun e => h4 (Proc.devRef_injective _ e)),
    (op3 (F := F)).result_of_not_mem _ (inj h3), (op2 (F := F)).result_of_not_mem _ (inj h2), (op1 (F := F)).result_of_not_mem _ (inj h1),
    (op0 (F := F)).result_of_not_mem _ (inj h0)]

/-- What @main leaves the claim: the unscoped arrays at contents that are the launch memory's at the seven arguments. -/
abbrev FIN (d : Dev nD) : sProp 𝕄 :=
  iprop(∃ Vf : (b : Ref sig .tc) → Buf (Elt F) ((d.tc : Thread nD τ).loc b), ⌜∀ b ∈ (argRefs : Finset (Ref sig .tc)), Vf b = m ((SparseCore.T d).loc b)⌝ ∗ unscopedBufs d Vf)

set_option maxHeartbeats 2000000 in
/-- @main on device d's TensorCore. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b => V0 m d (rr b)) from rfl, unscoped_held]
  simp only [main, wp_bind, wp_pure]
  iintro ⟨#Hctx, Hst, ⟨Hb, Hheld, Hsems, Hprng⟩, ⟨Hcg, Hti⟩⟩
  -- the four host operations before the gather
  iapply (wp_hlo_within 𝒱 (SparseCore.T d) none Set.univ (op := op0) (S := S14) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S14) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S14) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S14) hop3 (V := (op2 (F := F)).result ((op1 (F := F)).result ((op0 (F := F)).result (V0 m d))))) $$ [Hb Hheld]
  · isplitl [Hb] <;> iassumption
  iintro ⟨Hb, Hheld⟩
  rw [wp_ret]; imodintro
  -- the gather on the SparseCores
  ihave Hh := (held_split3 (F := F) d (V4 m d)) $$ Hheld
  icases Hh with ⟨Hi, Ht, Ho, Hrest⟩
  rw [V4_arg2, V4_v4]
  ihave Hs := (st0_split (F := F) (fiOf m) (fun d => m (tLoc d)) (fun d => m (oLoc d)) d) $$ [Hi Ht Ho]
  · isplitl [Hi]; · iexact Hi
    isplitl [Ht]; · iexact Ht
    iexact Ho
  icases Hs with ⟨Hst0, Htd⟩
  iapply ((K (F := F)).wp_run (D (F := F)) 𝒱 (EH := EH) (P := PP m) κ d 0) $$ [Hst Hst0 Hb Hrest Htd Hsems Hprng Hcg Hti]
  isplitr; · iexact Hctx
  isplitl [Hst]; · iexact Hst
  isplitl [Hst0]; · iexact Hst0
  iintro ⟨Hst, Hdn⟩
  ihave Hd := (dn0_join (F := F) (fiOf m) (fun d => m (tLoc d)) (fun d => m (oLoc d)) d) $$ [Hdn Htd]
  · isplitl [Hdn] <;> iassumption
  icases Hd with ⟨Hi, Ht, %f, Ho⟩
  -- the reshape of the gathered array
  ihave Hheld := (held_join3 (F := F) d (V5 m d f)) $$ [Hi Ht Ho Hrest]
  · rw [held_rest_update, show V5 m d f (rr main_v3) = fiOf m d from Function.update_of_ne (by decide) _ _,
      show V5 m d f (rr main_arg2) = m (tLoc d) from (Function.update_of_ne (by decide) _ _).trans (V4_arg2 m d),
      show V5 m d f (rr main_v4) = f from Function.update_self _ _ _]
    isplitl [Hi]; · iexact Hi
    isplitl [Ht]; · iexact Ht
    isplitl [Ho]; · iexact Ho
    iexact Hrest
  iapply (wp_hlo_within 𝒱 (SparseCore.T d) none Set.univ (op := op5) (S := S14) hop5 (V := V5 m d f)) $$ [Hb Hheld]
  · isplitl [Hb] <;> iassumption
  iintro ⟨Hb, Hheld⟩
  rw [wp_ret]; imodintro
  -- the layer-norm pallas_call
  ihave Hu := (Entails.of_eq (unscoped_held (F := F) d (V6 m d f)).symm) $$ Hheld
  ihave Hst := (Entails.of_eq (show (K (F := F)).tcSt EH d ((0 : Fin 1).val + 1) = (K (F := F)).tcSt EH d 1 from rfl)) $$ Hst
  ihave Ho2 := (tcSt_open (F := F) d) $$ Hst
  icases Ho2 with ⟨Hown, Hclose⟩
  ihave Hin := (Tc.region_in (F := F) (Vt m d f) (B8 (F := F) d) d) $$ [Hu Hown]
  · isplitl [Hu] <;> iassumption
  icases Hin with ⟨Hpre, Hur⟩
  ihave Hlv := (SparseCore.Cfg.ctx_levAts κ) $$ Hctx
  iapply ((K (F := F)).wp_liftProg (D (F := F)) 𝒱 (SparseCore.T d) Set.univ none (.op (.customCall (Pipeline.entry 0) ()) .ret) _)
  iapply (Tc.call_wp (F := F) (Vt m d f) (B8 (F := F) d) 𝒱₀ (none : HIx 1) (K (F := F)).L (K (F := F)).lev (EP (F := F)) d none (fun _ h => nomatch h) .ret _) $$ [Hb Hpre Hlv Hcg Hti Hur Hclose Hsems Hprng]
  isplitr [Hb Hpre Hlv Hcg Hti]
  · iintro ⟨Hb, Hpost⟩
    ihave Hout := (Tc.region_out (F := F) (Vt m d f) (B8 (F := F) d) (none : HIx 1) d) $$ [Hpost Hur]
    · isplitl [Hpost] <;> iassumption
    icases Hout with ⟨Hu, Hown⟩
    ihave Hst := Hclose $$ Hown
    rw [wp_ret]; imodintro; imodintro
    isplitl [Hst]; · iexact Hst
    iexists _
    isplitr
    swap; · iexact Hu
    ipureintro
    intro b hb
    have hne : b ≠ main_v6 := by revert b; decide
    rw [Function.update_of_ne hne]
    exact V6_arg m d f b hb
  · isplitl [Hb]; · iexact Hb
    isplitl [Hpre]; · iexact Hpre
    isplitl [Hlv]; · iexact Hlv
    isplitl [Hcg]; · iexact Hcg
    iexact Hti

/-! ## The final memory reads the claim -/

def fq (d : Dev nD) (s' : Phys nD τ sig (Elt F)) : Prop :=
  ∀ b ∈ (argRefs : Finset (Ref sig .tc)), s'.mem.mem ((SparseCore.T d).loc b) = m ((SparseCore.T d).loc b)

set_option maxRecDepth 16384 in
theorem hfin (d : Dev nD) (s' : Phys nD τ sig (Elt F)) : iprop(FIN m d ∗ SI s') ⊢ (⌜fq m d s'⌝ : sProp 𝕄) := by
  iintro ⟨⟨%Vf, %hV, Hu⟩, HSI⟩
  ihave H := (unscoped_agree (F := F) d Vf s' main_arg0 rfl) $$ [Hu HSI]
  · isplitl [Hu] <;> iassumption
  icases H with ⟨%h0, Hu, HSI⟩
  ihave H := (unscoped_agree (F := F) d Vf s' main_arg1 rfl) $$ [Hu HSI]
  · isplitl [Hu] <;> iassumption
  icases H with ⟨%h1, Hu, HSI⟩
  ihave H := (unscoped_agree (F := F) d Vf s' main_arg2 rfl) $$ [Hu HSI]
  · isplitl [Hu] <;> iassumption
  icases H with ⟨%h2, Hu, HSI⟩
  ihave H := (unscoped_agree (F := F) d Vf s' main_arg3 rfl) $$ [Hu HSI]
  · isplitl [Hu] <;> iassumption
  icases H with ⟨%h3, Hu, HSI⟩
  ihave H := (unscoped_agree (F := F) d Vf s' main_arg4 rfl) $$ [Hu HSI]
  · isplitl [Hu] <;> iassumption
  icases H with ⟨%h4, Hu, HSI⟩
  ihave H := (unscoped_agree (F := F) d Vf s' main_arg5 rfl) $$ [Hu HSI]
  · isplitl [Hu] <;> iassumption
  icases H with ⟨%h5, Hu, HSI⟩
  ihave H := (unscoped_agree (F := F) d Vf s' main_arg6 rfl) $$ [Hu HSI]
  · isplitl [Hu] <;> iassumption
  icases H with ⟨%h6, Hu, HSI⟩
  ipureintro
  intro b hb
  simp only [argRefs, Finset.mem_insert, Finset.mem_singleton] at hb
  rcases hb with rfl | rfl | rfl | rfl | rfl | rfl | rfl
  · exact h0.trans (hV _ (by decide))
  · exact h1.trans (hV _ (by decide))
  · exact h2.trans (hV _ (by decide))
  · exact h3.trans (hV _ (by decide))
  · exact h4.trans (hV _ (by decide))
  · exact h5.trans (hV _ (by decide))
  · exact h6.trans (hV _ (by decide))

/-! ## The program's run -/

def QC : PUnit × MemSt nD τ sig (Elt F) → Prop := fun r =>
  ∀ c : Dev nD, ∀ b ∈ (argRefs : Finset (Ref sig .tc)), r.2.mem ((SparseCore.T c).loc b) = m ((SparseCore.T c).loc b)

/-- Every weakly fair execution of the kernel program from m terminates, faults nowhere and leaves the seven argument
    arrays as they were, provided every word of the flattened token ids names a row of the table. -/
theorem run_main [∀ e, Nonempty (Elt F e)] (hfi : ∀ d j, (fiOf m d j).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (fiOf m) (fun d => m (tLoc d)) (fun d => m (oLoc d)) facts hfi)
    (fun q _ => match q with | 0 => SparseCore.Cfg.VecSplit.of_plain (vecSplit (fiOf m) (fun d => m (tLoc d)) (fun d => m (oLoc d))))
    m ρ main (fun d => G (F := F) d) (FIN m) (u₀ (F := F)) (sep_elim_left.trans (hu₀ (fiOf m) (fun d => m (tLoc d)) (fun d => m (oLoc d))))
    (hmain m ρ) (fq m) (hfin m) (QC m) (fun _ h => h)

end Main

end Cert.Kernel.Sc

end
-- ==== Proof.ScFrameK.lean ====
/-
  The word-level kernel program's frame: under the precondition every weakly fair execution terminates, faults nowhere
  and leaves the seven argument arrays unchanged. The precondition bounds every token id by 99999, the flat index list
  is the token ids reshaped, so every word the gathers read names a row of the table.
-/
import proofs.«200098_g2130303779034_cont_8to1_582_42_alg».proof.Proof.ScMainK
import proofs.«200098_g2130303779034_cont_8to1_582_42_alg».proof.Proof.RefPre
import proofs.«200098_g2130303779034_cont_8to1_582_42_alg».proof.Proof.RefFlat

noncomputable section

namespace Cert.Kernel.Sc

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (m : (ℓ : Loc nD τ sig) → Buf (Elt F) ℓ)

/-- The flat index list is the token ids, reshaped. -/
theorem fiOf_apply (d : Dev nD) (j : S204800.Idx) :
    fiOf m d j = shapeCast S204800 (m ((SparseCore.T d).loc main_arg0)) shapeCasts_S1024x200_S204800 j := by
  show (op3 (F := F)).result _ (rr main_v3) j = _
  rw [StableHlo.reshape_result]
  rw [(op2 (F := F)).result_of_not_mem _ (show rr main_arg0 ∉ ({rr main_v2} : Finset (DevRef τ sig)) by decide),
    (op1 (F := F)).result_of_not_mem _ (show rr main_arg0 ∉ ({rr main_v1} : Finset (DevRef τ sig)) by decide),
    (op0 (F := F)).result_of_not_mem _ (show rr main_arg0 ∉ ({rr main_v0} : Finset (DevRef τ sig)) by decide)]
  rfl

theorem hfi_of_ids (hids : ∀ d i, (m ((SparseCore.T d).loc main_arg0) i).toNat ≤ 99999) : ∀ d j, (fiOf m d j).toNat < 100000 := by
  intro d j
  rw [fiOf_apply]
  exact Cert.RefSide.flat_range _ (hids d) _ j

end

/-- The word-level kernel program's frame, as the claim states it. -/
theorem frame : Cert.frame_Kernel (hKernel := Cert.Kernel.Gen.facts) (hPre_input_domain := Cert.Pre_input_domain.Gen.facts) := fun m g hpre =>
  (θ_run Cert.Kernel.defs _ _).mono
    (fun _ h c => ⟨h c main_arg0 (by decide), h c main_arg1 (by decide), h c main_arg2 (by decide), h c main_arg3 (by decide),
      h c main_arg4 (by decide), h c main_arg5 (by decide), h c main_arg6 (by decide)⟩)
    (run_main (F := Bits) m g (hfi_of_ids m fun d => Cert.RefSide.ids_range (F := Bits) _ _ _ _ _ _ _ (hpre d)))

end Cert.Kernel.Sc

end
-- ==== Proof.RefOut.lean ====
/-
  The reference's result as one pure function of its seven argument arrays.

  Three table lookups, each as jnp.take prints it: a negative index counts from the end of the table (a select on
  "index < 0" between "index + N" and the index), the wrapped index as a one-component index vector, a gather of whole
  rows of the table at those start indices (each clamped into the table by the gather itself), the test
  "0 ≤ index ≤ N − 1" (signed) reduced over the one component, and a select between the gathered row and a quiet NaN.
  The token rows are looked up at the token ids, the position rows at 0, 1, …, 199, the segment rows at the segment
  ids; the three are added (the position rows the same for every one of the 1024 sequences). Then the layer
  normalisation over the 128 columns: the mean is the row sum over 128, the variance the row sum of squared deviations
  over 128, and the result is the deviation over the square root of (variance + epsilon), times gamma, plus beta, the
  last two broadcast along the columns.
-/
import proofs.«200098_g2130303779034_cont_8to1_582_42_alg».proof.Proof.Gen.ReferenceIdeal

noncomputable section

namespace Cert.RefSide

open Cert.ReferenceIdeal Cert.ReferenceIdeal.Gen Idealize.ShloMosaic

variable {F : FTy → Type} [FloatOps F]

/-! ## The token lookup -/

/-- The token lookup's start indices: the id, or the id plus 100000 where it is negative; as a column of one-component
    index vectors. -/
def tokIdx (ids : IVec S1024x200 32) : IVec S1024x200x1 32 :=
  broadcastInDim S1024x200x1 ![0, 1] bcast_S1024x200_S1024x200x1_0_1
    (select (cmpi .slt ids (broadcastInDim S1024x200 ![] bcast_S_S1024x200 (constantI S_ 32 0#32)))
      (addi ids (broadcastInDim S1024x200 ![] bcast_S_S1024x200 (constantI S_ 32 100000#32))) ids)

/-- Which start indices name a row of the token table: 0 ≤ index ≤ 99999 as signed integers, over the one component. -/
def tokOk (ids : IVec S1024x200 32) : IVec S1024x200 1 :=
  Host.reduce IntOp.andi
    (andi (cmpi .sge (tokIdx ids) (broadcastInDim S1024x200x1 ![] bcast_S_S1024x200x1 (constantI S_ 32 0#32)))
      (cmpi .sle (tokIdx ids)
        (broadcastInDim S1024x200x1 ![0, 1, 2] bcast_S1x1x1_S1024x200x1_0_1_2
          (broadcastInDim S1x1x1 ![2] bcast_S1_S1x1x1_2 (constantI S1 32 99999#32)))))
    (constantI S_ 1 1#1) reducesTo_S1024x200x1_S1024x200_d2 h_S_

/-- The token rows: the gathered row where the index names one, a quiet NaN elsewhere. -/
def tok (tbl : FVec F S100000x128 .f32) (ids : IVec S1024x200 32) : FVec F S1024x200x128 .f32 :=
  select (broadcastInDim S1024x200x128 ![0, 1] bcast_S1024x200_S1024x200x128_0_1 (tokOk ids))
    (Host.gather gather_S100000x128_S1024x200x1_S1024x200x128_2_0_n_n_0_2_1128 tbl (tokIdx ids))
    (broadcastInDim S1024x200x128 ![] bcast_S_S1024x200x128 (constant (F := F) S_ .f32 0x7FC00000#32))

/-! ## The position lookup, at the positions 0, 1, …, 199 -/

/-- The position lookup's start indices: position p, or p + 512 where it is negative; as a column. -/
def posIdx : IVec S200x1 32 :=
  broadcastInDim S200x1 ![0] bcast_S200_S200x1_0
    (select (cmpi .slt (iotaInDim S200 32 0) (broadcastInDim S200 ![] bcast_S_S200 (constantI S_ 32 0#32)))
      (addi (iotaInDim S200 32 0) (broadcastInDim S200 ![] bcast_S_S200 (constantI S_ 32 512#32))) (iotaInDim S200 32 0))

/-- Which start indices name a row of the position table: 0 ≤ index ≤ 511. -/
def posOk : IVec S200 1 :=
  Host.reduce IntOp.andi
    (andi (cmpi .sge posIdx (broadcastInDim S200x1 ![] bcast_S_S200x1 (constantI S_ 32 0#32)))
      (cmpi .sle posIdx
        (broadcastInDim S200x1 ![0, 1] bcast_S1x1_S200x1_0_1
          (broadcastInDim S1x1 ![1] bcast_S1_S1x1_1 (constantI S1 32 511#32)))))
    (constantI S_ 1 1#1) reducesTo_S200x1_S200_d1 h_S_

/-- The position rows. -/
def pos (tbl : FVec F S512x128 .f32) : FVec F S200x128 .f32 :=
  select (broadcastInDim S200x128 ![0] bcast_S200_S200x128_0 posOk)
    (Host.gather gather_S512x128_S200x1_S200x128_1_0_n_n_0_1_1128 tbl posIdx)
    (broadcastInDim S200x128 ![] bcast_S_S200x128 (constant (F := F) S_ .f32 0x7FC00000#32))

/-! ## The segment lookup -/

/-- The segment lookup's start indices: the segment id, or the id plus 2 where it is negative; as a column. -/
def segIdx (tt : IVec S1024x200 32) : IVec S1024x200x1 32 :=
  broadcastInDim S1024x200x1 ![0, 1] bcast_S1024x200_S1024x200x1_0_1
    (select (cmpi .slt tt (broadcastInDim S1024x200 ![] bcast_S_S1024x200 (constantI S_ 32 0#32)))
      (addi tt (broadcastInDim S1024x200 ![] bcast_S_S1024x200 (constantI S_ 32 2#32))) tt)

/-- Which start indices name a row of the segment table: 0 ≤ index ≤ 1. -/
def segOk (tt : IVec S1024x200 32) : IVec S1024x200 1 :=
  Host.reduce IntOp.andi
    (andi (cmpi .sge (segIdx tt) (broadcastInDim S1024x200x1 ![] bcast_S_S1024x200x1 (constantI S_ 32 0#32)))
      (cmpi .sle (segIdx tt)
        (broadcastInDim S1024x200x1 ![0, 1, 2] bcast_S1x1x1_S1024x200x1_0_1_2
          (broadcastInDim S1x1x1 ![2] bcast_S1_S1x1x1_2 (constantI S1 32 1#32)))))
    (constantI S_ 1 1#1) reducesTo_S1024x200x1_S1024x200_d2 h_S_

/-- The segment rows. -/
def seg (tbl : FVec F S2x128 .f32) (tt : IVec S1024x200 32) : FVec F S1024x200x128 .f32 :=
  select (broadcastInDim S1024x200x128 ![0, 1] bcast_S1024x200_S1024x200x128_0_1 (segOk tt))
    (Host.gather gather_S2x128_S1024x200x1_S1024x200x128_2_0_n_n_0_2_1128 tbl (segIdx tt))
    (broadcastInDim S1024x200x128 ![] bcast_S_S1024x200x128 (constant (F := F) S_ .f32 0x7FC00000#32))

/-! ## The sum of the three, and its normalisation over the columns -/

/-- Token row plus position row (the same for every sequence) plus segment row. -/
def emb (ids tt : IVec S1024x200 32) (tokT : FVec F S100000x128 .f32) (posT : FVec F S512x128 .f32)
    (segT : FVec F S2x128 .f32) : FVec F S1024x200x128 .f32 :=
  addf
    (addf (tok tokT ids)
      (broadcastInDim S1024x200x128 ![0, 1, 2] bcast_S1x200x128_S1024x200x128_0_1_2
        (broadcastInDim S1x200x128 ![1, 2] bcast_S200x128_S1x200x128_1_2 (pos posT))))
    (seg segT tt)

/-- The mean over the 128 columns, kept as a column: the row sum (from zero) over 128. -/
def mean (x : FVec F S1024x200x128 .f32) : FVec F S1024x200x1 .f32 :=
  Host.divf
    (broadcastInDim S1024x200x1 ![0, 1] bcast_S1024x200_S1024x200x1_0_1
      (Host.reduceAdd x (constant (F := F) S_ .f32 0x00000000#32) reducesTo_S1024x200x128_S1024x200_d2 h_S_))
    (broadcastInDim S1024x200x1 ![] bcast_S_S1024x200x1 (constant (F := F) S_ .f32 0x43000000#32))

/-- The deviation from the mean. -/
def centered (x : FVec F S1024x200x128 .f32) : FVec F S1024x200x128 .f32 :=
  subf x (broadcastInDim S1024x200x128 ![0, 1, 2] bcast_S1024x200x1_S1024x200x128_0_1_2 (mean x))

/-- The variance over the 128 columns, kept as a column: the row sum of squared deviations over 128. -/
def var (x : FVec F S1024x200x128 .f32) : FVec F S1024x200x1 .f32 :=
  Host.divf
    (broadcastInDim S1024x200x1 ![0, 1] bcast_S1024x200_S1024x200x1_0_1
      (Host.reduceAdd (mulf (centered x) (centered x)) (constant (F := F) S_ .f32 0x00000000#32)
        reducesTo_S1024x200x128_S1024x200_d2 h_S_))
    (broadcastInDim S1024x200x1 ![] bcast_S_S1024x200x1 (constant (F := F) S_ .f32 0x43000000#32))

/-- The deviation over the square root of (variance + epsilon). -/
def normed (x : FVec F S1024x200x128 .f32) : FVec F S1024x200x128 .f32 :=
  Host.divf (centered x)
    (broadcastInDim S1024x200x128 ![0, 1, 2] bcast_S1024x200x1_S1024x200x128_0_1_2
      (Host.sqrt (addf (var x)
        (broadcastInDim S1024x200x1 ![] bcast_S_S1024x200x1 (constant (F := F) S_ .f32 0x3727C5AC#32)))))

/-- The reference's result: the normalised sum, times gamma, plus beta (both along the columns). -/
def out (ids tt : IVec S1024x200 32) (tokT : FVec F S100000x128 .f32) (posT : FVec F S512x128 .f32)
    (segT : FVec F S2x128 .f32) (gamma beta : FVec F S128 .f32) : FVec F S1024x200x128 .f32 :=
  addf
    (mulf (normed (emb ids tt tokT posT segT))
      (broadcastInDim S1024x200x128 ![0, 1, 2] bcast_S1x1x128_S1024x200x128_0_1_2
        (broadcastInDim S1x1x128 ![2] bcast_S128_S1x1x128_2 gamma)))
    (broadcastInDim S1024x200x128 ![0, 1, 2] bcast_S1x1x128_S1024x200x128_0_1_2
      (broadcastInDim S1x1x128 ![2] bcast_S128_S1x1x128_2 beta))

end Cert.RefSide

end
-- ==== Proof.RefRun.lean ====
/-
  The reference's run, read back: its @main, with the three lookups' functions unfolded at their calls, is a straight
  line of 103 host operations; every weakly fair execution of it terminates, the result buffer ends at the operations'
  composed term of the seven argument arrays (the function `out`) and the argument arrays end unchanged. No
  precondition is used: the run holds from any memory.
-/
import proofs.«200098_g2130303779034_cont_8to1_582_42_alg».proof.Proof.RefOut
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: each lookup is twenty-three (the wrap of negative indices, whose
    select is the inner function's one operation; the index column; the range test and its reduction; the gather; the
    mask's broadcast, the NaN and the select), into that call's own buffers; between them the positions 0, …, 199 and
    the position rows' two broadcasts; then the two sums and the normalisation's twenty-nine. -/
abbrev ops : List (HloOp τ sig (Elt F)) :=
  [
    TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg2) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    nullary main_v1 (iotaInDim S200 32 0),
    TRef.nullary main_call1.c (constantI S_ 32 0#32),
    TRef.unary main_call1.c main_call1.v0 (broadcastInDim S200 ![] bcast_S_S200),
    TRef.binary (.of main_v1) main_call1.v0 main_call1.v1 (cmpi .slt),
    TRef.nullary main_call1.c_0 (constantI S_ 32 512#32),
    TRef.unary main_call1.c_0 main_call1.v2 (broadcastInDim S200 ![] bcast_S_S200),
    TRef.binary (.of main_v1) main_call1.v2 main_call1.v3 addi,
    TRef.ternary main_call1.v1 main_call1.v3 (.of main_v1) main_call1.call0.v0 select,
    TRef.unary main_call1.call0.v0 main_call1.v5 (broadcastInDim S200x1 ![0] bcast_S200_S200x1_0),
    TRef.nullary main_call1.c_1 (constantI S1 32 511#32),
    TRef.nullary main_call1.c_2 (constantI S_ 32 0#32),
    TRef.unary main_call1.c_2 main_call1.v6 (broadcastInDim S200x1 ![] bcast_S_S200x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S200x1 ![0, 1] bcast_S1x1_S200x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S200x1_S200_d1 h_S_),
    TRef.binary (.of main_arg3) main_call1.v5 main_call1.v13 (fun x i => Host.gather gather_S512x128_S200x1_S200x128_1_0_n_n_0_1_1128 x i),
    TRef.unary main_call1.v12 main_call1.v14 (broadcastInDim S200x128 ![0] bcast_S200_S200x128_0),
    TRef.nullary main_call1.cst (constant S_ .f32 0x7FC00000#32),
    TRef.unary main_call1.cst main_call1.v15 (broadcastInDim S200x128 ![] bcast_S_S200x128),
    TRef.ternary main_call1.v14 main_call1.v13 main_call1.v15 main_call1.v16 select,
    unary main_v2 main_v3 (broadcastInDim S1x200x128 ![1, 2] bcast_S200x128_S1x200x128_1_2 : (⟨S200x128, .f32⟩ : BufTy).Contents (Elt F) → (⟨S1x200x128, .f32⟩ : BufTy).Contents (Elt F)),
    TRef.nullary main_call2.c (constantI S_ 32 0#32),
    TRef.unary main_call2.c main_call2.v0 (broadcastInDim S1024x200 ![] bcast_S_S1024x200),
    TRef.binary (.of main_arg1) main_call2.v0 main_call2.v1 (cmpi .slt),
    TRef.nullary main_call2.c_0 (constantI S_ 32 2#32),
    TRef.unary main_call2.c_0 main_call2.v2 (broadcastInDim S1024x200 ![] bcast_S_S1024x200),
    TRef.binary (.of main_arg1) main_call2.v2 main_call2.v3 addi,
    TRef.ternary main_call2.v1 main_call2.v3 (.of main_arg1) main_call2.call0.v0 select,
    TRef.unary main_call2.call0.v0 main_call2.v5 (broadcastInDim S1024x200x1 ![0, 1] bcast_S1024x200_S1024x200x1_0_1),
    TRef.nullary main_call2.c_1 (constantI S1 32 1#32),
    TRef.nullary main_call2.c_2 (constantI S_ 32 0#32),
    TRef.unary main_call2.c_2 main_call2.v6 (broadcastInDim S1024x200x1 ![] bcast_S_S1024x200x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x200x1 ![0, 1, 2] bcast_S1x1x1_S1024x200x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x200x1_S1024x200_d2 h_S_),
    TRef.binary (.of main_arg4) main_call2.v5 main_call2.v13 (fun x i => Host.gather gather_S2x128_S1024x200x1_S1024x200x128_2_0_n_n_0_2_1128 x i),
    TRef.unary main_call2.v12 main_call2.v14 (broadcastInDim S1024x200x128 ![0, 1] bcast_S1024x200_S1024x200x128_0_1),
    TRef.nullary main_call2.cst (constant S_ .f32 0x7FC00000#32),
    TRef.unary main_call2.cst main_call2.v15 (broadcastInDim S1024x200x128 ![] bcast_S_S1024x200x128),
    TRef.ternary main_call2.v14 main_call2.v13 main_call2.v15 main_call2.v16 select,
    unary main_v3 main_v5 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v0 main_v5 main_v6 (addf : (⟨S1024x200x128, .f32⟩ : BufTy).Contents (Elt F) → (⟨S1024x200x128, .f32⟩ : BufTy).Contents (Elt F) → (⟨S1024x200x128, .f32⟩ : BufTy).Contents (Elt F)),
    binary main_v6 main_v4 main_v7 (addf : (⟨S1024x200x128, .f32⟩ : BufTy).Contents (Elt F) → (⟨S1024x200x128, .f32⟩ : BufTy).Contents (Elt F) → (⟨S1024x200x128, .f32⟩ : BufTy).Contents (Elt F)),
    nullary main_cst (constant S_ .f32 0x00000000#32),
    binary main_v7 main_cst main_v8 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v10 (broadcastInDim S1024x200x1 ![] bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v12 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v12 main_v13 (subf : (⟨S1024x200x128, .f32⟩ : BufTy).Contents (Elt F) → (⟨S1024x200x128, .f32⟩ : BufTy).Contents (Elt F) → (⟨S1024x200x128, .f32⟩ : BufTy).Contents (Elt F)),
    binary main_v13 main_v13 main_v14 (mulf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x00000000#32),
    binary main_v14 main_cst_1 main_v15 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v15 main_v16 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_2 (constant S_ .f32 0x43000000#32),
    unary main_cst_2 main_v17 (broadcastInDim S1024x200x1 ![] bcast_S_S1024x200x1 : (⟨S_, .f32⟩ : BufTy).Contents (Elt F) → (⟨S1024x200x1, .f32⟩ : BufTy).Contents (Elt F)),
    binary main_v16 main_v17 main_v18 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v19 main_v20 (subf : (⟨S1024x200x128, .f32⟩ : BufTy).Contents (Elt F) → (⟨S1024x200x128, .f32⟩ : BufTy).Contents (Elt F) → (⟨S1024x200x128, .f32⟩ : BufTy).Contents (Elt F)),
    nullary main_cst_3 (constant S_ .f32 0x3727C5AC#32),
    unary main_cst_3 main_v21 (broadcastInDim S1024x200x1 ![] bcast_S_S1024x200x1 : (⟨S_, .f32⟩ : BufTy).Contents (Elt F) → (⟨S1024x200x1, .f32⟩ : BufTy).Contents (Elt F)),
    binary main_v18 main_v21 main_v22 (addf : (⟨S1024x200x1, .f32⟩ : BufTy).Contents (Elt F) → (⟨S1024x200x1, .f32⟩ : BufTy).Contents (Elt F) → (⟨S1024x200x1, .f32⟩ : BufTy).Contents (Elt F)),
    unary main_v22 main_v23 (Host.sqrt : (⟨S1024x200x1, .f32⟩ : BufTy).Contents (Elt F) → (⟨S1024x200x1, .f32⟩ : BufTy).Contents (Elt F)),
    unary main_v23 main_v24 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v20 main_v24 main_v25 (Host.divf : (⟨S1024x200x128, .f32⟩ : BufTy).Contents (Elt F) → (⟨S1024x200x128, .f32⟩ : BufTy).Contents (Elt F) → (⟨S1024x200x128, .f32⟩ : BufTy).Contents (Elt F)),
    unary main_arg5 main_v26 (broadcastInDim S1x1x128 ![2] bcast_S128_S1x1x128_2 : (⟨S128, .f32⟩ : BufTy).Contents (Elt F) → (⟨S1x1x128, .f32⟩ : BufTy).Contents (Elt F)),
    unary main_v26 main_v27 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v25 main_v27 main_v28 (mulf : (⟨S1024x200x128, .f32⟩ : BufTy).Contents (Elt F) → (⟨S1024x200x128, .f32⟩ : BufTy).Contents (Elt F) → (⟨S1024x200x128, .f32⟩ : BufTy).Contents (Elt F)),
    unary main_arg6 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v28 main_v30 main_v31 (addf : (⟨S1024x200x128, .f32⟩ : BufTy).Contents (Elt F) → (⟨S1024x200x128, .f32⟩ : BufTy).Contents (Elt F) → (⟨S1024x200x128, .f32⟩ : BufTy).Contents (Elt F)) ]

-- a hundred and three binds re-associated: the rewrite under the chain recurses once per statement
set_option maxRecDepth 8192 in
set_option maxHeartbeats 4000000 in
/-- @main is that straight line: the functions' definitions unfolded at their calls. -/
theorem main_eq (c : Dev nD) : main (F := F) c = seq ops := by
  simp only [main, fn_take.body, fn_take_0.body, fn_take_2.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- Every buffer after the run: the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

-- the lookups' folds and searches over their operands' elements stay folded: the equation never looks inside them
attribute [local irreducible] Host.reduce Host.gather Host.reduceAdd in
set_option maxRecDepth 16384 in
set_option maxHeartbeats 4000000 in
/-- The fold at the result buffer is `out` of the arguments' contents: each operation's result at its own buffer is its
    function's value, at any other buffer what was there; the typed references' casts are the identity at these
    literal references. -/
theorem out_eq (V : Valuation τ sig (Elt F)) :
    after ops V (main_v31 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- For any float values, from any memory with zero counters: every weakly fair execution of @main terminates with the
    result at `out` of the arguments' launch contents, and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_all m ρ)

/-- The same at the extended reals, every location spelt as the claim spells it. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v31) = Cert.RefSide.out (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  run_gen (F := Ideal) m g

end Cert.RefSide

end
-- ==== Proof.RefFrame.lean ====
/-
  The reference's frame: its run with the result dropped. The precondition is not used.
-/
import proofs.«200098_g2130303779034_cont_8to1_582_42_alg».proof.Defs
import proofs.«200098_g2130303779034_cont_8to1_582_42_alg».proof.Proof.RefRun
import proofs.«200098_g2130303779034_cont_8to1_582_42_alg».proof.Proof.Gen.Pre_input_domain

noncomputable section

namespace Cert.RefSide

open Idealize.ShloMosaic Idealize.SL.Sem

/-- Under the precondition (unused) every weakly fair execution of the reference terminates, faults nowhere, and
    leaves its seven argument arrays as they were. -/
theorem frame : Cert.frame_ReferenceIdeal (hReferenceIdeal := Cert.ReferenceIdeal.Gen.facts)
    (hPre_input_domain := Cert.Pre_input_domain.Gen.facts) :=
  fun m g _ => (θ_run (Cert.ReferenceIdeal.defs (F := Ideal)) _ _).mono (fun _ h c => (h c).2) (Cert.RefSide.run m g)

end Cert.RefSide

end
-- ==== Proof.ScLaunchV.lean ====
/-
  The gather call's launch with the gathered contents named.

  The same dealing of the call's operands to the SparseCores and their tiles, but what comes back says what each tile
  wrote: its rows of the gathered array hold the contents `g` there. The tile's run is taken as given in that form
  (`TileRunVal`); everything around it is the dealing and the collecting.
-/
import proofs.«200098_g2130303779034_cont_8to1_582_42_alg».proof.Proof.ScLaunch

noncomputable section

namespace Cert.KernelIdeal.ScV

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v3_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v4_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

variable (fi : (d : Dev nD) → Buf (Elt F) (iLoc d)) (ft : (d : Dev nD) → Buf (Elt F) (tLoc d)) (fo : (d : Dev nD) → Buf (Elt F) (oLoc d))
-- what the gathered array holds after the call
variable (g : (d : Dev nD) → Buf (Elt F) (oLoc d))

/-- A tile's rows of the gathered array at contents that are `g` there. -/
abbrev oTileVal (d : Dev nD) (L : grid0.Coords) : sProp 𝕄 :=
  iprop(∃ f, ⌜∀ i ∈ oSet L, f i = g d i⌝ ∗ oTilePts d L f)

/-- What the handshakes carry: as the frame's, but the rows come back at `g`. -/
def P : (K (F := F)).Pay (nD := nD) (Val := Elt F) (Name := ℕ) (U := UU) where
  st := fun q d c => match q with
    | 0 => iprop((bigSep Finset.univ fun s : Fin 16 => iTilePts fi d (coordsV c s))
        ∗ (tLoc d ↦{coreShare c} ft d)
        ∗ bigSep Finset.univ fun s : Fin 16 => oTilePts d (coordsV c s) (fo d))
  dn := fun q d c => match q with
    | 0 => iprop((bigSep Finset.univ fun s : Fin 16 => iTilePts fi d (coordsV c s))
        ∗ (tLoc d ↦{coreShare c} ft d)
        ∗ bigSep Finset.univ fun s : Fin 16 => oTileVal g d (coordsV c s))
  go := fun q d c i => match q with
    | 0 => iprop(iTilePts fi d (coordsV c i) ∗ tTilePts ft d (coordsV c i)
        ∗ oTilePts d (coordsV c i) (fo d))
  td := fun q d c i => match q with
    | 0 => iprop(iTilePts fi d (coordsV c i) ∗ tTilePts ft d (coordsV c i)
        ∗ oTileVal g d (coordsV c i))
  x := fun _ _ => iprop(emp)

instance P_storable : (P (F := F) fi ft fo g).IsStorable where
  st q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => oTilePts d (coordsV c s) (fo d)))
  dn q d c := match q with
    | 0 => (inferInstance : BI.Storable (upEmb : UEmb _ 𝕄) iprop((bigSep Finset.univ fun s : Fin 16 => iTilePts fi d (coordsV c s))
        ∗ (tLoc d ↦{coreShare c} ft d)
        ∗ bigSep Finset.univ fun s : Fin 16 => iprop(∃ f, ⌜∀ i ∈ oSet (coordsV c s), f i = g d i⌝ ∗ oTilePts d (coordsV c s) f)))
  go q d c i := match q with
    | 0 => (inferInstance : BI.Storable (upEmb : UEmb _ 𝕄)
      iprop(iTilePts fi d (coordsV c i) ∗ tTilePts ft d (coordsV c i)
        ∗ oTilePts d (coordsV c i) (fo d)))
  td q d c i := match q with
    | 0 => (inferInstance : BI.Storable (upEmb : UEmb _ 𝕄)
      iprop(iTilePts fi d (coordsV c i) ∗ tTilePts ft d (coordsV c i)
        ∗ ∃ f, ⌜∀ i' ∈ oSet (coordsV c i), f i' = g d i'⌝ ∗ oTilePts d (coordsV c i) f))

section Tile

variable (d : Dev nD) (L : grid0.Coords)

/-- The run's postcondition with the rows named: as the frame's, the tile's rows at contents that are `g` there. -/
abbrev runPostV (O : CellTallies nD τ sig (HIx 1)) (W : Waits sig (HIx 1)) : sProp 𝕄 :=
  iprop(((iChunkK L).view.loc (V d (cV L) (jV L)) ↦[(iChunkK L).view.set]{fullShare} fi d)
            ∗ ((tV).view.loc (V d (cV L) (jV L)) ↦{Transfers.shareTok (tileShare (cL L) (sL L)) 19 cc0_scratch5.sem} ft d)
            ∗ ((tV).view.loc (V d (cV L) (jV L)) ↦{Transfers.shareTok (tileShare (cL L) (sL L)) 19 cc0_scratch6.sem} ft d)
            ∗ ((tV).view.loc (V d (cV L) (jV L)) ↦{Transfers.shareTok (tileShare (cL L) (sL L)) 19 cc0_scratch7.sem} ft d)
            ∗ ((tV).view.loc (V d (cV L) (jV L)) ↦{Transfers.shareTok (tileShare (cL L) (sL L)) 19 cc0_scratch8.sem} ft d)
            ∗ (∃ f, ((oV).view.loc (V d (cV L) (jV L)) ↦[(oV).view.setOn (oTileRect L).set]{fullShare} f)
                ∗ ⌜∀ i ∈ (oV).view.setOn (oTileRect L).set, f i = g d i⌝)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W')

end Tile

/-- The tile's run in the form that names what it leaves: from the run's precondition (at the tile's table tokens) to
    `runPostV`, at every tile. -/
def TileRunVal : Prop :=
  ∀ (d : Dev nD) (L : grid0.Coords) (O : CellTallies nD τ sig (HIx 1)) (W : Waits sig (HIx 1)) (hO : ∀ c, O c none = 0)
    (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)),
    (runPre fi ft fo d L O W fs f0 f1 f2 f3 : sProp 𝕄)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => runPostV fi ft g d L O W

section Tile

variable (d : Dev nD) (L : grid0.Coords)

/-- The run's postcondition and the frame are what the tile hands back, its rows named. -/
theorem tile_out (hF : (K (F := F)).Facts) (O : CellTallies nD τ sig (HIx 1)) (W : Waits sig (HIx 1)) :
    iprop(runPostV fi ft g d L O W ∗ tileFrame ft d L)
      ⊢ iprop((iTilePts fi d L ∗ tTilePts ft d L ∗ oTileVal g d L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨⟨Hi, Ht0, Ht1, Ht2, Ht3, ⟨%f, Ho, %hf⟩, Hs, Hb0, Hb1, Hb2, Hb3, Hs5, Hs6, Hs7, Hs8, Hs9, Hs10, Hs11, Hs12, Hsc, HO⟩, ⟨Htd, Htr⟩, Hbufs, Hsems⟩
  ihave Ht := (tTokens (F := F) d (tileShare (cL L) (sL L)) (ft d)).2 $$ [Htd Ht0 Ht1 Ht2 Ht3 Htr]
  · isplitl [Htd]; · iexact Htd
    isplitl [Ht0]; · iexact Ht0
    isplitl [Ht1]; · iexact Ht1
    isplitl [Ht2]; · iexact Ht2
    isplitl [Ht3]; · iexact Ht3
    iexact Htr
  isplitl [Hi Ht Ho]
  · isplitl [Hi]; · iexact Hi
    isplitl [Ht]; · iexact Ht
    iexists f; isplitr; · ipureintro; exact hf
    iexact Ho
  isplitl [Hs Hb0 Hb1 Hb2 Hb3 Hbufs]
  · isplitl [Hs]; · iexact Hs
    isplitl [Hb0]; · iexact Hb0
    isplitl [Hb1]; · iexact Hb1
    isplitl [Hb2]; · iexact Hb2
    isplitl [Hb3]; · iexact Hb3
    iexact Hbufs
  isplitl [Hs5 Hs6 Hs7 Hs8 Hs9 Hs10 Hs11 Hs12 Hsc Hsems]
  · isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact Hsems
  iexact HO

/-- The task on vector subcore (L 0, L 1) of device d, in the launch's resources, its rows named. -/
theorem tile_body (hrun : TileRunVal fi ft fo g) (hF : (K (F := F)).Facts) (O : CellTallies nD τ sig (HIx 1)) (W : Waits sig (HIx 1)) (hO : ∀ c, O c none = 0) :
    iprop(levAts (K (F := F)).L (K (F := F)).lev ∗ emp
        ∗ (iTilePts fi d L ∗ tTilePts ft d L ∗ oTilePts d L (fo d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop((iTilePts fi d L ∗ tTilePts ft d L ∗ oTileVal g d L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  refine (Sc.tile_in fi ft fo d L hF O W).trans ?_
  refine BIClass.exists_elim fun fs => BIClass.exists_elim fun f0 => BIClass.exists_elim fun f1 => BIClass.exists_elim fun f2 => BIClass.exists_elim fun f3 => ?_
  refine (sep_mono_left (hrun d L O W hO fs f0 f1 f2 f3)).trans ?_
  refine (wp_frame_r frame _ _).trans ?_
  exact wp_mono frame _ _ fun _ => tile_out fi ft g d L hF O W

set_option maxRecDepth 16384 in
theorem tileObl (hrun : TileRunVal fi ft fo g) (hF : (K (F := F)).Facts) : (K (F := F)).TileObl (D (F := F)) 𝒱 (P fi ft fo g) v₀ 0 := by
  intro d c i O W hO _ _
  simp only [show (P fi ft fo g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Sc.defs₀_vector]; simp only [SparseCore.onTile, hci, and_self, ↓reduceDIte]
  exact (tile_body fi ft fo g d (coordsV ⟨_, hci.1⟩ ⟨_, hci.2⟩) hrun hF O W hO).trans (wp_mono frame _ _ fun _ => Sc.obl_post)

end Tile

/-- A SparseCore's read share of the table is a token per tile, and a rest that waits for them; the rows come back
    named. -/
theorem vecSplit : (K (F := F)).VecSplit' (P fi ft fo g) 0 := by
  intro d c
  show iprop((bigSep Finset.univ fun s : Fin 16 => iTilePts fi d (coordsV c s))
        ∗ (tLoc d ↦{coreShare c} ft d)
        ∗ bigSep Finset.univ fun s : Fin 16 => oTilePts d (coordsV c s) (fo d)) ⊢ |={Set.univ}=> iprop(
      (bigSep Finset.univ fun i : Fin 16 =>
        iprop(iTilePts fi d (coordsV c i) ∗ tTilePts ft d (coordsV c i)
          ∗ oTilePts d (coordsV c i) (fo d)))
      ∗ ((bigSep Finset.univ fun i : Fin 16 =>
          iprop(iTilePts fi d (coordsV c i) ∗ tTilePts ft d (coordsV c i)
            ∗ oTileVal g d (coordsV c i)))
          -∗ iprop((bigSep Finset.univ fun s : Fin 16 => iTilePts fi d (coordsV c s))
              ∗ (tLoc d ↦{coreShare c} ft d)
              ∗ bigSep Finset.univ fun s : Fin 16 => oTileVal g d (coordsV c s))))
  rw [bigSep_sep', bigSep_sep', bigSep_sep', bigSep_sep']
  have htok := Transfers.pointsTo_toks (ℓ := tLoc d) (S := Finset.univ) (f := ft d) (nD := nD) (τ := τ) (sig := sig) (Ix := HIx 1) (Val := Elt F) (Name := ℕ) (U := UU) (Lvl := ℕ)
    (coreShare c) 16
  iintro ⟨Hi, Ht, Ho⟩
  ihave Htk := htok.1 $$ Ht
  icases Htk with ⟨Htd, Hts⟩
  imodintro
  isplitl [Hi Hts Ho]
  · isplitl [Hi]; · iexact Hi
    isplitl [Hts]; · iexact Hts
    iexact Ho
  iintro ⟨Hi, Hts, Ho⟩
  isplitl [Hi]; · iexact Hi
  isplitl [Htd Hts]
  · iapply htok.2
    isplitl [Htd]; · iexact Htd
    iexact Hts
  iexact Ho

end Cert.KernelIdeal.ScV

end
-- ==== Proof.ScOpsV.lean ====
/-
  Taking the gather call's operands back with the gathered contents named: the tiles' rows, each at contents that are
  `g` on its rows, join to the whole gathered array at `g` — a points-to on a set depends only on the contents there.
-/
import proofs.«200098_g2130303779034_cont_8to1_582_42_alg».proof.Proof.ScLaunchV
import proofs.«200098_g2130303779034_cont_8to1_582_42_alg».proof.Proof.ScOps

noncomputable section

namespace Cert.KernelIdeal.ScV

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fi : (d : Dev nD) → Buf (Elt F) (iLoc d)) (ft : (d : Dev nD) → Buf (Elt F) (tLoc d)) (fo : (d : Dev nD) → Buf (Elt F) (oLoc d))
variable (g : (d : Dev nD) → Buf (Elt F) (oLoc d))

/-- Handing the call its operands: what goes out does not depend on what comes back. -/
theorem st0_split (d : Dev nD) :
    iprop((iLoc d ↦{fullShare} fi d) ∗ (tLoc d ↦{fullShare} ft d) ∗ (oLoc d ↦{fullShare} fo d))
      ⊢ (iprop((bigSep Finset.univ fun c : Fin ((K (F := F)).nCore 0) => (P fi ft fo g).st 0 d c)
          ∗ (tLoc d ↦{Transfers.shareDrop fullShare 2} ft d)) : sProp 𝕄) :=
  Sc.st0_split fi ft fo d

/-- Taking them back: the gathered array comes back at `g`. -/
theorem dn0_join_val (d : Dev nD) :
    iprop((bigSep Finset.univ fun c : Fin ((K (F := F)).nCore 0) => (P fi ft fo g).dn 0 d c)
        ∗ (tLoc d ↦{Transfers.shareDrop fullShare 2} ft d))
      ⊢ (iprop((iLoc d ↦{fullShare} fi d) ∗ (tLoc d ↦{fullShare} ft d) ∗ (oLoc d ↦{fullShare} g d)) : sProp 𝕄) := by
  show iprop((bigSep Finset.univ fun c : Fin 2 => iprop((bigSep Finset.univ fun s : Fin 16 => iTilePts fi d (coordsV c s))
        ∗ (tLoc d ↦{coreShare c} ft d)
        ∗ bigSep Finset.univ fun s : Fin 16 => oTileVal g d (coordsV c s)))
      ∗ (tLoc d ↦{Transfers.shareDrop fullShare 2} ft d)) ⊢ _
  rw [bigSep_sep', bigSep_sep', iPts_tiles (F := F) d (fi d), oPts_tiles (F := F) d (g d)]
  have htok := Transfers.pointsTo_toks (ℓ := tLoc d) (S := Finset.univ) (f := ft d) (nD := nD) (τ := τ) (sig := sig) (Ix := HIx 1) (Val := Elt F) (Name := ℕ) (U := UU) (Lvl := ℕ)
    fullShare 2
  have hjoin : (bigSep Finset.univ fun c : Fin 2 => bigSep Finset.univ fun s : Fin 16 => oTileVal g d (coordsV c s))
      ⊢ (bigSep Finset.univ fun c : Fin 2 => bigSep Finset.univ fun s : Fin 16 => (oLoc d ↦[oSet (coordsV c s)]{fullShare} g d : sProp 𝕄)) :=
    bigSep_mono fun c _ => bigSep_mono fun s _ =>
      show oTileVal g d (coordsV c s) ⊢ (oLoc d ↦[oSet (coordsV c s)]{fullShare} g d : sProp 𝕄) from by
        iintro ⟨%f, %hf, H⟩
        iapply (Entails.of_eq (pointsTo_congr (ℓ := oLoc d) (q := fullShare) hf))
        iexact H
  iintro ⟨⟨Hi, Hts, Ho⟩, Htd⟩
  isplitl [Hi]; · iexact Hi
  isplitl [Htd Hts]
  · iapply htok.2
    isplitl [Htd]; · iexact Htd
    iexact Hts
  iapply hjoin
  iexact Ho

end Cert.KernelIdeal.ScV

end
-- ==== Proof.ScMainV.lean ====
/-
  @main on the TensorCore around the two kernels, with the contents named: after the gather the gathered array holds
  `g`; the layer-norm call is entered with the arrays the host operations made of it and of the arguments, and the
  result array ends at what the call's proof data compute from them. The program's run then says what the final memory
  holds at the result array, beside the arguments unchanged.
-/
import proofs.«200098_g2130303779034_cont_8to1_582_42_alg».proof.Proof.ScMain
import proofs.«200098_g2130303779034_cont_8to1_582_42_alg».proof.Proof.ScOpsV

noncomputable section

namespace Cert.KernelIdeal.ScV

open Cert.KernelIdeal Cert.KernelIdeal.Gen Cert.KernelIdeal.Sc

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sub_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)
-- what the gathered array holds after the gather
variable (g : (d : Dev nD) → Buf (Elt F) (oLoc d))

/-- What the call carries, at this launch memory, the gathered contents named. -/
abbrev PPv : (K (F := F)).Pay (nD := nD) (Val := Elt F) (Name := ℕ) (U := UU) :=
  P (F := F) (fiOf m) (fun d => m (tLoc d)) (fun d => m (oLoc d)) g

/-- The launch element deals the same ghost state. -/
theorem hu₀_v :
    (ownU (u₀ (F := F)) : sProp 𝕄)
    ⊢ |={Set.univ}=> iprop(BI.own (EH (initOf (K (F := F)).hsCells (K (F := F)).hsToks)) ∗ (bigSep Finset.univ fun d : Dev nD => Sc.G (F := F) d)
        ∗ bigSep Finset.univ fun thr : Thread nD τ => bigSep Finset.univ fun q : Fin 1 => (PPv m g).x q thr) :=
  Sc.hu₀ (fiOf m) (fun d => m (tLoc d)) (fun d => m (oLoc d))

/-- The result array's contents after the layer-norm call on device d. -/
abbrev resOf (d : Dev nD) : Buf (Elt F) ((d.tc : Thread nD τ).loc main_v6) :=
  (Tc.dat (F := F) (Name := ℕ) (U := UU) (Lvl := ℕ) (Vt m d (g d)) (B8 (F := F) d) d).arrAt 6 cfg1.N

/-- What @main leaves the claim: the unscoped arrays at contents that are the launch memory's at the seven arguments
    and the computed contents at the result array. -/
abbrev FINv (d : Dev nD) : sProp 𝕄 :=
  iprop(∃ Vf : (b : Ref sig .tc) → Buf (Elt F) ((d.tc : Thread nD τ).loc b),
    ⌜(∀ b ∈ (argRefs : Finset (Ref sig .tc)), Vf b = m ((SparseCore.T d).loc b)) ∧ Vf main_v6 = resOf m g d⌝ ∗ unscopedBufs d Vf)

set_option maxHeartbeats 2000000 in
/-- @main on device d's TensorCore, the gathered contents and the result array named. -/
theorem hmain_v (κ : GSem nD τ sig → ℕ) (d : Dev nD) :
    iprop((K (F := F)).ctx EH (PPv m g) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINv m g d) := by
  unfold SparseCore.Cfg.tcRes
  rw [show (fun b : Ref sig .tc => m ((SparseCore.T d).loc b)) = (fun b => V0 m d (rr b)) from rfl, unscoped_held]
  simp only [main, wp_bind, wp_pure]
  iintro ⟨#Hctx, Hst, ⟨Hb, Hheld, Hsems, Hprng⟩, ⟨Hcg, Hti⟩⟩
  -- the four host operations before the gather
  iapply (wp_hlo_within 𝒱 (SparseCore.T d) none Set.univ (op := op0) (S := S14) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S14) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S14) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S14) hop3 (V := (op2 (F := F)).result ((op1 (F := F)).result ((op0 (F := F)).result (V0 m d))))) $$ [Hb Hheld]
  · isplitl [Hb] <;> iassumption
  iintro ⟨Hb, Hheld⟩
  rw [wp_ret]; imodintro
  -- the gather on the SparseCores
  ihave Hh := (held_split3 (F := F) d (V4 m d)) $$ Hheld
  icases Hh with ⟨Hi, Ht, Ho, Hrest⟩
  rw [V4_arg2, V4_v4]
  ihave Hs := (ScV.st0_split (F := F) (fiOf m) (fun d => m (tLoc d)) (fun d => m (oLoc d)) g d) $$ [Hi Ht Ho]
  · isplitl [Hi]; · iexact Hi
    isplitl [Ht]; · iexact Ht
    iexact Ho
  icases Hs with ⟨Hst0, Htd⟩
  iapply ((K (F := F)).wp_run (D (F := F)) 𝒱 (EH := EH) (P := PPv m g) κ d 0) $$ [Hst Hst0 Hb Hrest Htd Hsems Hprng Hcg Hti]
  isplitr; · iexact Hctx
  isplitl [Hst]; · iexact Hst
  isplitl [Hst0]; · iexact Hst0
  iintro ⟨Hst, Hdn⟩
  ihave Hd := (dn0_join_val (F := F) (fiOf m) (fun d => m (tLoc d)) (fun d => m (oLoc d)) g d) $$ [Hdn Htd]
  · isplitl [Hdn] <;> iassumption
  icases Hd with ⟨Hi, Ht, Ho⟩
  -- the reshape of the gathered array
  ihave Hheld := (held_join3 (F := F) d (V5 m d (g d))) $$ [Hi Ht Ho Hrest]
  · rw [held_rest_update, show V5 m d (g d) (rr main_v3) = fiOf m d from Function.update_of_ne (by decide) _ _,
      show V5 m d (g d) (rr main_arg2) = m (tLoc d) from (Function.update_of_ne (by decide) _ _).trans (V4_arg2 m d),
      show V5 m d (g d) (rr main_v4) = g d from Function.update_self _ _ _]
    isplitl [Hi]; · iexact Hi
    isplitl [Ht]; · iexact Ht
    isplitl [Ho]; · iexact Ho
    iexact Hrest
  iapply (wp_hlo_within 𝒱 (SparseCore.T d) none Set.univ (op := op5) (S := S14) hop5 (V := V5 m d (g d))) $$ [Hb Hheld]
  · isplitl [Hb] <;> iassumption
  iintro ⟨Hb, Hheld⟩
  rw [wp_ret]; imodintro
  -- the layer-norm pallas_call
  ihave Hu := (Entails.of_eq (unscoped_held (F := F) d (V6 m d (g d))).symm) $$ Hheld
  ihave Hst := (Entails.of_eq (show (K (F := F)).tcSt EH d ((0 : Fin 1).val + 1) = (K (F := F)).tcSt EH d 1 from rfl)) $$ Hst
  ihave Ho2 := (tcSt_open (F := F) d) $$ Hst
  icases Ho2 with ⟨Hown, Hclose⟩
  ihave Hin := (Tc.region_in (F := F) (Vt m d (g d)) (B8 (F := F) d) d) $$ [Hu Hown]
  · isplitl [Hu] <;> iassumption
  icases Hin with ⟨Hpre, Hur⟩
  ihave Hlv := (SparseCore.Cfg.ctx_levAts κ) $$ Hctx
  iapply ((K (F := F)).wp_liftProg (D (F := F)) 𝒱 (SparseCore.T d) Set.univ none (.op (.customCall (Pipeline.entry 0) ()) .ret) _)
  iapply (Tc.call_wp (F := F) (Vt m d (g d)) (B8 (F := F) d) 𝒱₀ (none : HIx 1) (K (F := F)).L (K (F := F)).lev (EP (F := F)) d none (fun _ h => nomatch h) .ret _) $$ [Hb Hpre Hlv Hcg Hti Hur Hclose Hsems Hprng]
  isplitr [Hb Hpre Hlv Hcg Hti]
  · iintro ⟨Hb, Hpost⟩
    ihave Hout := (Tc.region_out (F := F) (Vt m d (g d)) (B8 (F := F) d) (none : HIx 1) d) $$ [Hpost Hur]
    · isplitl [Hpost] <;> iassumption
    icases Hout with ⟨Hu, Hown⟩
    ihave Hst := Hclose $$ Hown
    rw [wp_ret]; imodintro; imodintro
    isplitl [Hst]; · iexact Hst
    iexists _
    isplitr
    swap; · iexact Hu
    ipureintro
    refine ⟨fun b hb => ?_, Function.update_self _ _ _⟩
    have hne : b ≠ main_v6 := by revert b; decide
    rw [Function.update_of_ne hne]
    exact V6_arg m d (g d) b hb
  · isplitl [Hb]; · iexact Hb
    isplitl [Hpre]; · iexact Hpre
    isplitl [Hlv]; · iexact Hlv
    isplitl [Hcg]; · iexact Hcg
    iexact Hti

/-! ## The final memory reads the claim -/

def fqv (d : Dev nD) (s' : Phys nD τ sig (Elt F)) : Prop :=
  s'.mem.mem ((SparseCore.T d).loc main_v6) = resOf m g d
    ∧ ∀ b ∈ (argRefs : Finset (Ref sig .tc)), s'.mem.mem ((SparseCore.T d).loc b) = m ((SparseCore.T d).loc b)

set_option maxRecDepth 16384 in
theorem hfin_v (d : Dev nD) (s' : Phys nD τ sig (Elt F)) : iprop(FINv m g d ∗ SI s') ⊢ (⌜fqv m g d s'⌝ : sProp 𝕄) := by
  iintro ⟨⟨%Vf, %hV, Hu⟩, HSI⟩
  ihave H := (unscoped_agree (F := F) d Vf s' main_arg0 rfl) $$ [Hu HSI]
  · isplitl [Hu] <;> iassumption
  icases H with ⟨%h0, Hu, HSI⟩
  ihave H := (unscoped_agree (F := F) d Vf s' main_arg1 rfl) $$ [Hu HSI]
  · isplitl [Hu] <;> iassumption
  icases H with ⟨%h1, Hu, HSI⟩
  ihave H := (unscoped_agree (F := F) d Vf s' main_arg2 rfl) $$ [Hu HSI]
  · isplitl [Hu] <;> iassumption
  icases H with ⟨%h2, Hu, HSI⟩
  ihave H := (unscoped_agree (F := F) d Vf s' main_arg3 rfl) $$ [Hu HSI]
  · isplitl [Hu] <;> iassumption
  icases H with ⟨%h3, Hu, HSI⟩
  ihave H := (unscoped_agree (F := F) d Vf s' main_arg4 rfl) $$ [Hu HSI]
  · isplitl [Hu] <;> iassumption
  icases H with ⟨%h4, Hu, HSI⟩
  ihave H := (unscoped_agree (F := F) d Vf s' main_arg5 rfl) $$ [Hu HSI]
  · isplitl [Hu] <;> iassumption
  icases H with ⟨%h5, Hu, HSI⟩
  ihave H := (unscoped_agree (F := F) d Vf s' main_arg6 rfl) $$ [Hu HSI]
  · isplitl [Hu] <;> iassumption
  icases H with ⟨%h6, Hu, HSI⟩
  ihave H := (unscoped_agree (F := F) d Vf s' main_v6 rfl) $$ [Hu HSI]
  · isplitl [Hu] <;> iassumption
  icases H with ⟨%h7, Hu, HSI⟩
  ipureintro
  refine ⟨h7.trans hV.2, fun b hb => ?_⟩
  simp only [argRefs, Finset.mem_insert, Finset.mem_singleton] at hb
  rcases hb with rfl | rfl | rfl | rfl | rfl | rfl | rfl
  · exact h0.trans (hV.1 _ (by decide))
  · exact h1.trans (hV.1 _ (by decide))
  · exact h2.trans (hV.1 _ (by decide))
  · exact h3.trans (hV.1 _ (by decide))
  · exact h4.trans (hV.1 _ (by decide))
  · exact h5.trans (hV.1 _ (by decide))
  · exact h6.trans (hV.1 _ (by decide))

/-! ## The program's run, with the result named -/

def QCv : PUnit × MemSt nD τ sig (Elt F) → Prop := fun r =>
  ∀ c : Dev nD, r.2.mem ((SparseCore.T c).loc main_v6) = resOf m g c
    ∧ ∀ b ∈ (argRefs : Finset (Ref sig .tc)), r.2.mem ((SparseCore.T c).loc b) = m ((SparseCore.T c).loc b)

/-- Every weakly fair execution of the kernel program from m terminates, faults nowhere, leaves the seven argument
    arrays as they were and the result array at the contents the layer-norm call computes from the gathered rows —
    provided each tile's run leaves `g` on its rows. -/
theorem run_main_val [∀ e, Nonempty (Elt F e)]
    (hrun : TileRunVal (fiOf m) (fun d => m (tLoc d)) (fun d => m (oLoc d)) g) :
    θ_run (Cert.KernelIdeal.defs (F := F)) (Cert.KernelIdeal.threads (F := F)) ⟨m, fun _ => 0, ρ⟩ (QCv m g) :=
  SparseCore.Cfg.θ_run_sc (K := K (F := F)) (D := D (F := F)) (𝒱 := 𝒱) (EH := EH) (P := PPv m g) facts v₀
    (fun q hq => match q with | 0 => nomatch hq)
    (fun q _ => match q with | 0 => tileObl (fiOf m) (fun d => m (tLoc d)) (fun d => m (oLoc d)) g hrun facts)
    (fun q _ => match q with | 0 => SparseCore.Cfg.VecSplit.of_plain (vecSplit (fiOf m) (fun d => m (tLoc d)) (fun d => m (oLoc d)) g))
    m ρ main (fun d => Sc.G (F := F) d) (FINv m g) (u₀ (F := F)) (sep_elim_left.trans (hu₀_v m g))
    (hmain_v m ρ g) (fqv m g) (hfin_v m g) (QCv m g) (fun _ h => h)

end Cert.KernelIdeal.ScV

end
-- ==== Proof.TcFinal.lean ====
/-
  From the blocks to the arrays.

  The call's grid point `t` (of eight) works on rows [128 t, 128 t + 128) of the 1024 leading rows: block `t` of the
  gathered token rows and of the segment ids sits there, the four small arrays are staged whole, and block `t` of the
  result is written there. The eight result blocks tile the result array. So an element of an input block is the
  array's element 128 t rows further down, and if the body's result at every point is block `t` of one function `G` of
  the arrays, the result array after the call is `G`.
-/
import proofs.«200098_g2130303779034_cont_8to1_582_42_alg».proof.Proof.TcDat
import Idealize.ShloMosaic.Lib.ValueIdx

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]
variable {Ix : Type} [DecidableEq Ix] {Name : Type} [DecidableEq Name] {U : Type} [URA U] {Lvl : Type} [Preorder Lvl]

variable (V : (c : Dev nD) → (b : Ref sig .tc) → Buf (Elt F) ((c : Thread nD τ).loc b))
variable (B : Set (SemLoc sig × Ix))

local notation "𝔡" => dat (Name := Name) (U := U) (Lvl := Lvl) V B

/-! ## The index maps, decided over the eight points -/

theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

theorem t_lt (t : Fin cfg1.N) : t.val < 8 := lt_of_lt_of_eq t.isLt N_1

/-! ## Where the input blocks sit -/

/-- Element (p, s, e) of block `t` of the gathered token rows is row 128 t + p of the array. -/
theorem iblk0_apply (c : Dev nD) (t : Fin cfg1.N) (p : Fin 128) (s : Fin 200) (e : Fin 128) :
    iblk V c 0 t (ix3 p s e) = V c main_v5 (ix3 (⟨128 * t.val + p.val, by have := t_lt t; have := p.isLt; omega⟩ : Fin 1024) s e) := by
  show V c main_v5 (((cfg1.win 0).blk t).view.emb (ix3 p s e)) = V c main_v5 _
  refine congrArg (V c main_v5) (funext fun a => Fin.ext ?_)
  obtain ⟨a00, a01, a02, a10, a11, a20, a21, a30, a31, a40, a41, a50, a51, a60, a61, a62⟩ := idx_facts t
  match a with
  | ⟨0, _⟩ => show win1_0.index t (0 : Fin 3) * 128 + 1 * p.val = 128 * t.val + p.val; rw [a00]; omega
  | ⟨1, _⟩ => show win1_0.index t (1 : Fin 3) * 200 + 1 * s.val = s.val; rw [a01]; omega
  | ⟨2, _⟩ => show win1_0.index t (2 : Fin 3) * 128 + 1 * e.val = e.val; rw [a02]; omega

/-- Element (p, s) of block `t` of the segment ids is row 128 t + p of the array. -/
theorem iblk1_apply (c : Dev nD) (t : Fin cfg1.N) (p : Fin 128) (s : Fin 200) :
    iblk V c 1 t (ix2 p s) = V c main_arg1 (ix2 (⟨128 * t.val + p.val, by have := t_lt t; have := p.isLt; omega⟩ : Fin 1024) s) := by
  show V c main_arg1 (((cfg1.win 1).blk t).view.emb (ix2 p s)) = V c main_arg1 _
  refine congrArg (V c main_arg1) (funext fun a => Fin.ext ?_)
  obtain ⟨a00, a01, a02, a10, a11, a20, a21, a30, a31, a40, a41, a50, a51, a60, a61, a62⟩ := idx_facts t
  match a with
  | ⟨0, _⟩ => show win1_1.index t (0 : Fin 2) * 128 + 1 * p.val = 128 * t.val + p.val; rw [a10]; omega
  | ⟨1, _⟩ => show win1_1.index t (1 : Fin 2) * 200 + 1 * s.val = s.val; rw [a11]; omega

/-- Window 2 stages its whole array at every point. -/
theorem iblk2_eq (c : Dev nD) (t : Fin cfg1.N) : (iblk V c 2 t : S200x128.Idx → Elt F .f32) = V c main_v0 := by
  funext y
  show V c main_v0 (((cfg1.win 2).blk t).view.emb y) = V c main_v0 y
  refine congrArg (V c main_v0) (funext fun a => Fin.ext ?_)
  obtain ⟨a00, a01, a02, a10, a11, a20, a21, a30, a31, a40, a41, a50, a51, a60, a61, a62⟩ := idx_facts t
  match a with
  | ⟨0, _⟩ => show win1_2.index t (0 : Fin 2) * 200 + 1 * (y 0).val = (y 0).val; rw [a20]; omega
  | ⟨1, _⟩ => show win1_2.index t (1 : Fin 2) * 128 + 1 * (y 1).val = (y 1).val; rw [a21]; omega

/-- Window 3 stages its whole array at every point. -/
theorem iblk3_eq (c : Dev nD) (t : Fin cfg1.N) : (iblk V c 3 t : S2x128.Idx → Elt F .f32) = V c main_arg4 := by
  funext y
  show V c main_arg4 (((cfg1.win 3).blk t).view.emb y) = V c main_arg4 y
  refine congrArg (V c main_arg4) (funext fun a => Fin.ext ?_)
  obtain ⟨a00, a01, a02, a10, a11, a20, a21, a30, a31, a40, a41, a50, a51, a60, a61, a62⟩ := idx_facts t
  match a with
  | ⟨0, _⟩ => show win1_3.index t (0 : Fin 2) * 2 + 1 * (y 0).val = (y 0).val; rw [a30]; omega
  | ⟨1, _⟩ => show win1_3.index t (1 : Fin 2) * 128 + 1 * (y 1).val = (y 1).val; rw [a31]; omega

/-- Window 4 stages its whole array at every point. -/
theorem iblk4_eq (c : Dev nD) (t : Fin cfg1.N) : (iblk V c 4 t : S1x128.Idx → Elt F .f32) = V c main_v1 := by
  funext y
  show V c main_v1 (((cfg1.win 4).blk t).view.emb y) = V c main_v1 y
  refine congrArg (V c main_v1) (funext fun a => Fin.ext ?_)
  obtain ⟨a00, a01, a02, a10, a11, a20, a21, a30, a31, a40, a41, a50, a51, a60, a61, a62⟩ := idx_facts t
  match a with
  | ⟨0, _⟩ => show win1_4.index t (0 : Fin 2) * 1 + 1 * (y 0).val = (y 0).val; rw [a40]; omega
  | ⟨1, _⟩ => show win1_4.index t (1 : Fin 2) * 128 + 1 * (y 1).val = (y 1).val; rw [a41]; omega

/-- Window 5 stages its whole array at every point. -/
theorem iblk5_eq (c : Dev nD) (t : Fin cfg1.N) : (iblk V c 5 t : S1x128.Idx → Elt F .f32) = V c main_v2 := by
  funext y
  show V c main_v2 (((cfg1.win 5).blk t).view.emb y) = V c main_v2 y
  refine congrArg (V c main_v2) (funext fun a => Fin.ext ?_)
  obtain ⟨a00, a01, a02, a10, a11, a20, a21, a30, a31, a40, a41, a50, a51, a60, a61, a62⟩ := idx_facts t
  match a with
  | ⟨0, _⟩ => show win1_5.index t (0 : Fin 2) * 1 + 1 * (y 0).val = (y 0).val; rw [a50]; omega
  | ⟨1, _⟩ => show win1_5.index t (1 : Fin 2) * 128 + 1 * (y 1).val = (y 1).val; rw [a51]; omega

/-! ## The result blocks tile the result array -/

/-- An index of the result array is in point `t`'s block iff each coordinate is in the block's range on its axis. -/
theorem mem_blk6 (t : Fin cfg1.N) (i : S1024x200x128.Idx) :
    i ∈ ((cfg1.win 6).blk t).view.set ↔ ∀ a : Fin 3, win1_6.index t a * S128x200x128.size a ≤ (i a).val ∧ (i a).val < win1_6.index t a * S128x200x128.size a + S128x200x128.size a := by
  show i ∈ ((View.whole main_v6).slice (win1_6.rect t)).set ↔ _
  rw [View.set_slice_whole, Rect.mem_set_unit]
  exact Iff.rfl

/-- Row r of the result is in the block of point r / 128. -/
theorem cover6 (i : S1024x200x128.Idx) : ∃ t : Fin cfg1.N, (cfg1.win 6).flush t = true ∧ i ∈ ((cfg1.win 6).blk t).view.set := by
  have hi0 : (i 0).val < 1024 := (i 0).isLt
  have hi1 : (i 1).val < 200 := (i 1).isLt
  have hi2 : (i 2).val < 128 := (i 2).isLt
  have ht : (i 0).val / 128 < cfg1.N := by rw [show cfg1.N = 8 from N_1]; omega
  obtain ⟨a00, a01, a02, a10, a11, a20, a21, a30, a31, a40, a41, a50, a51, a60, a61, a62⟩ := idx_facts ⟨(i 0).val / 128, ht⟩
  refine ⟨⟨(i 0).val / 128, ht⟩, flush1_6 _, ?_⟩
  rw [mem_blk6]
  intro a
  match a with
  | ⟨0, _⟩ =>
    show win1_6.index ⟨(i 0).val / 128, ht⟩ (0 : Fin 3) * 128 ≤ (i 0).val ∧ (i 0).val < win1_6.index ⟨(i 0).val / 128, ht⟩ (0 : Fin 3) * 128 + 128
    rw [a60]; show (i 0).val / 128 * 128 ≤ (i 0).val ∧ (i 0).val < (i 0).val / 128 * 128 + 128; omega
  | ⟨1, _⟩ =>
    show win1_6.index ⟨(i 0).val / 128, ht⟩ (1 : Fin 3) * 200 ≤ (i 1).val ∧ (i 1).val < win1_6.index ⟨(i 0).val / 128, ht⟩ (1 : Fin 3) * 200 + 200
    rw [a61]; omega
  | ⟨2, _⟩ =>
    show win1_6.index ⟨(i 0).val / 128, ht⟩ (2 : Fin 3) * 128 ≤ (i 2).val ∧ (i 2).val < win1_6.index ⟨(i 0).val / 128, ht⟩ (2 : Fin 3) * 128 + 128
    rw [a62]; omega

/-- Element (p, s, e) of block `t` of an array of the result's shape is its row 128 t + p. -/
theorem blk6_read_apply (c : Dev nD) (G : Buf (Elt F) ((c : Thread nD τ).loc main_v6)) (t : Fin cfg1.N) (p : Fin 128) (s : Fin 200) (e : Fin 128) :
    ((cfg1.win 6).blk t).view.read (Elt F) G (ix3 p s e) = G (ix3 (⟨128 * t.val + p.val, by have := t_lt t; have := p.isLt; omega⟩ : Fin 1024) s e) := by
  show G (((cfg1.win 6).blk t).view.emb (ix3 p s e)) = G _
  refine congrArg G (funext fun a => Fin.ext ?_)
  obtain ⟨a00, a01, a02, a10, a11, a20, a21, a30, a31, a40, a41, a50, a51, a60, a61, a62⟩ := idx_facts t
  match a with
  | ⟨0, _⟩ => show win1_6.index t (0 : Fin 3) * 128 + 1 * p.val = 128 * t.val + p.val; rw [a60]; omega
  | ⟨1, _⟩ => show win1_6.index t (1 : Fin 3) * 200 + 1 * s.val = s.val; rw [a61]; omega
  | ⟨2, _⟩ => show win1_6.index t (2 : Fin 3) * 128 + 1 * e.val = e.val; rw [a62]; omega

/-- THE RESULT ARRAY after the call: if at every point the body's result is block `t` of `G`, the array is `G`. -/
theorem final6_of (c : Dev nD) (G : Buf (Elt F) ((c : Thread nD τ).loc main_v6))
    (hG : ∀ t : Fin cfg1.N, lnBlock (iblk V c 0 t) (iblk V c 1 t) (iblk V c 2 t) (iblk V c 3 t) (iblk V c 4 t) (iblk V c 5 t)
      = ((cfg1.win 6).blk t).view.read (Elt F) G) :
    (𝔡 c).arrAt 6 cfg1.N = G :=
  (𝔡 c).arrAt_eq_of_cover 6 G (fun t _ => by rw [flushed6]; exact hG t) cover6

/-! ## The body's result is its two payloads composed -/

theorem hz3 : (![0, 0, 0] : Fin 3 → Nat) = fun _ => 0 := funext fun a => by fin_cases a <;> rfl
theorem hz2 : (![0, 0] : Fin 2 → Nat) = fun _ => 0 := funext fun a => by fin_cases a <;> rfl

/-- The one whole-buffer store over whole-buffer loads: the shift payload of the normalise payload of the loads. -/
theorem lnBlock_eq (tok : Vec F S128x200x128 .f32) (seg : Vec F S128x200 .i32) (pos : Vec F S200x128 .f32) (typ : Vec F S2x128 .f32)
    (gam bet : Vec F S1x128 .f32) : lnBlock tok seg pos typ gam bet = k1_pay1 (k1_pay2 tok seg pos typ gam) bet := by
  unfold lnBlock
  rw [View.canon_unit_zero hz3]
  simp only [View.ld_unit_zero (S := S128x200x128) hz3, View.ld_unit_zero (S := S128x200) hz2, View.ld_unit_zero (S := S200x128) hz2,
    View.ld_unit_zero (S := S2x128) hz2, View.ld_unit_zero (S := S1x128) hz2]

end Cert.KernelIdeal.Tc

end
-- ==== Proof.TcLn.lean ====
/-
  The layer-norm body's result, read at an index at the exact (extended-real) values.

  The body's two payloads are cut into their stages — the summed embedding as a 128 x 200 x 128 block (token row +
  position row + the segment row the id picks), the same as 25600 rows of 128, the row statistics (each a product with
  the constant 1/128 matrix into a zero accumulator, so a sum over the row's 128 entries), the normalised, scaled and
  shifted rows — and each stage is read at an index. The reading is honest: operands in the program's order, the
  accumulator's zero dropped, no algebra.
-/
import proofs.«200098_g2130303779034_cont_8to1_582_42_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tc

open Cert.KernelIdeal Cert.KernelIdeal.Gen
open Idealize.ShloMosaic Idealize.SL.Sem
open Idealize.ShloMosaic.ValueIdx

/-! ## The layout operations of this body, read at an index -/

section Layout
variable {α : Type}

/-- Rows (p, s) of a 128 x 200 x 128 block are rows 200 p + s of its 25600 x 128 view. -/
theorem rows_lt (p : Fin 128) (s : Fin 200) : 200 * p.val + s.val < 25600 := by have := p.isLt; have := s.isLt; omega

theorem cast_blk_rows (x : S128x200x128.Idx → α) (h : S128x200x128.ShapeCasts S25600x128) (p : Fin 128) (s : Fin 200) (k : Fin 128) :
    shapeCast S25600x128 x h (ix2 (⟨200 * p.val + s.val, rows_lt p s⟩ : Fin 25600) k) = x (ix3 p s k) :=
  shapeCast_apply x h _ _ (by
    rw [Shape.rowMajor_val_three, Shape.rowMajor_val_two]
    show (p.val * 200 + s.val) * 128 + k.val = (200 * p.val + s.val) * 128 + k.val
    omega)

theorem cast_rows_blk (x : S25600x128.Idx → α) (h : S25600x128.ShapeCasts S128x200x128) (p : Fin 128) (s : Fin 200) (k : Fin 128) :
    shapeCast S128x200x128 x h (ix3 p s k) = x (ix2 (⟨200 * p.val + s.val, rows_lt p s⟩ : Fin 25600) k) :=
  shapeCast_apply x h _ _ (by
    rw [Shape.rowMajor_val_three, Shape.rowMajor_val_two]
    show (200 * p.val + s.val) * 128 + k.val = (p.val * 200 + s.val) * 128 + k.val
    omega)

/-- A trailing unit axis added to a 128 x 200 array. -/
theorem cast_ab_ab1 (x : S128x200.Idx → α) (h : S128x200.ShapeCasts S128x200x1) (p : Fin 128) (s : Fin 200) (z : Fin 1) :
    shapeCast S128x200x1 x h (ix3 p s z) = x (ix2 p s) :=
  shapeCast_apply x h _ _ (by
    have hz : z.val = 0 := by omega
    rw [Shape.rowMajor_val_three, Shape.rowMajor_val_two]
    show p.val * 200 + s.val = (p.val * 200 + s.val) * 1 + z.val
    omega)

/-- Two leading unit axes added to a vector of 128. -/
theorem cast_a_11a (x : S128.Idx → α) (h : S128.ShapeCasts S1x1x128) (u v : Fin 1) (k : Fin 128) :
    shapeCast S1x1x128 x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * 128 + k.val
    omega)

/-- Row `o` of a 2 x 128 array, as a 1 x 128 slice. -/
theorem slice_row (o : Fin 2) (x : S2x128.Idx → α) (h : S2x128.Slices ![o.val, 0] S1x128) (u : Fin 1) (k : Fin 128) :
    extractStridedSlice S1x128 ![o.val, 0] x h (ix2 u k) = x (ix2 o k) :=
  extractStridedSlice_apply _ x h _ _ (fun a => by
    have hu : u.val = 0 := by omega
    match a with
    | ⟨0, _⟩ => show o.val = o.val + u.val; omega
    | ⟨1, _⟩ => show k.val = 0 + k.val; omega)

/-- One 200 x 128 plane broadcast over 128 planes. -/
theorem bc_1bc (x : S1x200x128.Idx → α) (h : S1x200x128.Broadcasts S128x200x128) (p : Fin 128) (s : Fin 200) (k : Fin 128) :
    broadcastTo S128x200x128 x h (ix3 p s k) = x (ix3 (0 : Fin 1) s k) :=
  broadcastTo_apply x h _ _ (fun a => by
    match a with
    | ⟨0, _⟩ => rfl
    | ⟨1, _⟩ => rfl
    | ⟨2, _⟩ => rfl)

/-- One row of 128 broadcast over 128 x 200 rows. -/
theorem bc_11c (x : S1x1x128.Idx → α) (h : S1x1x128.Broadcasts S128x200x128) (p : Fin 128) (s : Fin 200) (k : Fin 128) :
    broadcastTo S128x200x128 x h (ix3 p s k) = x (ix3 (0 : Fin 1) (0 : Fin 1) k) :=
  broadcastTo_apply x h _ _ (fun a => by
    match a with
    | ⟨0, _⟩ => rfl
    | ⟨1, _⟩ => rfl
    | ⟨2, _⟩ => rfl)

/-- One value per (p, s) broadcast along the last axis. -/
theorem bc_ab1 (x : S128x200x1.Idx → α) (h : S128x200x1.Broadcasts S128x200x128) (p : Fin 128) (s : Fin 200) (k : Fin 128) :
    broadcastTo S128x200x128 x h (ix3 p s k) = x (ix3 p s (0 : Fin 1)) :=
  broadcastTo_apply x h _ _ (fun a => by
    match a with
    | ⟨0, _⟩ => rfl
    | ⟨1, _⟩ => rfl
    | ⟨2, _⟩ => rfl)

end Layout

/-! ## The body's stages, for any float instance -/

section Stages
variable {F : FTy → Type} [FloatOps F]

/-- The position rows over the 128 planes. -/
def posB (pos : Vec F S200x128 .f32) : FVec F S128x200x128 .f32 :=
  broadcastTo S128x200x128 (shapeCast S1x200x128 (shapeCast S200x128 pos shapeCasts_S200x128_S200x128) shapeCasts_S200x128_S1x200x128) broadcasts_S1x200x128_S128x200x128

/-- Segment row `o` over every (p, s). -/
def typB (o : Fin 2) (typ : Vec F S2x128 .f32) (h : S2x128.Slices ![o.val, 0] S1x128) : FVec F S128x200x128 .f32 :=
  broadcastTo S128x200x128
    (shapeCast S1x1x128 (shapeCast S1x1x128 (shapeCast S128 (extractStridedSlice S1x128 ![o.val, 0] typ h) shapeCasts_S1x128_S128) shapeCasts_S128_S1x1x128) shapeCasts_S1x1x128_S1x1x128)
    broadcasts_S1x1x128_S128x200x128

/-- Whether the segment id at (p, s) is zero, along the last axis. -/
def condB (seg : Vec F S128x200 .i32) : IVec S128x200x128 1 :=
  broadcastTo S128x200x128
    (shapeCast S128x200x1 (cmpi .eq (shapeCast S128x200x1 seg shapeCasts_S128x200_S128x200x1) (broadcast S128x200x1 (0#32 : BitVec 32))) shapeCasts_S128x200x1_S128x200x1)
    broadcasts_S128x200x1_S128x200x128

/-- The summed embedding, as a block, -/
def embBlk (tok : Vec F S128x200x128 .f32) (seg : Vec F S128x200 .i32) (pos : Vec F S200x128 .f32) (typ : Vec F S2x128 .f32) : FVec F S128x200x128 .f32 :=
  addf (addf (shapeCast S128x200x128 tok shapeCasts_S128x200x128_S128x200x128) (posB pos))
    (select (condB seg) (typB 0 typ slices_S2x128_o0_0_S1x128) (typB 1 typ slices_S2x128_o1_0_S1x128))

/-- and as 25600 rows. -/
def embRows (tok : Vec F S128x200x128 .f32) (seg : Vec F S128x200 .i32) (pos : Vec F S200x128 .f32) (typ : Vec F S2x128 .f32) : FVec F S25600x128 .f32 :=
  shapeCast S25600x128 (embBlk tok seg pos typ) shapeCasts_S128x200x128_S25600x128

/-- A row's mean, in every lane of the row: the product with the constant 1/128 matrix into a zero accumulator. -/
def meanRows (x : FVec F S25600x128 .f32) : FVec F S25600x128 .f32 :=
  matmul dot_S25600x128_S128x128_S25600x128_1_0_0_1_n_n none x (broadcast S128x128 (Scalar.ofBits .f32 0x3C000000#32 : F .f32)) (constant S25600x128 .f32 0x00000000#32)

/-- The scale row over the 25600 rows. -/
def gamB (gam : Vec F S1x128 .f32) : FVec F S25600x128 .f32 :=
  broadcastTo S25600x128 (shapeCast S1x128 gam shapeCasts_S1x128_S1x128) broadcasts_S1x128_S25600x128

/-- The rows normalised and scaled. -/
def normRows (x : FVec F S25600x128 .f32) (gam : Vec F S1x128 .f32) : FVec F S25600x128 .f32 :=
  mulf (subf x (meanRows x))
    (mulf (rsqrt (addf (subf (meanRows (mulf x x)) (mulf (meanRows x) (meanRows x))) (broadcast S25600x128 (Scalar.ofBits .f32 0x3727C5AC#32 : F .f32)))) (gamB gam))

/-- The normalise payload is these stages composed. -/
theorem k1_pay2_eq (tok : Vec F S128x200x128 .f32) (seg : Vec F S128x200 .i32) (pos : Vec F S200x128 .f32) (typ : Vec F S2x128 .f32) (gam : Vec F S1x128 .f32) :
    k1_pay2 tok seg pos typ gam = normRows (embRows tok seg pos typ) gam := rfl

/-- The shift payload: the rows plus the shift row, as a block. -/
theorem k1_pay1_eq (y : FVec F S25600x128 .f32) (bet : Vec F S1x128 .f32) :
    k1_pay1 y bet = shapeCast S128x200x128 (addf y (gamB bet)) shapeCasts_S25600x128_S128x200x128 := rfl

end Stages

/-! ## The stages read at an index -/

section Read

theorem posB_apply (pos : Vec Ideal S200x128 .f32) (p : Fin 128) (s : Fin 200) (k : Fin 128) : posB pos (ix3 p s k) = pos (ix2 s k) := by
  unfold posB
  refine (bc_1bc _ _ p s k).trans ?_
  refine (shapeCast_ab_1ab_apply _ _ (0 : Fin 1) s k).trans ?_
  rw [shapeCast_self]

theorem typB_apply (o : Fin 2) (typ : Vec Ideal S2x128 .f32) (h : S2x128.Slices ![o.val, 0] S1x128) (p : Fin 128) (s : Fin 200) (k : Fin 128) :
    typB o typ h (ix3 p s k) = typ (ix2 o k) := by
  unfold typB
  refine (bc_11c _ _ p s k).trans ?_
  rw [shapeCast_self]
  refine (cast_a_11a _ _ (0 : Fin 1) (0 : Fin 1) k).trans ?_
  refine (shapeCast_1a_a_apply _ _ k).trans ?_
  exact slice_row o typ h (0 : Fin 1) k

theorem condB_apply (seg : Vec Ideal S128x200 .i32) (p : Fin 128) (s : Fin 200) (k : Fin 128) :
    condB seg (ix3 p s k) = IntOp.cmpi .eq (seg (ix2 p s)) (0#32 : BitVec 32) := by
  unfold condB
  refine (bc_ab1 _ _ p s k).trans ?_
  rw [shapeCast_self]
  show IntOp.cmpi .eq (shapeCast S128x200x1 seg shapeCasts_S128x200_S128x200x1 (ix3 p s (0 : Fin 1))) (0#32 : BitVec 32) = _
  rw [cast_ab_ab1]

/-- The summed embedding at (p, s, k): token row + position row + the segment row the id picks (row 0 when the id is 0). -/
def embAt (tok : Vec Ideal S128x200x128 .f32) (seg : Vec Ideal S128x200 .i32) (pos : Vec Ideal S200x128 .f32) (typ : Vec Ideal S2x128 .f32)
    (p : Fin 128) (s : Fin 200) (k : Fin 128) : EReal :=
  (tok (ix3 p s k) + pos (ix2 s k)) + Scalar.select (IntOp.cmpi .eq (seg (ix2 p s)) (0#32 : BitVec 32)) (typ (ix2 (0 : Fin 2) k)) (typ (ix2 (1 : Fin 2) k))

theorem embBlk_apply (tok : Vec Ideal S128x200x128 .f32) (seg : Vec Ideal S128x200 .i32) (pos : Vec Ideal S200x128 .f32) (typ : Vec Ideal S2x128 .f32)
    (p : Fin 128) (s : Fin 200) (k : Fin 128) : embBlk tok seg pos typ (ix3 p s k) = embAt tok seg pos typ p s k := by
  unfold embBlk embAt
  show (shapeCast S128x200x128 tok shapeCasts_S128x200x128_S128x200x128 (ix3 p s k) + posB pos (ix3 p s k))
      + Scalar.select (condB seg (ix3 p s k)) (typB 0 typ slices_S2x128_o0_0_S1x128 (ix3 p s k)) (typB 1 typ slices_S2x128_o1_0_S1x128 (ix3 p s k)) = _
  rw [shapeCast_self, posB_apply, condB_apply, typB_apply, typB_apply]

theorem embRows_apply (tok : Vec Ideal S128x200x128 .f32) (seg : Vec Ideal S128x200 .i32) (pos : Vec Ideal S200x128 .f32) (typ : Vec Ideal S2x128 .f32)
    (p : Fin 128) (s : Fin 200) (k : Fin 128) :
    embRows tok seg pos typ (ix2 (⟨200 * p.val + s.val, rows_lt p s⟩ : Fin 25600) k) = embAt tok seg pos typ p s k := by
  unfold embRows
  exact (cast_blk_rows _ _ p s k).trans (embBlk_apply tok seg pos typ p s k)

/-! ### The product with the constant matrix is a sum over the row -/

theorem dot_lhs0 (i : S25600x128.Idx) (q : dot_S25600x128_S128x128_S25600x128_1_0_0_1_n_n.contr.Idx) : (dot_S25600x128_S128x128_S25600x128_1_0_0_1_n_n.lhsIdx i q 0).val = (i 0).val := by
  unfold DotDims.lhsIdx
  rw [dif_neg (show ¬(0 : Fin S25600x128.rank) ∈ dot_S25600x128_S128x128_S25600x128_1_0_0_1_n_n.lhsBatch by decide),
    dif_pos (show (0 : Fin S25600x128.rank) ∈ dot_S25600x128_S128x128_S25600x128_1_0_0_1_n_n.lhsNonContracting by decide)]
  rfl

theorem dot_lhs1 (i : S25600x128.Idx) (q : dot_S25600x128_S128x128_S25600x128_1_0_0_1_n_n.contr.Idx) : (dot_S25600x128_S128x128_S25600x128_1_0_0_1_n_n.lhsIdx i q 1).val = (q ⟨0, by decide⟩).val :=
  dot_S25600x128_S128x128_S25600x128_1_0_0_1_n_n.lhsIdx_val_of_single rfl i q

/-- A row's mean at (r, e): the sum over the row of its entries times the constant word for 1/128. -/
theorem meanRows_apply (x : FVec Ideal S25600x128 .f32) (r : Fin 25600) (e : Fin 128) :
    meanRows x (ix2 r e) = ∑ k : Fin 128, x (ix2 r k) * Ideal.ofBits .f32 0x3C000000#32 := by
  unfold meanRows
  refine (Ideal.matmul_constant_zero_apply dot_S25600x128_S128x128_S25600x128_1_0_0_1_n_n none x _ (ix2 r e)).trans ?_
  refine (Equiv.sum_comp (ValueIdx.contrEquiv1 dot_S25600x128_S128x128_S25600x128_1_0_0_1_n_n 128 rfl rfl).symm _).symm.trans ?_
  refine Finset.sum_congr rfl fun k _ => ?_
  have hk := ValueIdx.contrEquiv1_symm_val dot_S25600x128_S128x128_S25600x128_1_0_0_1_n_n 128 rfl rfl k
  have el : dot_S25600x128_S128x128_S25600x128_1_0_0_1_n_n.lhsIdx (ix2 r e) ((ValueIdx.contrEquiv1 dot_S25600x128_S128x128_S25600x128_1_0_0_1_n_n 128 rfl rfl).symm k) = ix2 r k := funext fun a => Fin.ext (by
    match a with
    | ⟨0, _⟩ => exact dot_lhs0 _ _
    | ⟨1, _⟩ => exact (dot_lhs1 _ _).trans hk)
  rw [el]
  rfl

theorem gamB_apply (gam : Vec Ideal S1x128 .f32) (r : Fin 25600) (e : Fin 128) : gamB gam (ix2 r e) = gam (ix2 (0 : Fin 1) e) := by
  unfold gamB
  refine (broadcastTo_1b_ab_apply _ _ r e).trans ?_
  rw [shapeCast_self]

/-- The normalised, scaled row at (r, e), from the row's entries `x (r, ·)`. -/
theorem normRows_apply (x : FVec Ideal S25600x128 .f32) (gam : Vec Ideal S1x128 .f32) (r : Fin 25600) (e : Fin 128) :
    normRows x gam (ix2 r e)
      = (x (ix2 r e) - ∑ k : Fin 128, x (ix2 r k) * Ideal.ofBits .f32 0x3C000000#32)
        * (Ideal.rsqrt ((∑ k : Fin 128, (x (ix2 r k) * x (ix2 r k)) * Ideal.ofBits .f32 0x3C000000#32)
              - (∑ k : Fin 128, x (ix2 r k) * Ideal.ofBits .f32 0x3C000000#32) * (∑ k : Fin 128, x (ix2 r k) * Ideal.ofBits .f32 0x3C000000#32)
              + Ideal.ofBits .f32 0x3727C5AC#32)
            * gam (ix2 (0 : Fin 1) e)) := by
  unfold normRows
  show (x (ix2 r e) - meanRows x (ix2 r e))
      * (Ideal.rsqrt (meanRows (mulf x x) (ix2 r e) - meanRows x (ix2 r e) * meanRows x (ix2 r e) + Ideal.ofBits .f32 0x3727C5AC#32) * gamB gam (ix2 r e)) = _
  rw [meanRows_apply x, meanRows_apply (mulf x x), gamB_apply]
  rfl

/-- THE BODY'S RESULT at (p, s, e): with x k the summed embedding at (p, s, k), M the sum of x k · c and Q the sum of
    (x k · x k) · c over the 128 lanes (c the word 0x3C000000, 1/128): (x e − M) · (rsqrt(Q − M · M + ε) · γ e) + β e. -/
theorem ln_read (tok : Vec Ideal S128x200x128 .f32) (seg : Vec Ideal S128x200 .i32) (pos : Vec Ideal S200x128 .f32) (typ : Vec Ideal S2x128 .f32)
    (gam bet : Vec Ideal S1x128 .f32) (p : Fin 128) (s : Fin 200) (e : Fin 128) :
    k1_pay1 (k1_pay2 tok seg pos typ gam) bet (ix3 p s e)
      = (embAt tok seg pos typ p s e - ∑ k : Fin 128, embAt tok seg pos typ p s k * Ideal.ofBits .f32 0x3C000000#32)
          * (Ideal.rsqrt ((∑ k : Fin 128, (embAt tok seg pos typ p s k * embAt tok seg pos typ p s k) * Ideal.ofBits .f32 0x3C000000#32)
                - (∑ k : Fin 128, embAt tok seg pos typ p s k * Ideal.ofBits .f32 0x3C000000#32) * (∑ k : Fin 128, embAt tok seg pos typ p s k * Ideal.ofBits .f32 0x3C000000#32)
                + Ideal.ofBits .f32 0x3727C5AC#32)
              * gam (ix2 (0 : Fin 1) e))
        + bet (ix2 (0 : Fin 1) e) := by
  rw [k1_pay1_eq, k1_pay2_eq]
  refine (cast_rows_blk _ _ p s e).trans ?_
  show normRows (embRows tok seg pos typ) gam (ix2 (⟨200 * p.val + s.val, rows_lt p s⟩ : Fin 25600) e)
      + gamB bet (ix2 (⟨200 * p.val + s.val, rows_lt p s⟩ : Fin 25600) e) = _
  rw [normRows_apply, gamB_apply]
  simp only [embRows_apply]

end Read

end Cert.KernelIdeal.Tc

end
-- ==== Proof.TcValue.lean ====
/-
  The result array after the layer-norm call, as one function of the six input arrays, at the exact values.

  Row b (of 1024), position s (of 200), lane e (of 128) of the result is the normalised, scaled and shifted entry e of
  the row x = token row (b, s) + position row s + the segment row the id at (b, s) picks: with M the sum of x k · c and
  Q the sum of (x k · x k) · c over the 128 lanes (c the float word for 1/128),
  (x e − M) · (rsqrt(Q − M · M + ε) · γ e) + β e. Grid point t computes the 128 rows b = 128 t + p.
-/
import proofs.«200098_g2130303779034_cont_8to1_582_42_alg».proof.Proof.TcFinal
import proofs.«200098_g2130303779034_cont_8to1_582_42_alg».proof.Proof.TcLn

set_option maxRecDepth 16384

noncomputable section

namespace Cert.KernelIdeal.Tc

open Cert.KernelIdeal Cert.KernelIdeal.Gen
open Idealize.ShloMosaic Idealize.ShloMosaic.TcCoe
open Idealize.SL Idealize.SL.RA Idealize.SL.Sem
open Idealize.ShloMosaic.Pipeline (Dat Cfg Window)
open Idealize.ShloMosaic.ValueIdx

/-- One row normalised: entry e of x, centred by the row's mean M, scaled by rsqrt(Q − M² + ε) · g, shifted by b —
    M and Q the sums of x k · c and (x k · x k) · c, c the word 0x3C000000. -/
def lnOf (x : Fin 128 → EReal) (g b : EReal) (e : Fin 128) : EReal :=
  (x e - ∑ k : Fin 128, x k * Ideal.ofBits .f32 0x3C000000#32)
    * (Ideal.rsqrt ((∑ k : Fin 128, (x k * x k) * Ideal.ofBits .f32 0x3C000000#32)
          - (∑ k : Fin 128, x k * Ideal.ofBits .f32 0x3C000000#32) * (∑ k : Fin 128, x k * Ideal.ofBits .f32 0x3C000000#32)
          + Ideal.ofBits .f32 0x3727C5AC#32)
        * g)
    + b

/-- The body's result at (p, s, e) is the row x = the summed embedding at (p, s, ·), normalised. -/
theorem ln_read' (tok : Vec Ideal S128x200x128 .f32) (seg : Vec Ideal S128x200 .i32) (pos : Vec Ideal S200x128 .f32) (typ : Vec Ideal S2x128 .f32)
    (gam bet : Vec Ideal S1x128 .f32) (p : Fin 128) (s : Fin 200) (e : Fin 128) :
    k1_pay1 (k1_pay2 tok seg pos typ gam) bet (ix3 p s e)
      = lnOf (fun k => embAt tok seg pos typ p s k) (gam (ix2 (0 : Fin 1) e)) (bet (ix2 (0 : Fin 1) e)) e :=
  ln_read tok seg pos typ gam bet p s e

/-- The summed embedding of the ARRAYS at row b, position s, lane k. -/
def embArr (Tok : Vec Ideal S1024x200x128 .f32) (Seg : Vec Ideal S1024x200 .i32) (Pos : Vec Ideal S200x128 .f32) (Typ : Vec Ideal S2x128 .f32)
    (b : Fin 1024) (s : Fin 200) (k : Fin 128) : EReal :=
  (Tok (ix3 b s k) + Pos (ix2 s k)) + Scalar.select (IntOp.cmpi .eq (Seg (ix2 b s)) (0#32 : BitVec 32)) (Typ (ix2 (0 : Fin 2) k)) (Typ (ix2 (1 : Fin 2) k))

/-- The result array as one function of the six input arrays. -/
def lnArr (Tok : Vec Ideal S1024x200x128 .f32) (Seg : Vec Ideal S1024x200 .i32) (Pos : Vec Ideal S200x128 .f32) (Typ : Vec Ideal S2x128 .f32)
    (Gam Bet : Vec Ideal S1x128 .f32) : Vec Ideal S1024x200x128 .f32 :=
  fun i => lnOf (fun k => embArr Tok Seg Pos Typ (i 0) (i 1) k) (Gam (ix2 (0 : Fin 1) (i 2))) (Bet (ix2 (0 : Fin 1) (i 2))) (i 2)

variable {Ix : Type} [DecidableEq Ix] {Name : Type} [DecidableEq Name] {U : Type} [URA U] {Lvl : Type} [Preorder Lvl]

variable (V : (c : Dev nD) → (b : Ref sig .tc) → Buf (Elt Ideal) ((c : Thread nD τ).loc b))
variable (B : Set (SemLoc sig × Ix))

local notation "𝔡" => dat (F := Ideal) (Name := Name) (U := U) (Lvl := Lvl) V B

/-- The summed embedding of the blocks at point t is that of the arrays 128 t rows down. -/
theorem embAt_iblk (c : Dev nD) (t : Fin cfg1.N) (p : Fin 128) (s : Fin 200) (k : Fin 128) :
    embAt (iblk V c 0 t) (iblk V c 1 t) (iblk V c 2 t) (iblk V c 3 t) p s k
      = embArr (V c main_v5) (V c main_arg1) (V c main_v0) (V c main_arg4) (⟨128 * t.val + p.val, by have := t_lt t; have := p.isLt; omega⟩ : Fin 1024) s k := by
  unfold embAt embArr
  rw [iblk0_apply V c t p s k, iblk1_apply V c t p s]
  rw [show iblk V c 2 t (ix2 s k) = V c main_v0 (ix2 s k) from congrFun (iblk2_eq V c t) _,
    show iblk V c 3 t (ix2 (0 : Fin 2) k) = V c main_arg4 (ix2 (0 : Fin 2) k) from congrFun (iblk3_eq V c t) _,
    show iblk V c 3 t (ix2 (1 : Fin 2) k) = V c main_arg4 (ix2 (1 : Fin 2) k) from congrFun (iblk3_eq V c t) _]

/-- THE RESULT ARRAY after the call is `lnArr` of the six input arrays as the call found them. -/
theorem final6 (c : Dev nD) :
    (𝔡 c).arrAt 6 cfg1.N = lnArr (V c main_v5) (V c main_arg1) (V c main_v0) (V c main_arg4) (V c main_v1) (V c main_v2) := by
  refine final6_of V B c _ fun t => funext fun y => ?_
  obtain ⟨p, s, e, rfl⟩ : ∃ (p : Fin 128) (s : Fin 200) (e : Fin 128), y = ix3 p s e := ⟨y 0, y 1, y 2, eq_ix3 y⟩
  refine (congrFun (lnBlock_eq _ _ _ _ _ _) _).trans ((ln_read' _ _ _ _ _ _ p s e).trans ?_)
  refine Eq.trans ?_ (blk6_read_apply (F := Ideal) c (lnArr (V c main_v5) (V c main_arg1) (V c main_v0) (V c main_arg4) (V c main_v1) (V c main_v2)) t p s e).symm
  show lnOf (fun k => embAt (iblk V c 0 t) (iblk V c 1 t) (iblk V c 2 t) (iblk V c 3 t) p s k) (iblk V c 4 t (ix2 (0 : Fin 1) e)) (iblk V c 5 t (ix2 (0 : Fin 1) e)) e
      = lnOf (fun k => embArr (V c main_v5) (V c main_arg1) (V c main_v0) (V c main_arg4) (⟨128 * t.val + p.val, by have := t_lt t; have := p.isLt; omega⟩ : Fin 1024) s k)
          (V c main_v1 (ix2 (0 : Fin 1) e)) (V c main_v2 (ix2 (0 : Fin 1) e)) e
  rw [show (fun k => embAt (iblk V c 0 t) (iblk V c 1 t) (iblk V c 2 t) (iblk V c 3 t) p s k)
        = fun k => embArr (V c main_v5) (V c main_arg1) (V c main_v0) (V c main_arg4) (⟨128 * t.val + p.val, by have := t_lt t; have := p.isLt; omega⟩ : Fin 1024) s k
      from funext fun k => embAt_iblk V c t p s k,
    show iblk V c 4 t (ix2 (0 : Fin 1) e) = V c main_v1 (ix2 (0 : Fin 1) e) from congrFun (iblk4_eq V c t) _,
    show iblk V c 5 t (ix2 (0 : Fin 1) e) = V c main_v2 (ix2 (0 : Fin 1) e) from congrFun (iblk5_eq V c t) _]

end Cert.KernelIdeal.Tc

end
-- ==== Proof.RefSpec.lean ====
/-
  The closed form of the result at one entry, over the extended reals: the sum of three table rows, normalised over its
  128 columns. The float literals stay the words the program prints: zero (the sums' initial value), 128 (the divisor
  of mean and variance) and epsilon.
-/
import Idealize.ShloMosaic.PureOps.Ideal
import Idealize.ShloMosaic.Lib.ValueIdx

noncomputable section

namespace Cert.RefSide

open Idealize.ShloMosaic Idealize.ShloMosaic.ValueIdx
open scoped BigOperators

/-- The token table's row that entry `(b, s)` looks up: the id itself, an id in range being a row number. -/
def tokRow (ids : IVec ⟨2, ![1024, 200]⟩ 32) (h : ∀ i, (ids i).toNat ≤ 99999) (b : Fin 1024) (s : Fin 200) : Fin 100000 :=
  ⟨(ids (ix2 b s)).toNat, Nat.lt_succ_of_le (h (ix2 b s))⟩

/-- The position table's row for position `s`: row `s`. -/
def posRow (s : Fin 200) : Fin 512 := ⟨s.val, Nat.lt_trans s.isLt (by decide)⟩

/-- The segment table's row that entry `(b, s)` looks up: the segment id itself. -/
def segRow (tt : IVec ⟨2, ![1024, 200]⟩ 32) (h : ∀ i, (tt i).toNat ≤ 1) (b : Fin 1024) (s : Fin 200) : Fin 2 :=
  ⟨(tt (ix2 b s)).toNat, Nat.lt_succ_of_le (h (ix2 b s))⟩

/-- Column `k` of the summed row: token row `r`, position row `p`, segment row `g`, added in that order. -/
def embAt (tokT : FVec Ideal ⟨2, ![100000, 128]⟩ .f32) (posT : FVec Ideal ⟨2, ![512, 128]⟩ .f32)
    (segT : FVec Ideal ⟨2, ![2, 128]⟩ .f32) (r : Fin 100000) (p : Fin 512) (g : Fin 2) (k : Fin 128) : EReal :=
  tokT (ix2 r k) + posT (ix2 p k) + segT (ix2 g k)

/-- The mean of a row of 128: its sum, from the zero word, over the word of 128. -/
def meanOf (x : Fin 128 → EReal) : EReal :=
  Ideal.div (Ideal.ofBits .f32 0x00000000#32 + ∑ k : Fin 128, x k) (Ideal.ofBits .f32 0x43000000#32)

/-- The variance of a row of 128: the sum of the squared deviations from the mean, over the word of 128. -/
def varOf (x : Fin 128 → EReal) : EReal :=
  Ideal.div (Ideal.ofBits .f32 0x00000000#32 + ∑ k : Fin 128, (x k - meanOf x) * (x k - meanOf x))
    (Ideal.ofBits .f32 0x43000000#32)

/-- The layer normalisation of a row of 128 at column `e`: the deviation over the square root of (variance +
    epsilon), times gamma's entry, plus beta's. -/
def lnAt (x : Fin 128 → EReal) (gamma beta : FVec Ideal ⟨1, ![128]⟩ .f32) (e : Fin 128) : EReal :=
  Ideal.div (x e - meanOf x) (Ideal.sqrt (varOf x + Ideal.ofBits .f32 0x3727C5AC#32)) * gamma (ix1 e) + beta (ix1 e)

end Cert.RefSide

end
-- ==== Proof.RefLaw.lean ====
/-
  The law that joins the two arrangements of the layer normalisation of a row of 128 real numbers.

  One arrangement divides: the mean is the sum over 128, the variance the sum of squared deviations over 128, the
  result the deviation over the square root of (variance + epsilon), times gamma, plus beta. The other multiplies:
  the mean is the sum of the entries each times 1/128, the variance is the mean of the squares minus the square of
  the mean, and the deviation is multiplied by (the reciprocal square root of (variance + epsilon), times gamma),
  plus beta. On real numbers they agree: 1/128 is the exact reciprocal of 128; the mean of squares minus the squared
  mean IS the mean squared deviation (expand the square and use that the entries sum to 128 times the mean); the
  variance is not negative and epsilon is positive, so variance + epsilon is positive, its square root is not zero,
  and dividing by it is multiplying by its reciprocal. The law needs the entries, gamma and beta to be real numbers:
  on the extended reals an infinite entry would make the two sides different junk values.
-/
import proofs.«200098_g2130303779034_cont_8to1_582_42_alg».proof.Proof.RefSpec
import Idealize.ShloMosaic.PureOps.Ideal.Laws

noncomputable section

namespace Cert.RefSide

open Idealize.ShloMosaic Idealize.ShloMosaic.ValueIdx
open scoped BigOperators

/-! ## The multiplying arrangement -/

/-- The mean as a sum of the entries each times the word of 1/128. -/
def meanK (x : Fin 128 → EReal) : EReal := ∑ k : Fin 128, x k * Ideal.ofBits .f32 0x3C000000#32

/-- The mean of the squares, likewise. -/
def sqK (x : Fin 128 → EReal) : EReal := ∑ k : Fin 128, (x k * x k) * Ideal.ofBits .f32 0x3C000000#32

/-- The deviation times (the reciprocal square root of (mean of squares − squared mean + epsilon), times gamma), plus
    beta. -/
def lnAtK (x : Fin 128 → EReal) (gamma beta : FVec Ideal ⟨1, ![128]⟩ .f32) (e : Fin 128) : EReal :=
  (x e - meanK x) * (Ideal.rsqrt (sqK x - meanK x * meanK x + Ideal.ofBits .f32 0x3727C5AC#32) * gamma (ix1 e))
    + beta (ix1 e)

/-! ## The three words -/

theorem ofBits_128 : Ideal.ofBits .f32 0x43000000#32 = ((128 : ℝ) : EReal) := by
  simp [Ideal.ofBits, Ideal.ieee, -EReal.coe_mul]; norm_num

theorem ofBits_inv128 : Ideal.ofBits .f32 0x3C000000#32 = ((1 / 128 : ℝ) : EReal) := by
  simp [Ideal.ofBits, Ideal.ieee, -EReal.coe_mul]; norm_num

/-- Epsilon's word is a positive real number. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-! ## Sums of real numbers, as extended reals -/

theorem coe_sum (f : Fin 128 → ℝ) : (∑ k : Fin 128, ((f k : ℝ) : EReal)) = ((∑ k : Fin 128, f k : ℝ) : EReal) := by
  have : ∀ s : Finset (Fin 128), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact this Finset.univ

/-! ## The law on real numbers -/

/-- The mean squared deviation is the mean of the squares minus the squared mean. -/
theorem var_identity (x : Fin 128 → ℝ) :
    (∑ k : Fin 128, (x k - (∑ j : Fin 128, x j) / 128) * (x k - (∑ j : Fin 128, x j) / 128)) / 128
      = (∑ k : Fin 128, x k * x k * (1 / 128))
        - (∑ k : Fin 128, x k * (1 / 128)) * (∑ k : Fin 128, x k * (1 / 128)) := by
  have h1 : ∑ k : Fin 128, (x k - (∑ j : Fin 128, x j) / 128) * (x k - (∑ j : Fin 128, x j) / 128)
      = (∑ k : Fin 128, x k * x k) - 2 * ((∑ j : Fin 128, x j) / 128) * (∑ k : Fin 128, x k)
        + 128 * (((∑ j : Fin 128, x j) / 128) * ((∑ j : Fin 128, x j) / 128)) := by
    have e : ∀ k : Fin 128, (x k - (∑ j : Fin 128, x j) / 128) * (x k - (∑ j : Fin 128, x j) / 128)
        = x k * x k - 2 * ((∑ j : Fin 128, x j) / 128) * x k
          + ((∑ j : Fin 128, x j) / 128) * ((∑ j : Fin 128, x j) / 128) := fun k => by ring
    simp only [e]
    rw [Finset.sum_add_distrib, Finset.sum_sub_distrib, ← Finset.mul_sum, Finset.sum_const, Finset.card_univ,
      Fintype.card_fin]
    simp only [nsmul_eq_mul, Nat.cast_ofNat]
  rw [h1, ← Finset.sum_mul, ← Finset.sum_mul]
  ring

/-! ## The law -/

/-- THE TWO ARRANGEMENTS AGREE on a row of real numbers, with gamma's and beta's entries real. -/
theorem lnAt_eq_lnAtK (x : Fin 128 → EReal) (gamma beta : FVec Ideal ⟨1, ![128]⟩ .f32) (e : Fin 128)
    (hx : ∀ k, ∃ r : ℝ, x k = (r : EReal)) (hg : ∃ r : ℝ, gamma (ix1 e) = (r : EReal))
    (hb : ∃ r : ℝ, beta (ix1 e) = (r : EReal)) : lnAt x gamma beta e = lnAtK x gamma beta e := by
  choose xr hxr using hx
  obtain ⟨g, hg⟩ := hg
  obtain ⟨bt, hb⟩ := hb
  obtain ⟨ε, hε, heps⟩ := ofBits_eps
  obtain rfl : x = fun k => ((xr k : ℝ) : EReal) := funext hxr
  -- the dividing arrangement's mean and variance
  have hmean : meanOf (fun k => ((xr k : ℝ) : EReal)) = (((∑ k : Fin 128, xr k) / 128 : ℝ) : EReal) := by
    unfold meanOf
    rw [Ideal.ofBits_zero_f32, zero_add, coe_sum, ofBits_128, Ideal.div_coe (by norm_num), ← EReal.coe_mul]
    congr 1; ring
  have hvar : varOf (fun k => ((xr k : ℝ) : EReal))
      = (((∑ k : Fin 128, (xr k - (∑ j : Fin 128, xr j) / 128) * (xr k - (∑ j : Fin 128, xr j) / 128)) / 128 : ℝ) : EReal) := by
    unfold varOf
    rw [hmean]
    simp only [← EReal.coe_sub, ← EReal.coe_mul]
    rw [Ideal.ofBits_zero_f32, zero_add, coe_sum, ofBits_128, Ideal.div_coe (by norm_num), ← EReal.coe_mul]
    congr 1; ring
  -- the multiplying arrangement's mean and mean of squares
  have hmeanK : meanK (fun k => ((xr k : ℝ) : EReal)) = ((∑ k : Fin 128, xr k * (1 / 128) : ℝ) : EReal) := by
    unfold meanK
    rw [ofBits_inv128]
    simp only [← EReal.coe_mul]
    rw [coe_sum]
  have hsqK : sqK (fun k => ((xr k : ℝ) : EReal)) = ((∑ k : Fin 128, xr k * xr k * (1 / 128) : ℝ) : EReal) := by
    unfold sqK
    rw [ofBits_inv128]
    simp only [← EReal.coe_mul]
    rw [coe_sum]
  -- variance + epsilon is positive
  have hv0 : 0 ≤ (∑ k : Fin 128, (xr k - (∑ j : Fin 128, xr j) / 128) * (xr k - (∑ j : Fin 128, xr j) / 128)) / 128 :=
    div_nonneg (Finset.sum_nonneg fun k _ => mul_self_nonneg _) (by norm_num)
  set v : ℝ := (∑ k : Fin 128, (xr k - (∑ j : Fin 128, xr j) / 128) * (xr k - (∑ j : Fin 128, xr j) / 128)) / 128 with hv
  have ht : 0 < v + ε := by linarith
  have hs : Real.sqrt (v + ε) ≠ 0 := (Real.sqrt_pos.mpr ht).ne'
  have hmK : (∑ k : Fin 128, xr k * (1 / 128)) = (∑ k : Fin 128, xr k) / 128 := by
    rw [← Finset.sum_mul]; ring
  have hid : (∑ k : Fin 128, xr k * xr k * (1 / 128))
      - (∑ k : Fin 128, xr k * (1 / 128)) * (∑ k : Fin 128, xr k * (1 / 128)) = v := (var_identity xr).symm
  -- both sides as one real number
  unfold lnAt lnAtK
  rw [hmean, hvar, hmeanK, hsqK, heps, hg, hb]
  simp only [← EReal.coe_sub, ← EReal.coe_mul, ← EReal.coe_add]
  rw [hid, Ideal.sqrt_coe, if_neg (not_lt.mpr ht.le), Ideal.rsqrt_coe, if_neg (not_lt.mpr ht.le), if_neg ht.ne',
    Ideal.div_coe hs]
  simp only [← EReal.coe_sub, ← EReal.coe_mul, ← EReal.coe_add]
  congr 1
  rw [hmK]
  ring

end Cert.RefSide

end
-- ==== Proof.TcValueRef.lean ====
/-
  The result array after the layer-norm call, entry by entry, in the multiplying arrangement of the row normalisation:
  entry (b, s, e) is that arrangement applied to the summed embedding row (b, s), with the scale and shift rows read as
  vectors of 128.
-/
import proofs.«200098_g2130303779034_cont_8to1_582_42_alg».proof.Proof.TcValue
import proofs.«200098_g2130303779034_cont_8to1_582_42_alg».proof.Proof.RefLaw

noncomputable section

namespace Cert.KernelIdeal.Tc

open Cert.KernelIdeal Cert.KernelIdeal.Gen
open Idealize.ShloMosaic Idealize.ShloMosaic.TcCoe
open Idealize.SL Idealize.SL.RA Idealize.SL.Sem
open Idealize.ShloMosaic.ValueIdx

/-- A 1 x 128 array read as a vector of 128. -/
def rowVec (g : Vec Ideal S1x128 .f32) : FVec Ideal ⟨1, ![128]⟩ .f32 := fun j => g (ix2 (0 : Fin 1) (j 0))

/-- The row normalisation as the kernel's body reads it is the multiplying arrangement. -/
theorem lnOf_eq_lnAtK (x : Fin 128 → EReal) (Gam Bet : Vec Ideal S1x128 .f32) (e : Fin 128) :
    lnOf x (Gam (ix2 (0 : Fin 1) e)) (Bet (ix2 (0 : Fin 1) e)) e = Cert.RefSide.lnAtK x (rowVec Gam) (rowVec Bet) e := rfl

variable {Ix : Type} [DecidableEq Ix] {Name : Type} [DecidableEq Name] {U : Type} [URA U] {Lvl : Type} [Preorder Lvl]

variable (V : (c : Dev nD) → (b : Ref sig .tc) → Buf (Elt Ideal) ((c : Thread nD τ).loc b))
variable (B : Set (SemLoc sig × Ix))

/-- THE RESULT ARRAY after the call at (b, s, e). -/
theorem final6_at (c : Dev nD) (b : Fin 1024) (s : Fin 200) (e : Fin 128) :
    (dat (F := Ideal) (Name := Name) (U := U) (Lvl := Lvl) V B c).arrAt 6 cfg1.N (ix3 b s e)
      = Cert.RefSide.lnAtK (fun k => embArr (V c main_v5) (V c main_arg1) (V c main_v0) (V c main_arg4) b s k)
          (rowVec (V c main_v1)) (rowVec (V c main_v2)) e := by
  rw [final6 V B c]
  rfl

end Cert.KernelIdeal.Tc

end
-- ==== Proof.RefGather.lean ====
/-
  A gather of whole rows at a two-dimensional array of start indices — what `x[idx]` of a table `x : [N, D]` at an
  integer array `idx : [R, C]` is in a host program — read at an index given by coordinates.

  The start indices arrive as `[R, C, 1]`, one one-component index vector per entry; the dimension numbers collapse
  the table's row axis, map the one component to it, keep the column axis whole as the result's offset axis (its
  third), and take slices `[1, D]`. Entry `(r, c, e)` of the result is the table's entry `(row, e)`, where `row` is the
  start index `idx[r, c, 0]` read as a signed integer and clamped into `[0, N − 1]`.
-/
import Idealize.ShloMosaic.Lib.ValueIdx

noncomputable section

namespace Cert.RefSide

open Idealize.ShloMosaic Idealize.ShloMosaic.ValueIdx

section RowGather3
variable {α : Type}

/-- The dimension numbers of such a gather, for a table `[N, D]`, start indices `[R, C, 1]` and a result
    `[R, C, D]`; their conditions `wf` are decided on a program's literal shapes. -/
abbrev rowGather3Dims (N R C D : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row of the table that entries `(r, c, ·)` of the result are taken from: the start index read signed, clamped
    into `[0, N − 1]`. -/
def gatherRow3 {R C w : Nat} (N : Nat) (hN : 0 < N) (idx : IVec ⟨3, ![R, C, 1]⟩ w) (r : Fin R) (c : Fin C) : Fin N :=
  ⟨min (idx (ix3 r c (0 : Fin 1))).toInt.toNat (N - 1), by omega⟩

/-- The gather read at `(r, c, e)`: the table at row `gatherRow3 N idx r c`, column `e`. -/
theorem gather_row3_apply {N R C D w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowGather3Dims N R C D wf) x idx (ix3 r c e) = x (ix2 (gatherRow3 N hN idx r c) e) := by
  unfold Host.gather
  congr 1
  -- the row axis: the one start-index component, clamped; no batch coordinate, no offset
  have h0 : (rowGather3Dims N R C D wf).start (ix3 r c e) idx (0 : Fin 2)
      + (rowGather3Dims N R C D wf).batchCoord (ix3 r c e) (0 : Fin 2)
      + (rowGather3Dims N R C D wf).offCoord (ix3 r c e) (0 : Fin 2)
        = min (idx (ix3 r c (0 : Fin 1))).toInt.toNat (N - 1) := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGather3Dims N R C D wf).startIndexMap from List.mem_singleton.mpr rfl)]
    have hsi : (rowGather3Dims N R C D wf).siIdx (ix3 r c e)
        ⟨List.idxOf (0 : Fin 2) (rowGather3Dims N R C D wf).startIndexMap,
          List.idxOf_lt_length_iff.2 (List.mem_singleton.mpr rfl)⟩ = ix3 r c (0 : Fin 1) := by
      funext a; refine Fin.ext ?_
      match a with
      | ⟨0, _⟩ => rfl
      | ⟨1, _⟩ => rfl
      | ⟨2, _⟩ => rfl
    rw [hsi]
    rfl
  -- the column axis: no start component, the result's third coordinate as the offset
  have h1 : (rowGather3Dims N R C D wf).start (ix3 r c e) idx (1 : Fin 2)
      + (rowGather3Dims N R C D wf).batchCoord (ix3 r c e) (1 : Fin 2)
      + (rowGather3Dims N R C D wf).offCoord (ix3 r c e) (1 : Fin 2) = e.val := by
    rw [GatherDims.batchCoord_eq_zero _ _ _ List.not_mem_nil, Nat.add_zero]
    have hs : (rowGather3Dims N R C D wf).start (ix3 r c e) idx (1 : Fin 2) = 0 := by
      unfold GatherDims.start
      rw [dif_neg (show ¬ (1 : Fin 2) ∈ (rowGather3Dims N R C D wf).startIndexMap from
        fun h => Nat.one_ne_zero (congrArg Fin.val (List.mem_singleton.mp h)))]
    rw [hs, Nat.zero_add]
    rfl
  funext a
  refine Fin.ext ?_
  match a with
  | ⟨0, _⟩ => exact h0
  | ⟨1, _⟩ => exact h1

end RowGather3

end Cert.RefSide

end
-- ==== Proof.LibRowGather.lean ====
/-
  GENERAL LEMMA: a gather of whole rows — what `x[idx]` of a table `x : [N, D]` at an integer array `idx : [B]` is in a
  host program — read at an index given by coordinates.

  The start indices arrive as a column `[B, 1]`; the dimension numbers collapse the table's row axis, map the one
  start-index component to it, keep the column axis whole as the result's offset axis, and take slices `[1, D]`.
  Entry `(b, e)` of the result is the table's entry `(r, e)`, where the row `r` is the start index `idx[b, 0]` read as
  a signed integer and clamped into `[0, N − 1]`. The row depends on the start indices and on `N` only, not on the row
  length `D`: two tables with the same number of rows are gathered at the same rows.
-/
import Idealize.ShloMosaic.Lib.ValueIdx

noncomputable section

namespace Idealize.ShloMosaic.ValueIdx

open Idealize.ShloMosaic

section RowGather
variable {α : Type}

/-- The dimension numbers of a row gather, for a table `[N, D]`, start indices `[B, 1]` and a result `[B, D]`; their
    conditions `wf` are decided on a program's literal shapes. -/
abbrev rowGatherDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- The row of the table that entry `b` of the result is taken from: the start index read signed, clamped into
    `[0, N − 1]`. -/
def gatherRow {B w : Nat} (N : Nat) (hN : 0 < N) (idx : IVec ⟨2, ![B, 1]⟩ w) (b : Fin B) : Fin N :=
  ⟨min (idx (ix2 b (0 : Fin 1))).toInt.toNat (N - 1), by omega⟩

/-- THE ROW GATHER READ AT `(b, e)`: the table at row `gatherRow N idx b`, column `e`. -/
theorem gather_row_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (e : Fin D) :
    Host.gather (rowGatherDims N B D wf) x idx (ix2 b e) = x (ix2 (gatherRow N hN idx b) e) := by
  unfold Host.gather
  congr 1
  -- the row axis: the one start-index component, clamped; nothing added to it
  have h0 : (rowGatherDims N B D wf).start (ix2 b e) idx (0 : Fin 2) + (rowGatherDims N B D wf).batchCoord (ix2 b e) (0 : Fin 2)
      + (rowGatherDims N B D wf).offCoord (ix2 b e) (0 : Fin 2) = min (idx (ix2 b (0 : Fin 1))).toInt.toNat (N - 1) := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGatherDims N B D wf).startIndexMap from List.mem_singleton.mpr rfl)]
    have hsi : (rowGatherDims N B D wf).siIdx (ix2 b e) ⟨List.idxOf (0 : Fin 2) (rowGatherDims N B D wf).startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  -- the column axis: no start component, the result's own column as the offset
  have h1 : (rowGatherDims N B D wf).start (ix2 b e) idx (1 : Fin 2) + (rowGatherDims N B D wf).batchCoord (ix2 b e) (1 : Fin 2)
      + (rowGatherDims N B D wf).offCoord (ix2 b e) (1 : Fin 2) = e.val := by
    rw [GatherDims.batchCoord_eq_zero _ _ _ List.not_mem_nil, Nat.add_zero]
    have hs : (rowGatherDims N B D wf).start (ix2 b e) idx (1 : Fin 2) = 0 := by
      unfold GatherDims.start
      rw [dif_neg (show ¬ (1 : Fin 2) ∈ (rowGatherDims N B D wf).startIndexMap from
        fun h => Nat.one_ne_zero (congrArg Fin.val (List.mem_singleton.mp h)))]
    rw [hs, Nat.zero_add]
    rfl
  funext a
  refine Fin.ext ?_
  match a with
  | ⟨0, _⟩ => exact h0
  | ⟨1, _⟩ => exact h1

end RowGather

end Idealize.ShloMosaic.ValueIdx

end
-- ==== Proof.RefRead.lean ====
/-
  The reference's result read at one entry. Under the precondition's two integer ranges — every token id a word
  between 0 and 99999, every segment id 0 or 1 — each lookup's index is not negative (so it is not wrapped), names a
  row of its table (so the range mask is true and the gather's clamp changes nothing), and the looked-up row is the
  row the id names; the positions 0, …, 199 are in range of the 512 position rows by themselves. The result at
  `(b, s, e)` is then the layer normalisation, over the 128 columns, of token row + position row + segment row, at
  column `e`: the sums read as sums over the 128 columns, every operation the extended reals' own. No algebra is
  done here: the closed form is the program's operations, at an index.
-/
import proofs.«200098_g2130303779034_cont_8to1_582_42_alg».proof.Proof.RefOut
import proofs.«200098_g2130303779034_cont_8to1_582_42_alg».proof.Proof.RefSpec
import proofs.«200098_g2130303779034_cont_8to1_582_42_alg».proof.Proof.RefGather
import proofs.«200098_g2130303779034_cont_8to1_582_42_alg».proof.Proof.LibRowGather
import Idealize.ShloMosaic.Lib.IdealHost
import Idealize.ShloMosaic.Lib.Pipeline.Value
import Idealize.ShloMosaic.PureOps.Reduce

noncomputable section

namespace Cert.RefSide

open Cert.ReferenceIdeal Cert.ReferenceIdeal.Gen Idealize.ShloMosaic Idealize.ShloMosaic.ValueIdx
open scoped BigOperators

/-! ## Words: a word below 2³¹ is its own signed value -/

theorem toInt_of_lt {x : BitVec 32} (hx : x.toNat < 2147483648) : x.toInt = (x.toNat : Int) := by
  rw [BitVec.toInt_eq_toNat_cond, if_pos (by omega)]

/-- Such a word is not negative … -/
theorem cmpi_slt_zero {x : BitVec 32} (hx : x.toNat < 2147483648) : IntOp.cmpi .slt x 0#32 = 0#1 := by
  have h : x.slt 0#32 = false := by
    rw [BitVec.slt, toInt_of_lt hx]
    simp
  show BitVec.ofBool (x.slt 0#32) = 0#1
  rw [h]; rfl

/-- … it is at least zero … -/
theorem cmpi_sge_zero {x : BitVec 32} (hx : x.toNat < 2147483648) : IntOp.cmpi .sge x 0#32 = 1#1 := by
  have h : (0#32 : BitVec 32).sle x = true := by
    rw [BitVec.sle, toInt_of_lt hx]
    simp
  show BitVec.ofBool ((0#32 : BitVec 32).sle x) = 1#1
  rw [h]; rfl

/-- … and the signed order of two such words is the order of their values. -/
theorem cmpi_sle_of_le {x y : BitVec 32} (hy : y.toNat < 2147483648) (hxy : x.toNat ≤ y.toNat) :
    IntOp.cmpi .sle x y = 1#1 := by
  have h : x.sle y = true := by
    rw [BitVec.sle, toInt_of_lt hy, toInt_of_lt (by omega)]
    simp only [decide_eq_true_eq]
    exact_mod_cast hxy
  show BitVec.ofBool (x.sle y) = 1#1
  rw [h]; rfl

/-- A word that names a row of a table of `N` rows is left alone by the gather's clamp into `[0, N − 1]`. -/
theorem clamp_row {x : BitVec 32} {N : Nat} (hN : N ≤ 2147483648) (hx : x.toNat < N) :
    min x.toInt.toNat (N - 1) = x.toNat := by
  rw [toInt_of_lt (by omega), Int.toNat_natCast]
  omega

theorem and_one (y : BitVec 1) : IntOp.andi y 1#1 = y := by
  by_cases hy : y = 1#1
  · rw [hy]; rfl
  · rw [eq_zero_of_ne_one hy]; rfl

/-! ## The broadcasts of this program, at an index -/

section Layout
variable {α : Type}

theorem bc_col (h : S1024x200.BroadcastsInDim S1024x200x1 ![0, 1]) (x : S1024x200.Idx → α) (b : Fin 1024) (s : Fin 200)
    (z : Fin 1) : broadcastInDim S1024x200x1 ![0, 1] h x (ix3 b s z) = x (ix2 b s) :=
  broadcastInDim_apply _ _ _ _ _ (fun a => match a with | ⟨0, _⟩ => rfl | ⟨1, _⟩ => rfl)

theorem bc_mask (h : S1024x200.BroadcastsInDim S1024x200x128 ![0, 1]) (x : S1024x200.Idx → α) (b : Fin 1024)
    (s : Fin 200) (e : Fin 128) : broadcastInDim S1024x200x128 ![0, 1] h x (ix3 b s e) = x (ix2 b s) :=
  broadcastInDim_apply _ _ _ _ _ (fun a => match a with | ⟨0, _⟩ => rfl | ⟨1, _⟩ => rfl)

theorem bc_keep (h : S1024x200x1.BroadcastsInDim S1024x200x128 ![0, 1, 2]) (x : S1024x200x1.Idx → α) (b : Fin 1024)
    (s : Fin 200) (e : Fin 128) :
    broadcastInDim S1024x200x128 ![0, 1, 2] h x (ix3 b s e) = x (ix3 b s (0 : Fin 1)) :=
  broadcastInDim_apply _ _ _ _ _ (fun a => match a with | ⟨0, _⟩ => rfl | ⟨1, _⟩ => rfl | ⟨2, _⟩ => rfl)

theorem bc_one3 (h1 : S1.BroadcastsInDim S1x1x1 ![2]) (h2 : S1x1x1.BroadcastsInDim S1024x200x1 ![0, 1, 2])
    (x : S1.Idx → α) (j : S1024x200x1.Idx) :
    broadcastInDim S1024x200x1 ![0, 1, 2] h2 (broadcastInDim S1x1x1 ![2] h1 x) j = x (ix1 (0 : Fin 1)) :=
  (broadcastInDim_apply _ _ _ j (ix3 (0 : Fin 1) (0 : Fin 1) (0 : Fin 1)) (fun a => match a with | ⟨0, _⟩ => rfl | ⟨1, _⟩ => rfl | ⟨2, _⟩ => rfl)).trans
    (broadcastInDim_apply _ _ _ _ (ix1 (0 : Fin 1)) (fun a => match a with | ⟨0, _⟩ => rfl))

theorem bc_pos (h1 : S200x128.BroadcastsInDim S1x200x128 ![1, 2])
    (h2 : S1x200x128.BroadcastsInDim S1024x200x128 ![0, 1, 2]) (x : S200x128.Idx → α) (b : Fin 1024) (s : Fin 200)
    (e : Fin 128) :
    broadcastInDim S1024x200x128 ![0, 1, 2] h2 (broadcastInDim S1x200x128 ![1, 2] h1 x) (ix3 b s e) = x (ix2 s e) :=
  (broadcastInDim_apply _ _ _ _ (ix3 (0 : Fin 1) s e) (fun a => match a with | ⟨0, _⟩ => rfl | ⟨1, _⟩ => rfl | ⟨2, _⟩ => rfl)).trans
    (broadcastInDim_apply _ _ _ _ (ix2 s e) (fun a => match a with | ⟨0, _⟩ => rfl | ⟨1, _⟩ => rfl))

theorem bc_vec (h1 : S128.BroadcastsInDim S1x1x128 ![2]) (h2 : S1x1x128.BroadcastsInDim S1024x200x128 ![0, 1, 2])
    (x : S128.Idx → α) (b : Fin 1024) (s : Fin 200) (e : Fin 128) :
    broadcastInDim S1024x200x128 ![0, 1, 2] h2 (broadcastInDim S1x1x128 ![2] h1 x) (ix3 b s e) = x (ix1 e) :=
  (broadcastInDim_apply _ _ _ _ (ix3 (0 : Fin 1) (0 : Fin 1) e) (fun a => match a with | ⟨0, _⟩ => rfl | ⟨1, _⟩ => rfl | ⟨2, _⟩ => rfl)).trans
    (broadcastInDim_apply _ _ _ _ (ix1 e) (fun a => match a with | ⟨0, _⟩ => rfl))

theorem bc_pcol (h : S200.BroadcastsInDim S200x1 ![0]) (x : S200.Idx → α) (s : Fin 200) (z : Fin 1) :
    broadcastInDim S200x1 ![0] h x (ix2 s z) = x (ix1 s) :=
  broadcastInDim_apply _ _ _ _ _ (fun a => match a with | ⟨0, _⟩ => rfl)

theorem bc_pmask (h : S200.BroadcastsInDim S200x128 ![0]) (x : S200.Idx → α) (s : Fin 200) (e : Fin 128) :
    broadcastInDim S200x128 ![0] h x (ix2 s e) = x (ix1 s) :=
  broadcastInDim_apply _ _ _ _ _ (fun a => match a with | ⟨0, _⟩ => rfl)

theorem bc_one2 (h1 : S1.BroadcastsInDim S1x1 ![1]) (h2 : S1x1.BroadcastsInDim S200x1 ![0, 1]) (x : S1.Idx → α)
    (j : S200x1.Idx) : broadcastInDim S200x1 ![0, 1] h2 (broadcastInDim S1x1 ![1] h1 x) j = x (ix1 (0 : Fin 1)) :=
  (broadcastInDim_apply _ _ _ j (ix2 (0 : Fin 1) (0 : Fin 1)) (fun a => match a with | ⟨0, _⟩ => rfl | ⟨1, _⟩ => rfl)).trans
    (broadcastInDim_apply _ _ _ _ (ix1 (0 : Fin 1)) (fun a => match a with | ⟨0, _⟩ => rfl))

end Layout

/-! ## One lookup's pieces -/

/-- The wrap of negative indices leaves an index that is not negative alone. -/
theorem wrap_apply {S : Shape} (bc : S_.BroadcastsInDim S ![]) (n : BitVec 32) (v : IVec S 32) (i : S.Idx)
    (h : (v i).toNat < 2147483648) :
    select (cmpi .slt v (broadcastInDim S ![] bc (constantI S_ 32 0#32)))
      (addi v (broadcastInDim S ![] bc (constantI S_ 32 n))) v i = v i := by
  show Scalar.select (IntOp.cmpi .slt (v i) (broadcastInDim S ![] bc (constantI S_ 32 0#32) i)) _ _ = _
  rw [broadcastInDim_scalar_apply]
  show Scalar.select (IntOp.cmpi .slt (v i) 0#32) _ _ = _
  rw [cmpi_slt_zero h, select_zero]

/-- A fold over the one coordinate of an axis of extent one. -/
theorem fold_fin_one {β : Type} (op : β → β → β) [Std.Commutative op] [Std.Associative op] (b : β) (f : Fin 1 → β) :
    Finset.fold op b f Finset.univ = op (f 0) b := by
  rw [show (Finset.univ : Finset (Fin 1)) = {0} from by decide, Finset.fold_singleton]

/-- The "and" over the one component of each index vector is that component's bit. -/
theorem andCol3 (x : IVec S1024x200x1 1) (h' : S1024x200x1.ReducesTo [2] S1024x200) (hu : 0 < S_.numel) (b : Fin 1024)
    (s : Fin 200) : Host.reduce IntOp.andi x (constantI S_ 1 1#1) h' hu (ix2 b s) = x (ix3 b s (0 : Fin 1)) := by
  have h : S1024x200x1.Reduces [2] S1024x200 := by decide
  have hl : h.lift (ix2 b s) (0 : Fin 1) = ix3 b s (0 : Fin 1) := by
    funext a; refine Fin.ext ?_
    match a with | ⟨0, _⟩ => rfl | ⟨1, _⟩ => rfl | ⟨2, _⟩ => rfl
  rw [Host.reduce_eq_fold_single IntOp.andi x _ h' h hu (ix2 b s)]
  refine (fold_fin_one IntOp.andi _ _).trans ?_
  show IntOp.andi (x (h.lift (ix2 b s) (0 : Fin 1))) 1#1 = _
  rw [hl, and_one]

theorem andCol2 (x : IVec S200x1 1) (h' : S200x1.ReducesTo [1] S200) (hu : 0 < S_.numel) (s : Fin 200) :
    Host.reduce IntOp.andi x (constantI S_ 1 1#1) h' hu (ix1 s) = x (ix2 s (0 : Fin 1)) := by
  have h : S200x1.Reduces [1] S200 := by decide
  have hl : h.lift (ix1 s) (0 : Fin 1) = ix2 s (0 : Fin 1) := by
    funext a; refine Fin.ext ?_
    match a with | ⟨0, _⟩ => rfl | ⟨1, _⟩ => rfl
  rw [Host.reduce_eq_fold_single IntOp.andi x _ h' h hu (ix1 s)]
  refine (fold_fin_one IntOp.andi _ _).trans ?_
  show IntOp.andi (x (h.lift (ix1 s) (0 : Fin 1))) 1#1 = _
  rw [hl, and_one]

/-- The range test "0 ≤ index ≤ hi" (signed) of an index between zero and `hi`. -/
theorem inrange3 (v : IVec S1024x200x1 32) (hi : BitVec 32) (j : S1024x200x1.Idx) (hhi : hi.toNat < 2147483648)
    (h : (v j).toNat ≤ hi.toNat) :
    andi (cmpi .sge v (broadcastInDim S1024x200x1 ![] bcast_S_S1024x200x1 (constantI S_ 32 0#32)))
      (cmpi .sle v
        (broadcastInDim S1024x200x1 ![0, 1, 2] bcast_S1x1x1_S1024x200x1_0_1_2
          (broadcastInDim S1x1x1 ![2] bcast_S1_S1x1x1_2 (constantI S1 32 hi)))) j = 1#1 := by
  show IntOp.andi (IntOp.cmpi .sge (v j) (broadcastInDim S1024x200x1 ![] bcast_S_S1024x200x1 (constantI S_ 32 0#32) j))
    (IntOp.cmpi .sle (v j) (broadcastInDim S1024x200x1 ![0, 1, 2] bcast_S1x1x1_S1024x200x1_0_1_2
          (broadcastInDim S1x1x1 ![2] bcast_S1_S1x1x1_2 (constantI S1 32 hi)) j)) = 1#1
  rw [broadcastInDim_scalar_apply, bc_one3]
  show IntOp.andi (IntOp.cmpi .sge (v j) 0#32) (IntOp.cmpi .sle (v j) hi) = 1#1
  rw [cmpi_sge_zero (by omega), cmpi_sle_of_le hhi h]; rfl

theorem inrange2 (v : IVec S200x1 32) (hi : BitVec 32) (j : S200x1.Idx) (hhi : hi.toNat < 2147483648)
    (h : (v j).toNat ≤ hi.toNat) :
    andi (cmpi .sge v (broadcastInDim S200x1 ![] bcast_S_S200x1 (constantI S_ 32 0#32)))
      (cmpi .sle v
        (broadcastInDim S200x1 ![0, 1] bcast_S1x1_S200x1_0_1
          (broadcastInDim S1x1 ![1] bcast_S1_S1x1_1 (constantI S1 32 hi)))) j = 1#1 := by
  show IntOp.andi (IntOp.cmpi .sge (v j) (broadcastInDim S200x1 ![] bcast_S_S200x1 (constantI S_ 32 0#32) j))
    (IntOp.cmpi .sle (v j) (broadcastInDim S200x1 ![0, 1] bcast_S1x1_S200x1_0_1
          (broadcastInDim S1x1 ![1] bcast_S1_S1x1_1 (constantI S1 32 hi)) j)) = 1#1
  rw [broadcastInDim_scalar_apply, bc_one2]
  show IntOp.andi (IntOp.cmpi .sge (v j) 0#32) (IntOp.cmpi .sle (v j) hi) = 1#1
  rw [cmpi_sge_zero (by omega), cmpi_sle_of_le hhi h]; rfl

/-! ## The three lookups at an entry -/

variable {F : FTy → Type} [FloatOps F]

theorem tokIdx_apply (ids : IVec S1024x200 32) (hids : ∀ i, (ids i).toNat ≤ 99999) (b : Fin 1024) (s : Fin 200)
    (z : Fin 1) : tokIdx ids (ix3 b s z) = ids (ix2 b s) := by
  unfold tokIdx
  rw [bc_col]
  exact wrap_apply _ _ _ _ (by have := hids (ix2 b s); omega)

theorem tokOk_apply (ids : IVec S1024x200 32) (hids : ∀ i, (ids i).toNat ≤ 99999) (b : Fin 1024) (s : Fin 200) :
    tokOk ids (ix2 b s) = 1#1 := by
  unfold tokOk
  rw [andCol3]
  refine inrange3 _ _ _ (by decide) ?_
  rw [tokIdx_apply ids hids]
  exact hids _

/-- The token lookup at `(b, s, e)`: the table at the row the id names. -/
theorem tok_apply (tokT : FVec F S100000x128 .f32) (ids : IVec S1024x200 32) (hids : ∀ i, (ids i).toNat ≤ 99999)
    (b : Fin 1024) (s : Fin 200) (e : Fin 128) : tok tokT ids (ix3 b s e) = tokT (ix2 (tokRow ids hids b s) e) := by
  unfold tok
  rw [select_apply, bc_mask, tokOk_apply ids hids, select_one]
  refine (gather_row3_apply (N := 100000) (R := 1024) (C := 200) (D := 128) (by decide) _ tokT (tokIdx ids) b s e).trans ?_
  refine congrArg (fun r => tokT (ix2 r e)) (Fin.ext ?_)
  show min (tokIdx ids (ix3 b s (0 : Fin 1))).toInt.toNat (100000 - 1) = (ids (ix2 b s)).toNat
  rw [tokIdx_apply ids hids]
  exact clamp_row (by decide) (Nat.lt_succ_of_le (hids _))

theorem segIdx_apply (tt : IVec S1024x200 32) (htt : ∀ i, (tt i).toNat ≤ 1) (b : Fin 1024) (s : Fin 200)
    (z : Fin 1) : segIdx tt (ix3 b s z) = tt (ix2 b s) := by
  unfold segIdx
  rw [bc_col]
  exact wrap_apply _ _ _ _ (by have := htt (ix2 b s); omega)

theorem segOk_apply (tt : IVec S1024x200 32) (htt : ∀ i, (tt i).toNat ≤ 1) (b : Fin 1024) (s : Fin 200) :
    segOk tt (ix2 b s) = 1#1 := by
  unfold segOk
  rw [andCol3]
  refine inrange3 _ _ _ (by decide) ?_
  rw [segIdx_apply tt htt]
  exact htt _

/-- The segment lookup at `(b, s, e)`: the table at the row the segment id names. -/
theorem seg_apply (segT : FVec F S2x128 .f32) (tt : IVec S1024x200 32) (htt : ∀ i, (tt i).toNat ≤ 1)
    (b : Fin 1024) (s : Fin 200) (e : Fin 128) : seg segT tt (ix3 b s e) = segT (ix2 (segRow tt htt b s) e) := by
  unfold seg
  rw [select_apply, bc_mask, segOk_apply tt htt, select_one]
  refine (gather_row3_apply (N := 2) (R := 1024) (C := 200) (D := 128) (by decide) _ segT (segIdx tt) b s e).trans ?_
  refine congrArg (fun r => segT (ix2 r e)) (Fin.ext ?_)
  show min (segIdx tt (ix3 b s (0 : Fin 1))).toInt.toNat (2 - 1) = (tt (ix2 b s)).toNat
  rw [segIdx_apply tt htt]
  exact clamp_row (by decide) (Nat.lt_succ_of_le (htt _))

theorem pos_word (s : Fin 200) : (BitVec.ofNat 32 s.val).toNat = s.val := by
  rw [BitVec.toNat_ofNat]
  exact Nat.mod_eq_of_lt (by have := s.isLt; omega)

theorem posIdx_apply (s : Fin 200) (z : Fin 1) : posIdx (ix2 s z) = BitVec.ofNat 32 s.val := by
  unfold posIdx
  rw [bc_pcol]
  refine (wrap_apply _ _ _ _ ?_).trans rfl
  show (BitVec.ofNat 32 s.val).toNat < 2147483648
  rw [pos_word]; have := s.isLt; omega

theorem posOk_apply (s : Fin 200) : posOk (ix1 s) = 1#1 := by
  unfold posOk
  rw [andCol2]
  refine inrange2 _ _ _ (by decide) ?_
  rw [posIdx_apply, pos_word]
  show s.val ≤ 511
  have := s.isLt; omega

/-- The position lookup at `(s, e)`: the table at row `s`. -/
theorem pos_apply (posT : FVec F S512x128 .f32) (s : Fin 200) (e : Fin 128) :
    pos posT (ix2 s e) = posT (ix2 (posRow s) e) := by
  unfold pos
  rw [select_apply, bc_pmask, posOk_apply, select_one]
  refine (gather_row_apply (N := 512) (B := 200) (D := 128) (by decide) _ posT posIdx s e).trans ?_
  refine congrArg (fun r => posT (ix2 r e)) (Fin.ext ?_)
  show min (posIdx (ix2 s (0 : Fin 1))).toInt.toNat (512 - 1) = s.val
  rw [posIdx_apply, clamp_row (by decide) (by rw [pos_word]; have := s.isLt; omega), pos_word]

/-! ## The sum and its normalisation at an entry, over the extended reals -/

/-- The summed row at `(b, s, e)`. -/
theorem emb_apply (ids tt : IVec S1024x200 32) (tokT : FVec Ideal S100000x128 .f32) (posT : FVec Ideal S512x128 .f32)
    (segT : FVec Ideal S2x128 .f32) (hids : ∀ i, (ids i).toNat ≤ 99999) (htt : ∀ i, (tt i).toNat ≤ 1)
    (b : Fin 1024) (s : Fin 200) (e : Fin 128) :
    emb (F := Ideal) ids tt tokT posT segT (ix3 b s e)
      = embAt tokT posT segT (tokRow ids hids b s) (posRow s) (segRow tt htt b s) e := by
  unfold emb embAt
  rw [addf_apply, addf_apply, tok_apply tokT ids hids, bc_pos, pos_apply, seg_apply segT tt htt]

/-- A row's sum: from the zero word, over the 128 columns. -/
theorem rowSum_apply (x : FVec Ideal S1024x200x128 .f32) (b : Fin 1024) (s : Fin 200) :
    Host.reduceAdd x (constant (F := Ideal) S_ .f32 0x00000000#32) reducesTo_S1024x200x128_S1024x200_d2 h_S_ (ix2 b s)
      = Ideal.ofBits .f32 0x00000000#32 + ∑ k : Fin 128, x (ix3 b s k) := by
  have h : S1024x200x128.Reduces [2] S1024x200 := by decide
  have hl : ∀ k : Fin 128, h.lift (ix2 b s) k = ix3 b s k := fun k => by
    funext a; refine Fin.ext ?_
    match a with | ⟨0, _⟩ => rfl | ⟨1, _⟩ => rfl | ⟨2, _⟩ => rfl
  rw [hostReduceAdd_apply, Ideal.hostReduceAdd_single _ h]
  show Ideal.ofBits .f32 0x00000000#32 + ∑ k : Fin 128, x (h.lift (ix2 b s) k) = _
  simp only [hl]

theorem mean_apply (x : FVec Ideal S1024x200x128 .f32) (b : Fin 1024) (s : Fin 200) (z : Fin 1) :
    mean x (ix3 b s z) = meanOf (fun k => x (ix3 b s k)) := by
  unfold mean meanOf
  rw [hostDivf_apply, bc_col, rowSum_apply, broadcastInDim_scalar_apply]
  rfl

theorem centered_apply (x : FVec Ideal S1024x200x128 .f32) (b : Fin 1024) (s : Fin 200) (e : Fin 128) :
    centered x (ix3 b s e) = x (ix3 b s e) - meanOf (fun k => x (ix3 b s k)) := by
  unfold centered
  rw [subf_apply, bc_keep, mean_apply]

theorem var_apply (x : FVec Ideal S1024x200x128 .f32) (b : Fin 1024) (s : Fin 200) (z : Fin 1) :
    var x (ix3 b s z) = varOf (fun k => x (ix3 b s k)) := by
  unfold var varOf
  rw [hostDivf_apply, bc_col, rowSum_apply, broadcastInDim_scalar_apply]
  simp only [mulf_apply, centered_apply]
  rfl

theorem normed_apply (x : FVec Ideal S1024x200x128 .f32) (b : Fin 1024) (s : Fin 200) (e : Fin 128) :
    normed x (ix3 b s e)
      = Ideal.div (x (ix3 b s e) - meanOf (fun k => x (ix3 b s k)))
          (Ideal.sqrt (varOf (fun k => x (ix3 b s k)) + Ideal.ofBits .f32 0x3727C5AC#32)) := by
  unfold normed
  rw [hostDivf_apply, centered_apply, bc_keep]
  show Ideal.div _ (Ideal.sqrt (var x (ix3 b s (0 : Fin 1))
    + broadcastInDim S1024x200x1 ![] bcast_S_S1024x200x1 (constant (F := Ideal) S_ .f32 0x3727C5AC#32) (ix3 b s (0 : Fin 1)))) = _
  rw [var_apply, broadcastInDim_scalar_apply]
  rfl

/-- THE RESULT AT `(b, s, e)`: the layer normalisation of the summed row, at column `e`. -/
theorem out_apply (ids tt : IVec S1024x200 32) (tokT : FVec Ideal S100000x128 .f32) (posT : FVec Ideal S512x128 .f32)
    (segT : FVec Ideal S2x128 .f32) (gamma beta : FVec Ideal S128 .f32)
    (hids : ∀ i, (ids i).toNat ≤ 99999) (htt : ∀ i, (tt i).toNat ≤ 1) (b : Fin 1024) (s : Fin 200) (e : Fin 128) :
    out (F := Ideal) ids tt tokT posT segT gamma beta (ix3 b s e)
      = lnAt (fun k => embAt tokT posT segT (tokRow ids hids b s) (posRow s) (segRow tt htt b s) k) gamma beta e := by
  have hrow : (fun k => emb (F := Ideal) ids tt tokT posT segT (ix3 b s k))
      = fun k => embAt tokT posT segT (tokRow ids hids b s) (posRow s) (segRow tt htt b s) k :=
    funext fun k => emb_apply ids tt tokT posT segT hids htt b s k
  unfold out lnAt
  rw [addf_apply, mulf_apply, normed_apply, bc_vec, bc_vec, hrow, emb_apply ids tt tokT posT segT hids htt]

end Cert.RefSide

end
-- ==== Proof.RefJoin.lean ====
/-
  The reference's result at an entry, under the precondition, in the multiplying arrangement: the reading of the
  program at an index, the precondition's ranges and finiteness, and the law between the two arrangements, joined.
-/
import proofs.«200098_g2130303779034_cont_8to1_582_42_alg».proof.Proof.RefRead
import proofs.«200098_g2130303779034_cont_8to1_582_42_alg».proof.Proof.RefLaw
import proofs.«200098_g2130303779034_cont_8to1_582_42_alg».proof.Proof.RefPre

noncomputable section

namespace Cert.RefSide

open Cert.ReferenceIdeal Idealize.ShloMosaic Idealize.ShloMosaic.ValueIdx

/-- A summed row of three real entries is a real number. -/
theorem embAt_real (tokT : FVec Ideal ⟨2, ![100000, 128]⟩ .f32) (posT : FVec Ideal ⟨2, ![512, 128]⟩ .f32)
    (segT : FVec Ideal ⟨2, ![2, 128]⟩ .f32) (h2 : ∀ i, ∃ r : ℝ, tokT i = (r : EReal))
    (h3 : ∀ i, ∃ r : ℝ, posT i = (r : EReal)) (h4 : ∀ i, ∃ r : ℝ, segT i = (r : EReal)) (r : Fin 100000) (p : Fin 512)
    (g : Fin 2) (k : Fin 128) : ∃ y : ℝ, embAt tokT posT segT r p g k = (y : EReal) := by
  obtain ⟨y2, e2⟩ := h2 (ix2 r k)
  obtain ⟨y3, e3⟩ := h3 (ix2 p k)
  obtain ⟨y4, e4⟩ := h4 (ix2 g k)
  refine ⟨y2 + y3 + y4, ?_⟩
  unfold embAt
  rw [e2, e3, e4, EReal.coe_add, EReal.coe_add]

/-- THE REFERENCE AT `(b, s, e)`, UNDER THE PRECONDITION, in the multiplying arrangement. -/
theorem out_eq_lnAtK (ids tt : IVec S1024x200 32) (tokT : FVec Ideal S100000x128 .f32) (posT : FVec Ideal S512x128 .f32)
    (segT : FVec Ideal S2x128 .f32) (gamma beta : FVec Ideal S128 .f32)
    (h : Cert.Pre_input_domain.fn (F := Ideal) ids tt tokT posT segT gamma beta = (fun _ => 1#1))
    (b : Fin 1024) (s : Fin 200) (e : Fin 128) :
    out (F := Ideal) ids tt tokT posT segT gamma beta (ix3 b s e)
      = lnAtK (fun k => embAt tokT posT segT
          (tokRow ids (ids_range (F := Ideal) ids tt tokT posT segT gamma beta h) b s) (posRow s)
          (segRow tt (tt_range (F := Ideal) ids tt tokT posT segT gamma beta h) b s) k) gamma beta e := by
  obtain ⟨f2, f3, f4, f5, f6⟩ := finite_args ids tt tokT posT segT gamma beta h
  rw [out_apply ids tt tokT posT segT gamma beta (ids_range (F := Ideal) ids tt tokT posT segT gamma beta h)
    (tt_range (F := Ideal) ids tt tokT posT segT gamma beta h) b s e]
  exact lnAt_eq_lnAtK _ gamma beta e (fun k => embAt_real tokT posT segT f2 f3 f4 _ _ _ k) (f5 (ix1 e)) (f6 (ix1 e))

end Cert.RefSide

end
-- ==== Proof.RefEmb.lean ====
/-
  The segment row chosen by a test. One arrangement looks the segment row up in the two-row table at the segment id;
  the other tests "id = 0" and takes row 0 where it holds, row 1 elsewhere. For an id that is 0 or 1 the two agree:
  the word zero has value 0 and names row 0; a word of value at most 1 that is not zero has value 1 and names row 1.
-/
import proofs.«200098_g2130303779034_cont_8to1_582_42_alg».proof.Proof.RefSpec
import Idealize.ShloMosaic.Lib.Affine

noncomputable section

namespace Cert.RefSide

open Idealize.ShloMosaic Idealize.ShloMosaic.ValueIdx

/-- The chosen entry: row 0's where the word is zero, row 1's elsewhere, is the entry of the row the word names. -/
theorem seg_choice {α : Type} (segT : (⟨2, ![2, 128]⟩ : Shape).Idx → α) (w : BitVec 32) (hw : w.toNat ≤ 1)
    (k : Fin 128) :
    Scalar.select (IntOp.cmpi .eq w 0#32) (segT (ix2 (0 : Fin 2) k)) (segT (ix2 (1 : Fin 2) k))
      = segT (ix2 (⟨w.toNat, Nat.lt_succ_of_le hw⟩ : Fin 2) k) := by
  by_cases h0 : w = 0#32
  · subst h0
    rw [IntOp.cmpi_eq.2 rfl, select_one]
    rfl
  · have hne : ¬ IntOp.cmpi .eq w 0#32 = 1#1 := fun h => h0 (IntOp.cmpi_eq.1 h)
    rw [eq_zero_of_ne_one hne, select_zero]
    have h1 : w.toNat = 1 := by
      have : w.toNat ≠ 0 := fun h => h0 (BitVec.eq_of_toNat_eq (by rw [h]; rfl))
      omega
    exact congrArg (fun r : Fin 2 => segT (ix2 r k)) (Fin.ext h1.symm)

/-- Column `k` of the summed row with the segment row chosen by the test on the segment id's word `w`. -/
def embK (tokT : FVec Ideal ⟨2, ![100000, 128]⟩ .f32) (posT : FVec Ideal ⟨2, ![512, 128]⟩ .f32)
    (segT : FVec Ideal ⟨2, ![2, 128]⟩ .f32) (r : Fin 100000) (p : Fin 512) (w : BitVec 32) (k : Fin 128) : EReal :=
  tokT (ix2 r k) + posT (ix2 p k)
    + Scalar.select (IntOp.cmpi .eq w 0#32) (segT (ix2 (0 : Fin 2) k)) (segT (ix2 (1 : Fin 2) k))

/-- With the id 0 or 1 it is the summed row at the segment row the id names. -/
theorem embK_eq (tokT : FVec Ideal ⟨2, ![100000, 128]⟩ .f32) (posT : FVec Ideal ⟨2, ![512, 128]⟩ .f32)
    (segT : FVec Ideal ⟨2, ![2, 128]⟩ .f32) (r : Fin 100000) (p : Fin 512) (w : BitVec 32) (hw : w.toNat ≤ 1)
    (k : Fin 128) :
    embK tokT posT segT r p w k = embAt tokT posT segT r p (⟨w.toNat, Nat.lt_succ_of_le hw⟩ : Fin 2) k := by
  unfold embK embAt
  rw [seg_choice segT w hw k]

/-- The same at entry `(b, s)` of the segment ids. -/
theorem embK_segRow (tokT : FVec Ideal ⟨2, ![100000, 128]⟩ .f32) (posT : FVec Ideal ⟨2, ![512, 128]⟩ .f32)
    (segT : FVec Ideal ⟨2, ![2, 128]⟩ .f32) (r : Fin 100000) (p : Fin 512) (tt : IVec ⟨2, ![1024, 200]⟩ 32)
    (htt : ∀ i, (tt i).toNat ≤ 1) (b : Fin 1024) (s : Fin 200) (k : Fin 128) :
    embK tokT posT segT r p (tt (ix2 b s)) k = embAt tokT posT segT r p (segRow tt htt b s) k :=
  embK_eq tokT posT segT r p (tt (ix2 b s)) (htt (ix2 b s)) k

end Cert.RefSide

end
-- ==== Proof.Bridge.lean ====
/-
  The two programs' results agree entry by entry.

  The kernel's layer-norm call is entered with: the gathered rows, regrouped as 1024 x 200 rows of 128 (row (b, s) is
  gathered row 200 b + s, which is the token table's row named by the id at (b, s)); the segment ids; the first 200
  rows of the position table; the segment table; the scale and shift vectors as 1 x 128 rows. Its result at (b, s, e) is
  the multiplying arrangement of the row normalisation applied to the summed row token + position + chosen segment
  row. Under the precondition (every id in range, every float finite) that is the reference's result at (b, s, e): the
  summed rows are the same row (the segment row chosen by the test "id = 0" is the row the id names), and the reference's
  dividing arrangement equals the multiplying one.
-/
import proofs.«200098_g2130303779034_cont_8to1_582_42_alg».proof.Proof.TcValueRef
import proofs.«200098_g2130303779034_cont_8to1_582_42_alg».proof.Proof.RefJoin
import proofs.«200098_g2130303779034_cont_8to1_582_42_alg».proof.Proof.RefEmb
import proofs.«200098_g2130303779034_cont_8to1_582_42_alg».proof.Proof.RefFlat

noncomputable section

namespace Cert.Bridge

open Idealize.ShloMosaic Idealize.ShloMosaic.ValueIdx
open Cert.ReferenceIdeal (S1024x200 S100000x128 S512x128 S2x128 S128 S1024x200x128)
open Cert.KernelIdeal (S204800 S204800x128 S200x128 S1x128)
open Cert.KernelIdeal.Tc (embArr rowVec)
open Cert.RefSide (tokRow posRow segRow)

/-- Row (b, s) is flat row 200 b + s. -/
theorem flat_lt (b : Fin 1024) (s : Fin 200) : 200 * b.val + s.val < 204800 := by have := b.isLt; have := s.isLt; omega

/-- The flat list of ids at 200 b + s is the id at (b, s). -/
theorem flat_read (ids : IVec S1024x200 32) (hflat : S1024x200.ShapeCasts S204800) (b : Fin 1024) (s : Fin 200) :
    shapeCast S204800 ids hflat (ix1 (⟨200 * b.val + s.val, flat_lt b s⟩ : Fin 204800)) = ids (ix2 b s) :=
  shapeCast_apply ids hflat _ _ (by
    rw [Shape.rowMajor_val_two, Shape.rowMajor_val_one]
    show b.val * 200 + s.val = 200 * b.val + s.val
    omega)

/-- The gathered rows regrouped: row (b, s) is the token table's row the id at (b, s) names. -/
theorem tok_read (ids : IVec S1024x200 32) (hids : ∀ i, (ids i).toNat ≤ 99999) (tokT : FVec Ideal S100000x128 .f32)
    (hflat : S1024x200.ShapeCasts S204800) (hG3 : S204800x128.ShapeCasts S1024x200x128) (G : Vec Ideal S204800x128 .f32)
    (hlt : ∀ j : S204800.Idx, (shapeCast S204800 ids hflat j).toNat < 100000)
    (hG : ∀ (n : Fin 204800) (k : Fin 128),
      G (ix2 n k) = tokT (ix2 (⟨(shapeCast S204800 ids hflat (ix1 n)).toNat, hlt (ix1 n)⟩ : Fin 100000) k))
    (b : Fin 1024) (s : Fin 200) (k : Fin 128) :
    shapeCast S1024x200x128 G hG3 (ix3 b s k) = tokT (ix2 (tokRow ids hids b s) k) := by
  refine (shapeCast_apply G hG3 (ix3 b s k) (ix2 (⟨200 * b.val + s.val, flat_lt b s⟩ : Fin 204800) k) (by
    rw [Shape.rowMajor_val_two, Shape.rowMajor_val_three]
    show (200 * b.val + s.val) * 128 + k.val = (b.val * 200 + s.val) * 128 + k.val
    omega)).trans ?_
  rw [hG]
  refine congrArg (fun r : Fin 100000 => tokT (ix2 r k)) (Fin.ext ?_)
  show (shapeCast S204800 ids hflat (ix1 (⟨200 * b.val + s.val, flat_lt b s⟩ : Fin 204800))).toNat = (ids (ix2 b s)).toNat
  rw [flat_read]

/-- The first 200 rows of the position table: row s is row s. -/
theorem pos_read (posT : FVec Ideal S512x128 .f32) (hpos : S512x128.Slices ![0, 0] S200x128) (s : Fin 200) (k : Fin 128) :
    extractStridedSlice S200x128 ![0, 0] posT hpos (ix2 s k) = posT (ix2 (posRow s) k) :=
  extractStridedSlice_apply _ posT hpos _ _ (fun a => by
    match a with
    | ⟨0, _⟩ => show s.val = 0 + s.val; omega
    | ⟨1, _⟩ => show k.val = 0 + k.val; omega)

/-- A vector of 128 laid out as a 1 x 128 row and read back as a vector is the vector. -/
theorem rowVec_cast (g : FVec Ideal S128 .f32) (hrow : S128.ShapeCasts S1x128) : rowVec (shapeCast S1x128 g hrow) = g := by
  funext j
  unfold Cert.KernelIdeal.Tc.rowVec
  refine (shapeCast_a_1a_apply g hrow (0 : Fin 1) (j 0)).trans ?_
  exact congrArg g (eq_ix1 j).symm

/-- THE BRIDGE: the kernel's entry (b, s, e), from the arrays its layer-norm call is entered with, is the reference's. -/
theorem bridge (ids tt : IVec S1024x200 32) (tokT : FVec Ideal S100000x128 .f32) (posT : FVec Ideal S512x128 .f32)
    (segT : FVec Ideal S2x128 .f32) (gamma beta : FVec Ideal S128 .f32)
    (h : Cert.Pre_input_domain.fn (F := Ideal) ids tt tokT posT segT gamma beta = (fun _ => 1#1))
    (hflat : S1024x200.ShapeCasts S204800) (hG3 : S204800x128.ShapeCasts S1024x200x128)
    (hpos : S512x128.Slices ![0, 0] S200x128) (hrow : S128.ShapeCasts S1x128)
    (G : Vec Ideal S204800x128 .f32)
    (hlt : ∀ j : S204800.Idx, (shapeCast S204800 ids hflat j).toNat < 100000)
    (hG : ∀ (n : Fin 204800) (k : Fin 128),
      G (ix2 n k) = tokT (ix2 (⟨(shapeCast S204800 ids hflat (ix1 n)).toNat, hlt (ix1 n)⟩ : Fin 100000) k))
    (b : Fin 1024) (s : Fin 200) (e : Fin 128) :
    Cert.RefSide.lnAtK
        (fun k => embArr (shapeCast S1024x200x128 G hG3) tt (extractStridedSlice S200x128 ![0, 0] posT hpos) segT b s k)
        (rowVec (shapeCast S1x128 gamma hrow)) (rowVec (shapeCast S1x128 beta hrow)) e
      = Cert.RefSide.out (F := Ideal) ids tt tokT posT segT gamma beta (ix3 b s e) := by
  rw [Cert.RefSide.out_eq_lnAtK ids tt tokT posT segT gamma beta h b s e, rowVec_cast, rowVec_cast]
  have hx : (fun k => embArr (shapeCast S1024x200x128 G hG3) tt (extractStridedSlice S200x128 ![0, 0] posT hpos) segT b s k)
      = fun k => Cert.RefSide.embAt tokT posT segT
          (tokRow ids (Cert.RefSide.ids_range (F := Ideal) ids tt tokT posT segT gamma beta h) b s) (posRow s)
          (segRow tt (Cert.RefSide.tt_range (F := Ideal) ids tt tokT posT segT gamma beta h) b s) k := funext fun k => by
    rw [← Cert.RefSide.embK_segRow tokT posT segT _ _ tt _ b s k]
    unfold Cert.KernelIdeal.Tc.embArr Cert.RefSide.embK
    rw [tok_read ids (Cert.RefSide.ids_range (F := Ideal) ids tt tokT posT segT gamma beta h) tokT hflat hG3 G hlt hG b s k,
      pos_read posT hpos s k]
  rw [hx]

end Cert.Bridge

end
-- ==== Proof.KerValue.lean ====
/-
  The idealized kernel program's run with its result read: under the precondition, the result array ends holding the
  reference's closed form of the seven arguments, entry by entry, and the arguments end unchanged.

  After the gather, the gathered array's row n is the token table's row named by word n of the flattened ids. The host
  operations make of it, and of the arguments, the seven arrays the layer-norm call is entered with: the gathered rows
  regrouped, the segment ids, the first 200 position rows, the segment table, the scale and shift vectors as rows. The
  call leaves the result array at the row normalisation of the summed rows (its proof data's final array, read entry
  by entry), and that is the reference's result at every entry.
-/
import proofs.«200098_g2130303779034_cont_8to1_582_42_alg».proof.Proof.ScMainV
import proofs.«200098_g2130303779034_cont_8to1_582_42_alg».proof.Proof.ScFrame
import proofs.«200098_g2130303779034_cont_8to1_582_42_alg».proof.Proof.Bridge

noncomputable section

namespace Cert.KernelIdeal.ScV

open Cert.KernelIdeal Cert.KernelIdeal.Gen Cert.KernelIdeal.Sc

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-! ## The arrays the layer-norm call is entered with, read through the host operations -/

section Reads

variable {F : FTy → Type} [FloatOps F]
variable (m : (ℓ : Loc nD τ sig) → Buf (Elt F) ℓ)

theorem rr_not_mem {x y : Ref sig .tc} (h : x ≠ y) : rr x ∉ ({rr y} : Finset (DevRef τ sig)) :=
  fun hm => h (Proc.devRef_injective _ (Finset.mem_singleton.mp hm))

/-- The gathered array regrouped as 1024 x 200 rows. -/
theorem V6_v5 (d : Dev nD) (f : Buf (Elt F) (oLoc d)) :
    V6 m d f (rr main_v5) = shapeCast S1024x200x128 f shapeCasts_S204800x128_S1024x200x128 := by
  show (op5 (F := F)).result (V5 m d f) (rr main_v5) = _
  rw [StableHlo.reshape_result]
  rw [show V5 m d f (rr main_v4) = f from Function.update_self _ _ _]
  rfl

/-- The first 200 rows of the position table. -/
theorem V6_v0 (d : Dev nD) (f : Buf (Elt F) (oLoc d)) :
    V6 m d f (rr main_v0) = extractStridedSlice S200x128 ![0, 0] (m ((SparseCore.T d).loc main_arg3)) slices_S512x128_S200x128_0_0 := by
  unfold V6 V5 V4
  rw [(op5 (F := F)).result_of_not_mem _ (rr_not_mem (show main_v0 ≠ main_v5 by decide)),
    Function.update_of_ne (fun e => (show main_v0 ≠ main_v4 by decide) (Proc.devRef_injective _ e)),
    (op3 (F := F)).result_of_not_mem _ (rr_not_mem (show main_v0 ≠ main_v3 by decide)),
    (op2 (F := F)).result_of_not_mem _ (rr_not_mem (show main_v0 ≠ main_v2 by decide)),
    (op1 (F := F)).result_of_not_mem _ (rr_not_mem (show main_v0 ≠ main_v1 by decide))]
  show (op0 (F := F)).result (V0 m d) (rr main_v0) = _
  rw [StableHlo.unary_result]

/-- The scale vector as a 1 x 128 row. -/
theorem V6_v1 (d : Dev nD) (f : Buf (Elt F) (oLoc d)) :
    V6 m d f (rr main_v1) = shapeCast S1x128 (m ((SparseCore.T d).loc main_arg5)) shapeCasts_S128_S1x128 := by
  unfold V6 V5 V4
  rw [(op5 (F := F)).result_of_not_mem _ (rr_not_mem (show main_v1 ≠ main_v5 by decide)),
    Function.update_of_ne (fun e => (show main_v1 ≠ main_v4 by decide) (Proc.devRef_injective _ e)),
    (op3 (F := F)).result_of_not_mem _ (rr_not_mem (show main_v1 ≠ main_v3 by decide)),
    (op2 (F := F)).result_of_not_mem _ (rr_not_mem (show main_v1 ≠ main_v2 by decide))]
  show (op1 (F := F)).result ((op0 (F := F)).result (V0 m d)) (rr main_v1) = _
  rw [StableHlo.reshape_result]
  rw [(op0 (F := F)).result_of_not_mem _ (rr_not_mem (show main_arg5 ≠ main_v0 by decide))]
  rfl

/-- The shift vector as a 1 x 128 row. -/
theorem V6_v2 (d : Dev nD) (f : Buf (Elt F) (oLoc d)) :
    V6 m d f (rr main_v2) = shapeCast S1x128 (m ((SparseCore.T d).loc main_arg6)) shapeCasts_S128_S1x128 := by
  unfold V6 V5 V4
  rw [(op5 (F := F)).result_of_not_mem _ (rr_not_mem (show main_v2 ≠ main_v5 by decide)),
    Function.update_of_ne (fun e => (show main_v2 ≠ main_v4 by decide) (Proc.devRef_injective _ e)),
    (op3 (F := F)).result_of_not_mem _ (rr_not_mem (show main_v2 ≠ main_v3 by decide))]
  show (op2 (F := F)).result ((op1 (F := F)).result ((op0 (F := F)).result (V0 m d))) (rr main_v2) = _
  rw [StableHlo.reshape_result]
  rw [(op1 (F := F)).result_of_not_mem _ (rr_not_mem (show main_arg6 ≠ main_v1 by decide)),
    (op0 (F := F)).result_of_not_mem _ (rr_not_mem (show main_arg6 ≠ main_v0 by decide))]
  rfl

end Reads

/-! ## The result array is the reference's result -/

section Value

variable (m : (ℓ : Loc nD τ sig) → Buf (Elt Ideal) ℓ) (ρ : Dev nD → PrngReg)
variable (g : (d : Dev nD) → Buf (Elt Ideal) (oLoc d))

/-- Entry (b, s, e) of the result array after the call, on a device whose arguments satisfy the precondition and whose
    gathered array holds, in row n, the table's row named by word n of the flattened ids. -/
theorem value_at (d : Dev nD)
    (hpre : Cert.Pre_input_domain.fn (F := Ideal) (m ((SparseCore.T d).loc main_arg0)) (m ((SparseCore.T d).loc main_arg1))
      (m ((SparseCore.T d).loc main_arg2)) (m ((SparseCore.T d).loc main_arg3)) (m ((SparseCore.T d).loc main_arg4))
      (m ((SparseCore.T d).loc main_arg5)) (m ((SparseCore.T d).loc main_arg6)) = (fun _ => 1#1))
    (hfi : ∀ j, (fiOf m d j).toNat < 100000)
    (hg : ∀ (n : Fin 204800) (k : Fin 128), g d (ix2 n k) = m (tLoc d) (ix2 (⟨(fiOf m d (ix1 n)).toNat, hfi (ix1 n)⟩ : Fin 100000) k))
    (b : Fin 1024) (s : Fin 200) (e : Fin 128) :
    resOf m g d (ix3 b s e)
      = Cert.RefSide.out (F := Ideal) (m ((SparseCore.T d).loc main_arg0)) (m ((SparseCore.T d).loc main_arg1))
          (m ((SparseCore.T d).loc main_arg2)) (m ((SparseCore.T d).loc main_arg3)) (m ((SparseCore.T d).loc main_arg4))
          (m ((SparseCore.T d).loc main_arg5)) (m ((SparseCore.T d).loc main_arg6)) (ix3 b s e) := by
  refine (Tc.final6_at (Name := ℕ) (U := UU) (Lvl := ℕ) (Vt m d (g d)) (B8 (F := Ideal) d) d b s e).trans ?_
  show Cert.RefSide.lnAtK (fun k => Tc.embArr (V6 m d (g d) (rr main_v5)) (V6 m d (g d) (rr main_arg1)) (V6 m d (g d) (rr main_v0)) (V6 m d (g d) (rr main_arg4)) b s k)
      (Tc.rowVec (V6 m d (g d) (rr main_v1))) (Tc.rowVec (V6 m d (g d) (rr main_v2))) e = _
  rw [V6_v5, V6_v0, V6_v1, V6_v2, V6_arg m d (g d) main_arg1 (by decide), V6_arg m d (g d) main_arg4 (by decide)]
  refine Cert.Bridge.bridge _ _ _ _ _ _ _ hpre shapeCasts_S1024x200_S204800 shapeCasts_S204800x128_S1024x200x128
    slices_S512x128_S200x128_0_0 shapeCasts_S128_S1x128 (g d)
    (fun j => by rw [← fiOf_apply]; exact hfi j) (fun n k => ?_) b s e
  rw [hg n k]
  refine congrArg (fun r : Fin 100000 => m (tLoc d) (ix2 r k)) (Fin.ext ?_)
  exact congrArg BitVec.toNat (fiOf_apply m d (ix1 n))

/-- The run with the result read, over a tile's run that names what it leaves and the gathered contents' row law. -/
theorem run_value_of (hpre : Cert.Pre_KernelIdeal (hPre_input_domain := Cert.Pre_input_domain.Gen.facts) m)
    (hfi : ∀ d j, (fiOf m d j).toNat < 100000)
    (hrun : TileRunVal (fiOf m) (fun d => m (tLoc d)) (fun d => m (oLoc d)) g)
    (hg : ∀ (d : Dev nD) (n : Fin 204800) (k : Fin 128), g d (ix2 n k) = m (tLoc d) (ix2 (⟨(fiOf m d (ix1 n)).toNat, hfi d (ix1 n)⟩ : Fin 100000) k)) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v6)
          = Cert.RefSide.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (funext fun i => by
        obtain ⟨b, s, e, rfl⟩ : ∃ (b : Fin 1024) (s : Fin 200) (e : Fin 128), i = ix3 b s e := ⟨i 0, i 1, i 2, eq_ix3 i⟩
        exact value_at m g c (hpre c) (hfi c) (hg c) b s e),
      (h c).2 main_arg0 (by decide), (h c).2 main_arg1 (by decide), (h c).2 main_arg2 (by decide), (h c).2 main_arg3 (by decide),
      (h c).2 main_arg4 (by decide), (h c).2 main_arg5 (by decide), (h c).2 main_arg6 (by decide)⟩)
    (run_main_val (F := Ideal) m ρ g hrun)

end Value

end Cert.KernelIdeal.ScV

end
-- ==== Proof.ScTileVal.lean ====
/-
  One vector subcore's task of the gather kernel, run once at a symbolic tile (c, s), with the contents it leaves NAMED:
  the tile's 6400 rows of the gathered array hold, row by row, the table's rows its words of the flat index list name.

  The tile writes its rows out in 32 windows of 200 rows, window r at rows [12800 s + 6400 c + 200 r, + 200). A window's
  payload is what its row buffer held when it was written out — the last gather into that buffer, whatever the buffer
  held before — and a gather's payload at (k, e) is the table at the row its list's word k names, column e. The list of
  window r is words [200 r, 200 r + 200) of the tile's copy of its 6400 words of the index list, and the tile's words
  are words [12800 s + 6400 c, + 6400) of the flat list: so row n of the window holds the table's row named by word n
  of the flat list. The windows are disjoint and cover the tile's rows: an element is read by peeling the windows off
  from the last written; one outside every window above the r-th lies below row 200 r of the tile, and none lies below
  row 0.
-/
import proofs.«200098_g2130303779034_cont_8to1_582_42_alg».proof.Proof.ScTile
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v3_scv : Memref Cert.KernelIdeal.sig Kind.scVector Space.hbm Cert.KernelIdeal.S204800 EltTy.i32)
local notation "tV" => (Memref.whole Cert.KernelIdeal.main_arg2_scv : Memref Cert.KernelIdeal.sig Kind.scVector Space.hbm Cert.KernelIdeal.S100000x128 EltTy.f32)
local notation "oV" => (Memref.whole Cert.KernelIdeal.main_v4_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "b0V" => (Memref.whole Cert.KernelIdeal.cc0_scratch1 : Memref Cert.KernelIdeal.sig Kind.scVector Space.vmem Cert.KernelIdeal.S200x128 EltTy.f32)
local notation "b1V" => (Memref.whole Cert.KernelIdeal.cc0_scratch2 : Memref Cert.KernelIdeal.sig Kind.scVector Space.vmem Cert.KernelIdeal.S200x128 EltTy.f32)
local notation "b2V" => (Memref.whole Cert.KernelIdeal.cc0_scratch3 : Memref Cert.KernelIdeal.sig Kind.scVector Space.vmem Cert.KernelIdeal.S200x128 EltTy.f32)
local notation "b3V" => (Memref.whole Cert.KernelIdeal.cc0_scratch4 : Memref Cert.KernelIdeal.sig Kind.scVector Space.vmem Cert.KernelIdeal.S200x128 EltTy.f32)

/-- The gathered array: row n is the table's row named by word n of the flat index list. -/
def gathered (fi : S204800.Idx → BitVec 32) (ft : S100000x128.Idx → Elt F .f32) (hfi : ∀ j, (fi j).toNat < 100000) :
    S204800x128.Idx → Elt F .f32 :=
  fun j => ft (ValueIdx.ix2 (⟨(fi (ValueIdx.ix1 (j 0))).toNat, hfi _⟩ : Fin 100000) (j 1))

/-- A row buffer read whole after a list of whole writes holds the last write's payload. -/
theorem head_read {κ : Kind} {sp : Space} (bv : View sig κ sp S200x128 .f32) (f : bv.ty.Contents (Elt F))
    (w : (Rect.whole S200x128).shape.Idx → Elt F .f32) (rest : List (View.Piece (Elt F) S200x128 .f32)) (x : S200x128.Idx) :
    ReadAs.same.apply (View.read (Elt F) bv (bv.writes (Elt F) f (⟨Rect.whole S200x128, w⟩ :: rest))) x = w x := by
  have h := View.read_writes_cons_emb bv f (Rect.whole S200x128) w rest x
  rwa [Rect.emb_whole_apply] at h

/-- One more window written: an element of the window reads the window's payload, any other element what was there. -/
theorem peel {κ : Kind} {sp : Space} {s : Shape} {e : EltTy} {Val : EltTy → Type} (v : View sig κ sp s e) (R : Rect s)
    (prev : v.ty.Contents Val) (pay : R.shape.Idx → Val e) (G : s.Idx → Val e) (y : s.Idx)
    (hpay : ∀ x, pay x = G (R.emb x)) (hprev : y ∉ R.set → v.read Val prev y = G y) :
    v.read Val ((v.slice R).write Val prev pay Finset.univ) y = G y := by
  by_cases hy : y ∈ R.set
  · obtain ⟨x, rfl⟩ : ∃ x, R.emb x = y := R.exists_idx_of_mem hy
    rw [View.read_slice_write_emb R prev pay (Finset.mem_univ x)]; exact hpay x
  · rw [View.read_slice_write_of_not_mem R prev pay Finset.univ (by rwa [Rect.map_emb_univ])]; exact hprev hy

/-- The first row of tile (c, s): 12800 s + 6400 c. -/
abbrev base (L : grid0.Coords) : Nat := 12800 * (L 1).val + 6400 * (L 0).val

theorem hoff_of (L : grid0.Coords) (k : Nat) (hk : k < 32) :
    k0_off2 L (BitVec.ofNat 32 (200 * k)) = ![(k0_off1 L) 0 + 200 * k, 0] := by
  rw [k0_off2_eq L ⟨k, hk⟩, k0_off1_eq L]; rfl

theorem mem_win (L : grid0.Coords) (k : Nat) (hk : k < 32) (inb) (y : S204800x128.Idx) :
    y ∈ (Rect.unit (s := S204800x128) (k0_off2 L (BitVec.ofNat 32 (200 * k))) S200x128.size inb).set
      ↔ base L + 200 * k ≤ (y 0).val ∧ (y 0).val < base L + 200 * k + 200 := by
  rw [Rect.mem_set_unit, k0_off2_eq L ⟨k, hk⟩, Fin.forall_fin_two]
  have h1 := (y 1).isLt
  have e1 : S204800x128.size 1 = 128 := rfl
  constructor
  · rintro ⟨⟨ha, hb⟩, -⟩
    exact ⟨ha, hb⟩
  · rintro ⟨ha, hb⟩
    refine ⟨⟨ha, hb⟩, ⟨Nat.zero_le _, ?_⟩⟩
    show (y 1).val < 0 + 128
    omega

theorem mem_tile (L : grid0.Coords) (y : S204800x128.Idx) (hy : y ∈ (oTileRect L).set) :
    base L ≤ (y 0).val ∧ (y 0).val < base L + 6400 := by
  have h := (Rect.mem_set_unit.mp hy) 0
  have e : k0_off2 L 0#32 = ![12800 * (L 1).val + 6400 * (L 0).val + 200 * ((0 : Fin 32) : Fin 32).val, 0] := k0_off2_eq L 0
  rw [e] at h
  have e0 : (![12800 * (L 1).val + 6400 * (L 0).val + 200 * ((0 : Fin 32) : Fin 32).val, 0] : Fin 2 → Nat) 0 = base L := rfl
  have e1 : S6400x128.size 0 = 6400 := rfl
  rw [e0, e1] at h
  exact h

theorem rowMajor_symm_one (n : Nat) (k : Fin (⟨1, ![n]⟩ : Shape).numel) :
    (((⟨1, ![n]⟩ : Shape).rowMajor.symm k) 0).val = k.val := by
  have := Shape.rowMajor_val_one ((⟨1, ![n]⟩ : Shape).rowMajor.symm k)
  rw [Equiv.apply_symm_apply] at this
  exact this.symm

variable [FloatOps F]

theorem gather_val (d : Dev nD) (L : grid0.Coords) (fi : Buf (Elt F) (iLoc d)) (ft : Buf (Elt F) (tLoc d)) (hfi : ∀ j, (fi j).toNat < 100000)
    (fs : Buf (Elt F) ((V d (cV L) (jV L)).loc cc0_scratch0)) (c : Nat) (w : BitVec 32)
    (hg : S100000x128.Gathers 0 S200x128)
    (ht1 : ∀ a, (![0, 0] : Fin 2 → Nat) a + S100000x128.size a ≤ S100000x128.size a) (ht2)
    (hc1 : ∀ a, (![c] : Fin 1 → Nat) a + S200.size a ≤ S6400.size a) (hc2)
    (hn : S200.numel = S200x128.size hg.axis')
    (hin' : ∀ x, (View.read (Elt F) ((sV).slice (Rect.unit ![c] S200.size hc1) hc2).view
        (View.write (Elt F) (sV).view fs (ReadAs.same.apply (View.read (Elt F) (iChunkK L).view fi)) Finset.univ) x).toNat < S100000x128.size hg.axis)
    (inb : ∀ a, (k0_off2 L w) a + S200x128.size a ≤ S204800x128.size a)
    (hoff : k0_off2 L w = ![(k0_off1 L) 0 + c, 0]) (x : S200x128.Idx) :
    SparseCore.gatherPayload hg (View.read (Elt F) ((tV).slice (Rect.unit ![0, 0] S100000x128.size ht1) ht2).view ft)
      (SparseCore.rows (View.read (Elt F) ((sV).slice (Rect.unit ![c] S200.size hc1) hc2).view
        (View.write (Elt F) (sV).view fs (ReadAs.same.apply (View.read (Elt F) (iChunkK L).view fi)) Finset.univ)) hn hin') x
      = gathered (F := F) fi ft hfi ((Rect.unit (s := S204800x128) (k0_off2 L w) S200x128.size inb).emb x) := by
  unfold SparseCore.gatherPayload gathered
  rw [show ∀ j, View.read (Elt F) ((tV).slice (Rect.unit ![0, 0] S100000x128.size ht1) ht2).view ft j
      = ft (((tV).slice (Rect.unit ![0, 0] S100000x128.size ht1) ht2).view.emb j) from fun j => (View.read_apply _ _).trans (cast_eq _ _)]
  refine congrArg ft (funext fun a => Fin.ext ?_)
  match a with
  | ⟨0, _⟩ =>
    show (0 + 1 * ((hg.idx (SparseCore.rows _ hn hin') x) hg.axis).val)
      = (fi (ValueIdx.ix1 ((Rect.unit (s := S204800x128) (k0_off2 L w) S200x128.size inb).emb x 0))).toNat
    rw [Shape.Gathers.idx_axis hg _ x]
    unfold SparseCore.rows
    show 0 + 1 * (View.read (Elt F) ((sV).slice (Rect.unit ![c] S200.size hc1) hc2).view
        (View.write (Elt F) (sV).view fs (ReadAs.same.apply (View.read (Elt F) (iChunkK L).view fi)) Finset.univ)
        (S200.rowMajor.symm ((x hg.axis').cast hn.symm))).toNat = _
    rw [View.write_whole_univ]
    rw [show ∀ (g : Buf (Elt F) ((V d (cV L) (jV L)).loc cc0_scratch0)) j,
        View.read (Elt F) ((sV).slice (Rect.unit ![c] S200.size hc1) hc2).view g j
          = g (((sV).slice (Rect.unit ![c] S200.size hc1) hc2).view.emb j) from
      fun g j => (View.read_apply _ _).trans (cast_eq _ _)]
    show 0 + 1 * (View.read (Elt F) (iChunkK L).view fi
        (((sV).slice (Rect.unit ![c] S200.size hc1) hc2).view.emb (S200.rowMajor.symm ((x hg.axis').cast hn.symm)))).toNat = _
    rw [show ∀ j, (iChunkK L).view.read (Elt F) fi j = fi ((iChunkK L).view.emb j) from
      fun j => (View.read_apply _ _).trans (cast_eq _ _)]
    rw [Nat.zero_add, Nat.one_mul]
    refine congrArg (fun j => (fi j).toNat) (funext fun b => Fin.ext ?_)
    have h0 : (k0_off2 L w) 0 = (k0_off1 L) 0 + c := by rw [hoff]; rfl
    have hm : ((S200.rowMajor.symm ((x hg.axis').cast hn.symm)) 0).val = (x 0).val := rowMajor_symm_one 200 _
    match b with
    | ⟨0, _⟩ =>
      show (k0_off1 L) 0 + 1 * (c + 1 * ((S200.rowMajor.symm ((x hg.axis').cast hn.symm)) 0).val)
        = (k0_off2 L w) 0 + 1 * (x 0).val
      rw [hm, h0]; omega
  | ⟨1, _⟩ =>
    show (0 + 1 * ((hg.idx (SparseCore.rows _ hn hin') x) (1 : Fin 2)).val)
      = ((Rect.unit (s := S204800x128) (k0_off2 L w) S200x128.size inb).emb x 1).val
    rw [Shape.Gathers.idx_of_ne hg _ x (1 : Fin 2) (by decide)]
    have h1 : (k0_off2 L w) 1 = 0 := by rw [hoff]; rfl
    show 0 + 1 * (x 1).val = (k0_off2 L w) 1 + 1 * (x 1).val
    rw [h1]

/-- An entry of the whole gathered array, read through the array's own view. -/
theorem start (f : (oV).view.ty.Contents (Elt F)) (G : S204800x128.Idx → Elt F .f32) (y : S204800x128.Idx)
    (h : View.read (Elt F) (oV).view f y = G y) : f ((oV).view.emb y) = G ((oV).view.emb y) :=
  (((View.read_apply (v := (oV).view) f y).trans (cast_eq _ _)).symm).trans h

set_option maxHeartbeats 4000000 in
/-- The task on vector subcore (L 0, L 1) of device d, from: its words of the index list (each below 100000), one read share
    of the table per gather cell, its 6400 rows of the gathered array, its five scratch buffers and nine cells at zero.
    It gives all of them back, the index list and the table as they were, and the tile's 6400 rows of the gathered array
    hold, row by row, the table's rows the tile's words name. -/
theorem tile_run_val (d : Dev nD) (L : grid0.Coords) (O : CellTallies nD τ sig (HIx 1)) (W : Waits sig (HIx 1)) (hO : ∀ g, O g none = 0)
    (fi : Buf (Elt F) (iLoc d)) (hfi : ∀ j, (fi j).toNat < 100000) (ft : Buf (Elt F) (tLoc d)) (q : PosShare TreeShare)
    (fo : Buf (Elt F) (oLoc d))
    (fs : Buf (Elt F) ((V d (cV L) (jV L)).loc cc0_scratch0))
    (f0 : Buf (Elt F) ((V d (cV L) (jV L)).loc cc0_scratch1)) (f1 : Buf (Elt F) ((V d (cV L) (jV L)).loc cc0_scratch2))
    (f2 : Buf (Elt F) ((V d (cV L) (jV L)).loc cc0_scratch3)) (f3 : Buf (Elt F) ((V d (cV L) (jV L)).loc cc0_scratch4)) :
    (iprop(levAts (K (F := F)).L (K (F := F)).lev
        ∗ ((iChunkK L).view.loc (V d (cV L) (jV L)) ↦[(iChunkK L).view.set]{fullShare} fi)
        ∗ ((tV).view.loc (V d (cV L) (jV L)) ↦{Transfers.shareTok q 19 cc0_scratch5.sem} ft)
        ∗ ((tV).view.loc (V d (cV L) (jV L)) ↦{Transfers.shareTok q 19 cc0_scratch6.sem} ft)
        ∗ ((tV).view.loc (V d (cV L) (jV L)) ↦{Transfers.shareTok q 19 cc0_scratch7.sem} ft)
        ∗ ((tV).view.loc (V d (cV L) (jV L)) ↦{Transfers.shareTok q 19 cc0_scratch8.sem} ft)
        ∗ ((oV).view.loc (V d (cV L) (jV L)) ↦[(oV).view.setOn (oTileRect L).set]{fullShare} fo)
        ∗ ((sV).view.loc (V d (cV L) (jV L)) ↦{fullShare} fs)
        ∗ ((b0V).view.loc (V d (cV L) (jV L)) ↦{fullShare} f0)
        ∗ ((b1V).view.loc (V d (cV L) (jV L)) ↦{fullShare} f1)
        ∗ ((b2V).view.loc (V d (cV L) (jV L)) ↦{fullShare} f2)
        ∗ ((b3V).view.loc (V d (cV L) (jV L)) ↦{fullShare} f3)
        ∗ semVal (cell d L cc0_scratch5.sem) 0 ∗ semVal (cell d L cc0_scratch6.sem) 0 ∗ semVal (cell d L cc0_scratch7.sem) 0
        ∗ semVal (cell d L cc0_scratch8.sem) 0 ∗ semVal (cell d L cc0_scratch9.sem) 0 ∗ semVal (cell d L cc0_scratch10.sem) 0
        ∗ semVal (cell d L cc0_scratch11.sem) 0 ∗ semVal (cell d L cc0_scratch12.sem) 0 ∗ semVal (cell d L cc0_scoped0.sem) 0
        ∗ owes (V d (cV L) (jV L)) O W) : sProp 𝕄)
      ⊢ wp frame (wpE (defs₀ (F := F)) 𝒱₀ (V d (cV L) (jV L)) none) Set.univ
          (cc0_gather_k L iV (Memref.isWhole_whole _) tV (Memref.isWhole_whole _) oV (Memref.isWhole_whole _)
            sV (Memref.isWhole_whole _) b0V (Memref.isWhole_whole _) b1V (Memref.isWhole_whole _) b2V (Memref.isWhole_whole _) b3V (Memref.isWhole_whole _)
            cc0_scratch5 cc0_scratch6 cc0_scratch7 cc0_scratch8 cc0_scratch9 cc0_scratch10 cc0_scratch11 cc0_scratch12 cc0_scoped0)
          fun _ => iprop(((iChunkK L).view.loc (V d (cV L) (jV L)) ↦[(iChunkK L).view.set]{fullShare} fi)
            ∗ ((tV).view.loc (V d (cV L) (jV L)) ↦{Transfers.shareTok q 19 cc0_scratch5.sem} ft)
            ∗ ((tV).view.loc (V d (cV L) (jV L)) ↦{Transfers.shareTok q 19 cc0_scratch6.sem} ft)
            ∗ ((tV).view.loc (V d (cV L) (jV L)) ↦{Transfers.shareTok q 19 cc0_scratch7.sem} ft)
            ∗ ((tV).view.loc (V d (cV L) (jV L)) ↦{Transfers.shareTok q 19 cc0_scratch8.sem} ft)
            ∗ (∃ f, ((oV).view.loc (V d (cV L) (jV L)) ↦[(oV).view.setOn (oTileRect L).set]{fullShare} f)
                ∗ ⌜∀ i ∈ (oV).view.setOn (oTileRect L).set, f i = gathered (F := F) fi ft hfi i⌝)
            ∗ (∃ f, (sV).view.loc (V d (cV L) (jV L)) ↦{fullShare} f)
            ∗ (∃ f, (b0V).view.loc (V d (cV L) (jV L)) ↦{fullShare} f)
            ∗ (∃ f, (b1V).view.loc (V d (cV L) (jV L)) ↦{fullShare} f)
            ∗ (∃ f, (b2V).view.loc (V d (cV L) (jV L)) ↦{fullShare} f)
            ∗ (∃ f, (b3V).view.loc (V d (cV L) (jV L)) ↦{fullShare} f)
            ∗ semVal (cell d L cc0_scratch5.sem) 0 ∗ semVal (cell d L cc0_scratch6.sem) 0 ∗ semVal (cell d L cc0_scratch7.sem) 0
            ∗ semVal (cell d L cc0_scratch8.sem) 0 ∗ semVal (cell d L cc0_scratch9.sem) 0 ∗ semVal (cell d L cc0_scratch10.sem) 0
            ∗ semVal (cell d L cc0_scratch11.sem) 0 ∗ semVal (cell d L cc0_scratch12.sem) 0 ∗ semVal (cell d L cc0_scoped0.sem) 0
            ∗ ∃ W', ⌜∀ p ∈ W', p ∈ W ∨ p.2 = none⌝ ∗ owes (V d (cV L) (jV L)) O W') := by
  iintro ⟨#Hlv, Hi, Ht0, Ht1, Ht2, Ht3, Ho, Hs, Hb0, Hb1, Hb2, Hb3, Hs5, Hs6, Hs7, Hs8, Hs9, Hs10, Hs11, Hs12, Hsc, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_unfold [cc0_gather_k]
  -- the index fetch and its wait; the run stops at the first gather, whose list is what the fetch landed
  sl_exec_parts
  have hin : ∀ (R : Rect S6400) (hR : ∀ a, R.stride a = 1) (x : R.shape.Idx),
      BitVec.toNat (View.read (Elt F) ((sV).slice R hR).view (View.write (Elt F) (sV).view fs (tile_run_val.sl.dma0 d L fi) Finset.univ) x) < 100000 :=
    fun R hR => inb_of_fi d L fi hfi fs _ rfl R hR
  -- the 32 gathers, the 32 write-outs and their waits
  sl_exec_parts
  sl_step
  isplitl [Hi]; · iexact Hi
  isplitl [Ht0]; · iexact Ht0
  isplitl [Ht1]; · iexact Ht1
  isplitl [Ht2]; · iexact Ht2
  isplitl [Ht3]; · iexact Ht3
  isplitl [Ho]
  · iexists _
    isplitl [Ho]; · iexact Ho
    ipureintro
    intro i hi
    obtain ⟨y, hy, rfl⟩ := Finset.mem_map.mp hi
    obtain ⟨hlb, hub32⟩ := mem_tile L y hy
    refine start _ (gathered (F := F) fi ft hfi) y ?_
    sl_unfold_run_names
    -- window 31: rows [200·31, 200·31 + 200) of the tile
    refine peel (oV).view _ _ _ (gathered (F := F) fi ft hfi) y
      (fun x => (head_read _ _ _ _ x).trans
        (gather_val d L fi ft hfi fs _ _ _ _ _ _ _ _ _ _ (hoff_of L 31 (by decide)) x)) (fun hk => ?_)
    have hub31 : (y 0).val < base L + 200 * 31 := by
      have := (mem_win L 31 (by decide) _ y).not.mp hk
      omega
    clear hk hub32
    -- window 30: rows [200·30, 200·30 + 200) of the tile
    refine peel (oV).view _ _ _ (gathered (F := F) fi ft hfi) y
      (fun x => (head_read _ _ _ _ x).trans
        (gather_val d L fi ft hfi fs _ _ _ _ _ _ _ _ _ _ (hoff_of L 30 (by decide)) x)) (fun hk => ?_)
    have hub30 : (y 0).val < base L + 200 * 30 := by
      have := (mem_win L 30 (by decide) _ y).not.mp hk
      omega
    clear hk hub31
    -- window 29: rows [200·29, 200·29 + 200) of the tile
    refine peel (oV).view _ _ _ (gathered (F := F) fi ft hfi) y
      (fun x => (head_read _ _ _ _ x).trans
        (gather_val d L fi ft hfi fs _ _ _ _ _ _ _ _ _ _ (hoff_of L 29 (by decide)) x)) (fun hk => ?_)
    have hub29 : (y 0).val < base L + 200 * 29 := by
      have := (mem_win L 29 (by decide) _ y).not.mp hk
      omega
    clear hk hub30
    -- window 28: rows [200·28, 200·28 + 200) of the tile
    refine peel (oV).view _ _ _ (gathered (F := F) fi ft hfi) y
      (fun x => (head_read _ _ _ _ x).trans
        (gather_val d L fi ft hfi fs _ _ _ _ _ _ _ _ _ _ (hoff_of L 28 (by decide)) x)) (fun hk => ?_)
    have hub28 : (y 0).val < base L + 200 * 28 := by
      have := (mem_win L 28 (by decide) _ y).not.mp hk
      omega
    clear hk hub29
    -- window 27: rows [200·27, 200·27 + 200) of the tile
    refine peel (oV).view _ _ _ (gathered (F := F) fi ft hfi) y
      (fun x => (head_read _ _ _ _ x).trans
        (gather_val d L fi ft hfi fs _ _ _ _ _ _ _ _ _ _ (hoff_of L 27 (by decide)) x)) (fun hk => ?_)
    have hub27 : (y 0).val < base L + 200 * 27 := by
      have := (mem_win L 27 (by decide) _ y).not.mp hk
      omega
    clear hk hub28
    -- window 26: rows [200·26, 200·26 + 200) of the tile
    refine peel (oV).view _ _ _ (gathered (F := F) fi ft hfi) y
      (fun x => (head_read _ _ _ _ x).trans
        (gather_val d L fi ft hfi fs _ _ _ _ _ _ _ _ _ _ (hoff_of L 26 (by decide)) x)) (fun hk => ?_)
    have hub26 : (y 0).val < base L + 200 * 26 := by
      have := (mem_win L 26 (by decide) _ y).not.mp hk
      omega
    clear hk hub27
    -- window 25: rows [200·25, 200·25 + 200) of the tile
    refine peel (oV).view _ _ _ (gathered (F := F) fi ft hfi) y
      (fun x => (head_read _ _ _ _ x).trans
        (gather_val d L fi ft hfi fs _ _ _ _ _ _ _ _ _ _ (hoff_of L 25 (by decide)) x)) (fun hk => ?_)
    have hub25 : (y 0).val < base L + 200 * 25 := by
      have := (mem_win L 25 (by decide) _ y).not.mp hk
      omega
    clear hk hub26
    -- window 24: rows [200·24, 200·24 + 200) of the tile
    refine peel (oV).view _ _ _ (gathered (F := F) fi ft hfi) y
      (fun x => (head_read _ _ _ _ x).trans
        (gather_val d L fi ft hfi fs _ _ _ _ _ _ _ _ _ _ (hoff_of L 24 (by decide)) x)) (fun hk => ?_)
    have hub24 : (y 0).val < base L + 200 * 24 := by
      have := (mem_win L 24 (by decide) _ y).not.mp hk
      omega
    clear hk hub25
    -- window 23: rows [200·23, 200·23 + 200) of the tile
    refine peel (oV).view _ _ _ (gathered (F := F) fi ft hfi) y
      (fun x => (head_read _ _ _ _ x).trans
        (gather_val d L fi ft hfi fs _ _ _ _ _ _ _ _ _ _ (hoff_of L 23 (by decide)) x)) (fun hk => ?_)
    have hub23 : (y 0).val < base L + 200 * 23 := by
      have := (mem_win L 23 (by decide) _ y).not.mp hk
      omega
    clear hk hub24
    -- window 22: rows [200·22, 200·22 + 200) of the tile
    refine peel (oV).view _ _ _ (gathered (F := F) fi ft hfi) y
      (fun x => (head_read _ _ _ _ x).trans
        (gather_val d L fi ft hfi fs _ _ _ _ _ _ _ _ _ _ (hoff_of L 22 (by decide)) x)) (fun hk => ?_)
    have hub22 : (y 0).val < base L + 200 * 22 := by
      have := (mem_win L 22 (by decide) _ y).not.mp hk
      omega
    clear hk hub23
    -- window 21: rows [200·21, 200·21 + 200) of the tile
    refine peel (oV).view _ _ _ (gathered (F := F) fi ft hfi) y
      (fun x => (head_read _ _ _ _ x).trans
        (gather_val d L fi ft hfi fs _ _ _ _ _ _ _ _ _ _ (hoff_of L 21 (by decide)) x)) (fun hk => ?_)
    have hub21 : (y 0).val < base L + 200 * 21 := by
      have := (mem_win L 21 (by decide) _ y).not.mp hk
      omega
    clear hk hub22
    -- window 20: rows [200·20, 200·20 + 200) of the tile
    refine peel (oV).view _ _ _ (gathered (F := F) fi ft hfi) y
      (fun x => (head_read _ _ _ _ x).trans
        (gather_val d L fi ft hfi fs _ _ _ _ _ _ _ _ _ _ (hoff_of L 20 (by decide)) x)) (fun hk => ?_)
    have hub20 : (y 0).val < base L + 200 * 20 := by
      have := (mem_win L 20 (by decide) _ y).not.mp hk
      omega
    clear hk hub21
    -- window 19: rows [200·19, 200·19 + 200) of the tile
    refine peel (oV).view _ _ _ (gathered (F := F) fi ft hfi) y
      (fun x => (head_read _ _ _ _ x).trans
        (gather_val d L fi ft hfi fs _ _ _ _ _ _ _ _ _ _ (hoff_of L 19 (by decide)) x)) (fun hk => ?_)
    have hub19 : (y 0).val < base L + 200 * 19 := by
      have := (mem_win L 19 (by decide) _ y).not.mp hk
      omega
    clear hk hub20
    -- window 18: rows [200·18, 200·18 + 200) of the tile
    refine peel (oV).view _ _ _ (gathered (F := F) fi ft hfi) y
      (fun x => (head_read _ _ _ _ x).trans
        (gather_val d L fi ft hfi fs _ _ _ _ _ _ _ _ _ _ (hoff_of L 18 (by decide)) x)) (fun hk => ?_)
    have hub18 : (y 0).val < base L + 200 * 18 := by
      have := (mem_win L 18 (by decide) _ y).not.mp hk
      omega
    clear hk hub19
    -- window 17: rows [200·17, 200·17 + 200) of the tile
    refine peel (oV).view _ _ _ (gathered (F := F) fi ft hfi) y
      (fun x => (head_read _ _ _ _ x).trans
        (gather_val d L fi ft hfi fs _ _ _ _ _ _ _ _ _ _ (hoff_of L 17 (by decide)) x)) (fun hk => ?_)
    have hub17 : (y 0).val < base L + 200 * 17 := by
      have := (mem_win L 17 (by decide) _ y).not.mp hk
      omega
    clear hk hub18
    -- window 16: rows [200·16, 200·16 + 200) of the tile
    refine peel (oV).view _ _ _ (gathered (F := F) fi ft hfi) y
      (fun x => (head_read _ _ _ _ x).trans
        (gather_val d L fi ft hfi fs _ _ _ _ _ _ _ _ _ _ (hoff_of L 16 (by decide)) x)) (fun hk => ?_)
    have hub16 : (y 0).val < base L + 200 * 16 := by
      have := (mem_win L 16 (by decide) _ y).not.mp hk
      omega
    clear hk hub17
    -- window 15: rows [200·15, 200·15 + 200) of the tile
    refine peel (oV).view _ _ _ (gathered (F := F) fi ft hfi) y
      (fun x => (head_read _ _ _ _ x).trans
        (gather_val d L fi ft hfi fs _ _ _ _ _ _ _ _ _ _ (hoff_of L 15 (by decide)) x)) (fun hk => ?_)
    have hub15 : (y 0).val < base L + 200 * 15 := by
      have := (mem_win L 15 (by decide) _ y).not.mp hk
      omega
    clear hk hub16
    -- window 14: rows [200·14, 200·14 + 200) of the tile
    refine peel (oV).view _ _ _ (gathered (F := F) fi ft hfi) y
      (fun x => (head_read _ _ _ _ x).trans
        (gather_val d L fi ft hfi fs _ _ _ _ _ _ _ _ _ _ (hoff_of L 14 (by decide)) x)) (fun hk => ?_)
    have hub14 : (y 0).val < base L + 200 * 14 := by
      have := (mem_win L 14 (by decide) _ y).not.mp hk
      omega
    clear hk hub15
    -- window 13: rows [200·13, 200·13 + 200) of the tile
    refine peel (oV).view _ _ _ (gathered (F := F) fi ft hfi) y
      (fun x => (head_read _ _ _ _ x).trans
        (gather_val d L fi ft hfi fs _ _ _ _ _ _ _ _ _ _ (hoff_of L 13 (by decide)) x)) (fun hk => ?_)
    have hub13 : (y 0).val < base L + 200 * 13 := by
      have := (mem_win L 13 (by decide) _ y).not.mp hk
      omega
    clear hk hub14
    -- window 12: rows [200·12, 200·12 + 200) of the tile
    refine peel (oV).view _ _ _ (gathered (F := F) fi ft hfi) y
      (fun x => (head_read _ _ _ _ x).trans
        (gather_val d L fi ft hfi fs _ _ _ _ _ _ _ _ _ _ (hoff_of L 12 (by decide)) x)) (fun hk => ?_)
    have hub12 : (y 0).val < base L + 200 * 12 := by
      have := (mem_win L 12 (by decide) _ y).not.mp hk
      omega
    clear hk hub13
    -- window 11: rows [200·11, 200·11 + 200) of the tile
    refine peel (oV).view _ _ _ (gathered (F := F) fi ft hfi) y
      (fun x => (head_read _ _ _ _ x).trans
        (gather_val d L fi ft hfi fs _ _ _ _ _ _ _ _ _ _ (hoff_of L 11 (by decide)) x)) (fun hk => ?_)
    have hub11 : (y 0).val < base L + 200 * 11 := by
      have := (mem_win L 11 (by decide) _ y).not.mp hk
      omega
    clear hk hub12
    -- window 10: rows [200·10, 200·10 + 200) of the tile
    refine peel (oV).view _ _ _ (gathered (F := F) fi ft hfi) y
      (fun x => (head_read _ _ _ _ x).trans
        (gather_val d L fi ft hfi fs _ _ _ _ _ _ _ _ _ _ (hoff_of L 10 (by decide)) x)) (fun hk => ?_)
    have hub10 : (y 0).val < base L + 200 * 10 := by
      have := (mem_win L 10 (by decide) _ y).not.mp hk
      omega
    clear hk hub11
    -- window 9: rows [200·9, 200·9 + 200) of the tile
    refine peel (oV).view _ _ _ (gathered (F := F) fi ft hfi) y
      (fun x => (head_read _ _ _ _ x).trans
        (gather_val d L fi ft hfi fs _ _ _ _ _ _ _ _ _ _ (hoff_of L 9 (by decide)) x)) (fun hk => ?_)
    have hub9 : (y 0).val < base L + 200 * 9 := by
      have := (mem_win L 9 (by decide) _ y).not.mp hk
      omega
    clear hk hub10
    -- window 8: rows [200·8, 200·8 + 200) of the tile
    refine peel (oV).view _ _ _ (gathered (F := F) fi ft hfi) y
      (fun x => (head_read _ _ _ _ x).trans
        (gather_val d L fi ft hfi fs _ _ _ _ _ _ _ _ _ _ (hoff_of L 8 (by decide)) x)) (fun hk => ?_)
    have hub8 : (y 0).val < base L + 200 * 8 := by
      have := (mem_win L 8 (by decide) _ y).not.mp hk
      omega
    clear hk hub9
    -- window 7: rows [200·7, 200·7 + 200) of the tile
    refine peel (oV).view _ _ _ (gathered (F := F) fi ft hfi) y
      (fun x => (head_read _ _ _ _ x).trans
        (gather_val d L fi ft hfi fs _ _ _ _ _ _ _ _ _ _ (hoff_of L 7 (by decide)) x)) (fun hk => ?_)
    have hub7 : (y 0).val < base L + 200 * 7 := by
      have := (mem_win L 7 (by decide) _ y).not.mp hk
      omega
    clear hk hub8
    -- window 6: rows [200·6, 200·6 + 200) of the tile
    refine peel (oV).view _ _ _ (gathered (F := F) fi ft hfi) y
      (fun x => (head_read _ _ _ _ x).trans
        (gather_val d L fi ft hfi fs _ _ _ _ _ _ _ _ _ _ (hoff_of L 6 (by decide)) x)) (fun hk => ?_)
    have hub6 : (y 0).val < base L + 200 * 6 := by
      have := (mem_win L 6 (by decide) _ y).not.mp hk
      omega
    clear hk hub7
    -- window 5: rows [200·5, 200·5 + 200) of the tile
    refine peel (oV).view _ _ _ (gathered (F := F) fi ft hfi) y
      (fun x => (head_read _ _ _ _ x).trans
        (gather_val d L fi ft hfi fs _ _ _ _ _ _ _ _ _ _ (hoff_of L 5 (by decide)) x)) (fun hk => ?_)
    have hub5 : (y 0).val < base L + 200 * 5 := by
      have := (mem_win L 5 (by decide) _ y).not.mp hk
      omega
    clear hk hub6
    -- window 4: rows [200·4, 200·4 + 200) of the tile
    refine peel (oV).view _ _ _ (gathered (F := F) fi ft hfi) y
      (fun x => (head_read _ _ _ _ x).trans
        (gather_val d L fi ft hfi fs _ _ _ _ _ _ _ _ _ _ (hoff_of L 4 (by decide)) x)) (fun hk => ?_)
    have hub4 : (y 0).val < base L + 200 * 4 := by
      have := (mem_win L 4 (by decide) _ y).not.mp hk
      omega
    clear hk hub5
    -- window 3: rows [200·3, 200·3 + 200) of the tile
    refine peel (oV).view _ _ _ (gathered (F := F) fi ft hfi) y
      (fun x => (head_read _ _ _ _ x).trans
        (gather_val d L fi ft hfi fs _ _ _ _ _ _ _ _ _ _ (hoff_of L 3 (by decide)) x)) (fun hk => ?_)
    have hub3 : (y 0).val < base L + 200 * 3 := by
      have := (mem_win L 3 (by decide) _ y).not.mp hk
      omega
    clear hk hub4
    -- window 2: rows [200·2, 200·2 + 200) of the tile
    refine peel (oV).view _ _ _ (gathered (F := F) fi ft hfi) y
      (fun x => (head_read _ _ _ _ x).trans
        (gather_val d L fi ft hfi fs _ _ _ _ _ _ _ _ _ _ (hoff_of L 2 (by decide)) x)) (fun hk => ?_)
    have hub2 : (y 0).val < base L + 200 * 2 := by
      have := (mem_win L 2 (by decide) _ y).not.mp hk
      omega
    clear hk hub3
    -- window 1: rows [200·1, 200·1 + 200) of the tile
    refine peel (oV).view _ _ _ (gathered (F := F) fi ft hfi) y
      (fun x => (head_read _ _ _ _ x).trans
        (gather_val d L fi ft hfi fs _ _ _ _ _ _ _ _ _ _ (hoff_of L 1 (by decide)) x)) (fun hk => ?_)
    have hub1 : (y 0).val < base L + 200 * 1 := by
      have := (mem_win L 1 (by decide) _ y).not.mp hk
      omega
    clear hk hub2
    -- window 0: rows [200·0, 200·0 + 200) of the tile
    refine peel (oV).view _ _ _ (gathered (F := F) fi ft hfi) y
      (fun x => (head_read _ _ _ _ x).trans
        (gather_val d L fi ft hfi fs _ _ _ _ _ _ _ _ _ _ (hoff_of L 0 (by decide)) x)) (fun hk => ?_)
    have hub0 : (y 0).val < base L + 200 * 0 := by
      have := (mem_win L 0 (by decide) _ y).not.mp hk
      omega
    clear hk hub1
    exact absurd hlb (by omega)
  isplitl [Hs]; · iexists _; iexact Hs
  isplitl [Hb0]; · iexists _; iexact Hb0
  isplitl [Hb1]; · iexists _; iexact Hb1
  isplitl [Hb2]; · iexists _; iexact Hb2
  isplitl [Hb3]; · iexists _; iexact Hb3
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hsc]; · iexact Hsc
  iexists _; isplitr
  swap; · iexact HO
  ipureintro; intro p hp
  repeat (rcases Finset.mem_insert.mp hp with hp | hp; · exact .inr (hp ▸ rfl))
  exact .inl hp

end Cert.KernelIdeal.Sc

end
-- ==== Proof.KerRun.lean ====
/-
  The idealized kernel program's run with its result read, closed: the gathered array is what the tiles' runs leave
  (row n of it is the table's row named by word n of the flattened ids), so under the precondition the result array
  ends holding the reference's closed form of the arguments and the arguments end unchanged.
-/
import proofs.«200098_g2130303779034_cont_8to1_582_42_alg».proof.Proof.KerValue
import proofs.«200098_g2130303779034_cont_8to1_582_42_alg».proof.Proof.ScTileVal

noncomputable section

namespace Cert.KernelIdeal.ScV

open Cert.KernelIdeal Cert.KernelIdeal.Gen Cert.KernelIdeal.Sc

open Idealize.ShloMosaic Idealize.ShloMosaic.ValueIdx
open Idealize.ShloMosaic.SparseCore (S V T)
open Idealize.SL Idealize.SL.Sem

variable (m : (ℓ : Loc nD τ sig) → Buf (Elt Ideal) ℓ) (ρ : Dev nD → PrngReg)

/-- Under the precondition every word of the flattened ids names a row of the table. -/
theorem hfi_pre (hpre : Cert.Pre_KernelIdeal (hPre_input_domain := Cert.Pre_input_domain.Gen.facts) m) : ∀ d j, (fiOf m d j).toNat < 100000 :=
  hfi_of_ids m fun d => Cert.RefSide.ids_range (F := Ideal) _ _ _ _ _ _ _ (hpre d)

/-- THE RUN, READ. -/
theorem run_value (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v6)
          = Cert.RefSide.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  run_value_of m ρ (fun d => gathered (F := Ideal) (fiOf m d) (m (tLoc d)) (hfi_pre m hpre d)) hpre (hfi_pre m hpre)
    (fun d L O W hO fs f0 f1 f2 f3 =>
      tile_run_val (F := Ideal) d L O W hO (fiOf m d) (hfi_pre m hpre d) (m (tLoc d)) (tileShare (cL L) (sL L)) (m (oLoc d)) fs f0 f1 f2 f3)
    (fun d n k => rfl)

end Cert.KernelIdeal.ScV

end
-- ==== Proof.KerAlg.lean ====
/-
  The two idealized programs, from memories that agree on the arguments, end with equal results: the kernel program's
  result array is the reference's result function of the argument arrays, index by index, and so is the reference's.
-/
import proofs.«200098_g2130303779034_cont_8to1_582_42_alg».proof.Defs
import proofs.«200098_g2130303779034_cont_8to1_582_42_alg».proof.Proof.KerRun
import proofs.«200098_g2130303779034_cont_8to1_582_42_alg».proof.Proof.RefRun

noncomputable section

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  refine ⟨_, Cert.KernelIdeal.ScV.run_value m g hpre, ?_⟩
  refine (θ_run Cert.ReferenceIdeal.defs _ _).mono (fun _ h c => ⟨?_, (h c).2⟩) (Cert.RefSide.run m' g')
  rw [(h c).1, (hagree c).1, (hagree c).2.1, (hagree c).2.2.1, (hagree c).2.2.2.1, (hagree c).2.2.2.2.1, (hagree c).2.2.2.2.2.1, (hagree c).2.2.2.2.2.2]

end Cert.Proof

end
-- ==== Proof.lean ====
/-
  The certificate's claim: the gather-and-layer-norm kernel program against its jnp reference.
  The three frames: both kernel programs run the SparseCore gather (32 tiles, each fetching its 6400 token ids and copying
  the 6400 table rows they name, 200 at a time through four row buffers) and the TensorCore layer norm (eight blocks of
  128 sequences), and write no argument array; the reference is a straight line of host operations. The idealization
  rewrote nothing. At exact arithmetic both programs compute, at batch b, position s, feature e,
  (x e - mean x) / sqrt (var x + eps) * gamma e + beta e  for the row  x = token row + position row + segment row:
  the kernel as (x e - M) * (rsqrt (E[x²] - M² + eps) * gamma e) + beta e with M the mean taken as a product with 1/128,
  the reference with the centred second moment and a quotient; on real rows these are one number.
-/
import proofs.«200098_g2130303779034_cont_8to1_582_42_alg».proof.Defs
import proofs.«200098_g2130303779034_cont_8to1_582_42_alg».proof.Proof.Gen.Kernel
import proofs.«200098_g2130303779034_cont_8to1_582_42_alg».proof.Proof.Gen.KernelIdeal
import proofs.«200098_g2130303779034_cont_8to1_582_42_alg».proof.Proof.Gen.ReferenceIdeal
import proofs.«200098_g2130303779034_cont_8to1_582_42_alg».proof.Proof.Gen.Pre_input_domain
import proofs.«200098_g2130303779034_cont_8to1_582_42_alg».proof.Proof.ScFrame
import proofs.«200098_g2130303779034_cont_8to1_582_42_alg».proof.Proof.ScFrameK
import proofs.«200098_g2130303779034_cont_8to1_582_42_alg».proof.Proof.RefFrame
import proofs.«200098_g2130303779034_cont_8to1_582_42_alg».proof.Proof.KerAlg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Kernel.Sc.frame, Cert.KernelIdeal.Sc.frame, Cert.RefSide.frame, trivial, Cert.Proof.algebraic⟩

end Cert.Proof

end
